-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v227) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S128x128 : Shape := ⟨2, ![128, 128]⟩
abbrev S128 : Shape := ⟨1, ![128]⟩
abbrev S3x128 : Shape := ⟨2, ![3, 128]⟩
abbrev S3x128x128 : Shape := ⟨3, ![3, 128, 128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128 : S_.BroadcastsInDim S3x128 (![] : Fin 0 → Fin S3x128.rank)
  reducesTo_S3x128_S_d0_1 : S3x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg12 : FVec F S64 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg8 : FVec F S3x128x128 .f32) (main_arg9 : FVec F S128 .f32) (main_arg10 : FVec F S128 .f32) (main_arg11 : FVec F S64x128 .f32) (main_arg12 : FVec F S64 .f32) (main_v33 : IVec S_ 1) : IVec S_ 1 :=
  let main_v34 : FVec F S3x128x128 .f32 := Host.absf main_arg8
  let main_cst_12 : FVec F S_ .f32 := constant S_ .f32 0x7F800000#32
  let main_v35 : FVec F S3x128x128 .f32 := broadcastInDim S3x128x128 ![] bcast_S_S3x128x128 main_cst_12
  let main_v36 : IVec S3x128x128 1 := cmpf .olt main_v34 main_v35
  let main_c_13 : IVec S_ 1 := constantI S_ 1 1#1
  let main_v37 : IVec S_ 1 := (fun x v => Host.reduce IntOp.andi x v reducesTo_S3x128x128_S_d0_1_2 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S64x128 .f32 := Host.absf main_arg11
  let main_cst_18 : FVec F S_ .f32 := constant S_ .f32 0x7F800000#32
  let main_v50 : FVec F S64x128 .f32 := broadcastInDim S64x128 ![] bcast_S_S64x128 main_cst_18
  fn_part3 (F := F) main_arg12 main_v48 main_v49 main_v50

def fn_part1 {F : FTy → Type} [FloatOps F] (main_arg5 : FVec F S3x128 .f32) (main_arg6 : FVec F S3x128x128 .f32) (main_arg7 : FVec F S3x128 .f32) (main_arg8 : FVec F S3x128x128 .f32) (main_arg9 : FVec F S128 .f32) (main_arg10 : FVec F S128 .f32) (main_arg11 : FVec F S64x128 .f32) (main_arg12 : FVec F S64 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128x128 .f32 := Host.absf main_arg6
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x128 .f32) (main_arg1 : IVec S2x1000000 32) (main_arg2 : FVec F S128x128 .f32) (main_arg3 : FVec F S128 .f32) (main_arg4 : FVec F S3x128 .f32) (main_arg5 : FVec F S3x128 .f32) (main_arg6 : FVec F S3x128x128 .f32) (main_arg7 : FVec F S3x128 .f32) (main_arg8 : FVec F S3x128x128 .f32) (main_arg9 : FVec F S128 .f32) (main_arg10 : FVec F S128 .f32) (main_arg11 : FVec F S64x128 .f32) (main_arg12 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg5 main_arg6 main_arg7 main_arg8 main_arg9 main_arg10 main_arg11 main_arg12 main_v13 main_v16
-- ==== Kernel.lean ====
abbrev S100000x128 : Shape := ⟨2, ![100000, 128]⟩
abbrev S2x1000000 : Shape := ⟨2, ![2, 1000000]⟩
abbrev S128x128 : Shape := ⟨2, ![128, 128]⟩
abbrev S128 : Shape := ⟨1, ![128]⟩
abbrev S3x128 : Shape := ⟨2, ![3, 128]⟩
abbrev S3x128x128 : Shape := ⟨3, ![3, 128, 128]⟩
abbrev S64x128 : Shape := ⟨2, ![64, 128]⟩
abbrev S64 : Shape := ⟨1, ![64]⟩
abbrev S1x1000000 : Shape := ⟨2, ![1, 1000000]⟩
abbrev S1000000 : Shape := ⟨1, ![1000000]⟩
abbrev S1x128 : Shape := ⟨2, ![1, 128]⟩
abbrev S2000x128 : Shape := ⟨2, ![2000, 128]⟩
abbrev S_ : Shape := ⟨0, ![]⟩
abbrev S2000 : Shape := ⟨1, ![2000]⟩
abbrev S2000x1 : Shape := ⟨2, ![2000, 1]⟩
abbrev S1000000x1 : Shape := ⟨2, ![1000000, 1]⟩
abbrev S1000000x128 : Shape := ⟨2, ![1000000, 128]⟩
abbrev S100000 : Shape := ⟨1, ![100000]⟩
abbrev S100000x1 : Shape := ⟨2, ![100000, 1]⟩
abbrev S1x128x128 : Shape := ⟨3, ![1, 128, 128]⟩
abbrev S128x64 : Shape := ⟨2, ![128, 64]⟩
abbrev S1x64 : Shape := ⟨2, ![1, 64]⟩
abbrev S100000x64 : Shape := ⟨2, ![100000, 64]⟩
abbrev S2000x64 : Shape := ⟨2, ![2000, 64]⟩

abbrev nBuf : Space → Nat
  | .hbm => 144
  | .vmem => 69
  | .smem => 0
  | _ => 0

abbrev hbmTy0_0 (i : Nat) : BufTy := match i % 128 with
  | 0 => ⟨S100000x128, .f32⟩
  | 1 => ⟨S2x1000000, .i32⟩
  | 2 => ⟨S128x128, .f32⟩
  | 3 => ⟨S128, .f32⟩
  | 4 => ⟨S3x128, .f32⟩
  | 5 => ⟨S3x128, .f32⟩
  | 6 => ⟨S3x128x128, .f32⟩
  | 7 => ⟨S3x128, .f32⟩
  | 8 => ⟨S3x128x128, .f32⟩
  | 9 => ⟨S128, .f32⟩
  | 10 => ⟨S128, .f32⟩
  | 11 => ⟨S64x128, .f32⟩
  | 12 => ⟨S64, .f32⟩
  | 13 => ⟨S1x1000000, .i32⟩
  | 14 => ⟨S1000000, .i32⟩
  | 15 => ⟨S1x1000000, .i32⟩
  | 16 => ⟨S1000000, .i32⟩
  | 17 => ⟨S128x128, .f32⟩
  | 18 => ⟨S1x128, .f32⟩
  | 19 => ⟨S100000x128, .f32⟩
  | 20 => ⟨S3x128x128, .f32⟩
  | 21 => ⟨S3x128x128, .f32⟩
  | 22 => ⟨S_, .f32⟩
  | 23 => ⟨S1000000, .f32⟩
  | 24 => ⟨S1x128, .f32⟩
  | 25 => ⟨S128, .f32⟩
  | 26 => ⟨S1x128, .f32⟩
  | 27 => ⟨S128, .f32⟩
  | 28 => ⟨S1x128, .f32⟩
  | 29 => ⟨S1x128, .f32⟩
  | 30 => ⟨S100000x128, .f32⟩
  | 31 => ⟨S_, .i32⟩
  | 32 => ⟨S1000000, .i32⟩
  | 33 => ⟨S1000000, .i1⟩
  | 34 => ⟨S_, .i32⟩
  | 35 => ⟨S1000000, .i32⟩
  | 36 => ⟨S1000000, .i32⟩
  | 37 => ⟨S1000000, .i32⟩
  | 38 => ⟨S1000000x1, .i32⟩
  | 39 => ⟨S1000000x128, .f32⟩
  | 40 => ⟨S_, .f32⟩
  | 41 => ⟨S100000x128, .f32⟩
  | 42 => ⟨S1000000x1, .i32⟩
  | 43 => ⟨S100000x128, .f32⟩
  | 44 => ⟨S_, .f32⟩
  | 45 => ⟨S100000, .f32⟩
  | 46 => ⟨S1000000x1, .i32⟩
  | 47 => ⟨S100000, .f32⟩
  | 48 => ⟨S_, .f32⟩
  | 49 => ⟨S100000, .f32⟩
  | 50 => ⟨S100000, .f32⟩
  | 51 => ⟨S100000x1, .f32⟩
  | 52 => ⟨S100000x128, .f32⟩
  | 53 => ⟨S100000x128, .f32⟩
  | 54 => ⟨S1x128x128, .f32⟩
  | 55 => ⟨S128x128, .f32⟩
  | 56 => ⟨S1x128, .f32⟩
  | 57 => ⟨S128, .f32⟩
  | 58 => ⟨S1x128x128, .f32⟩
  | 59 => ⟨S128x128, .f32⟩
  | 60 => ⟨S1x128, .f32⟩
  | 61 => ⟨S100000x128, .f32⟩
  | 62 => ⟨S1x128, .f32⟩
  | 63 => ⟨S128, .f32⟩
  | 64 => ⟨S1x128, .f32⟩
  | 65 => ⟨S128, .f32⟩
  | 66 => ⟨S1x128, .f32⟩
  | 67 => ⟨S1x128, .f32⟩
  | 68 => ⟨S100000x128, .f32⟩
  | 69 => ⟨S_, .i32⟩
  | 70 => ⟨S1000000, .i32⟩
  | 71 => ⟨S1000000, .i1⟩
  | 72 => ⟨S_, .i32⟩
  | 73 => ⟨S1000000, .i32⟩
  | 74 => ⟨S1000000, .i32⟩
  | 75 => ⟨S1000000, .i32⟩
  | 76 => ⟨S1000000x1, .i32⟩
  | 77 => ⟨S1000000x128, .f32⟩
  | 78 => ⟨S_, .f32⟩
  | 79 => ⟨S100000x128, .f32⟩
  | 80 => ⟨S1000000x1, .i32⟩
  | 81 => ⟨S100000x128, .f32⟩
  | 82 => ⟨S_, .f32⟩
  | 83 => ⟨S100000, .f32⟩
  | 84 => ⟨S1000000x1, .i32⟩
  | 85 => ⟨S100000, .f32⟩
  | 86 => ⟨S_, .f32⟩
  | 87 => ⟨S100000, .f32⟩
  | 88 => ⟨S100000, .f32⟩
  | 89 => ⟨S100000x1, .f32⟩
  | 90 => ⟨S100000x128, .f32⟩
  | 91 => ⟨S100000x128, .f32⟩
  | 92 => ⟨S1x128x128, .f32⟩
  | 93 => ⟨S128x128, .f32⟩
  | 94 => ⟨S1x128, .f32⟩
  | 95 => ⟨S128, .f32⟩
  | 96 => ⟨S1x128x128, .f32⟩
  | 97 => ⟨S128x128, .f32⟩
  | 98 => ⟨S1x128, .f32⟩
  | 99 => ⟨S100000x128, .f32⟩
  | 100 => ⟨S1x128, .f32⟩
  | 101 => ⟨S128, .f32⟩
  | 102 => ⟨S1x128, .f32⟩
  | 103 => ⟨S128, .f32⟩
  | 104 => ⟨S1x128, .f32⟩
  | 105 => ⟨S1x128, .f32⟩
  | 106 => ⟨S100000x128, .f32⟩
  | 107 => ⟨S_, .i32⟩
  | 108 => ⟨S1000000, .i32⟩
  | 109 => ⟨S1000000, .i1⟩
  | 110 => ⟨S_, .i32⟩
  | 111 => ⟨S1000000, .i32⟩
  | 112 => ⟨S1000000, .i32⟩
  | 113 => ⟨S1000000, .i32⟩
  | 114 => ⟨S1000000x1, .i32⟩
  | 115 => ⟨S1000000x128, .f32⟩
  | 116 => ⟨S_, .f32⟩
  | 117 => ⟨S100000x128, .f32⟩
  | 118 => ⟨S1000000x1, .i32⟩
  | 119 => ⟨S100000x128, .f32⟩
  | 120 => ⟨S_, .f32⟩
  | 121 => ⟨S100000, .f32⟩
  | 122 => ⟨S1000000x1, .i32⟩
  | 123 => ⟨S100000, .f32⟩
  | 124 => ⟨S_, .f32⟩
  | 125 => ⟨S100000, .f32⟩
  | 126 => ⟨S100000, .f32⟩
  | 127 => ⟨S100000x1, .f32⟩
  | _ => ⟨S100000x128, .f32⟩

abbrev hbmTy0_1 (i : Nat) : BufTy := match i % 128 with
  | 0 => ⟨S100000x128, .f32⟩
  | 1 => ⟨S100000x128, .f32⟩
  | 2 => ⟨S1x128x128, .f32⟩
  | 3 => ⟨S128x128, .f32⟩
  | 4 => ⟨S1x128, .f32⟩
  | 5 => ⟨S128, .f32⟩
  | 6 => ⟨S1x128x128, .f32⟩
  | 7 => ⟨S128x128, .f32⟩
  | 8 => ⟨S1x128, .f32⟩
  | 9 => ⟨S100000x128, .f32⟩
  | 10 => ⟨S1x128, .f32⟩
  | 11 => ⟨S1x128, .f32⟩
  | 12 => ⟨S100000x128, .f32⟩
  | 13 => ⟨S128x64, .f32⟩
  | 14 => ⟨S1x64, .f32⟩
  | 15 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S1x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S1x128, .f32⟩
  | .local _ .vmem, ⟨26, _⟩ => ⟨S1x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S128x128, .f32⟩
  | .local _ .vmem, ⟨36, _⟩ => ⟨S1x128, .f32⟩
  | .local _ .vmem, ⟨37, _⟩ => ⟨S128x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S1x128, .f32⟩
  | .local _ .vmem, ⟨43, _⟩ => ⟨S1x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | .local _ .vmem, ⟨52, _⟩ => ⟨S128x128, .f32⟩
  | .local _ .vmem, ⟨53, _⟩ => ⟨S1x128, .f32⟩
  | .local _ .vmem, ⟨54, _⟩ => ⟨S128x128, .f32⟩
  | .local _ .vmem, ⟨55, _⟩ => ⟨S2000x128, .f32⟩
  | .local _ .vmem, ⟨56, _⟩ => ⟨S2000x128, .f32⟩
  | .local _ .vmem, ⟨57, _⟩ => ⟨S2000x128, .f32⟩
  | .local _ .vmem, ⟨58, _⟩ => ⟨S2000x128, .f32⟩
  | .local _ .vmem, ⟨59, _⟩ => ⟨S1x128, .f32⟩
  | .local _ .vmem, ⟨60, _⟩ => ⟨S1x128, .f32⟩
  | .local _ .vmem, ⟨61, _⟩ => ⟨S2000x128, .f32⟩
  | .local _ .vmem, ⟨62, _⟩ => ⟨S2000x128, .f32⟩
  | .local _ .vmem, ⟨63, _⟩ => ⟨S2000x128, .f32⟩
  | .local _ .vmem, ⟨64, _⟩ => ⟨S2000x128, .f32⟩
  | .local _ .vmem, ⟨65, _⟩ => ⟨S128x64, .f32⟩
  | .local _ .vmem, ⟨66, _⟩ => ⟨S1x64, .f32⟩
  | .local _ .vmem, ⟨67, _⟩ => ⟨S2000x64, .f32⟩
  | .local _ .vmem, ⟨68, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_1 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_4 : Ref sig .tc := ⟨.hbm, 69, rfl⟩
abbrev main_v50 : Ref sig .tc := ⟨.hbm, 70, rfl⟩
abbrev main_v51 : Ref sig .tc := ⟨.hbm, 71, rfl⟩
abbrev main_c_5 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_6 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_7 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_8 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_c_9 : Ref sig .tc := ⟨.hbm, 107, rfl⟩
abbrev main_v83 : Ref sig .tc := ⟨.hbm, 108, rfl⟩
abbrev main_v84 : Ref sig .tc := ⟨.hbm, 109, rfl⟩
abbrev main_c_10 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_11 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_12 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_13 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg6_0 : Ref sig .tc := ⟨.vmem, 38, rfl⟩
abbrev cc4_stg6_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg3_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg1_1 : Ref sig .tc := ⟨.vmem, 49, rfl⟩
abbrev cc6_stg2_0 : Ref sig .tc := ⟨.vmem, 50, rfl⟩
abbrev cc6_stg2_1 : Ref sig .tc := ⟨.vmem, 51, rfl⟩
abbrev cc6_stg3_0 : Ref sig .tc := ⟨.vmem, 52, rfl⟩
abbrev cc6_stg4_0 : Ref sig .tc := ⟨.vmem, 53, rfl⟩
abbrev cc6_stg5_0 : Ref sig .tc := ⟨.vmem, 54, rfl⟩
abbrev cc6_stg6_0 : Ref sig .tc := ⟨.vmem, 55, rfl⟩
abbrev cc6_stg6_1 : Ref sig .tc := ⟨.vmem, 56, rfl⟩
abbrev cc7_stg0_0 : Ref sig .tc := ⟨.vmem, 57, rfl⟩
abbrev cc7_stg0_1 : Ref sig .tc := ⟨.vmem, 58, rfl⟩
abbrev cc7_stg1_0 : Ref sig .tc := ⟨.vmem, 59, rfl⟩
abbrev cc7_stg2_0 : Ref sig .tc := ⟨.vmem, 60, rfl⟩
abbrev cc7_stg3_0 : Ref sig .tc := ⟨.vmem, 61, rfl⟩
abbrev cc7_stg3_1 : Ref sig .tc := ⟨.vmem, 62, rfl⟩
abbrev cc8_stg0_0 : Ref sig .tc := ⟨.vmem, 63, rfl⟩
abbrev cc8_stg0_1 : Ref sig .tc := ⟨.vmem, 64, rfl⟩
abbrev cc8_stg1_0 : Ref sig .tc := ⟨.vmem, 65, rfl⟩
abbrev cc8_stg2_0 : Ref sig .tc := ⟨.vmem, 66, rfl⟩
abbrev cc8_stg3_0 : Ref sig .tc := ⟨.vmem, 67, rfl⟩
abbrev cc8_stg3_1 : Ref sig .tc := ⟨.vmem, 68, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem6_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem4_0 : DmaSem sig := 36
abbrev cc4_sem5_0 : DmaSem sig := 37
abbrev cc4_sem6_0 : DmaSem sig := 38
abbrev cc4_sem6_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem3_1 : DmaSem sig := 45
abbrev cc6_sem0_0 : DmaSem sig := 46
abbrev cc6_sem0_1 : DmaSem sig := 47
abbrev cc6_sem1_0 : DmaSem sig := 48
abbrev cc6_sem1_1 : DmaSem sig := 49
abbrev cc6_sem2_0 : DmaSem sig := 50
abbrev cc6_sem2_1 : DmaSem sig := 51
abbrev cc6_sem3_0 : DmaSem sig := 52
abbrev cc6_sem4_0 : DmaSem sig := 53
abbrev cc6_sem5_0 : DmaSem sig := 54
abbrev cc6_sem6_0 : DmaSem sig := 55
abbrev cc6_sem6_1 : DmaSem sig := 56
abbrev cc7_sem0_0 : DmaSem sig := 57
abbrev cc7_sem0_1 : DmaSem sig := 58
abbrev cc7_sem1_0 : DmaSem sig := 59
abbrev cc7_sem2_0 : DmaSem sig := 60
abbrev cc7_sem3_0 : DmaSem sig := 61
abbrev cc7_sem3_1 : DmaSem sig := 62
abbrev cc8_sem0_0 : DmaSem sig := 63
abbrev cc8_sem0_1 : DmaSem sig := 64
abbrev cc8_sem1_0 : DmaSem sig := 65
abbrev cc8_sem2_0 : DmaSem sig := 66
abbrev cc8_sem3_0 : DmaSem sig := 67
abbrev cc8_sem3_1 : DmaSem sig := 68

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S2000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S2000x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  transposes_S3x128x128_S3x128x128_0_2_1 : S3x128x128.Transposes [0, 2, 1] S3x128x128
  bcast_S_S1000000 : S_.BroadcastsInDim S1000000 (![] : Fin 0 → Fin S1000000.rank)
  slices_S3x128_S1x128_0_0 : S3x128.Slices ![0, 0] S1x128
  shapeCasts_S1x128_S128 : S1x128.ShapeCasts S128
  shapeCasts_S2000x128_S2000x128 : S2000x128.ShapeCasts S2000x128
  reduces_S2000x128_S2000 : S2000x128.Reduces [1] S2000
  shapeCasts_S2000_S2000x1 : S2000.ShapeCasts S2000x1
  broadcasts_S2000x1_S2000x128 : S2000x1.Broadcasts S2000x128
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_1_0 : S3x128.Slices ![1, 0] S1x128
  slices_S3x128x128_S1x128x128_1_0_0 : S3x128x128.Slices ![1, 0, 0] S1x128x128
  slices_S3x128_S1x128_2_0 : S3x128.Slices ![2, 0] S1x128
  slices_S3x128x128_S1x128x128_2_0_0 : S3x128x128.Slices ![2, 0, 0] S1x128x128
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  dot_S2000x128_S128x128_S2000x128_1_0_0_1_n_n_wf : DotDims.WF S2000x128 S128x128 S2000x128 [1] [0] [0] [1] [] []
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S100000x128.size a
  hwx2_6 : ∀ i : grid2.Coords, EltTy.bits .f32 = 32 ∨ (Rect.block (s := S100000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S100000x128.size a
  hwx3_3 : ∀ i : grid3.Coords, EltTy.bits .f32 = 32 ∨ (Rect.block (s := S100000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S100000x128.size a
  hwx4_1 : ∀ i : grid4.Coords, EltTy.bits .f32 = 32 ∨ (Rect.block (s := S100000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S100000x128.size a
  hwx4_2 : ∀ i : grid4.Coords, EltTy.bits .f32 = 32 ∨ (Rect.block (s := S100000x128) S2000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S100000x128.size a
  hwx4_6 : ∀ i : grid4.Coords, EltTy.bits .f32 = 32 ∨ (Rect.block (s := S100000x128) S2000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S100000x128.size a
  hwx5_3 : ∀ i : grid5.Coords, EltTy.bits .f32 = 32 ∨ (Rect.block (s := S100000x128) S2000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .f32 = 32 ∨ (Rect.block (s := S100000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S100000x128.size a
  hwx6_1 : ∀ i : grid6.Coords, EltTy.bits .f32 = 32 ∨ (Rect.block (s := S100000x128) S2000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x128.size a ≤ S100000x128.size a
  hwx6_2 : ∀ i : grid6.Coords, EltTy.bits .f32 = 32 ∨ (Rect.block (s := S100000x128) S2000x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x128.size a ≤ S128x128.size a
  hwx6_5 : ∀ i : grid6.Coords, EltTy.bits .f32 = 32 ∨ (Rect.block (s := S128x128) S128x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S2000x128.size a ≤ S100000x128.size a
  hwx6_6 : ∀ i : grid6.Coords, EltTy.bits .f32 = 32 ∨ (Rect.block (s := S100000x128) S2000x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S100000x128.size a
  hwx7_0 : ∀ i : grid7.Coords, EltTy.bits .f32 = 32 ∨ (Rect.block (s := S100000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x128.size a ≤ S100000x128.size a
  hwx7_3 : ∀ i : grid7.Coords, EltTy.bits .f32 = 32 ∨ (Rect.block (s := S100000x128) S2000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S100000x128.size a
  hwx8_0 : ∀ i : grid8.Coords, EltTy.bits .f32 = 32 ∨ (Rect.block (s := S100000x128) S2000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x64.size a ≤ S128x64.size a
  hwx8_1 : ∀ i : grid8.Coords, EltTy.bits .f32 = 32 ∨ (Rect.block (s := S128x64) S128x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2000x64.size a ≤ S100000x64.size a
  hwx8_3 : ∀ i : grid8.Coords, EltTy.bits .f32 = 32 ∨ (Rect.block (s := S100000x64) S2000x64.size (cc8_transform_3 i) (hinb8_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v34) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v36) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v40) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v42) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v49) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v67) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v49) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v42) S2000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v69) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v74) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v73) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v75) S2000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v75) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v80) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v81) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v82) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v100) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v82) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v75) S2000x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v102) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v107) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v106) S128x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v108) S2000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v108) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v109) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v110) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v111) S2000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v111) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v112) S128x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v113) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v114) S2000x64.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S128x128 : Shape := ⟨2, ![128, 128]⟩
abbrev S128 : Shape := ⟨1, ![128]⟩
abbrev S3x128 : Shape := ⟨2, ![3, 128]⟩
abbrev S3x128x128 : Shape := ⟨3, ![3, 128, 128]⟩
abbrev S64x128 : Shape := ⟨2, ![64, 128]⟩
abbrev S64 : Shape := ⟨1, ![64]⟩
abbrev S1x1000000 : Shape := ⟨2, ![1, 1000000]⟩
abbrev S1000000 : Shape := ⟨1, ![1000000]⟩
abbrev S1x128 : Shape := ⟨2, ![1, 128]⟩
abbrev S_ : Shape := ⟨0, ![]⟩
abbrev S100000 : Shape := ⟨1, ![100000]⟩
abbrev S100000x1 : Shape := ⟨2, ![100000, 1]⟩
abbrev S1x128x128 : Shape := ⟨3, ![1, 128, 128]⟩
abbrev S1000000x1 : Shape := ⟨2, ![1000000, 1]⟩
abbrev S1000000x128 : Shape := ⟨2, ![1000000, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 287
  | .vmem => 0
  | .smem => 0
  | _ => 0

abbrev hbmTy0_0 (i : Nat) : BufTy := match i % 128 with
  | 0 => ⟨S100000x128, .f32⟩
  | 1 => ⟨S2x1000000, .i32⟩
  | 2 => ⟨S128x128, .f32⟩
  | 3 => ⟨S128, .f32⟩
  | 4 => ⟨S3x128, .f32⟩
  | 5 => ⟨S3x128, .f32⟩
  | 6 => ⟨S3x128x128, .f32⟩
  | 7 => ⟨S3x128, .f32⟩
  | 8 => ⟨S3x128x128, .f32⟩
  | 9 => ⟨S128, .f32⟩
  | 10 => ⟨S128, .f32⟩
  | 11 => ⟨S64x128, .f32⟩
  | 12 => ⟨S64, .f32⟩
  | 13 => ⟨S1x1000000, .i32⟩
  | 14 => ⟨S1000000, .i32⟩
  | 15 => ⟨S1x1000000, .i32⟩
  | 16 => ⟨S1000000, .i32⟩
  | 17 => ⟨S128x128, .f32⟩
  | 18 => ⟨S100000x128, .f32⟩
  | 19 => ⟨S1x128, .f32⟩
  | 20 => ⟨S100000x128, .f32⟩
  | 21 => ⟨S100000x128, .f32⟩
  | 22 => ⟨S1x128, .f32⟩
  | 23 => ⟨S128, .f32⟩
  | 24 => ⟨S1x128, .f32⟩
  | 25 => ⟨S128, .f32⟩
  | 26 => ⟨S_, .f32⟩
  | 27 => ⟨S100000, .f32⟩
  | 28 => ⟨S100000x1, .f32⟩
  | 29 => ⟨S_, .f32⟩
  | 30 => ⟨S100000x1, .f32⟩
  | 31 => ⟨S100000x1, .f32⟩
  | 32 => ⟨S100000x128, .f32⟩
  | 33 => ⟨S100000x128, .f32⟩
  | 34 => ⟨S100000x128, .f32⟩
  | 35 => ⟨S_, .f32⟩
  | 36 => ⟨S100000, .f32⟩
  | 37 => ⟨S100000x1, .f32⟩
  | 38 => ⟨S_, .f32⟩
  | 39 => ⟨S100000x1, .f32⟩
  | 40 => ⟨S100000x1, .f32⟩
  | 41 => ⟨S100000x128, .f32⟩
  | 42 => ⟨S100000x128, .f32⟩
  | 43 => ⟨S_, .f32⟩
  | 44 => ⟨S100000x1, .f32⟩
  | 45 => ⟨S100000x1, .f32⟩
  | 46 => ⟨S100000x1, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S1x128, .f32⟩
  | 53 => ⟨S100000x128, .f32⟩
  | 54 => ⟨S100000x128, .f32⟩
  | 55 => ⟨S_, .f32⟩
  | 56 => ⟨S100000x128, .f32⟩
  | 57 => ⟨S100000x128, .f32⟩
  | 58 => ⟨S1x128x128, .f32⟩
  | 59 => ⟨S128x128, .f32⟩
  | 60 => ⟨S1x128, .f32⟩
  | 61 => ⟨S128, .f32⟩
  | 62 => ⟨S1x128x128, .f32⟩
  | 63 => ⟨S128x128, .f32⟩
  | 64 => ⟨S_, .i32⟩
  | 65 => ⟨S1000000, .i32⟩
  | 66 => ⟨S1000000, .i1⟩
  | 67 => ⟨S_, .i32⟩
  | 68 => ⟨S1000000, .i32⟩
  | 69 => ⟨S1000000, .i32⟩
  | 70 => ⟨S1000000, .i32⟩
  | 71 => ⟨S1000000x1, .i32⟩
  | 72 => ⟨S1000000x128, .f32⟩
  | 73 => ⟨S_, .f32⟩
  | 74 => ⟨S100000x128, .f32⟩
  | 75 => ⟨S1000000x1, .i32⟩
  | 76 => ⟨S100000x128, .f32⟩
  | 77 => ⟨S_, .f32⟩
  | 78 => ⟨S1000000, .f32⟩
  | 79 => ⟨S_, .f32⟩
  | 80 => ⟨S100000, .f32⟩
  | 81 => ⟨S1000000x1, .i32⟩
  | 82 => ⟨S100000, .f32⟩
  | 83 => ⟨S_, .f32⟩
  | 84 => ⟨S100000, .f32⟩
  | 85 => ⟨S100000, .f32⟩
  | 86 => ⟨S100000x1, .f32⟩
  | 87 => ⟨S100000x128, .f32⟩
  | 88 => ⟨S100000x128, .f32⟩
  | 89 => ⟨S128x128, .f32⟩
  | 90 => ⟨S100000x128, .f32⟩
  | 91 => ⟨S1x128, .f32⟩
  | 92 => ⟨S100000x128, .f32⟩
  | 93 => ⟨S100000x128, .f32⟩
  | 94 => ⟨S128x128, .f32⟩
  | 95 => ⟨S100000x128, .f32⟩
  | 96 => ⟨S100000x128, .f32⟩
  | 97 => ⟨S100000x128, .f32⟩
  | 98 => ⟨S1x128, .f32⟩
  | 99 => ⟨S128, .f32⟩
  | 100 => ⟨S1x128, .f32⟩
  | 101 => ⟨S128, .f32⟩
  | 102 => ⟨S_, .f32⟩
  | 103 => ⟨S100000, .f32⟩
  | 104 => ⟨S100000x1, .f32⟩
  | 105 => ⟨S_, .f32⟩
  | 106 => ⟨S100000x1, .f32⟩
  | 107 => ⟨S100000x1, .f32⟩
  | 108 => ⟨S100000x128, .f32⟩
  | 109 => ⟨S100000x128, .f32⟩
  | 110 => ⟨S100000x128, .f32⟩
  | 111 => ⟨S_, .f32⟩
  | 112 => ⟨S100000, .f32⟩
  | 113 => ⟨S100000x1, .f32⟩
  | 114 => ⟨S_, .f32⟩
  | 115 => ⟨S100000x1, .f32⟩
  | 116 => ⟨S100000x1, .f32⟩
  | 117 => ⟨S100000x128, .f32⟩
  | 118 => ⟨S100000x128, .f32⟩
  | 119 => ⟨S_, .f32⟩
  | 120 => ⟨S100000x1, .f32⟩
  | 121 => ⟨S100000x1, .f32⟩
  | 122 => ⟨S100000x1, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S_, .f32⟩
  | 4 => ⟨S100000x128, .f32⟩
  | 5 => ⟨S100000x128, .f32⟩
  | 6 => ⟨S1x128x128, .f32⟩
  | 7 => ⟨S128x128, .f32⟩
  | 8 => ⟨S1x128, .f32⟩
  | 9 => ⟨S128, .f32⟩
  | 10 => ⟨S1x128x128, .f32⟩
  | 11 => ⟨S128x128, .f32⟩
  | 12 => ⟨S_, .i32⟩
  | 13 => ⟨S1000000, .i32⟩
  | 14 => ⟨S1000000, .i1⟩
  | 15 => ⟨S_, .i32⟩
  | 16 => ⟨S1000000, .i32⟩
  | 17 => ⟨S1000000, .i32⟩
  | 18 => ⟨S1000000, .i32⟩
  | 19 => ⟨S1000000x1, .i32⟩
  | 20 => ⟨S1000000x128, .f32⟩
  | 21 => ⟨S_, .f32⟩
  | 22 => ⟨S100000x128, .f32⟩
  | 23 => ⟨S1000000x1, .i32⟩
  | 24 => ⟨S100000x128, .f32⟩
  | 25 => ⟨S_, .f32⟩
  | 26 => ⟨S1000000, .f32⟩
  | 27 => ⟨S_, .f32⟩
  | 28 => ⟨S100000, .f32⟩
  | 29 => ⟨S1000000x1, .i32⟩
  | 30 => ⟨S100000, .f32⟩
  | 31 => ⟨S_, .f32⟩
  | 32 => ⟨S100000, .f32⟩
  | 33 => ⟨S100000, .f32⟩
  | 34 => ⟨S100000x1, .f32⟩
  | 35 => ⟨S100000x128, .f32⟩
  | 36 => ⟨S100000x128, .f32⟩
  | 37 => ⟨S128x128, .f32⟩
  | 38 => ⟨S100000x128, .f32⟩
  | 39 => ⟨S1x128, .f32⟩
  | 40 => ⟨S100000x128, .f32⟩
  | 41 => ⟨S100000x128, .f32⟩
  | 42 => ⟨S128x128, .f32⟩
  | 43 => ⟨S100000x128, .f32⟩
  | 44 => ⟨S100000x128, .f32⟩
  | 45 => ⟨S100000x128, .f32⟩
  | 46 => ⟨S1x128, .f32⟩
  | 47 => ⟨S128, .f32⟩
  | 48 => ⟨S1x128, .f32⟩
  | 49 => ⟨S128, .f32⟩
  | 50 => ⟨S_, .f32⟩
  | 51 => ⟨S100000, .f32⟩
  | 52 => ⟨S100000x1, .f32⟩
  | 53 => ⟨S_, .f32⟩
  | 54 => ⟨S100000x1, .f32⟩
  | 55 => ⟨S100000x1, .f32⟩
  | 56 => ⟨S100000x128, .f32⟩
  | 57 => ⟨S100000x128, .f32⟩
  | 58 => ⟨S100000x128, .f32⟩
  | 59 => ⟨S_, .f32⟩
  | 60 => ⟨S100000, .f32⟩
  | 61 => ⟨S100000x1, .f32⟩
  | 62 => ⟨S_, .f32⟩
  | 63 => ⟨S100000x1, .f32⟩
  | 64 => ⟨S100000x1, .f32⟩
  | 65 => ⟨S100000x128, .f32⟩
  | 66 => ⟨S100000x128, .f32⟩
  | 67 => ⟨S_, .f32⟩
  | 68 => ⟨S100000x1, .f32⟩
  | 69 => ⟨S100000x1, .f32⟩
  | 70 => ⟨S100000x1, .f32⟩
  | 71 => ⟨S100000x128, .f32⟩
  | 72 => ⟨S100000x128, .f32⟩
  | 73 => ⟨S1x128, .f32⟩
  | 74 => ⟨S100000x128, .f32⟩
  | 75 => ⟨S100000x128, .f32⟩
  | 76 => ⟨S1x128, .f32⟩
  | 77 => ⟨S100000x128, .f32⟩
  | 78 => ⟨S100000x128, .f32⟩
  | 79 => ⟨S_, .f32⟩
  | 80 => ⟨S100000x128, .f32⟩
  | 81 => ⟨S100000x128, .f32⟩
  | 82 => ⟨S1x128x128, .f32⟩
  | 83 => ⟨S128x128, .f32⟩
  | 84 => ⟨S1x128, .f32⟩
  | 85 => ⟨S128, .f32⟩
  | 86 => ⟨S1x128x128, .f32⟩
  | 87 => ⟨S128x128, .f32⟩
  | 88 => ⟨S_, .i32⟩
  | 89 => ⟨S1000000, .i32⟩
  | 90 => ⟨S1000000, .i1⟩
  | 91 => ⟨S_, .i32⟩
  | 92 => ⟨S1000000, .i32⟩
  | 93 => ⟨S1000000, .i32⟩
  | 94 => ⟨S1000000, .i32⟩
  | 95 => ⟨S1000000x1, .i32⟩
  | 96 => ⟨S1000000x128, .f32⟩
  | 97 => ⟨S_, .f32⟩
  | 98 => ⟨S100000x128, .f32⟩
  | 99 => ⟨S1000000x1, .i32⟩
  | 100 => ⟨S100000x128, .f32⟩
  | 101 => ⟨S_, .f32⟩
  | 102 => ⟨S1000000, .f32⟩
  | 103 => ⟨S_, .f32⟩
  | 104 => ⟨S100000, .f32⟩
  | 105 => ⟨S1000000x1, .i32⟩
  | 106 => ⟨S100000, .f32⟩
  | 107 => ⟨S_, .f32⟩
  | 108 => ⟨S100000, .f32⟩
  | 109 => ⟨S100000, .f32⟩
  | 110 => ⟨S100000x1, .f32⟩
  | 111 => ⟨S100000x128, .f32⟩
  | 112 => ⟨S100000x128, .f32⟩
  | 113 => ⟨S128x128, .f32⟩
  | 114 => ⟨S100000x128, .f32⟩
  | 115 => ⟨S1x128, .f32⟩
  | 116 => ⟨S100000x128, .f32⟩
  | 117 => ⟨S100000x128, .f32⟩
  | 118 => ⟨S128x128, .f32⟩
  | 119 => ⟨S100000x128, .f32⟩
  | 120 => ⟨S100000x128, .f32⟩
  | 121 => ⟨S100000x128, .f32⟩
  | 122 => ⟨S_, .f32⟩
  | 123 => ⟨S100000, .f32⟩
  | 124 => ⟨S100000x1, .f32⟩
  | 125 => ⟨S_, .f32⟩
  | 126 => ⟨S100000x1, .f32⟩
  | 127 => ⟨S100000x1, .f32⟩
  | _ => ⟨S100000x128, .f32⟩

abbrev hbmTy0_2 (i : Nat) : BufTy := match i % 128 with
  | 0 => ⟨S100000x128, .f32⟩
  | 1 => ⟨S100000x128, .f32⟩
  | 2 => ⟨S100000x128, .f32⟩
  | 3 => ⟨S_, .f32⟩
  | 4 => ⟨S100000, .f32⟩
  | 5 => ⟨S100000x1, .f32⟩
  | 6 => ⟨S_, .f32⟩
  | 7 => ⟨S100000x1, .f32⟩
  | 8 => ⟨S100000x1, .f32⟩
  | 9 => ⟨S100000x128, .f32⟩
  | 10 => ⟨S100000x128, .f32⟩
  | 11 => ⟨S_, .f32⟩
  | 12 => ⟨S100000x1, .f32⟩
  | 13 => ⟨S100000x1, .f32⟩
  | 14 => ⟨S100000x1, .f32⟩
  | 15 => ⟨S100000x128, .f32⟩
  | 16 => ⟨S100000x128, .f32⟩
  | 17 => ⟨S1x128, .f32⟩
  | 18 => ⟨S100000x128, .f32⟩
  | 19 => ⟨S100000x128, .f32⟩
  | 20 => ⟨S1x128, .f32⟩
  | 21 => ⟨S100000x128, .f32⟩
  | 22 => ⟨S100000x128, .f32⟩
  | 23 => ⟨S_, .f32⟩
  | 24 => ⟨S100000x128, .f32⟩
  | 25 => ⟨S100000x128, .f32⟩
  | 26 => ⟨S128x64, .f32⟩
  | 27 => ⟨S100000x64, .f32⟩
  | 28 => ⟨S1x64, .f32⟩
  | 29 => ⟨S100000x64, .f32⟩
  | 30 => ⟨S100000x64, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_call0_cst : Ref sig .tc := ⟨.hbm, 55, rfl⟩
abbrev main_call0_v0 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c : Ref sig .tc := ⟨.hbm, 64, rfl⟩
abbrev main_v44 : Ref sig .tc := ⟨.hbm, 65, rfl⟩
abbrev main_v45 : Ref sig .tc := ⟨.hbm, 66, rfl⟩
abbrev main_c_4 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_5 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_6 : Ref sig .tc := ⟨.hbm, 77, rfl⟩
abbrev main_v54 : Ref sig .tc := ⟨.hbm, 78, rfl⟩
abbrev main_cst_7 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_8 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_9 : Ref sig .tc := ⟨.hbm, 102, rfl⟩
abbrev main_v76 : Ref sig .tc := ⟨.hbm, 103, rfl⟩
abbrev main_v77 : Ref sig .tc := ⟨.hbm, 104, rfl⟩
abbrev main_cst_10 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_11 : Ref sig .tc := ⟨.hbm, 111, rfl⟩
abbrev main_v83 : Ref sig .tc := ⟨.hbm, 112, rfl⟩
abbrev main_v84 : Ref sig .tc := ⟨.hbm, 113, rfl⟩
abbrev main_cst_12 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_13 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_call1_cst : Ref sig .tc := ⟨.hbm, 131, rfl⟩
abbrev main_call1_v0 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_c_14 : Ref sig .tc := ⟨.hbm, 140, rfl⟩
abbrev main_v107 : Ref sig .tc := ⟨.hbm, 141, rfl⟩
abbrev main_v108 : Ref sig .tc := ⟨.hbm, 142, rfl⟩
abbrev main_c_15 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_cst_16 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_cst_17 : Ref sig .tc := ⟨.hbm, 153, rfl⟩
abbrev main_v117 : Ref sig .tc := ⟨.hbm, 154, rfl⟩
abbrev main_cst_18 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_cst_19 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_cst_20 : Ref sig .tc := ⟨.hbm, 178, rfl⟩
abbrev main_v139 : Ref sig .tc := ⟨.hbm, 179, rfl⟩
abbrev main_v140 : Ref sig .tc := ⟨.hbm, 180, rfl⟩
abbrev main_cst_21 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_cst_22 : Ref sig .tc := ⟨.hbm, 187, rfl⟩
abbrev main_v146 : Ref sig .tc := ⟨.hbm, 188, rfl⟩
abbrev main_v147 : Ref sig .tc := ⟨.hbm, 189, rfl⟩
abbrev main_cst_23 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_cst_24 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_call2_cst : Ref sig .tc := ⟨.hbm, 207, rfl⟩
abbrev main_call2_v0 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_c_25 : Ref sig .tc := ⟨.hbm, 216, rfl⟩
abbrev main_v170 : Ref sig .tc := ⟨.hbm, 217, rfl⟩
abbrev main_v171 : Ref sig .tc := ⟨.hbm, 218, rfl⟩
abbrev main_c_26 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_cst_27 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_cst_28 : Ref sig .tc := ⟨.hbm, 229, rfl⟩
abbrev main_v180 : Ref sig .tc := ⟨.hbm, 230, rfl⟩
abbrev main_cst_29 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_cst_30 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_cst_31 : Ref sig .tc := ⟨.hbm, 250, rfl⟩
abbrev main_v198 : Ref sig .tc := ⟨.hbm, 251, rfl⟩
abbrev main_v199 : Ref sig .tc := ⟨.hbm, 252, rfl⟩
abbrev main_cst_32 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_cst_33 : Ref sig .tc := ⟨.hbm, 259, rfl⟩
abbrev main_v205 : Ref sig .tc := ⟨.hbm, 260, rfl⟩
abbrev main_v206 : Ref sig .tc := ⟨.hbm, 261, rfl⟩
abbrev main_cst_34 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_cst_35 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_call3_cst : Ref sig .tc := ⟨.hbm, 279, rfl⟩
abbrev main_call3_v0 : Ref sig .tc := ⟨.hbm, 280, rfl⟩
abbrev main_v222 : Ref sig .tc := ⟨.hbm, 281, rfl⟩
abbrev main_v223 : Ref sig .tc := ⟨.hbm, 282, rfl⟩
abbrev main_v224 : Ref sig .tc := ⟨.hbm, 283, rfl⟩
abbrev main_v225 : Ref sig .tc := ⟨.hbm, 284, rfl⟩
abbrev main_v226 : Ref sig .tc := ⟨.hbm, 285, rfl⟩
abbrev main_v227 : Ref sig .tc := ⟨.hbm, 286, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128_S1x128_0_0 : S3x128.Slices ![0, 0] S1x128
  shapeCasts_S1x128_S128 : S1x128.ShapeCasts S128
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000 : S_.BroadcastsInDim S100000 (![] : Fin 0 → Fin S100000.rank)
  slices_S3x128_S1x128_1_0 : S3x128.Slices ![1, 0] S1x128
  slices_S3x128x128_S1x128x128_1_0_0 : S3x128x128.Slices ![1, 0, 0] S1x128x128
  slices_S3x128_S1x128_2_0 : S3x128.Slices ![2, 0] S1x128
  slices_S3x128x128_S1x128x128_2_0_0 : S3x128x128.Slices ![2, 0, 0] S1x128x128
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S100000x128_S128x64_S100000x64_1_0_0_1_n_n_wf : DotDims.WF S100000x128 S128x64 S100000x64 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The kernel program's run, with its result named.

  Every weakly fair execution of the program ends, without a fault, with every buffer outside the kernels' scratch space
  holding what the last segment boundary's contents say: the fold of the stretches of array operations and of the nine
  regions' write-backs from the launch memory. In particular the result buffer holds that fold's value there, and the
  thirteen argument arrays are as launched.
-/
import proofs.«131491_j37014028156991_1_alg».proof.Proof.Gen.KernelIdeal.Frame

set_option maxRecDepth 16384

noncomputable section

namespace Cert.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result at the last boundary's contents, the arguments as launched. -/
theorem run : θ_run defs (onTc (τ := τ) (main (F := F))) ⟨m, fun _ => 0, ρ⟩ (fun r => ∀ c : Dev nD,
      r.2.mem ((c.tc : Thread nD τ).loc main_v114) = W18 m ρ c (Proc.devRef .tc main_v114)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v114 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c)⟩)

end Cert.KernelRun

end
-- ==== Proof.Rows.lean ====
/-
  The mathematics of one forward pass, row by row, on the extended reals.

  Every dense stage of the network acts on a node's feature ROW (128 numbers) independently of the other nodes:
  * an affine map: the dot product of the row with a weight COLUMN, plus a bias entry;
  * layer normalisation followed by a rectifier: subtract the row's mean, scale by the reciprocal square root of the
    row's variance plus a small constant, apply gain and bias, clip at zero;
  * the graph-convolution update: two such dot products (the aggregated neighbours' row and the node's own
    normalised row, each with its own weight column), a bias, and the residual entry.
  The functions below state these for ONE row and ONE output column; the array-level functions apply them at every
  index. A tiled computation and a whole-array computation agree as soon as they hand the same rows and columns to
  these functions, which is all the later modules have to show.
-/
import Idealize.ShloMosaic.PureOps.Ideal
import Idealize.ShloMosaic.PureOps.Ideal.Laws
import Idealize.ShloMosaic.Lib.ValueIdx

noncomputable section

namespace Cert.Rows

open Idealize.ShloMosaic Idealize.ShloMosaic.ValueIdx

/-- The feature width as the programs write it (128.0). -/
def width : EReal := Ideal.ofBits .f32 0x43000000#32
/-- The small constant added to the variance (the single-precision number nearest 1e-5). -/
def eps : EReal := Ideal.ofBits .f32 0x3727C5AC#32
/-- The rectifier's floor (0.0). -/
def floor0 : EReal := Ideal.ofBits .f32 0x00000000#32

/-- Dot product of a row with a column, plus a bias entry. -/
def affRow (row col : Fin 128 → EReal) (b : EReal) : EReal := (∑ k : Fin 128, row k * col k) + b

/-- The mean of a row. -/
def mean (row : Fin 128 → EReal) : EReal := Ideal.div (∑ k : Fin 128, row k) width

/-- The (biased) variance of a row. -/
def var (row : Fin 128 → EReal) : EReal :=
  Ideal.div (∑ k : Fin 128, (row k - mean row) * (row k - mean row)) width

/-- Entry `q` of the normalised, scaled, shifted and rectified row. -/
def lnRow (row : Fin 128 → EReal) (g b : EReal) (q : Fin 128) : EReal :=
  max ((row q - mean row) * Ideal.rsqrt (var row + eps) * g + b) floor0

/-- One entry of the convolution update: neighbours' row against one weight column, bias, own row against another
    weight column, residual entry — added in this order. -/
def sageRow (aggRow uRow wlCol wrCol : Fin 128 → EReal) (bl h : EReal) : EReal :=
  (∑ k : Fin 128, aggRow k * wlCol k) + bl + (∑ k : Fin 128, uRow k * wrCol k) + h

/-! ## The same at every index of an array with `R` rows -/

/-- `x · w + b` for `x : [R,128]`, `w : [128,C]`, `b : [1,C]`. -/
def linA {R C : Nat} (x : (⟨2, ![R, 128]⟩ : Shape).Idx → EReal) (w : (⟨2, ![128, C]⟩ : Shape).Idx → EReal)
    (b : (⟨2, ![1, C]⟩ : Shape).Idx → EReal) : (⟨2, ![R, C]⟩ : Shape).Idx → EReal :=
  fun i => affRow (fun k => x (ix2 (i 0) k)) (fun k => w (ix2 k (i 1))) (b (ix2 0 (i 1)))

/-- Layer normalisation and rectifier of every row of `h : [R,128]`, gain and bias `[1,128]`. -/
def lnA {R : Nat} (h : (⟨2, ![R, 128]⟩ : Shape).Idx → EReal) (g b : (⟨2, ![1, 128]⟩ : Shape).Idx → EReal) :
    (⟨2, ![R, 128]⟩ : Shape).Idx → EReal :=
  fun i => lnRow (fun k => h (ix2 (i 0) k)) (g (ix2 0 (i 1))) (b (ix2 0 (i 1))) (i 1)

/-- The convolution update of every row. -/
def sageA {R : Nat} (agg u h : (⟨2, ![R, 128]⟩ : Shape).Idx → EReal) (wl : (⟨2, ![128, 128]⟩ : Shape).Idx → EReal)
    (bl : (⟨2, ![1, 128]⟩ : Shape).Idx → EReal) (wr : (⟨2, ![128, 128]⟩ : Shape).Idx → EReal) :
    (⟨2, ![R, 128]⟩ : Shape).Idx → EReal :=
  fun i => sageRow (fun k => agg (ix2 (i 0) k)) (fun k => u (ix2 (i 0) k)) (fun k => wl (ix2 k (i 1)))
    (fun k => wr (ix2 k (i 1))) (bl (ix2 0 (i 1))) (h (ix2 (i 0) (i 1)))

/-! ## Re-laying the parameters -/

/-- The transpose of a matrix. -/
def tr2 {A B : Nat} (w : (⟨2, ![A, B]⟩ : Shape).Idx → EReal) : (⟨2, ![B, A]⟩ : Shape).Idx → EReal :=
  fun i => w (ix2 (i 1) (i 0))
/-- A vector as a one-row matrix. -/
def asRow {C : Nat} (b : (⟨1, ![C]⟩ : Shape).Idx → EReal) : (⟨2, ![1, C]⟩ : Shape).Idx → EReal :=
  fun i => b (ix1 (i 1))
/-- Row `l` of a stack of vectors as a one-row matrix. -/
def rowOf {L C : Nat} (g : (⟨2, ![L, C]⟩ : Shape).Idx → EReal) (l : Fin L) : (⟨2, ![1, C]⟩ : Shape).Idx → EReal :=
  fun i => g (ix2 l (i 1))
/-- The transpose of matrix `l` of a stack of matrices. -/
def trOf {L A B : Nat} (w : (⟨3, ![L, A, B]⟩ : Shape).Idx → EReal) (l : Fin L) : (⟨2, ![B, A]⟩ : Shape).Idx → EReal :=
  fun i => w (ix3 l (i 1) (i 0))

end Cert.Rows

end
-- ==== Proof.Model.lean ====
/-
  The network's forward pass as ONE function of its thirteen argument arrays, on the extended reals.

  `hidden0` is the input projection; a `layer` normalises and rectifies the hidden state, averages the result over each
  node's incoming edges (`aggT`: gather the source rows, add them into the destination rows, divide by the in-degree
  clipped below at one), and applies the convolution update with the residual; `out` is three layers, a last
  normalisation and the output projection. The averaging over edges is kept as the sequence of array operations both
  programs spell in the same way: nothing in this certificate depends on what it computes, only on its being the
  same function of the same arrays.
-/
import proofs.«131491_j37014028156991_1_alg».proof.KernelIdeal
import proofs.«131491_j37014028156991_1_alg».proof.Proof.Gen.KernelIdeal
import proofs.«131491_j37014028156991_1_alg».proof.Proof.Rows

noncomputable section

namespace Cert.Model

open Idealize.ShloMosaic Cert.KernelIdeal Cert.KernelIdeal.Gen Cert.Rows

/-- A float array of shape `s`, entries extended reals. -/
abbrev A (s : Shape) := (⟨s, .f32⟩ : BufTy).Contents (Elt Ideal)
/-- An array of 32-bit integers of shape `s`. -/
abbrev Z (s : Shape) := (⟨s, .i32⟩ : BufTy).Contents (Elt Ideal)

/-- The edges' source nodes: row 0 of the edge list. -/
def srcOf (e : Z S2x1000000) : Z S1000000 :=
  shapeCast _ (extractStridedSlice S1x1000000 ![0, 0] e slices_S2x1000000_S1x1000000_0_0) shapeCasts_S1x1000000_S1000000
/-- The edges' destination nodes: row 1 of the edge list. -/
def dstOf (e : Z S2x1000000) : Z S1000000 :=
  shapeCast _ (extractStridedSlice S1x1000000 ![1, 0] e slices_S2x1000000_S1x1000000_1_0) shapeCasts_S1x1000000_S1000000

/-- The mean of `u`'s rows over each node's incoming edges: source rows gathered (a negative index counted from the
    end), added into the destination rows of a zero array, divided by the number of incoming edges or by one. -/
def aggT (u : A S100000x128) (src dst : Z S1000000) : A S100000x128 :=
  Host.divf (F := Ideal)
    (Host.scatterAdd (F := Ideal) scatter_S100000x128_S1000000x1_S1000000x128_1_0_0_1
      (broadcastInDim S100000x128 ![] bcast_S_S100000x128 (constant (F := Ideal) S_ .f32 0x00000000#32))
      (broadcastInDim S1000000x1 ![0] bcast_S1000000_S1000000x1_0 dst)
      (Host.gather gather_S100000x128_S1000000x1_S1000000x128_1_0_n_n_0_1_1128 u
        (broadcastInDim S1000000x1 ![0] bcast_S1000000_S1000000x1_0
          (select (cmpi .slt src (broadcastInDim S1000000 ![] bcast_S_S1000000 (constantI S_ 32 0#32)))
            (addi src (broadcastInDim S1000000 ![] bcast_S_S1000000 (constantI S_ 32 100000#32))) src))))
    (broadcastInDim S100000x128 ![0, 1] bcast_S100000x1_S100000x128_0_1
      (broadcastInDim S100000x1 ![0] bcast_S100000_S100000x1_0
        (maximumf (F := Ideal)
          (Host.scatterAdd (F := Ideal) scatter_S100000_S1000000x1_S1000000_n_0_0_1
            (broadcastInDim S100000 ![] bcast_S_S100000 (constant (F := Ideal) S_ .f32 0x00000000#32))
            (broadcastInDim S1000000x1 ![0] bcast_S1000000_S1000000x1_0 dst)
            (broadcastInDim S1000000 ![] bcast_S_S1000000 (constant (F := Ideal) S_ .f32 0x3F800000#32)))
          (broadcastInDim S100000 ![] bcast_S_S100000 (constant (F := Ideal) S_ .f32 0x3F800000#32)))))

/-- The input projection. -/
def hidden0 (x0 : A S100000x128) (x2 : A S128x128) (x3 : A S128) : A S100000x128 :=
  linA (R := 100000) (C := 128) x0 (tr2 (A := 128) (B := 128) x2) (asRow (C := 128) x3)

/-- Layer `l`'s normalised, rectified hidden state. -/
def act (l : Fin 3) (h : A S100000x128) (x4 x5 : A S3x128) : A S100000x128 :=
  lnA (R := 100000) h (rowOf (L := 3) (C := 128) x4 l) (rowOf (L := 3) (C := 128) x5 l)

/-- Layer `l`: the convolution update of the hidden state `h`. -/
def layer (l : Fin 3) (h : A S100000x128) (x1 : Z S2x1000000) (x4 x5 : A S3x128) (x6 : A S3x128x128) (x7 : A S3x128)
    (x8 : A S3x128x128) : A S100000x128 :=
  sageA (R := 100000) (aggT (act l h x4 x5) (srcOf x1) (dstOf x1)) (act l h x4 x5) h
    (trOf (L := 3) (A := 128) (B := 128) x6 l) (rowOf (L := 3) (C := 128) x7 l) (trOf (L := 3) (A := 128) (B := 128) x8 l)

/-- The last normalisation. -/
def actLast (h : A S100000x128) (x9 x10 : A S128) : A S100000x128 :=
  lnA (R := 100000) h (asRow (C := 128) x9) (asRow (C := 128) x10)

/-- The whole forward pass. -/
def out (x0 : A S100000x128) (x1 : Z S2x1000000) (x2 : A S128x128) (x3 : A S128) (x4 x5 : A S3x128) (x6 : A S3x128x128)
    (x7 : A S3x128) (x8 : A S3x128x128) (x9 x10 : A S128) (x11 : A S64x128) (x12 : A S64) : A S100000x64 :=
  linA (R := 100000) (C := 64)
    (actLast (layer 2 (layer 1 (layer 0 (hidden0 x0 x2 x3) x1 x4 x5 x6 x7 x8) x1 x4 x5 x6 x7 x8) x1 x4 x5 x6 x7 x8) x9 x10)
    (tr2 (A := 64) (B := 128) x11) (asRow (C := 64) x12)

end Cert.Model

end
-- ==== Proof.HostGlue.lean ====
/-
  The array operations between the kernels, read as functions of the arrays they start from.

  Between two kernels the program only re-lays parameters (a transpose, a slice of a stack, a vector as a one-row
  matrix) and, once per layer, averages the normalised rows over each node's incoming edges. Each stretch of such
  operations is a fold over the buffer contents `W` it starts from; the lemmas below read one result of the fold at a
  time, as the re-laid parameter or as `aggT` of the arrays it starts from, for ANY starting contents.
-/
import proofs.«131491_j37014028156991_1_alg».proof.Proof.Gen.KernelIdeal.Launch
import proofs.«131491_j37014028156991_1_alg».proof.Proof.Model
import Idealize.ShloMosaic.Lib.StableHlo.Run
import Idealize.ShloMosaic.Lib.Pipeline.Value
import Idealize.ShloMosaic.Lib.ValueIdx
import Idealize.ShloMosaic.Lib.ValueLayout

noncomputable section

namespace Cert.HostGlue

open Idealize.ShloMosaic Idealize.ShloMosaic.ValueIdx Idealize.ShloMosaic.StableHlo Idealize.SL.Sem
open Cert.KernelIdeal Cert.KernelIdeal.Gen Cert.Rows Cert.Model

/-! ## Re-layouts read at an index -/

/-- A transposed matrix is `tr2` of the matrix. -/
theorem transpose_eq_tr2 {a b : ℕ} (x : (⟨2, ![a, b]⟩ : Shape).Idx → EReal)
    (h : (⟨2, ![a, b]⟩ : Shape).Transposes [1, 0] ⟨2, ![b, a]⟩) :
    transpose ⟨2, ![b, a]⟩ [1, 0] x h = tr2 x := by
  funext i
  obtain ⟨j, k, rfl⟩ : ∃ (j : Fin b) (k : Fin a), i = ix2 j k := ⟨i 0, i 1, eq_ix2 i⟩
  exact transpose_ix2_apply x h j k

/-- A vector cast to a one-row matrix is `asRow` of the vector. -/
theorem cast_eq_asRow {a : ℕ} (x : (⟨1, ![a]⟩ : Shape).Idx → EReal) (h : (⟨1, ![a]⟩ : Shape).ShapeCasts ⟨2, ![1, a]⟩) :
    shapeCast ⟨2, ![1, a]⟩ x h = asRow x := by
  funext i
  obtain ⟨u, q, rfl⟩ : ∃ (u : Fin 1) (q : Fin a), i = ix2 u q := ⟨i 0, i 1, eq_ix2 i⟩
  exact shapeCast_a_1a_apply x h u q

/-- Row `l` of a stack of three vectors, cut out, flattened and laid as a one-row matrix, is `rowOf`. -/
theorem slice_eq_rowOf (x : (⟨2, ![3, 128]⟩ : Shape).Idx → EReal) (l : Fin 3)
    (hs : (⟨2, ![3, 128]⟩ : Shape).Slices ![l.val, 0] ⟨2, ![1, 128]⟩)
    (h1 : (⟨2, ![1, 128]⟩ : Shape).ShapeCasts ⟨1, ![128]⟩) (h2 : (⟨1, ![128]⟩ : Shape).ShapeCasts ⟨2, ![1, 128]⟩) :
    shapeCast ⟨2, ![1, 128]⟩ (shapeCast ⟨1, ![128]⟩ (extractStridedSlice ⟨2, ![1, 128]⟩ ![l.val, 0] x hs) h1) h2 = rowOf x l := by
  funext i
  obtain ⟨u, q, rfl⟩ : ∃ (u : Fin 1) (q : Fin 128), i = ix2 u q := ⟨i 0, i 1, eq_ix2 i⟩
  refine (shapeCast_a_1a_apply _ h2 u q).trans ?_
  refine (shapeCast_1a_a_apply _ h1 q).trans ?_
  exact slice2_axis0_apply l.val x hs (0 : Fin 1) q l (by simp)

/-- Matrix `l` of a stack of three matrices, each already transposed, cut out and flattened, is `trOf` of the stack. -/
theorem slice_eq_trOf (x : (⟨3, ![3, 128, 128]⟩ : Shape).Idx → EReal) (l : Fin 3)
    (ht : (⟨3, ![3, 128, 128]⟩ : Shape).Transposes [0, 2, 1] ⟨3, ![3, 128, 128]⟩)
    (hs : (⟨3, ![3, 128, 128]⟩ : Shape).Slices ![l.val, 0, 0] ⟨3, ![1, 128, 128]⟩)
    (h1 : (⟨3, ![1, 128, 128]⟩ : Shape).ShapeCasts ⟨2, ![128, 128]⟩) :
    shapeCast ⟨2, ![128, 128]⟩ (extractStridedSlice ⟨3, ![1, 128, 128]⟩ ![l.val, 0, 0]
      (transpose ⟨3, ![3, 128, 128]⟩ [0, 2, 1] x ht) hs) h1 = trOf x l := by
  funext i
  obtain ⟨k, q, rfl⟩ : ∃ (k : Fin 128) (q : Fin 128), i = ix2 k q := ⟨i 0, i 1, eq_ix2 i⟩
  refine (shapeCast_1ab_ab_apply _ h1 k q).trans ?_
  refine (extractStridedSlice_apply _ _ hs (ix3 (0 : Fin 1) k q) (ix3 l k q) (fun ax => by
    match ax with
    | ⟨0, _⟩ => show l.val = l.val + 0; omega
    | ⟨1, _⟩ => show k.val = 0 + k.val; omega
    | ⟨2, _⟩ => show q.val = 0 + q.val; omega)).trans ?_
  exact transpose_ix3_021_apply x ht l k q

/-- The array of ones, one per edge. -/
def ones : A S1000000 := broadcastInDim S1000000 ![] bcast_S_S1000000 (constant (F := Ideal) S_ .f32 0x3F800000#32)

variable (W : Valuation τ sig (Elt Ideal))

/-! ## Before the input projection -/

theorem h0_src : StableHlo.after hostOps0 W (Proc.devRef .tc main_v1) = srcOf (W (Proc.devRef .tc main_arg1)) := by
  after_results <;> rfl
theorem h0_dst : StableHlo.after hostOps0 W (Proc.devRef .tc main_v3) = dstOf (W (Proc.devRef .tc main_arg1)) := by
  after_results <;> rfl
theorem h0_w : StableHlo.after hostOps0 W (Proc.devRef .tc main_v4) = tr2 (A := 128) (B := 128) (W (Proc.devRef .tc main_arg2)) := by
  refine Eq.trans ?_ (transpose_eq_tr2 (a := 128) (b := 128) (W (Proc.devRef .tc main_arg2)) transposes_S128x128_S128x128_1_0)
  after_results <;> rfl
theorem h0_b : StableHlo.after hostOps0 W (Proc.devRef .tc main_v5) = asRow (C := 128) (W (Proc.devRef .tc main_arg3)) := by
  refine Eq.trans ?_ (cast_eq_asRow (a := 128) (W (Proc.devRef .tc main_arg3)) shapeCasts_S128_S1x128)
  after_results <;> rfl

/-! ## Before the first normalisation -/

theorem h1_wl : StableHlo.after hostOps1 W (Proc.devRef .tc main_v7)
    = transpose S3x128x128 [0, 2, 1] (W (Proc.devRef .tc main_arg6)) transposes_S3x128x128_S3x128x128_0_2_1 := by
  after_results <;> rfl
theorem h1_wr : StableHlo.after hostOps1 W (Proc.devRef .tc main_v8)
    = transpose S3x128x128 [0, 2, 1] (W (Proc.devRef .tc main_arg8)) transposes_S3x128x128_S3x128x128_0_2_1 := by
  after_results <;> rfl
theorem h1_ones : StableHlo.after hostOps1 W (Proc.devRef .tc main_v9) = ones := by
  after_results <;> rfl
theorem h1_g : StableHlo.after hostOps1 W (Proc.devRef .tc main_v14) = rowOf (L := 3) (C := 128) (W (Proc.devRef .tc main_arg4)) 0 := by
  refine Eq.trans ?_ (slice_eq_rowOf (W (Proc.devRef .tc main_arg4)) 0 slices_S3x128_S1x128_0_0 shapeCasts_S1x128_S128 shapeCasts_S128_S1x128)
  after_results <;> rfl
theorem h1_b : StableHlo.after hostOps1 W (Proc.devRef .tc main_v15) = rowOf (L := 3) (C := 128) (W (Proc.devRef .tc main_arg5)) 0 := by
  refine Eq.trans ?_ (slice_eq_rowOf (W (Proc.devRef .tc main_arg5)) 0 slices_S3x128_S1x128_0_0 shapeCasts_S1x128_S128 shapeCasts_S128_S1x128)
  after_results <;> rfl

/-! ## Before the first convolution update -/

theorem h2_agg (h9 : W (Proc.devRef .tc main_v9) = ones) : StableHlo.after hostOps2 W (Proc.devRef .tc main_v34)
    = aggT (W (Proc.devRef .tc main_v16)) (W (Proc.devRef .tc main_v1)) (W (Proc.devRef .tc main_v3)) := by
  after_results_simp
  rw [h9]; rfl
theorem h2_wl (x6 : A S3x128x128)
    (h7 : W (Proc.devRef .tc main_v7) = transpose S3x128x128 [0, 2, 1] x6 transposes_S3x128x128_S3x128x128_0_2_1) :
    StableHlo.after hostOps2 W (Proc.devRef .tc main_v36) = trOf (L := 3) (A := 128) (B := 128) x6 0 := by
  refine Eq.trans ?_ (slice_eq_trOf x6 0 transposes_S3x128x128_S3x128x128_0_2_1 slices_S3x128x128_S1x128x128_0_0_0 shapeCasts_S1x128x128_S128x128)
  after_results; rw [h7]; rfl
theorem h2_wr (x8 : A S3x128x128)
    (h8 : W (Proc.devRef .tc main_v8) = transpose S3x128x128 [0, 2, 1] x8 transposes_S3x128x128_S3x128x128_0_2_1) :
    StableHlo.after hostOps2 W (Proc.devRef .tc main_v40) = trOf (L := 3) (A := 128) (B := 128) x8 0 := by
  refine Eq.trans ?_ (slice_eq_trOf x8 0 transposes_S3x128x128_S3x128x128_0_2_1 slices_S3x128x128_S1x128x128_0_0_0 shapeCasts_S1x128x128_S128x128)
  after_results; rw [h8]; rfl
theorem h2_bl : StableHlo.after hostOps2 W (Proc.devRef .tc main_v41) = rowOf (L := 3) (C := 128) (W (Proc.devRef .tc main_arg7)) 0 := by
  refine Eq.trans ?_ (slice_eq_rowOf (W (Proc.devRef .tc main_arg7)) 0 slices_S3x128_S1x128_0_0 shapeCasts_S1x128_S128 shapeCasts_S128_S1x128)
  after_results <;> rfl

/-! ## Layer 1 -/

theorem h3_g : StableHlo.after hostOps3 W (Proc.devRef .tc main_v47) = rowOf (L := 3) (C := 128) (W (Proc.devRef .tc main_arg4)) 1 := by
  refine Eq.trans ?_ (slice_eq_rowOf (W (Proc.devRef .tc main_arg4)) 1 slices_S3x128_S1x128_1_0 shapeCasts_S1x128_S128 shapeCasts_S128_S1x128)
  after_results <;> rfl
theorem h3_b : StableHlo.after hostOps3 W (Proc.devRef .tc main_v48) = rowOf (L := 3) (C := 128) (W (Proc.devRef .tc main_arg5)) 1 := by
  refine Eq.trans ?_ (slice_eq_rowOf (W (Proc.devRef .tc main_arg5)) 1 slices_S3x128_S1x128_1_0 shapeCasts_S1x128_S128 shapeCasts_S128_S1x128)
  after_results <;> rfl

theorem h4_agg (h9 : W (Proc.devRef .tc main_v9) = ones) : StableHlo.after hostOps4 W (Proc.devRef .tc main_v67)
    = aggT (W (Proc.devRef .tc main_v49)) (W (Proc.devRef .tc main_v1)) (W (Proc.devRef .tc main_v3)) := by
  after_results_simp
  rw [h9]; rfl
theorem h4_wl (x6 : A S3x128x128)
    (h7 : W (Proc.devRef .tc main_v7) = transpose S3x128x128 [0, 2, 1] x6 transposes_S3x128x128_S3x128x128_0_2_1) :
    StableHlo.after hostOps4 W (Proc.devRef .tc main_v69) = trOf (L := 3) (A := 128) (B := 128) x6 1 := by
  refine Eq.trans ?_ (slice_eq_trOf x6 1 transposes_S3x128x128_S3x128x128_0_2_1 slices_S3x128x128_S1x128x128_1_0_0 shapeCasts_S1x128x128_S128x128)
  after_results; rw [h7]; rfl
theorem h4_wr (x8 : A S3x128x128)
    (h8 : W (Proc.devRef .tc main_v8) = transpose S3x128x128 [0, 2, 1] x8 transposes_S3x128x128_S3x128x128_0_2_1) :
    StableHlo.after hostOps4 W (Proc.devRef .tc main_v73) = trOf (L := 3) (A := 128) (B := 128) x8 1 := by
  refine Eq.trans ?_ (slice_eq_trOf x8 1 transposes_S3x128x128_S3x128x128_0_2_1 slices_S3x128x128_S1x128x128_1_0_0 shapeCasts_S1x128x128_S128x128)
  after_results; rw [h8]; rfl
theorem h4_bl : StableHlo.after hostOps4 W (Proc.devRef .tc main_v74) = rowOf (L := 3) (C := 128) (W (Proc.devRef .tc main_arg7)) 1 := by
  refine Eq.trans ?_ (slice_eq_rowOf (W (Proc.devRef .tc main_arg7)) 1 slices_S3x128_S1x128_1_0 shapeCasts_S1x128_S128 shapeCasts_S128_S1x128)
  after_results <;> rfl

/-! ## Layer 2 -/

theorem h5_g : StableHlo.after hostOps5 W (Proc.devRef .tc main_v80) = rowOf (L := 3) (C := 128) (W (Proc.devRef .tc main_arg4)) 2 := by
  refine Eq.trans ?_ (slice_eq_rowOf (W (Proc.devRef .tc main_arg4)) 2 slices_S3x128_S1x128_2_0 shapeCasts_S1x128_S128 shapeCasts_S128_S1x128)
  after_results <;> rfl
theorem h5_b : StableHlo.after hostOps5 W (Proc.devRef .tc main_v81) = rowOf (L := 3) (C := 128) (W (Proc.devRef .tc main_arg5)) 2 := by
  refine Eq.trans ?_ (slice_eq_rowOf (W (Proc.devRef .tc main_arg5)) 2 slices_S3x128_S1x128_2_0 shapeCasts_S1x128_S128 shapeCasts_S128_S1x128)
  after_results <;> rfl

theorem h6_agg (h9 : W (Proc.devRef .tc main_v9) = ones) : StableHlo.after hostOps6 W (Proc.devRef .tc main_v100)
    = aggT (W (Proc.devRef .tc main_v82)) (W (Proc.devRef .tc main_v1)) (W (Proc.devRef .tc main_v3)) := by
  after_results_simp
  rw [h9]; rfl
theorem h6_wl (x6 : A S3x128x128)
    (h7 : W (Proc.devRef .tc main_v7) = transpose S3x128x128 [0, 2, 1] x6 transposes_S3x128x128_S3x128x128_0_2_1) :
    StableHlo.after hostOps6 W (Proc.devRef .tc main_v102) = trOf (L := 3) (A := 128) (B := 128) x6 2 := by
  refine Eq.trans ?_ (slice_eq_trOf x6 2 transposes_S3x128x128_S3x128x128_0_2_1 slices_S3x128x128_S1x128x128_2_0_0 shapeCasts_S1x128x128_S128x128)
  after_results; rw [h7]; rfl
theorem h6_wr (x8 : A S3x128x128)
    (h8 : W (Proc.devRef .tc main_v8) = transpose S3x128x128 [0, 2, 1] x8 transposes_S3x128x128_S3x128x128_0_2_1) :
    StableHlo.after hostOps6 W (Proc.devRef .tc main_v106) = trOf (L := 3) (A := 128) (B := 128) x8 2 := by
  refine Eq.trans ?_ (slice_eq_trOf x8 2 transposes_S3x128x128_S3x128x128_0_2_1 slices_S3x128x128_S1x128x128_2_0_0 shapeCasts_S1x128x128_S128x128)
  after_results; rw [h8]; rfl
theorem h6_bl : StableHlo.after hostOps6 W (Proc.devRef .tc main_v107) = rowOf (L := 3) (C := 128) (W (Proc.devRef .tc main_arg7)) 2 := by
  refine Eq.trans ?_ (slice_eq_rowOf (W (Proc.devRef .tc main_arg7)) 2 slices_S3x128_S1x128_2_0 shapeCasts_S1x128_S128 shapeCasts_S128_S1x128)
  after_results <;> rfl

/-! ## The last normalisation and the output projection -/

theorem h7_g : StableHlo.after hostOps7 W (Proc.devRef .tc main_v109) = asRow (C := 128) (W (Proc.devRef .tc main_arg9)) := by
  refine Eq.trans ?_ (cast_eq_asRow (a := 128) (W (Proc.devRef .tc main_arg9)) shapeCasts_S128_S1x128)
  after_results <;> rfl
theorem h7_b : StableHlo.after hostOps7 W (Proc.devRef .tc main_v110) = asRow (C := 128) (W (Proc.devRef .tc main_arg10)) := by
  refine Eq.trans ?_ (cast_eq_asRow (a := 128) (W (Proc.devRef .tc main_arg10)) shapeCasts_S128_S1x128)
  after_results <;> rfl
theorem h8_w : StableHlo.after hostOps8 W (Proc.devRef .tc main_v112) = tr2 (A := 64) (B := 128) (W (Proc.devRef .tc main_arg11)) := by
  refine Eq.trans ?_ (transpose_eq_tr2 (a := 64) (b := 128) (W (Proc.devRef .tc main_arg11)) transposes_S64x128_S128x64_1_0)
  after_results <;> rfl
theorem h8_b : StableHlo.after hostOps8 W (Proc.devRef .tc main_v113) = asRow (C := 64) (W (Proc.devRef .tc main_arg12)) := by
  refine Eq.trans ?_ (cast_eq_asRow (a := 64) (W (Proc.devRef .tc main_arg12)) shapeCasts_S64_S1x64)
  after_results <;> rfl

end Cert.HostGlue

end
-- ==== Proof.Carry.lean ====
/-
  Buffers that nobody writes keep their contents from one segment boundary to the next.

  The program alternates stretches of array operations with kernel regions. A region changes only its own arrays, and a
  stretch only the buffers its operations write; every other buffer holds at the next boundary what it held at the
  previous one. Walking back boundary by boundary, an argument array holds its launch contents at every boundary, and
  the edge endpoints, the array of ones and the two transposed weight stacks — each written once, early — hold that
  value wherever a later stretch reads them.
-/
import proofs.«131491_j37014028156991_1_alg».proof.Proof.Gen.KernelIdeal.Frame
import proofs.«131491_j37014028156991_1_alg».proof.Proof.HostGlue

set_option maxRecDepth 16384

noncomputable section

namespace Cert.Carry

open Idealize.ShloMosaic Idealize.ShloMosaic.TcCoe Idealize.SL.Sem
open Cert.KernelIdeal Cert.KernelIdeal.Gen Cert.Rows Cert.Model Cert.HostGlue

/-- Step back across a region that does not own the buffer. -/
macro "past_region" l:ident : tactic => `(tactic| refine ($l _ _ _ _ (by decide)).trans ?_)

/-- Step back across a stretch of array operations none of which writes the buffer. -/
macro "past_host" ops:ident : tactic => `(tactic| refine (StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_)

variable (m : (ℓ : Loc nD τ sig) → Buf (Elt Ideal) ℓ) (ρ : Dev nD → PrngReg) (c : Dev nD)

/-! ## The arguments at the boundaries where a stretch reads them -/

theorem arg4_W2 : W2 m ρ c (Proc.devRef .tc main_arg4) = m ((c : Thread nD τ).loc main_arg4) := by
  past_region W2_of_ne; past_host hostOps0; rfl
theorem arg5_W2 : W2 m ρ c (Proc.devRef .tc main_arg5) = m ((c : Thread nD τ).loc main_arg5) := by
  past_region W2_of_ne; past_host hostOps0; rfl
theorem arg6_W2 : W2 m ρ c (Proc.devRef .tc main_arg6) = m ((c : Thread nD τ).loc main_arg6) := by
  past_region W2_of_ne; past_host hostOps0; rfl
theorem arg8_W2 : W2 m ρ c (Proc.devRef .tc main_arg8) = m ((c : Thread nD τ).loc main_arg8) := by
  past_region W2_of_ne; past_host hostOps0; rfl
theorem arg7_W4 : W4 m ρ c (Proc.devRef .tc main_arg7) = m ((c : Thread nD τ).loc main_arg7) := by
  past_region W4_of_ne; past_host hostOps1; past_region W2_of_ne; past_host hostOps0; rfl
theorem arg4_W6 : W6 m ρ c (Proc.devRef .tc main_arg4) = m ((c : Thread nD τ).loc main_arg4) := by
  past_region W6_of_ne; past_host hostOps2; past_region W4_of_ne; past_host hostOps1; past_region W2_of_ne; past_host hostOps0; rfl
theorem arg5_W6 : W6 m ρ c (Proc.devRef .tc main_arg5) = m ((c : Thread nD τ).loc main_arg5) := by
  past_region W6_of_ne; past_host hostOps2; past_region W4_of_ne; past_host hostOps1; past_region W2_of_ne; past_host hostOps0; rfl
theorem arg7_W8 : W8 m ρ c (Proc.devRef .tc main_arg7) = m ((c : Thread nD τ).loc main_arg7) := by
  past_region W8_of_ne; past_host hostOps3; past_region W6_of_ne; past_host hostOps2; past_region W4_of_ne; past_host hostOps1; past_region W2_of_ne; past_host hostOps0; rfl
theorem arg4_W10 : W10 m ρ c (Proc.devRef .tc main_arg4) = m ((c : Thread nD τ).loc main_arg4) := by
  past_region W10_of_ne; past_host hostOps4; past_region W8_of_ne; past_host hostOps3; past_region W6_of_ne; past_host hostOps2; past_region W4_of_ne; past_host hostOps1; past_region W2_of_ne; past_host hostOps0; rfl
theorem arg5_W10 : W10 m ρ c (Proc.devRef .tc main_arg5) = m ((c : Thread nD τ).loc main_arg5) := by
  past_region W10_of_ne; past_host hostOps4; past_region W8_of_ne; past_host hostOps3; past_region W6_of_ne; past_host hostOps2; past_region W4_of_ne; past_host hostOps1; past_region W2_of_ne; past_host hostOps0; rfl
theorem arg7_W12 : W12 m ρ c (Proc.devRef .tc main_arg7) = m ((c : Thread nD τ).loc main_arg7) := by
  past_region W12_of_ne; past_host hostOps5; past_region W10_of_ne; past_host hostOps4; past_region W8_of_ne; past_host hostOps3; past_region W6_of_ne; past_host hostOps2; past_region W4_of_ne; past_host hostOps1; past_region W2_of_ne; past_host hostOps0; rfl
theorem arg9_W14 : W14 m ρ c (Proc.devRef .tc main_arg9) = m ((c : Thread nD τ).loc main_arg9) := by
  past_region W14_of_ne; past_host hostOps6; past_region W12_of_ne; past_host hostOps5; past_region W10_of_ne; past_host hostOps4; past_region W8_of_ne; past_host hostOps3; past_region W6_of_ne; past_host hostOps2; past_region W4_of_ne; past_host hostOps1; past_region W2_of_ne; past_host hostOps0; rfl
theorem arg10_W14 : W14 m ρ c (Proc.devRef .tc main_arg10) = m ((c : Thread nD τ).loc main_arg10) := by
  past_region W14_of_ne; past_host hostOps6; past_region W12_of_ne; past_host hostOps5; past_region W10_of_ne; past_host hostOps4; past_region W8_of_ne; past_host hostOps3; past_region W6_of_ne; past_host hostOps2; past_region W4_of_ne; past_host hostOps1; past_region W2_of_ne; past_host hostOps0; rfl
theorem arg11_W16 : W16 m ρ c (Proc.devRef .tc main_arg11) = m ((c : Thread nD τ).loc main_arg11) := by
  past_region W16_of_ne; past_host hostOps7; past_region W14_of_ne; past_host hostOps6; past_region W12_of_ne; past_host hostOps5; past_region W10_of_ne; past_host hostOps4; past_region W8_of_ne; past_host hostOps3; past_region W6_of_ne; past_host hostOps2; past_region W4_of_ne; past_host hostOps1; past_region W2_of_ne; past_host hostOps0; rfl
theorem arg12_W16 : W16 m ρ c (Proc.devRef .tc main_arg12) = m ((c : Thread nD τ).loc main_arg12) := by
  past_region W16_of_ne; past_host hostOps7; past_region W14_of_ne; past_host hostOps6; past_region W12_of_ne; past_host hostOps5; past_region W10_of_ne; past_host hostOps4; past_region W8_of_ne; past_host hostOps3; past_region W6_of_ne; past_host hostOps2; past_region W4_of_ne; past_host hostOps1; past_region W2_of_ne; past_host hostOps0; rfl

/-! ## The edge endpoints -/

theorem src_W1 : W1 m ρ c (Proc.devRef .tc main_v1) = srcOf (m ((c : Thread nD τ).loc main_arg1)) := h0_src (W0 m ρ c)
theorem dst_W1 : W1 m ρ c (Proc.devRef .tc main_v3) = dstOf (m ((c : Thread nD τ).loc main_arg1)) := h0_dst (W0 m ρ c)
theorem src_W4 : W4 m ρ c (Proc.devRef .tc main_v1) = srcOf (m ((c : Thread nD τ).loc main_arg1)) := by
  past_region W4_of_ne; past_host hostOps1; past_region W2_of_ne; exact src_W1 m ρ c
theorem dst_W4 : W4 m ρ c (Proc.devRef .tc main_v3) = dstOf (m ((c : Thread nD τ).loc main_arg1)) := by
  past_region W4_of_ne; past_host hostOps1; past_region W2_of_ne; exact dst_W1 m ρ c
theorem src_W8 : W8 m ρ c (Proc.devRef .tc main_v1) = srcOf (m ((c : Thread nD τ).loc main_arg1)) := by
  past_region W8_of_ne; past_host hostOps3; past_region W6_of_ne; past_host hostOps2; exact src_W4 m ρ c
theorem dst_W8 : W8 m ρ c (Proc.devRef .tc main_v3) = dstOf (m ((c : Thread nD τ).loc main_arg1)) := by
  past_region W8_of_ne; past_host hostOps3; past_region W6_of_ne; past_host hostOps2; exact dst_W4 m ρ c
theorem src_W12 : W12 m ρ c (Proc.devRef .tc main_v1) = srcOf (m ((c : Thread nD τ).loc main_arg1)) := by
  past_region W12_of_ne; past_host hostOps5; past_region W10_of_ne; past_host hostOps4; exact src_W8 m ρ c
theorem dst_W12 : W12 m ρ c (Proc.devRef .tc main_v3) = dstOf (m ((c : Thread nD τ).loc main_arg1)) := by
  past_region W12_of_ne; past_host hostOps5; past_region W10_of_ne; past_host hostOps4; exact dst_W8 m ρ c

/-! ## The array of ones and the transposed weight stacks -/

theorem ones_W3 : W3 m ρ c (Proc.devRef .tc main_v9) = ones := h1_ones (W2 m ρ c)
theorem wl_W3 : W3 m ρ c (Proc.devRef .tc main_v7)
    = transpose S3x128x128 [0, 2, 1] (m ((c : Thread nD τ).loc main_arg6)) transposes_S3x128x128_S3x128x128_0_2_1 :=
  (h1_wl (W2 m ρ c)).trans (by rw [arg6_W2])
theorem wr_W3 : W3 m ρ c (Proc.devRef .tc main_v8)
    = transpose S3x128x128 [0, 2, 1] (m ((c : Thread nD τ).loc main_arg8)) transposes_S3x128x128_S3x128x128_0_2_1 :=
  (h1_wr (W2 m ρ c)).trans (by rw [arg8_W2])
theorem ones_W4 : W4 m ρ c (Proc.devRef .tc main_v9) = ones := by
  past_region W4_of_ne; exact ones_W3 m ρ c
theorem ones_W8 : W8 m ρ c (Proc.devRef .tc main_v9) = ones := by
  past_region W8_of_ne; past_host hostOps3; past_region W6_of_ne; past_host hostOps2; exact ones_W4 m ρ c
theorem ones_W12 : W12 m ρ c (Proc.devRef .tc main_v9) = ones := by
  past_region W12_of_ne; past_host hostOps5; past_region W10_of_ne; past_host hostOps4; exact ones_W8 m ρ c
theorem wl_W4 : W4 m ρ c (Proc.devRef .tc main_v7) = transpose S3x128x128 [0, 2, 1] (m ((c : Thread nD τ).loc main_arg6)) transposes_S3x128x128_S3x128x128_0_2_1 := by
  past_region W4_of_ne; exact wl_W3 m ρ c
theorem wl_W8 : W8 m ρ c (Proc.devRef .tc main_v7) = transpose S3x128x128 [0, 2, 1] (m ((c : Thread nD τ).loc main_arg6)) transposes_S3x128x128_S3x128x128_0_2_1 := by
  past_region W8_of_ne; past_host hostOps3; past_region W6_of_ne; past_host hostOps2; exact wl_W4 m ρ c
theorem wl_W12 : W12 m ρ c (Proc.devRef .tc main_v7) = transpose S3x128x128 [0, 2, 1] (m ((c : Thread nD τ).loc main_arg6)) transposes_S3x128x128_S3x128x128_0_2_1 := by
  past_region W12_of_ne; past_host hostOps5; past_region W10_of_ne; past_host hostOps4; exact wl_W8 m ρ c
theorem wr_W4 : W4 m ρ c (Proc.devRef .tc main_v8) = transpose S3x128x128 [0, 2, 1] (m ((c : Thread nD τ).loc main_arg8)) transposes_S3x128x128_S3x128x128_0_2_1 := by
  past_region W4_of_ne; exact wr_W3 m ρ c
theorem wr_W8 : W8 m ρ c (Proc.devRef .tc main_v8) = transpose S3x128x128 [0, 2, 1] (m ((c : Thread nD τ).loc main_arg8)) transposes_S3x128x128_S3x128x128_0_2_1 := by
  past_region W8_of_ne; past_host hostOps3; past_region W6_of_ne; past_host hostOps2; exact wr_W4 m ρ c
theorem wr_W12 : W12 m ρ c (Proc.devRef .tc main_v8) = transpose S3x128x128 [0, 2, 1] (m ((c : Thread nD τ).loc main_arg8)) transposes_S3x128x128_S3x128x128_0_2_1 := by
  past_region W12_of_ne; past_host hostOps5; past_region W10_of_ne; past_host hostOps4; exact wr_W8 m ρ c

end Cert.Carry

end
-- ==== Proof.LibColumnBroadcast.lean ====
/-
  A column broadcast across the lanes, read at an index.

  A `[a, 1]` array (one value per row) broadcast to `[a, b]` holds, at `(p, c)`, the value of row `p`: every
  column of the result is the operand's one column.
-/
import Idealize.ShloMosaic.Lib.Pipeline.Value
import Idealize.ShloMosaic.Lib.ValueIdx

noncomputable section

namespace Idealize.ShloMosaic.ValueIdx

open Idealize.ShloMosaic

variable {α : Type}

/-- A `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.LibColumnCast.lean ====
/-
  A vector laid out as a one-column matrix, read at an index.

  An `[a]` array cast to `[a, 1]` (a row-wise sum kept as a column) holds, at `(p, u)`, entry `p` of the vector,
  whatever the unit coordinate `u`: in row-major order both are element number `p`.
-/
import Idealize.ShloMosaic.Lib.Pipeline.Value
import Idealize.ShloMosaic.Lib.ValueIdx

noncomputable section

namespace Idealize.ShloMosaic.ValueIdx

open Idealize.ShloMosaic

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Idealize.ShloMosaic.ValueIdx

end
-- ==== Proof.Pay.lean ====
/-
  What each kernel body computes, entry by entry.

  A body sees a tile of 2000 rows. Read at row `p` and column `q` of the tile:
  * the projection bodies give the dot product of row `p` of the data tile with column `q` of the weight tile, plus
    entry `q` of the bias — a matrix product into a zero accumulator is that sum over the 128 contracted entries,
    and the change to a shorter float format before the product changes nothing on the extended reals;
  * the normalisation body gives `lnRow` of row `p`: its two row sums (of the entries, and of the squared
    deviations) are kept as one-column arrays and spread back over the 128 columns;
  * the convolution body gives `sageRow`: two such dot products, the bias and the residual entry.
  All of it depends on row `p` of the data tiles only, which is why tiles can be replaced by whole arrays later.
-/
import proofs.«131491_j37014028156991_1_alg».proof.Proof.Gen.KernelIdeal.Skeleton
import proofs.«131491_j37014028156991_1_alg».proof.Proof.Rows
import proofs.«131491_j37014028156991_1_alg».proof.Proof.LibColumnBroadcast
import proofs.«131491_j37014028156991_1_alg».proof.Proof.LibColumnCast
import Idealize.ShloMosaic.Lib.Pipeline.Value
import Idealize.ShloMosaic.Lib.ValueIdx
import Idealize.ShloMosaic.Lib.ValueLayout
import Idealize.ShloMosaic.PureOps.Ideal.Laws

noncomputable section

namespace Cert.Pay

open Idealize.ShloMosaic Idealize.ShloMosaic.ValueIdx Cert.KernelIdeal Cert.KernelIdeal.Gen Cert.Rows

/-! ## The two matrix products -/

/-- The 128-column product's dimensions. -/
abbrev D := dot_S2000x128_S128x128_S2000x128_1_0_0_1_n_n
/-- The 64-column product's dimensions. -/
abbrev E := dot_S2000x128_S128x64_S2000x64_1_0_0_1_n_n

theorem D_lhs0 (i : S2000x128.Idx) (c : D.contr.Idx) : (D.lhsIdx i c 0).val = (i 0).val := by
  unfold DotDims.lhsIdx
  rw [dif_neg (show ¬(0 : Fin S2000x128.rank) ∈ D.lhsBatch by decide), dif_pos (show (0 : Fin S2000x128.rank) ∈ D.lhsNonContracting by decide)]
  rfl
theorem D_rhs1 (i : S2000x128.Idx) (c : D.contr.Idx) : (D.rhsIdx i c 1).val = (i 1).val := by
  unfold DotDims.rhsIdx
  rw [dif_neg (show ¬(1 : Fin S128x128.rank) ∈ D.rhsBatch by decide), dif_pos (show (1 : Fin S128x128.rank) ∈ D.rhsNonContracting by decide)]
  rfl
theorem E_lhs0 (i : S2000x64.Idx) (c : E.contr.Idx) : (E.lhsIdx i c 0).val = (i 0).val := by
  unfold DotDims.lhsIdx
  rw [dif_neg (show ¬(0 : Fin S2000x128.rank) ∈ E.lhsBatch by decide), dif_pos (show (0 : Fin S2000x128.rank) ∈ E.lhsNonContracting by decide)]
  rfl
theorem E_rhs1 (i : S2000x64.Idx) (c : E.contr.Idx) : (E.rhsIdx i c 1).val = (i 1).val := by
  unfold DotDims.rhsIdx
  rw [dif_neg (show ¬(1 : Fin S128x64.rank) ∈ E.rhsBatch by decide), dif_pos (show (1 : Fin S128x64.rank) ∈ E.rhsNonContracting by decide)]
  rfl

/-- A [2000,128] × [128,128] product into zero, at `(p, q)`: row `p` against column `q`. -/
theorem matmulD_at (lhs : FVec Ideal S2000x128 .bf16) (rhs : FVec Ideal S128x128 .bf16) (p : Fin 2000) (q : Fin 128) :
    matmul D none lhs rhs (constant (F := Ideal) S2000x128 .f32 0x00000000#32) (ix2 p q)
      = ∑ k : Fin 128, lhs (ix2 p k) * rhs (ix2 k q) := by
  simp only [matmul]
  rw [Ideal.matmul_constant_zero_apply, ← Equiv.sum_comp (ValueIdx.contrEquiv1 D 128 rfl rfl).symm]
  refine Finset.sum_congr rfl fun k _ => ?_
  have hk := ValueIdx.contrEquiv1_symm_val D 128 rfl rfl k
  have el : D.lhsIdx (ix2 p q) ((ValueIdx.contrEquiv1 D 128 rfl rfl).symm k) = ix2 p k := funext fun a => Fin.ext (by
    match a with
    | ⟨0, _⟩ => exact D_lhs0 _ _
    | ⟨1, _⟩ => exact (D.lhsIdx_val_of_single rfl _ _).trans hk)
  have er : D.rhsIdx (ix2 p q) ((ValueIdx.contrEquiv1 D 128 rfl rfl).symm k) = ix2 k q := funext fun a => Fin.ext (by
    match a with
    | ⟨0, _⟩ => exact (D.rhsIdx_val_of_single rfl _ _).trans hk
    | ⟨1, _⟩ => exact D_rhs1 _ _)
  rw [el, er]

/-- A [2000,128] × [128,64] product into zero, at `(p, q)`. -/
theorem matmulE_at (lhs : FVec Ideal S2000x128 .bf16) (rhs : FVec Ideal S128x64 .bf16) (p : Fin 2000) (q : Fin 64) :
    matmul E none lhs rhs (constant (F := Ideal) S2000x64 .f32 0x00000000#32) (ix2 p q)
      = ∑ k : Fin 128, lhs (ix2 p k) * rhs (ix2 k q) := by
  simp only [matmul]
  rw [Ideal.matmul_constant_zero_apply, ← Equiv.sum_comp (ValueIdx.contrEquiv1 E 128 rfl rfl).symm]
  refine Finset.sum_congr rfl fun k _ => ?_
  have hk := ValueIdx.contrEquiv1_symm_val E 128 rfl rfl k
  have el : E.lhsIdx (ix2 p q) ((ValueIdx.contrEquiv1 E 128 rfl rfl).symm k) = ix2 p k := funext fun a => Fin.ext (by
    match a with
    | ⟨0, _⟩ => exact E_lhs0 _ _
    | ⟨1, _⟩ => exact (E.lhsIdx_val_of_single rfl _ _).trans hk)
  have er : E.rhsIdx (ix2 p q) ((ValueIdx.contrEquiv1 E 128 rfl rfl).symm k) = ix2 k q := funext fun a => Fin.ext (by
    match a with
    | ⟨0, _⟩ => exact (E.rhsIdx_val_of_single rfl _ _).trans hk
    | ⟨1, _⟩ => exact E_rhs1 _ _)
  rw [el, er]

/-! ## The projections -/

/-- The input projection's body at `(p, q)`. -/
theorem lin_at (v0 : Vec Ideal S2000x128 .f32) (v2 : Vec Ideal S128x128 .f32) (v6 : Vec Ideal S1x128 .f32) (p : Fin 2000) (q : Fin 128) :
    k0_pay1 (F := Ideal) v0 v2 v6 (ix2 p q) = affRow (fun k => v0 (ix2 p k)) (fun k => v2 (ix2 k q)) (v6 (ix2 0 q)) := by
  unfold k0_pay1 affRow
  dsimp only
  refine (congrArg₂ (· + ·) (matmulD_at _ _ p q) (broadcastTo_1b_ab_apply _ _ p q)).trans ?_
  rw [shapeCast_self, shapeCast_self]
  rfl

/-- The output projection's body at `(p, q)`: 64 columns, the same 128 contracted entries. -/
theorem lin64_at (v0 : Vec Ideal S2000x128 .f32) (v3 : Vec Ideal S128x64 .f32) (v7 : Vec Ideal S1x64 .f32) (p : Fin 2000) (q : Fin 64) :
    k8_pay1 (F := Ideal) v0 v3 v7 (ix2 p q) = affRow (fun k => v0 (ix2 p k)) (fun k => v3 (ix2 k q)) (v7 (ix2 0 q)) := by
  unfold k8_pay1 affRow
  dsimp only
  refine (congrArg₂ (· + ·) (matmulE_at _ _ p q) (broadcastTo_1b_ab_apply _ _ p q)).trans ?_
  rw [shapeCast_self, shapeCast_self, shapeCast_self]
  rfl

/-! ## The normalisation -/

/-- A tile's row sums kept as a column: at `(p, u)` the sum of row `p`. -/
theorem rowsum_at (x : FVec Ideal S2000x128 .f32) (p : Fin 2000) (u : Fin 1) :
    shapeCast S2000x1 (multiReduction .add [1] S2000 x 0x00000000#32 reduces_S2000x128_S2000 (.inl rfl) rfl) shapeCasts_S2000_S2000x1 (ix2 p u)
      = ∑ k : Fin 128, x (ix2 p k) := by
  refine (shapeCast_a_a1_apply _ _ p u).trans ?_
  refine (Ideal.multiReduction_add_single x 0x00000000#32 reduces_S2000x128_S2000 (.inl rfl) rfl (ix1 p)).trans ?_
  refine Finset.sum_congr rfl fun k _ => congrArg x ?_
  exact funext fun a => Fin.ext (by match a with | ⟨0, _⟩ => rfl | ⟨1, _⟩ => rfl)

/-- The row means as a column. -/
theorem mean_at (x : FVec Ideal S2000x128 .f32) (p : Fin 2000) (u : Fin 1) :
    divf (shapeCast S2000x1 (multiReduction .add [1] S2000 x 0x00000000#32 reduces_S2000x128_S2000 (.inl rfl) rfl) shapeCasts_S2000_S2000x1)
        (broadcast S2000x1 (Scalar.ofBits (F := Ideal) .f32 0x43000000#32)) (ix2 p u)
      = mean (fun k => x (ix2 p k)) :=
  congrArg₂ Ideal.div (rowsum_at x p u) rfl

/-- The deviations from the row mean, at `(p, k)`. -/
theorem dev_at (x : FVec Ideal S2000x128 .f32) (p : Fin 2000) (k : Fin 128) :
    subf x (broadcastTo S2000x128 (divf (shapeCast S2000x1 (multiReduction .add [1] S2000 x 0x00000000#32 reduces_S2000x128_S2000 (.inl rfl) rfl) shapeCasts_S2000_S2000x1)
        (broadcast S2000x1 (Scalar.ofBits (F := Ideal) .f32 0x43000000#32))) broadcasts_S2000x1_S2000x128) (ix2 p k)
      = x (ix2 p k) - mean (fun j => x (ix2 p j)) :=
  congrArg₂ (· - ·) rfl ((broadcastTo_a1_ab_apply _ _ p k).trans (mean_at x p 0))

/-- The normalisation body at `(p, q)`. -/
theorem ln_at (v0 : Vec Ideal S2000x128 .f32) (v20 v24 : Vec Ideal S1x128 .f32) (p : Fin 2000) (q : Fin 128) :
    k1_pay1 (F := Ideal) v0 v20 v24 (ix2 p q) = lnRow (fun k => v0 (ix2 p k)) (v20 (ix2 0 q)) (v24 (ix2 0 q)) q := by
  unfold k1_pay1 lnRow
  dsimp only
  rw [shapeCast_self, shapeCast_self, shapeCast_self]
  refine congrArg₂ max ?_ rfl
  refine congrArg₂ (· + ·) ?_ (broadcastTo_1b_ab_apply _ _ p q)
  refine congrArg₂ (· * ·) ?_ (broadcastTo_1b_ab_apply _ _ p q)
  refine congrArg₂ (· * ·) (dev_at v0 p q) ?_
  refine (broadcastTo_a1_ab_apply _ _ p q).trans ?_
  refine congrArg Ideal.rsqrt (congrArg₂ (· + ·) ?_ rfl)
  refine congrArg₂ Ideal.div ((rowsum_at _ p 0).trans ?_) rfl
  exact Finset.sum_congr rfl fun k _ => congrArg₂ (· * ·) (dev_at v0 p k) (dev_at v0 p k)

theorem ln3_at (v0 : Vec Ideal S2000x128 .f32) (v20 v24 : Vec Ideal S1x128 .f32) (p : Fin 2000) (q : Fin 128) :
    k3_pay1 (F := Ideal) v0 v20 v24 (ix2 p q) = lnRow (fun k => v0 (ix2 p k)) (v20 (ix2 0 q)) (v24 (ix2 0 q)) q :=
  ln_at v0 v20 v24 p q
theorem ln5_at (v0 : Vec Ideal S2000x128 .f32) (v20 v24 : Vec Ideal S1x128 .f32) (p : Fin 2000) (q : Fin 128) :
    k5_pay1 (F := Ideal) v0 v20 v24 (ix2 p q) = lnRow (fun k => v0 (ix2 p k)) (v20 (ix2 0 q)) (v24 (ix2 0 q)) q :=
  ln_at v0 v20 v24 p q
theorem ln7_at (v0 : Vec Ideal S2000x128 .f32) (v20 v24 : Vec Ideal S1x128 .f32) (p : Fin 2000) (q : Fin 128) :
    k7_pay1 (F := Ideal) v0 v20 v24 (ix2 p q) = lnRow (fun k => v0 (ix2 p k)) (v20 (ix2 0 q)) (v24 (ix2 0 q)) q :=
  ln_at v0 v20 v24 p q

/-! ## The convolution update -/

/-- The convolution body at `(p, q)`. -/
theorem sage_at (v0 v3 : Vec Ideal S2000x128 .f32) (v6 v9 : Vec Ideal S128x128 .f32) (v14 : Vec Ideal S1x128 .f32)
    (v19 : Vec Ideal S2000x128 .f32) (p : Fin 2000) (q : Fin 128) :
    k2_pay1 (F := Ideal) v0 v3 v6 v9 v14 v19 (ix2 p q)
      = sageRow (fun k => v0 (ix2 p k)) (fun k => v3 (ix2 p k)) (fun k => v6 (ix2 k q)) (fun k => v9 (ix2 k q)) (v14 (ix2 0 q)) (v19 (ix2 p q)) := by
  unfold k2_pay1 sageRow
  dsimp only
  rw [shapeCast_self, shapeCast_self, shapeCast_self, shapeCast_self, shapeCast_self, shapeCast_self]
  refine congrArg₂ (· + ·) ?_ rfl
  refine congrArg₂ (· + ·) ?_ (matmulD_at _ _ p q)
  exact congrArg₂ (· + ·) (matmulD_at _ _ p q) (broadcastTo_1b_ab_apply _ _ p q)

theorem sage4_at (v0 v3 : Vec Ideal S2000x128 .f32) (v6 v9 : Vec Ideal S128x128 .f32) (v14 : Vec Ideal S1x128 .f32)
    (v19 : Vec Ideal S2000x128 .f32) (p : Fin 2000) (q : Fin 128) :
    k4_pay1 (F := Ideal) v0 v3 v6 v9 v14 v19 (ix2 p q)
      = sageRow (fun k => v0 (ix2 p k)) (fun k => v3 (ix2 p k)) (fun k => v6 (ix2 k q)) (fun k => v9 (ix2 k q)) (v14 (ix2 0 q)) (v19 (ix2 p q)) :=
  sage_at v0 v3 v6 v9 v14 v19 p q
theorem sage6_at (v0 v3 : Vec Ideal S2000x128 .f32) (v6 v9 : Vec Ideal S128x128 .f32) (v14 : Vec Ideal S1x128 .f32)
    (v19 : Vec Ideal S2000x128 .f32) (p : Fin 2000) (q : Fin 128) :
    k6_pay1 (F := Ideal) v0 v3 v6 v9 v14 v19 (ix2 p q)
      = sageRow (fun k => v0 (ix2 p k)) (fun k => v3 (ix2 p k)) (fun k => v6 (ix2 k q)) (fun k => v9 (ix2 k q)) (v14 (ix2 0 q)) (v19 (ix2 p q)) :=
  sage_at v0 v3 v6 v9 v14 v19 p q

end Cert.Pay

end
-- ==== Proof.Tiles.lean ====
/-
  From a tile to the whole array.

  Each kernel body reads row `p` of its 2000-row data tiles and the whole weight and bias arrays. If row `p` of a
  tile is row `r` of the array the tile was cut from, the body's entry `(p, q)` is the whole-array function's entry
  `(r, q)`: the row functions see the same 128 numbers.
-/
import proofs.«131491_j37014028156991_1_alg».proof.Proof.Pay

noncomputable section

namespace Cert.Tiles

open Idealize.ShloMosaic Idealize.ShloMosaic.ValueIdx Cert.KernelIdeal Cert.KernelIdeal.Gen Cert.Rows Cert.Pay

/-- The all-zero offset of a whole-tile access. -/
theorem hz : (![0, 0] : Fin 2 → Nat) = fun _ => 0 := funext fun a => by fin_cases a <;> rfl

/-- The input projection's tile. -/
theorem lin_tile (a0 : (⟨2, ![100000, 128]⟩ : Shape).Idx → EReal) (a1 : (⟨2, ![128, 128]⟩ : Shape).Idx → EReal)
    (a2 : (⟨2, ![1, 128]⟩ : Shape).Idx → EReal)
    (x0 : Vec Ideal S2000x128 .f32) (x1 : Vec Ideal S128x128 .f32) (x2 : Vec Ideal S1x128 .f32)
    (p : Fin 2000) (q : Fin 128) (r : Fin 100000)
    (h0 : ∀ k : Fin 128, x0 (ix2 p k) = a0 (ix2 r k)) (h1 : ∀ k : Fin 128, x1 (ix2 k q) = a1 (ix2 k q))
    (h2 : x2 (ix2 0 q) = a2 (ix2 0 q)) :
    k0_pay1 (F := Ideal) x0 x1 x2 (ix2 p q) = linA a0 a1 a2 (ix2 r q) := by
  refine (lin_at x0 x1 x2 p q).trans ?_
  show affRow _ _ _ = affRow (fun k => a0 (ix2 r k)) (fun k => a1 (ix2 k q)) (a2 (ix2 0 q))
  rw [funext h0, funext h1, h2]

/-- The output projection's tile. -/
theorem lin64_tile (a0 : (⟨2, ![100000, 128]⟩ : Shape).Idx → EReal) (a1 : (⟨2, ![128, 64]⟩ : Shape).Idx → EReal)
    (a2 : (⟨2, ![1, 64]⟩ : Shape).Idx → EReal)
    (x0 : Vec Ideal S2000x128 .f32) (x1 : Vec Ideal S128x64 .f32) (x2 : Vec Ideal S1x64 .f32)
    (p : Fin 2000) (q : Fin 64) (r : Fin 100000)
    (h0 : ∀ k : Fin 128, x0 (ix2 p k) = a0 (ix2 r k)) (h1 : ∀ k : Fin 128, x1 (ix2 k q) = a1 (ix2 k q))
    (h2 : x2 (ix2 0 q) = a2 (ix2 0 q)) :
    k8_pay1 (F := Ideal) x0 x1 x2 (ix2 p q) = linA a0 a1 a2 (ix2 r q) := by
  refine (lin64_at x0 x1 x2 p q).trans ?_
  show affRow _ _ _ = affRow (fun k => a0 (ix2 r k)) (fun k => a1 (ix2 k q)) (a2 (ix2 0 q))
  rw [funext h0, funext h1, h2]

/-- The normalisation's tile. -/
theorem ln_tile (a0 : (⟨2, ![100000, 128]⟩ : Shape).Idx → EReal) (a1 a2 : (⟨2, ![1, 128]⟩ : Shape).Idx → EReal)
    (x0 : Vec Ideal S2000x128 .f32) (x1 x2 : Vec Ideal S1x128 .f32)
    (p : Fin 2000) (q : Fin 128) (r : Fin 100000)
    (h0 : ∀ k : Fin 128, x0 (ix2 p k) = a0 (ix2 r k)) (h1 : x1 (ix2 0 q) = a1 (ix2 0 q)) (h2 : x2 (ix2 0 q) = a2 (ix2 0 q)) :
    k1_pay1 (F := Ideal) x0 x1 x2 (ix2 p q) = lnA a0 a1 a2 (ix2 r q) := by
  refine (ln_at x0 x1 x2 p q).trans ?_
  show lnRow _ _ _ _ = lnRow (fun k => a0 (ix2 r k)) (a1 (ix2 0 q)) (a2 (ix2 0 q)) q
  rw [funext h0, h1, h2]

/-- The convolution update's tile. -/
theorem sage_tile (a0 a1 a2 : (⟨2, ![100000, 128]⟩ : Shape).Idx → EReal) (a3 : (⟨2, ![128, 128]⟩ : Shape).Idx → EReal)
    (a4 : (⟨2, ![1, 128]⟩ : Shape).Idx → EReal) (a5 : (⟨2, ![128, 128]⟩ : Shape).Idx → EReal)
    (x0 x1 x2 : Vec Ideal S2000x128 .f32) (x3 : Vec Ideal S128x128 .f32) (x4 : Vec Ideal S1x128 .f32) (x5 : Vec Ideal S128x128 .f32)
    (p : Fin 2000) (q : Fin 128) (r : Fin 100000)
    (h0 : ∀ k : Fin 128, x0 (ix2 p k) = a0 (ix2 r k)) (h1 : ∀ k : Fin 128, x1 (ix2 p k) = a1 (ix2 r k))
    (h2 : x2 (ix2 p q) = a2 (ix2 r q)) (h3 : ∀ k : Fin 128, x3 (ix2 k q) = a3 (ix2 k q))
    (h4 : x4 (ix2 0 q) = a4 (ix2 0 q)) (h5 : ∀ k : Fin 128, x5 (ix2 k q) = a5 (ix2 k q)) :
    k2_pay1 (F := Ideal) x0 x1 x3 x5 x4 x2 (ix2 p q) = sageA a0 a1 a2 a3 a4 a5 (ix2 r q) := by
  refine (sage_at x0 x1 x3 x5 x4 x2 p q).trans ?_
  show sageRow _ _ _ _ _ _ = sageRow (fun k => a0 (ix2 r k)) (fun k => a1 (ix2 r k)) (fun k => a3 (ix2 k q))
    (fun k => a5 (ix2 k q)) (a4 (ix2 0 q)) (a2 (ix2 r q))
  rw [funext h0, funext h1, funext h3, funext h5, h4, h2]

end Cert.Tiles

end
-- ==== Proof.Region0.lean ====
/-
  The input projection's region: the array it leaves.

  The region runs its body at 50 grid points; point `t` sees rows `2000·t … 2000·t + 1999` of the data array and the
  whole weight and bias arrays, and writes back the same rows of the result. Row `p` of the tile at point `t` is row
  `2000·t + p` of the array, so what point `t` writes back is that block of `linA` of the three arrays as the region
  finds them; the 50 blocks cover all 100000 rows, so the result array ends as `linA` of them.
-/
import proofs.«131491_j37014028156991_1_alg».proof.Proof.Gen.KernelIdeal.Frame
import proofs.«131491_j37014028156991_1_alg».proof.Proof.Tiles

set_option maxRecDepth 16384

noncomputable section

namespace Cert.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Rows Cert.Tiles

variable (V : (c : Dev nD) → (b : Ref sig .tc) → Buf (Elt Ideal) ((c : Thread nD τ).loc b))

/-- The printed index maps over the grid: the data and result windows move one block of rows per point, the weight
    and bias windows stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `linA` of the arrays as the region finds them. -/
theorem flushed0 (c : Dev nD) (t : Fin cfg0.N) :
    (dat0 (F := Ideal) V c).flushed 3 t = ((cfg0.win 3).blk t).view.read (Elt Ideal)
      (linA (R := 100000) (C := 128) (V c main_arg0) (V c main_v4) (V c main_v5)) := by
  show (cfg0.win 3).cut (grid0.coords t) ((dat0 (F := Ideal) V c).after 3 t) = _
  rw [after0_3]
  unfold out0_3
  rw [View.canon_unit_zero hz]
  simp only [View.ld_unit_zero (S := S2000x128) hz, View.ld_unit_zero (S := S128x128) hz, View.ld_unit_zero (S := S1x128) hz]
  obtain ⟨e0, e1, e2, e3, e4, e5, e6, e7⟩ := idx0 t
  have ht : t.val < 50 := lt_of_lt_of_eq t.isLt N_0
  funext j
  obtain ⟨p, q, rfl⟩ : ∃ (p : Fin 2000) (q : Fin 128), j = ix2 p q := ⟨j 0, j 1, eq_ix2 j⟩
  have hr : t.val * 2000 + p.val < 100000 := by have := p.isLt; omega
  have hemb : ((cfg0.win 3).blk t).view.emb (ix2 p q) = ix2 (⟨t.val * 2000 + p.val, hr⟩ : Fin 100000) q := by
    funext a; apply Fin.ext
    match a with
    | ⟨0, _⟩ => show win0_3.index t (0 : Fin 2) * 2000 + 1 * p.val = t.val * 2000 + p.val; omega
    | ⟨1, _⟩ => show win0_3.index t (1 : Fin 2) * 128 + 1 * q.val = q.val; omega
  show k0_pay1 (F := Ideal) (iblk0 V c 0 t) (iblk0 V c 1 t) (iblk0 V c 2 t) (ix2 p q)
    = linA (R := 100000) (C := 128) (V c main_arg0) (V c main_v4) (V c main_v5) (((cfg0.win 3).blk t).view.emb (ix2 p q))
  rw [hemb]
  refine lin_tile _ _ _ _ _ _ p q _ (fun k => ?_) (fun k => ?_) ?_
  · show V c main_arg0 (((cfg0.win 0).blk t).view.emb (ix2 p k)) = V c main_arg0 (ix2 (⟨t.val * 2000 + p.val, hr⟩ : Fin 100000) k)
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * k.val = k.val; omega
  · show V c main_v4 (((cfg0.win 1).blk t).view.emb (ix2 k q)) = V c main_v4 (ix2 k q)
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  · show V c main_v5 (((cfg0.win 2).blk t).view.emb (ix2 0 q)) = V c main_v5 (ix2 0 q)
    refine congrArg _ (funext fun a => Fin.ext ?_)
    match a with
    | ⟨0, _⟩ => show win0_2.index t (0 : Fin 2) * 1 + 1 * 0 = 0; omega
    | ⟨1, _⟩ => show win0_2.index t (1 : Fin 2) * 128 + 1 * q.val = q.val; omega

/-- An index is in point `t`'s block iff each coordinate is in the block's range on its axis. -/
theorem mem_blk0 (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v6).slice (win0_3.rect t)).set ↔ _
  rw [View.set_slice_whole, Rect.mem_set_unit]
  exact Iff.rfl

/-- Every row is in the block of the point `row / 2000`. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 50 := N_0
  have hlt : (i 0).val / 2000 < cfg0.N := by rw [hN]; omega
  obtain ⟨-, -, -, -, -, -, e6, e7⟩ := idx0 ⟨(i 0).val / 2000, hlt⟩
  refine ⟨⟨(i 0).val / 2000, hlt⟩, flush0_3 _, ?_⟩
  rw [mem_blk0]
  intro a
  match a with
  | ⟨0, _⟩ =>
    show win0_3.index ⟨(i 0).val / 2000, hlt⟩ (0 : Fin 2) * 2000 ≤ (i 0).val ∧ (i 0).val < win0_3.index ⟨(i 0).val / 2000, hlt⟩ (0 : Fin 2) * 2000 + 2000
    rw [e6]; show (i 0).val / 2000 * 2000 ≤ (i 0).val ∧ (i 0).val < (i 0).val / 2000 * 2000 + 2000; omega
  | ⟨1, _⟩ =>
    show win0_3.index ⟨(i 0).val / 2000, hlt⟩ (1 : Fin 2) * 128 ≤ (i 1).val ∧ (i 1).val < win0_3.index ⟨(i 0).val / 2000, hlt⟩ (1 : Fin 2) * 128 + 128
    rw [e7]; omega

/-- The result array after the region. -/
theorem final0 (c : Dev nD) : (dat0 (F := Ideal) V c).arrAt 3 cfg0.N
    = linA (R := 100000) (C := 128) (V c main_arg0) (V c main_v4) (V c main_v5) :=
  (dat0 (F := Ideal) V c).arrAt_eq_of_cover 3 _ (fun t _ => flushed0 V c t) cover0

end Cert.Blocks

end
-- ==== Proof.Region1.lean ====
/-
  A normalisation region: the array it leaves.

  Point `t` of the 50-point grid sees rows `2000·t … 2000·t + 1999` of the hidden state and the whole gain and bias rows,
  and writes back the same rows of the result; each row is normalised on its own, so what point `t` writes back is that
  block of `lnA` of the three arrays as the region finds them, and the 50 blocks cover the result.
-/
import proofs.«131491_j37014028156991_1_alg».proof.Proof.Gen.KernelIdeal.Frame
import proofs.«131491_j37014028156991_1_alg».proof.Proof.Tiles

set_option maxRecDepth 16384

noncomputable section

namespace Cert.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Rows Cert.Tiles

variable (V : (c : Dev nD) → (b : Ref sig .tc) → Buf (Elt Ideal) ((c : Thread nD τ).loc b))

/-- The printed index maps over the grid: the data and result windows move one block of rows per point, the gain
    and bias windows stay. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `lnA` of the arrays as the region finds them. -/
theorem flushed1 (c : Dev nD) (t : Fin cfg1.N) :
    (dat1 (F := Ideal) V c).flushed 3 t = ((cfg1.win 3).blk t).view.read (Elt Ideal)
      (lnA (R := 100000) (V c main_v6) (V c main_v14) (V c main_v15)) := by
  show (cfg1.win 3).cut (grid1.coords t) ((dat1 (F := Ideal) V c).after 3 t) = _
  rw [after1_3]
  unfold out1_3
  rw [View.canon_unit_zero hz]
  simp only [View.ld_unit_zero (S := S2000x128) hz, View.ld_unit_zero (S := S1x128) hz]
  obtain ⟨e0, e1, e2, e3, e4, e5, e6, e7⟩ := idx1 t
  have ht : t.val < 50 := lt_of_lt_of_eq t.isLt N_1
  funext j
  obtain ⟨p, q, rfl⟩ : ∃ (p : Fin 2000) (q : Fin 128), j = ix2 p q := ⟨j 0, j 1, eq_ix2 j⟩
  have hr : t.val * 2000 + p.val < 100000 := by have := p.isLt; omega
  have hemb : ((cfg1.win 3).blk t).view.emb (ix2 p q) = ix2 (⟨t.val * 2000 + p.val, hr⟩ : Fin 100000) q := by
    funext a; apply Fin.ext
    match a with
    | ⟨0, _⟩ => show win1_3.index t (0 : Fin 2) * 2000 + 1 * p.val = t.val * 2000 + p.val; omega
    | ⟨1, _⟩ => show win1_3.index t (1 : Fin 2) * 128 + 1 * q.val = q.val; omega
  show k1_pay1 (F := Ideal) (iblk1 V c 0 t) (iblk1 V c 1 t) (iblk1 V c 2 t) (ix2 p q)
    = lnA (R := 100000) (V c main_v6) (V c main_v14) (V c main_v15) (((cfg1.win 3).blk t).view.emb (ix2 p q))
  rw [hemb]
  refine ln_tile _ _ _ _ _ _ p q _ (fun k => ?_) ?_ ?_
  · show V c main_v6 (((cfg1.win 0).blk t).view.emb (ix2 p k)) = V c main_v6 (ix2 (⟨t.val * 2000 + p.val, hr⟩ : Fin 100000) k)
    refine congrArg _ (funext fun a => Fin.ext ?_)
    match a with
    | ⟨0, _⟩ => show win1_0.index t (0 : Fin 2) * 2000 + 1 * p.val = t.val * 2000 + p.val; omega
    | ⟨1, _⟩ => show win1_0.index t (1 : Fin 2) * 128 + 1 * k.val = k.val; omega
  · show V c main_v14 (((cfg1.win 1).blk t).view.emb (ix2 0 q)) = V c main_v14 (ix2 0 q)
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega
  · show V c main_v15 (((cfg1.win 2).blk t).view.emb (ix2 0 q)) = V c main_v15 (ix2 0 q)
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega

/-- An index is in point `t`'s block iff each coordinate is in the block's range on its axis. -/
theorem mem_blk1 (t : Fin cfg1.N) (i : S100000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v16).slice (win1_3.rect t)).set ↔ _
  rw [View.set_slice_whole, Rect.mem_set_unit]
  exact Iff.rfl

/-- Every row is in the block of the point `row / 2000`. -/
theorem cover1 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 50 := N_1
  have hlt : (i 0).val / 2000 < cfg1.N := by rw [hN]; omega
  obtain ⟨-, -, -, -, -, -, e6, e7⟩ := idx1 ⟨(i 0).val / 2000, hlt⟩
  refine ⟨⟨(i 0).val / 2000, hlt⟩, flush1_3 _, ?_⟩
  rw [mem_blk1]
  intro a
  match a with
  | ⟨0, _⟩ =>
    show win1_3.index ⟨(i 0).val / 2000, hlt⟩ (0 : Fin 2) * 2000 ≤ (i 0).val ∧ (i 0).val < win1_3.index ⟨(i 0).val / 2000, hlt⟩ (0 : Fin 2) * 2000 + 2000
    rw [e6]; show (i 0).val / 2000 * 2000 ≤ (i 0).val ∧ (i 0).val < (i 0).val / 2000 * 2000 + 2000; omega
  | ⟨1, _⟩ =>
    show win1_3.index ⟨(i 0).val / 2000, hlt⟩ (1 : Fin 2) * 128 ≤ (i 1).val ∧ (i 1).val < win1_3.index ⟨(i 0).val / 2000, hlt⟩ (1 : Fin 2) * 128 + 128
    rw [e7]; omega

/-- The result array after the region. -/
theorem final1 (c : Dev nD) : (dat1 (F := Ideal) V c).arrAt 3 cfg1.N
    = lnA (R := 100000) (V c main_v6) (V c main_v14) (V c main_v15) :=
  (dat1 (F := Ideal) V c).arrAt_eq_of_cover 3 _ (fun t _ => flushed1 V c t) cover1

end Cert.Blocks

end
-- ==== Proof.Region2.lean ====
/-
  A convolution-update region: the array it leaves.

  Point `t` of the 50-point grid sees rows `2000·t … 2000·t + 1999` of the aggregated array, of the normalised state
  and of the hidden state, and the whole weight and bias arrays, and writes back the same rows of the result. An entry of
  the update depends on its own row of the three data arrays only, so what point `t` writes back is that block of
  `sageA` of the six arrays as the region finds them, and the 50 blocks cover the result.
-/
import proofs.«131491_j37014028156991_1_alg».proof.Proof.Gen.KernelIdeal.Frame
import proofs.«131491_j37014028156991_1_alg».proof.Proof.Tiles

set_option maxRecDepth 16384

noncomputable section

namespace Cert.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Rows Cert.Tiles

variable (V : (c : Dev nD) → (b : Ref sig .tc) → Buf (Elt Ideal) ((c : Thread nD τ).loc b))

/-- The printed index maps over the grid: the three data windows and the result window move one block of rows per
    point, the weight and bias windows stay. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- What point `t` writes back is block `t` of `sageA` of the arrays as the region finds them. -/
theorem flushed2 (c : Dev nD) (t : Fin cfg2.N) :
    (dat2 (F := Ideal) V c).flushed 6 t = ((cfg2.win 6).blk t).view.read (Elt Ideal)
      (sageA (R := 100000) (V c main_v34) (V c main_v16) (V c main_v6) (V c main_v36) (V c main_v41) (V c main_v40)) := by
  show (cfg2.win 6).cut (grid2.coords t) ((dat2 (F := Ideal) V c).after 6 t) = _
  rw [after2_6]
  unfold out2_6
  rw [View.canon_unit_zero hz]
  simp only [View.ld_unit_zero (S := S2000x128) hz, View.ld_unit_zero (S := S128x128) hz, View.ld_unit_zero (S := S1x128) hz]
  obtain ⟨e0, e1, e2, e3, e4, e5, e6, e7, e8, e9, e10, e11, e12, e13⟩ := idx2 t
  have ht : t.val < 50 := lt_of_lt_of_eq t.isLt N_2
  funext j
  obtain ⟨p, q, rfl⟩ : ∃ (p : Fin 2000) (q : Fin 128), j = ix2 p q := ⟨j 0, j 1, eq_ix2 j⟩
  have hr : t.val * 2000 + p.val < 100000 := by have := p.isLt; omega
  have hemb : ((cfg2.win 6).blk t).view.emb (ix2 p q) = ix2 (⟨t.val * 2000 + p.val, hr⟩ : Fin 100000) q := by
    funext a; apply Fin.ext
    match a with
    | ⟨0, _⟩ => show win2_6.index t (0 : Fin 2) * 2000 + 1 * p.val = t.val * 2000 + p.val; omega
    | ⟨1, _⟩ => show win2_6.index t (1 : Fin 2) * 128 + 1 * q.val = q.val; omega
  show k2_pay1 (F := Ideal) (iblk2 V c 0 t) (iblk2 V c 1 t) (iblk2 V c 3 t) (iblk2 V c 5 t) (iblk2 V c 4 t) (iblk2 V c 2 t) (ix2 p q)
    = sageA (R := 100000) (V c main_v34) (V c main_v16) (V c main_v6) (V c main_v36) (V c main_v41) (V c main_v40)
        (((cfg2.win 6).blk t).view.emb (ix2 p q))
  rw [hemb]
  refine sage_tile _ _ _ _ _ _ _ _ _ _ _ _ p q _ (fun k => ?_) (fun k => ?_) ?_ (fun k => ?_) ?_ (fun k => ?_)
  · show V c main_v34 (((cfg2.win 0).blk t).view.emb (ix2 p k)) = V c main_v34 (ix2 (⟨t.val * 2000 + p.val, hr⟩ : Fin 100000) k)
    refine congrArg _ (funext fun a => Fin.ext ?_)
    match a with
    | ⟨0, _⟩ => show win2_0.index t (0 : Fin 2) * 2000 + 1 * p.val = t.val * 2000 + p.val; omega
    | ⟨1, _⟩ => show win2_0.index t (1 : Fin 2) * 128 + 1 * k.val = k.val; omega
  · show V c main_v16 (((cfg2.win 1).blk t).view.emb (ix2 p k)) = V c main_v16 (ix2 (⟨t.val * 2000 + p.val, hr⟩ : Fin 100000) k)
    refine congrArg _ (funext fun a => Fin.ext ?_)
    match a with
    | ⟨0, _⟩ => show win2_1.index t (0 : Fin 2) * 2000 + 1 * p.val = t.val * 2000 + p.val; omega
    | ⟨1, _⟩ => show win2_1.index t (1 : Fin 2) * 128 + 1 * k.val = k.val; omega
  · show V c main_v6 (((cfg2.win 2).blk t).view.emb (ix2 p q)) = V c main_v6 (ix2 (⟨t.val * 2000 + p.val, hr⟩ : Fin 100000) q)
    refine congrArg _ (funext fun a => Fin.ext ?_)
    match a with
    | ⟨0, _⟩ => show win2_2.index t (0 : Fin 2) * 2000 + 1 * p.val = t.val * 2000 + p.val; omega
    | ⟨1, _⟩ => show win2_2.index t (1 : Fin 2) * 128 + 1 * q.val = q.val; omega
  · show V c main_v36 (((cfg2.win 3).blk t).view.emb (ix2 k q)) = V c main_v36 (ix2 k q)
    refine congrArg _ (funext fun a => Fin.ext ?_)
    match a with
    | ⟨0, _⟩ => show win2_3.index t (0 : Fin 2) * 128 + 1 * k.val = k.val; omega
    | ⟨1, _⟩ => show win2_3.index t (1 : Fin 2) * 128 + 1 * q.val = q.val; omega
  · show V c main_v41 (((cfg2.win 4).blk t).view.emb (ix2 0 q)) = V c main_v41 (ix2 0 q)
    refine congrArg _ (funext fun a => Fin.ext ?_)
    match a with
    | ⟨0, _⟩ => show win2_4.index t (0 : Fin 2) * 1 + 1 * 0 = 0; omega
    | ⟨1, _⟩ => show win2_4.index t (1 : Fin 2) * 128 + 1 * q.val = q.val; omega
  · show V c main_v40 (((cfg2.win 5).blk t).view.emb (ix2 k q)) = V c main_v40 (ix2 k q)
    refine congrArg _ (funext fun a => Fin.ext ?_)
    match a with
    | ⟨0, _⟩ => show win2_5.index t (0 : Fin 2) * 128 + 1 * k.val = k.val; omega
    | ⟨1, _⟩ => show win2_5.index t (1 : Fin 2) * 128 + 1 * q.val = q.val; omega

/-- An index is in point `t`'s block iff each coordinate is in the block's range on its axis. -/
theorem mem_blk2 (t : Fin cfg2.N) (i : S100000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v42).slice (win2_6.rect t)).set ↔ _
  rw [View.set_slice_whole, Rect.mem_set_unit]
  exact Iff.rfl

/-- Every row is in the block of the point `row / 2000`. -/
theorem cover2 (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 50 := N_2
  have hlt : (i 0).val / 2000 < cfg2.N := by rw [hN]; omega
  obtain ⟨-, -, -, -, -, -, -, -, -, -, -, -, e12, e13⟩ := idx2 ⟨(i 0).val / 2000, hlt⟩
  refine ⟨⟨(i 0).val / 2000, hlt⟩, flush2_6 _, ?_⟩
  rw [mem_blk2]
  intro a
  match a with
  | ⟨0, _⟩ =>
    show win2_6.index ⟨(i 0).val / 2000, hlt⟩ (0 : Fin 2) * 2000 ≤ (i 0).val ∧ (i 0).val < win2_6.index ⟨(i 0).val / 2000, hlt⟩ (0 : Fin 2) * 2000 + 2000
    rw [e12]; show (i 0).val / 2000 * 2000 ≤ (i 0).val ∧ (i 0).val < (i 0).val / 2000 * 2000 + 2000; omega
  | ⟨1, _⟩ =>
    show win2_6.index ⟨(i 0).val / 2000, hlt⟩ (1 : Fin 2) * 128 ≤ (i 1).val ∧ (i 1).val < win2_6.index ⟨(i 0).val / 2000, hlt⟩ (1 : Fin 2) * 128 + 128
    rw [e13]; omega

/-- The result array after the region. -/
theorem final2 (c : Dev nD) : (dat2 (F := Ideal) V c).arrAt 6 cfg2.N
    = sageA (R := 100000) (V c main_v34) (V c main_v16) (V c main_v6) (V c main_v36) (V c main_v41) (V c main_v40) :=
  (dat2 (F := Ideal) V c).arrAt_eq_of_cover 6 _ (fun t _ => flushed2 V c t) cover2

end Cert.Blocks

end
-- ==== Proof.Region3.lean ====
/-
  A normalisation region: the array it leaves.

  Point `t` of the 50-point grid sees rows `2000·t … 2000·t + 1999` of the hidden state and the whole gain and bias rows,
  and writes back the same rows of the result; each row is normalised on its own, so what point `t` writes back is that
  block of `lnA` of the three arrays as the region finds them, and the 50 blocks cover the result.
-/
import proofs.«131491_j37014028156991_1_alg».proof.Proof.Gen.KernelIdeal.Frame
import proofs.«131491_j37014028156991_1_alg».proof.Proof.Tiles

set_option maxRecDepth 16384

noncomputable section

namespace Cert.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Rows Cert.Tiles

variable (V : (c : Dev nD) → (b : Ref sig .tc) → Buf (Elt Ideal) ((c : Thread nD τ).loc b))

/-- The printed index maps over the grid: the data and result windows move one block of rows per point, the gain
    and bias windows stay. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point `t` writes back is block `t` of `lnA` of the arrays as the region finds them. -/
theorem flushed3 (c : Dev nD) (t : Fin cfg3.N) :
    (dat3 (F := Ideal) V c).flushed 3 t = ((cfg3.win 3).blk t).view.read (Elt Ideal)
      (lnA (R := 100000) (V c main_v42) (V c main_v47) (V c main_v48)) := by
  show (cfg3.win 3).cut (grid3.coords t) ((dat3 (F := Ideal) V c).after 3 t) = _
  rw [after3_3]
  unfold out3_3
  rw [View.canon_unit_zero hz]
  simp only [View.ld_unit_zero (S := S2000x128) hz, View.ld_unit_zero (S := S1x128) hz]
  obtain ⟨e0, e1, e2, e3, e4, e5, e6, e7⟩ := idx3 t
  have ht : t.val < 50 := lt_of_lt_of_eq t.isLt N_3
  funext j
  obtain ⟨p, q, rfl⟩ : ∃ (p : Fin 2000) (q : Fin 128), j = ix2 p q := ⟨j 0, j 1, eq_ix2 j⟩
  have hr : t.val * 2000 + p.val < 100000 := by have := p.isLt; omega
  have hemb : ((cfg3.win 3).blk t).view.emb (ix2 p q) = ix2 (⟨t.val * 2000 + p.val, hr⟩ : Fin 100000) q := by
    funext a; apply Fin.ext
    match a with
    | ⟨0, _⟩ => show win3_3.index t (0 : Fin 2) * 2000 + 1 * p.val = t.val * 2000 + p.val; omega
    | ⟨1, _⟩ => show win3_3.index t (1 : Fin 2) * 128 + 1 * q.val = q.val; omega
  show k1_pay1 (F := Ideal) (iblk3 V c 0 t) (iblk3 V c 1 t) (iblk3 V c 2 t) (ix2 p q)
    = lnA (R := 100000) (V c main_v42) (V c main_v47) (V c main_v48) (((cfg3.win 3).blk t).view.emb (ix2 p q))
  rw [hemb]
  refine ln_tile _ _ _ _ _ _ p q _ (fun k => ?_) ?_ ?_
  · show V c main_v42 (((cfg3.win 0).blk t).view.emb (ix2 p k)) = V c main_v42 (ix2 (⟨t.val * 2000 + p.val, hr⟩ : Fin 100000) k)
    refine congrArg _ (funext fun a => Fin.ext ?_)
    match a with
    | ⟨0, _⟩ => show win3_0.index t (0 : Fin 2) * 2000 + 1 * p.val = t.val * 2000 + p.val; omega
    | ⟨1, _⟩ => show win3_0.index t (1 : Fin 2) * 128 + 1 * k.val = k.val; omega
  · show V c main_v47 (((cfg3.win 1).blk t).view.emb (ix2 0 q)) = V c main_v47 (ix2 0 q)
    refine congrArg _ (funext fun a => Fin.ext ?_)
    match a with
    | ⟨0, _⟩ => show win3_1.index t (0 : Fin 2) * 1 + 1 * 0 = 0; omega
    | ⟨1, _⟩ => show win3_1.index t (1 : Fin 2) * 128 + 1 * q.val = q.val; omega
  · show V c main_v48 (((cfg3.win 2).blk t).view.emb (ix2 0 q)) = V c main_v48 (ix2 0 q)
    refine congrArg _ (funext fun a => Fin.ext ?_)
    match a with
    | ⟨0, _⟩ => show win3_2.index t (0 : Fin 2) * 1 + 1 * 0 = 0; omega
    | ⟨1, _⟩ => show win3_2.index t (1 : Fin 2) * 128 + 1 * q.val = q.val; omega

/-- An index is in point `t`'s block iff each coordinate is in the block's range on its axis. -/
theorem mem_blk3 (t : Fin cfg3.N) (i : S100000x128.Idx) :
    i ∈ ((cfg3.win 3).blk t).view.set ↔ ∀ a : Fin 2, win3_3.index t a * S2000x128.size a ≤ (i a).val ∧ (i a).val < win3_3.index t a * S2000x128.size a + S2000x128.size a := by
  show i ∈ ((View.whole main_v49).slice (win3_3.rect t)).set ↔ _
  rw [View.set_slice_whole, Rect.mem_set_unit]
  exact Iff.rfl

/-- Every row is in the block of the point `row / 2000`. -/
theorem cover3 (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 50 := N_3
  have hlt : (i 0).val / 2000 < cfg3.N := by rw [hN]; omega
  obtain ⟨-, -, -, -, -, -, e6, e7⟩ := idx3 ⟨(i 0).val / 2000, hlt⟩
  refine ⟨⟨(i 0).val / 2000, hlt⟩, flush3_3 _, ?_⟩
  rw [mem_blk3]
  intro a
  match a with
  | ⟨0, _⟩ =>
    show win3_3.index ⟨(i 0).val / 2000, hlt⟩ (0 : Fin 2) * 2000 ≤ (i 0).val ∧ (i 0).val < win3_3.index ⟨(i 0).val / 2000, hlt⟩ (0 : Fin 2) * 2000 + 2000
    rw [e6]; show (i 0).val / 2000 * 2000 ≤ (i 0).val ∧ (i 0).val < (i 0).val / 2000 * 2000 + 2000; omega
  | ⟨1, _⟩ =>
    show win3_3.index ⟨(i 0).val / 2000, hlt⟩ (1 : Fin 2) * 128 ≤ (i 1).val ∧ (i 1).val < win3_3.index ⟨(i 0).val / 2000, hlt⟩ (1 : Fin 2) * 128 + 128
    rw [e7]; omega

/-- The result array after the region. -/
theorem final3 (c : Dev nD) : (dat3 (F := Ideal) V c).arrAt 3 cfg3.N
    = lnA (R := 100000) (V c main_v42) (V c main_v47) (V c main_v48) :=
  (dat3 (F := Ideal) V c).arrAt_eq_of_cover 3 _ (fun t _ => flushed3 V c t) cover3

end Cert.Blocks

end
-- ==== Proof.Region4.lean ====
/-
  A convolution-update region: the array it leaves.

  Point `t` of the 50-point grid sees rows `2000·t … 2000·t + 1999` of the aggregated array, of the normalised state
  and of the hidden state, and the whole weight and bias arrays, and writes back the same rows of the result. An entry of
  the update depends on its own row of the three data arrays only, so what point `t` writes back is that block of
  `sageA` of the six arrays as the region finds them, and the 50 blocks cover the result.
-/
import proofs.«131491_j37014028156991_1_alg».proof.Proof.Gen.KernelIdeal.Frame
import proofs.«131491_j37014028156991_1_alg».proof.Proof.Tiles

set_option maxRecDepth 16384

noncomputable section

namespace Cert.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Rows Cert.Tiles

variable (V : (c : Dev nD) → (b : Ref sig .tc) → Buf (Elt Ideal) ((c : Thread nD τ).loc b))

/-- The printed index maps over the grid: the three data windows and the result window move one block of rows per
    point, the weight and bias windows stay. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- What point `t` writes back is block `t` of `sageA` of the arrays as the region finds them. -/
theorem flushed4 (c : Dev nD) (t : Fin cfg4.N) :
    (dat4 (F := Ideal) V c).flushed 6 t = ((cfg4.win 6).blk t).view.read (Elt Ideal)
      (sageA (R := 100000) (V c main_v67) (V c main_v49) (V c main_v42) (V c main_v69) (V c main_v74) (V c main_v73)) := by
  show (cfg4.win 6).cut (grid4.coords t) ((dat4 (F := Ideal) V c).after 6 t) = _
  rw [after4_6]
  unfold out4_6
  rw [View.canon_unit_zero hz]
  simp only [View.ld_unit_zero (S := S2000x128) hz, View.ld_unit_zero (S := S128x128) hz, View.ld_unit_zero (S := S1x128) hz]
  obtain ⟨e0, e1, e2, e3, e4, e5, e6, e7, e8, e9, e10, e11, e12, e13⟩ := idx4 t
  have ht : t.val < 50 := lt_of_lt_of_eq t.isLt N_4
  funext j
  obtain ⟨p, q, rfl⟩ : ∃ (p : Fin 2000) (q : Fin 128), j = ix2 p q := ⟨j 0, j 1, eq_ix2 j⟩
  have hr : t.val * 2000 + p.val < 100000 := by have := p.isLt; omega
  have hemb : ((cfg4.win 6).blk t).view.emb (ix2 p q) = ix2 (⟨t.val * 2000 + p.val, hr⟩ : Fin 100000) q := by
    funext a; apply Fin.ext
    match a with
    | ⟨0, _⟩ => show win4_6.index t (0 : Fin 2) * 2000 + 1 * p.val = t.val * 2000 + p.val; omega
    | ⟨1, _⟩ => show win4_6.index t (1 : Fin 2) * 128 + 1 * q.val = q.val; omega
  show k2_pay1 (F := Ideal) (iblk4 V c 0 t) (iblk4 V c 1 t) (iblk4 V c 3 t) (iblk4 V c 5 t) (iblk4 V c 4 t) (iblk4 V c 2 t) (ix2 p q)
    = sageA (R := 100000) (V c main_v67) (V c main_v49) (V c main_v42) (V c main_v69) (V c main_v74) (V c main_v73)
        (((cfg4.win 6).blk t).view.emb (ix2 p q))
  rw [hemb]
  refine sage_tile _ _ _ _ _ _ _ _ _ _ _ _ p q _ (fun k => ?_) (fun k => ?_) ?_ (fun k => ?_) ?_ (fun k => ?_)
  · show V c main_v67 (((cfg4.win 0).blk t).view.emb (ix2 p k)) = V c main_v67 (ix2 (⟨t.val * 2000 + p.val, hr⟩ : Fin 100000) k)
    refine congrArg _ (funext fun a => Fin.ext ?_)
    match a with
    | ⟨0, _⟩ => show win4_0.index t (0 : Fin 2) * 2000 + 1 * p.val = t.val * 2000 + p.val; omega
    | ⟨1, _⟩ => show win4_0.index t (1 : Fin 2) * 128 + 1 * k.val = k.val; omega
  · show V c main_v49 (((cfg4.win 1).blk t).view.emb (ix2 p k)) = V c main_v49 (ix2 (⟨t.val * 2000 + p.val, hr⟩ : Fin 100000) k)
    refine congrArg _ (funext fun a => Fin.ext ?_)
    match a with
    | ⟨0, _⟩ => show win4_1.index t (0 : Fin 2) * 2000 + 1 * p.val = t.val * 2000 + p.val; omega
    | ⟨1, _⟩ => show win4_1.index t (1 : Fin 2) * 128 + 1 * k.val = k.val; omega
  · show V c main_v42 (((cfg4.win 2).blk t).view.emb (ix2 p q)) = V c main_v42 (ix2 (⟨t.val * 2000 + p.val, hr⟩ : Fin 100000) q)
    refine congrArg _ (funext fun a => Fin.ext ?_)
    match a with
    | ⟨0, _⟩ => show win4_2.index t (0 : Fin 2) * 2000 + 1 * p.val = t.val * 2000 + p.val; omega
    | ⟨1, _⟩ => show win4_2.index t (1 : Fin 2) * 128 + 1 * q.val = q.val; omega
  · show V c main_v69 (((cfg4.win 3).blk t).view.emb (ix2 k q)) = V c main_v69 (ix2 k q)
    refine congrArg _ (funext fun a => Fin.ext ?_)
    match a with
    | ⟨0, _⟩ => show win4_3.index t (0 : Fin 2) * 128 + 1 * k.val = k.val; omega
    | ⟨1, _⟩ => show win4_3.index t (1 : Fin 2) * 128 + 1 * q.val = q.val; omega
  · show V c main_v74 (((cfg4.win 4).blk t).view.emb (ix2 0 q)) = V c main_v74 (ix2 0 q)
    refine congrArg _ (funext fun a => Fin.ext ?_)
    match a with
    | ⟨0, _⟩ => show win4_4.index t (0 : Fin 2) * 1 + 1 * 0 = 0; omega
    | ⟨1, _⟩ => show win4_4.index t (1 : Fin 2) * 128 + 1 * q.val = q.val; omega
  · show V c main_v73 (((cfg4.win 5).blk t).view.emb (ix2 k q)) = V c main_v73 (ix2 k q)
    refine congrArg _ (funext fun a => Fin.ext ?_)
    match a with
    | ⟨0, _⟩ => show win4_5.index t (0 : Fin 2) * 128 + 1 * k.val = k.val; omega
    | ⟨1, _⟩ => show win4_5.index t (1 : Fin 2) * 128 + 1 * q.val = q.val; omega

/-- An index is in point `t`'s block iff each coordinate is in the block's range on its axis. -/
theorem mem_blk4 (t : Fin cfg4.N) (i : S100000x128.Idx) :
    i ∈ ((cfg4.win 6).blk t).view.set ↔ ∀ a : Fin 2, win4_6.index t a * S2000x128.size a ≤ (i a).val ∧ (i a).val < win4_6.index t a * S2000x128.size a + S2000x128.size a := by
  show i ∈ ((View.whole main_v75).slice (win4_6.rect t)).set ↔ _
  rw [View.set_slice_whole, Rect.mem_set_unit]
  exact Iff.rfl

/-- Every row is in the block of the point `row / 2000`. -/
theorem cover4 (i : S100000x128.Idx) : ∃ t : Fin cfg4.N, (cfg4.win 6).flush t = true ∧ i ∈ ((cfg4.win 6).blk t).view.set := by
  have hi0 : (i 0).val < 100000 := (i 0).isLt
  have hi1 : (i 1).val < 128 := (i 1).isLt
  have hN : cfg4.N = 50 := N_4
  have hlt : (i 0).val / 2000 < cfg4.N := by rw [hN]; omega
  obtain ⟨-, -, -, -, -, -, -, -, -, -, -, -, e12, e13⟩ := idx4 ⟨(i 0).val / 2000, hlt⟩
  refine ⟨⟨(i 0).val / 2000, hlt⟩, flush4_6 _, ?_⟩
  rw [mem_blk4]
  intro a
  match a with
  | ⟨0, _⟩ =>
    show win4_6.index ⟨(i 0).val / 2000, hlt⟩ (0 : Fin 2) * 2000 ≤ (i 0).val ∧ (i 0).val < win4_6.index ⟨(i 0).val / 2000, hlt⟩ (0 : Fin 2) * 2000 + 2000
    rw [e12]; show (i 0).val / 2000 * 2000 ≤ (i 0).val ∧ (i 0).val < (i 0).val / 2000 * 2000 + 2000; omega
  | ⟨1, _⟩ =>
    show win4_6.index ⟨(i 0).val / 2000, hlt⟩ (1 : Fin 2) * 128 ≤ (i 1).val ∧ (i 1).val < win4_6.index ⟨(i 0).val / 2000, hlt⟩ (1 : Fin 2) * 128 + 128
    rw [e13]; omega

/-- The result array after the region. -/
theorem final4 (c : Dev nD) : (dat4 (F := Ideal) V c).arrAt 6 cfg4.N
    = sageA (R := 100000) (V c main_v67) (V c main_v49) (V c main_v42) (V c main_v69) (V c main_v74) (V c main_v73) :=
  (dat4 (F := Ideal) V c).arrAt_eq_of_cover 6 _ (fun t _ => flushed4 V c t) cover4

end Cert.Blocks

end
-- ==== Proof.Region5.lean ====
/-
  A normalisation region: the array it leaves.

  Point `t` of the 50-point grid sees rows `2000·t … 2000·t + 1999` of the hidden state and the whole gain and bias rows,
  and writes back the same rows of the result; each row is normalised on its own, so what point `t` writes back is that
  block of `lnA` of the three arrays as the region finds them, and the 50 blocks cover the result.
-/
import proofs.«131491_j37014028156991_1_alg».proof.Proof.Gen.KernelIdeal.Frame
import proofs.«131491_j37014028156991_1_alg».proof.Proof.Tiles

set_option maxRecDepth 16384

noncomputable section

namespace Cert.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Rows Cert.Tiles

variable (V : (c : Dev nD) → (b : Ref sig .tc) → Buf (Elt Ideal) ((c : Thread nD τ).loc b))

/-- The printed index maps over the grid: the data and result windows move one block of rows per point, the gain
    and bias windows stay. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What point `t` writes back is block `t` of `lnA` of the arrays as the region finds them. -/
theorem flushed5 (c : Dev nD) (t : Fin cfg5.N) :
    (dat5 (F := Ideal) V c).flushed 3 t = ((cfg5.win 3).blk t).view.read (Elt Ideal)
      (lnA (R := 100000) (V c main_v75) (V c main_v80) (V c main_v81)) := by
  show (cfg5.win 3).cut (grid5.coords t) ((dat5 (F := Ideal) V c).after 3 t) = _
  rw [after5_3]
  unfold out5_3
  rw [View.canon_unit_zero hz]
  simp only [View.ld_unit_zero (S := S2000x128) hz, View.ld_unit_zero (S := S1x128) hz]
  obtain ⟨e0, e1, e2, e3, e4, e5, e6, e7⟩ := idx5 t
  have ht : t.val < 50 := lt_of_lt_of_eq t.isLt N_5
  funext j
  obtain ⟨p, q, rfl⟩ : ∃ (p : Fin 2000) (q : Fin 128), j = ix2 p q := ⟨j 0, j 1, eq_ix2 j⟩
  have hr : t.val * 2000 + p.val < 100000 := by have := p.isLt; omega
  have hemb : ((cfg5.win 3).blk t).view.emb (ix2 p q) = ix2 (⟨t.val * 2000 + p.val, hr⟩ : Fin 100000) q := by
    funext a; apply Fin.ext
    match a with
    | ⟨0, _⟩ => show win5_3.index t (0 : Fin 2) * 2000 + 1 * p.val = t.val * 2000 + p.val; omega
    | ⟨1, _⟩ => show win5_3.index t (1 : Fin 2) * 128 + 1 * q.val = q.val; omega
  show k1_pay1 (F := Ideal) (iblk5 V c 0 t) (iblk5 V c 1 t) (iblk5 V c 2 t) (ix2 p q)
    = lnA (R := 100000) (V c main_v75) (V c main_v80) (V c main_v81) (((cfg5.win 3).blk t).view.emb (ix2 p q))
  rw [hemb]
  refine ln_tile _ _ _ _ _ _ p q _ (fun k => ?_) ?_ ?_
  · show V c main_v75 (((cfg5.win 0).blk t).view.emb (ix2 p k)) = V c main_v75 (ix2 (⟨t.val * 2000 + p.val, hr⟩ : Fin 100000) k)
    refine congrArg _ (funext fun a => Fin.ext ?_)
    match a with
    | ⟨0, _⟩ => show win5_0.index t (0 : Fin 2) * 2000 + 1 * p.val = t.val * 2000 + p.val; omega
    | ⟨1, _⟩ => show win5_0.index t (1 : Fin 2) * 128 + 1 * k.val = k.val; omega
  · show V c main_v80 (((cfg5.win 1).blk t).view.emb (ix2 0 q)) = V c main_v80 (ix2 0 q)
    refine congrArg _ (funext fun a => Fin.ext ?_)
    match a with
    | ⟨0, _⟩ => show win5_1.index t (0 : Fin 2) * 1 + 1 * 0 = 0; omega
    | ⟨1, _⟩ => show win5_1.index t (1 : Fin 2) * 128 + 1 * q.val = q.val; omega
  · show V c main_v81 (((cfg5.win 2).blk t).view.emb (ix2 0 q)) = V c main_v81 (ix2 0 q)
    refine congrArg _ (funext fun a => Fin.ext ?_)
    match a with
    | ⟨0, _⟩ => show win5_2.index t (0 : Fin 2) * 1 + 1 * 0 = 0; omega
    | ⟨1, _⟩ => show win5_2.index t (1 : Fin 2) * 128 + 1 * q.val = q.val; omega

/-- An index is in point `t`'s block iff each coordinate is in the block's range on its axis. -/
theorem mem_blk5 (t : Fin cfg5.N) (i : S100000x128.Idx) :
    i ∈ ((cfg5.win 3).blk t).view.set ↔ ∀ a : Fin 2, win5_3.index t a * S2000x128.size a ≤ (i a).val ∧ (i a).val < win5_3.index t a * S2000x128.size a + S2000x128.size a := by
  show i ∈ ((View.whole main_v82).slice (win5_3.rect t)).set ↔ _
  rw [View.set_slice_whole, Rect.mem_set_unit]
  exact Iff.rfl

/-- Every row is in the block of the point `row / 2000`. -/
theorem cover5 (i : S100000x128.Idx) : ∃ t : Fin cfg5.N, (cfg5.win 3).flush t = true ∧ i ∈ ((cfg5.win 3).blk t).view.set := by
  have hi0 : (i 0).val < 100000 := (i 0).isLt
  have hi1 : (i 1).val < 128 := (i 1).isLt
  have hN : cfg5.N = 50 := N_5
  have hlt : (i 0).val / 2000 < cfg5.N := by rw [hN]; omega
  obtain ⟨-, -, -, -, -, -, e6, e7⟩ := idx5 ⟨(i 0).val / 2000, hlt⟩
  refine ⟨⟨(i 0).val / 2000, hlt⟩, flush5_3 _, ?_⟩
  rw [mem_blk5]
  intro a
  match a with
  | ⟨0, _⟩ =>
    show win5_3.index ⟨(i 0).val / 2000, hlt⟩ (0 : Fin 2) * 2000 ≤ (i 0).val ∧ (i 0).val < win5_3.index ⟨(i 0).val / 2000, hlt⟩ (0 : Fin 2) * 2000 + 2000
    rw [e6]; show (i 0).val / 2000 * 2000 ≤ (i 0).val ∧ (i 0).val < (i 0).val / 2000 * 2000 + 2000; omega
  | ⟨1, _⟩ =>
    show win5_3.index ⟨(i 0).val / 2000, hlt⟩ (1 : Fin 2) * 128 ≤ (i 1).val ∧ (i 1).val < win5_3.index ⟨(i 0).val / 2000, hlt⟩ (1 : Fin 2) * 128 + 128
    rw [e7]; omega

/-- The result array after the region. -/
theorem final5 (c : Dev nD) : (dat5 (F := Ideal) V c).arrAt 3 cfg5.N
    = lnA (R := 100000) (V c main_v75) (V c main_v80) (V c main_v81) :=
  (dat5 (F := Ideal) V c).arrAt_eq_of_cover 3 _ (fun t _ => flushed5 V c t) cover5

end Cert.Blocks

end
-- ==== Proof.Region6.lean ====
/-
  A convolution-update region: the array it leaves.

  Point `t` of the 50-point grid sees rows `2000·t … 2000·t + 1999` of the aggregated array, of the normalised state
  and of the hidden state, and the whole weight and bias arrays, and writes back the same rows of the result. An entry of
  the update depends on its own row of the three data arrays only, so what point `t` writes back is that block of
  `sageA` of the six arrays as the region finds them, and the 50 blocks cover the result.
-/
import proofs.«131491_j37014028156991_1_alg».proof.Proof.Gen.KernelIdeal.Frame
import proofs.«131491_j37014028156991_1_alg».proof.Proof.Tiles

set_option maxRecDepth 16384

noncomputable section

namespace Cert.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Rows Cert.Tiles

variable (V : (c : Dev nD) → (b : Ref sig .tc) → Buf (Elt Ideal) ((c : Thread nD τ).loc b))

/-- The printed index maps over the grid: the three data windows and the result window move one block of rows per
    point, the weight and bias windows stay. -/
theorem idx6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0 :=
  (by decide +kernel : ∀ t : Fin grid6.N, _)

/-- What point `t` writes back is block `t` of `sageA` of the arrays as the region finds them. -/
theorem flushed6 (c : Dev nD) (t : Fin cfg6.N) :
    (dat6 (F := Ideal) V c).flushed 6 t = ((cfg6.win 6).blk t).view.read (Elt Ideal)
      (sageA (R := 100000) (V c main_v100) (V c main_v82) (V c main_v75) (V c main_v102) (V c main_v107) (V c main_v106)) := by
  show (cfg6.win 6).cut (grid6.coords t) ((dat6 (F := Ideal) V c).after 6 t) = _
  rw [after6_6]
  unfold out6_6
  rw [View.canon_unit_zero hz]
  simp only [View.ld_unit_zero (S := S2000x128) hz, View.ld_unit_zero (S := S128x128) hz, View.ld_unit_zero (S := S1x128) hz]
  obtain ⟨e0, e1, e2, e3, e4, e5, e6, e7, e8, e9, e10, e11, e12, e13⟩ := idx6 t
  have ht : t.val < 50 := lt_of_lt_of_eq t.isLt N_6
  funext j
  obtain ⟨p, q, rfl⟩ : ∃ (p : Fin 2000) (q : Fin 128), j = ix2 p q := ⟨j 0, j 1, eq_ix2 j⟩
  have hr : t.val * 2000 + p.val < 100000 := by have := p.isLt; omega
  have hemb : ((cfg6.win 6).blk t).view.emb (ix2 p q) = ix2 (⟨t.val * 2000 + p.val, hr⟩ : Fin 100000) q := by
    funext a; apply Fin.ext
    match a with
    | ⟨0, _⟩ => show win6_6.index t (0 : Fin 2) * 2000 + 1 * p.val = t.val * 2000 + p.val; omega
    | ⟨1, _⟩ => show win6_6.index t (1 : Fin 2) * 128 + 1 * q.val = q.val; omega
  show k2_pay1 (F := Ideal) (iblk6 V c 0 t) (iblk6 V c 1 t) (iblk6 V c 3 t) (iblk6 V c 5 t) (iblk6 V c 4 t) (iblk6 V c 2 t) (ix2 p q)
    = sageA (R := 100000) (V c main_v100) (V c main_v82) (V c main_v75) (V c main_v102) (V c main_v107) (V c main_v106)
        (((cfg6.win 6).blk t).view.emb (ix2 p q))
  rw [hemb]
  refine sage_tile _ _ _ _ _ _ _ _ _ _ _ _ p q _ (fun k => ?_) (fun k => ?_) ?_ (fun k => ?_) ?_ (fun k => ?_)
  · show V c main_v100 (((cfg6.win 0).blk t).view.emb (ix2 p k)) = V c main_v100 (ix2 (⟨t.val * 2000 + p.val, hr⟩ : Fin 100000) k)
    refine congrArg _ (funext fun a => Fin.ext ?_)
    match a with
    | ⟨0, _⟩ => show win6_0.index t (0 : Fin 2) * 2000 + 1 * p.val = t.val * 2000 + p.val; omega
    | ⟨1, _⟩ => show win6_0.index t (1 : Fin 2) * 128 + 1 * k.val = k.val; omega
  · show V c main_v82 (((cfg6.win 1).blk t).view.emb (ix2 p k)) = V c main_v82 (ix2 (⟨t.val * 2000 + p.val, hr⟩ : Fin 100000) k)
    refine congrArg _ (funext fun a => Fin.ext ?_)
    match a with
    | ⟨0, _⟩ => show win6_1.index t (0 : Fin 2) * 2000 + 1 * p.val = t.val * 2000 + p.val; omega
    | ⟨1, _⟩ => show win6_1.index t (1 : Fin 2) * 128 + 1 * k.val = k.val; omega
  · show V c main_v75 (((cfg6.win 2).blk t).view.emb (ix2 p q)) = V c main_v75 (ix2 (⟨t.val * 2000 + p.val, hr⟩ : Fin 100000) q)
    refine congrArg _ (funext fun a => Fin.ext ?_)
    match a with
    | ⟨0, _⟩ => show win6_2.index t (0 : Fin 2) * 2000 + 1 * p.val = t.val * 2000 + p.val; omega
    | ⟨1, _⟩ => show win6_2.index t (1 : Fin 2) * 128 + 1 * q.val = q.val; omega
  · show V c main_v102 (((cfg6.win 3).blk t).view.emb (ix2 k q)) = V c main_v102 (ix2 k q)
    refine congrArg _ (funext fun a => Fin.ext ?_)
    match a with
    | ⟨0, _⟩ => show win6_3.index t (0 : Fin 2) * 128 + 1 * k.val = k.val; omega
    | ⟨1, _⟩ => show win6_3.index t (1 : Fin 2) * 128 + 1 * q.val = q.val; omega
  · show V c main_v107 (((cfg6.win 4).blk t).view.emb (ix2 0 q)) = V c main_v107 (ix2 0 q)
    refine congrArg _ (funext fun a => Fin.ext ?_)
    match a with
    | ⟨0, _⟩ => show win6_4.index t (0 : Fin 2) * 1 + 1 * 0 = 0; omega
    | ⟨1, _⟩ => show win6_4.index t (1 : Fin 2) * 128 + 1 * q.val = q.val; omega
  · show V c main_v106 (((cfg6.win 5).blk t).view.emb (ix2 k q)) = V c main_v106 (ix2 k q)
    refine congrArg _ (funext fun a => Fin.ext ?_)
    match a with
    | ⟨0, _⟩ => show win6_5.index t (0 : Fin 2) * 128 + 1 * k.val = k.val; omega
    | ⟨1, _⟩ => show win6_5.index t (1 : Fin 2) * 128 + 1 * q.val = q.val; omega

/-- An index is in point `t`'s block iff each coordinate is in the block's range on its axis. -/
theorem mem_blk6 (t : Fin cfg6.N) (i : S100000x128.Idx) :
    i ∈ ((cfg6.win 6).blk t).view.set ↔ ∀ a : Fin 2, win6_6.index t a * S2000x128.size a ≤ (i a).val ∧ (i a).val < win6_6.index t a * S2000x128.size a + S2000x128.size a := by
  show i ∈ ((View.whole main_v108).slice (win6_6.rect t)).set ↔ _
  rw [View.set_slice_whole, Rect.mem_set_unit]
  exact Iff.rfl

/-- Every row is in the block of the point `row / 2000`. -/
theorem cover6 (i : S100000x128.Idx) : ∃ t : Fin cfg6.N, (cfg6.win 6).flush t = true ∧ i ∈ ((cfg6.win 6).blk t).view.set := by
  have hi0 : (i 0).val < 100000 := (i 0).isLt
  have hi1 : (i 1).val < 128 := (i 1).isLt
  have hN : cfg6.N = 50 := N_6
  have hlt : (i 0).val / 2000 < cfg6.N := by rw [hN]; omega
  obtain ⟨-, -, -, -, -, -, -, -, -, -, -, -, e12, e13⟩ := idx6 ⟨(i 0).val / 2000, hlt⟩
  refine ⟨⟨(i 0).val / 2000, hlt⟩, flush6_6 _, ?_⟩
  rw [mem_blk6]
  intro a
  match a with
  | ⟨0, _⟩ =>
    show win6_6.index ⟨(i 0).val / 2000, hlt⟩ (0 : Fin 2) * 2000 ≤ (i 0).val ∧ (i 0).val < win6_6.index ⟨(i 0).val / 2000, hlt⟩ (0 : Fin 2) * 2000 + 2000
    rw [e12]; show (i 0).val / 2000 * 2000 ≤ (i 0).val ∧ (i 0).val < (i 0).val / 2000 * 2000 + 2000; omega
  | ⟨1, _⟩ =>
    show win6_6.index ⟨(i 0).val / 2000, hlt⟩ (1 : Fin 2) * 128 ≤ (i 1).val ∧ (i 1).val < win6_6.index ⟨(i 0).val / 2000, hlt⟩ (1 : Fin 2) * 128 + 128
    rw [e13]; omega

/-- The result array after the region. -/
theorem final6 (c : Dev nD) : (dat6 (F := Ideal) V c).arrAt 6 cfg6.N
    = sageA (R := 100000) (V c main_v100) (V c main_v82) (V c main_v75) (V c main_v102) (V c main_v107) (V c main_v106) :=
  (dat6 (F := Ideal) V c).arrAt_eq_of_cover 6 _ (fun t _ => flushed6 V c t) cover6

end Cert.Blocks

end
-- ==== Proof.Region7.lean ====
/-
  A normalisation region: the array it leaves.

  Point `t` of the 50-point grid sees rows `2000·t … 2000·t + 1999` of the hidden state and the whole gain and bias rows,
  and writes back the same rows of the result; each row is normalised on its own, so what point `t` writes back is that
  block of `lnA` of the three arrays as the region finds them, and the 50 blocks cover the result.
-/
import proofs.«131491_j37014028156991_1_alg».proof.Proof.Gen.KernelIdeal.Frame
import proofs.«131491_j37014028156991_1_alg».proof.Proof.Tiles

set_option maxRecDepth 16384

noncomputable section

namespace Cert.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Rows Cert.Tiles

variable (V : (c : Dev nD) → (b : Ref sig .tc) → Buf (Elt Ideal) ((c : Thread nD τ).loc b))

/-- The printed index maps over the grid: the data and result windows move one block of rows per point, the gain
    and bias windows stay. -/
theorem idx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- What point `t` writes back is block `t` of `lnA` of the arrays as the region finds them. -/
theorem flushed7 (c : Dev nD) (t : Fin cfg7.N) :
    (dat7 (F := Ideal) V c).flushed 3 t = ((cfg7.win 3).blk t).view.read (Elt Ideal)
      (lnA (R := 100000) (V c main_v108) (V c main_v109) (V c main_v110)) := by
  show (cfg7.win 3).cut (grid7.coords t) ((dat7 (F := Ideal) V c).after 3 t) = _
  rw [after7_3]
  unfold out7_3
  rw [View.canon_unit_zero hz]
  simp only [View.ld_unit_zero (S := S2000x128) hz, View.ld_unit_zero (S := S1x128) hz]
  obtain ⟨e0, e1, e2, e3, e4, e5, e6, e7⟩ := idx7 t
  have ht : t.val < 50 := lt_of_lt_of_eq t.isLt N_7
  funext j
  obtain ⟨p, q, rfl⟩ : ∃ (p : Fin 2000) (q : Fin 128), j = ix2 p q := ⟨j 0, j 1, eq_ix2 j⟩
  have hr : t.val * 2000 + p.val < 100000 := by have := p.isLt; omega
  have hemb : ((cfg7.win 3).blk t).view.emb (ix2 p q) = ix2 (⟨t.val * 2000 + p.val, hr⟩ : Fin 100000) q := by
    funext a; apply Fin.ext
    match a with
    | ⟨0, _⟩ => show win7_3.index t (0 : Fin 2) * 2000 + 1 * p.val = t.val * 2000 + p.val; omega
    | ⟨1, _⟩ => show win7_3.index t (1 : Fin 2) * 128 + 1 * q.val = q.val; omega
  show k1_pay1 (F := Ideal) (iblk7 V c 0 t) (iblk7 V c 1 t) (iblk7 V c 2 t) (ix2 p q)
    = lnA (R := 100000) (V c main_v108) (V c main_v109) (V c main_v110) (((cfg7.win 3).blk t).view.emb (ix2 p q))
  rw [hemb]
  refine ln_tile _ _ _ _ _ _ p q _ (fun k => ?_) ?_ ?_
  · show V c main_v108 (((cfg7.win 0).blk t).view.emb (ix2 p k)) = V c main_v108 (ix2 (⟨t.val * 2000 + p.val, hr⟩ : Fin 100000) k)
    refine congrArg _ (funext fun a => Fin.ext ?_)
    match a with
    | ⟨0, _⟩ => show win7_0.index t (0 : Fin 2) * 2000 + 1 * p.val = t.val * 2000 + p.val; omega
    | ⟨1, _⟩ => show win7_0.index t (1 : Fin 2) * 128 + 1 * k.val = k.val; omega
  · show V c main_v109 (((cfg7.win 1).blk t).view.emb (ix2 0 q)) = V c main_v109 (ix2 0 q)
    refine congrArg _ (funext fun a => Fin.ext ?_)
    match a with
    | ⟨0, _⟩ => show win7_1.index t (0 : Fin 2) * 1 + 1 * 0 = 0; omega
    | ⟨1, _⟩ => show win7_1.index t (1 : Fin 2) * 128 + 1 * q.val = q.val; omega
  · show V c main_v110 (((cfg7.win 2).blk t).view.emb (ix2 0 q)) = V c main_v110 (ix2 0 q)
    refine congrArg _ (funext fun a => Fin.ext ?_)
    match a with
    | ⟨0, _⟩ => show win7_2.index t (0 : Fin 2) * 1 + 1 * 0 = 0; omega
    | ⟨1, _⟩ => show win7_2.index t (1 : Fin 2) * 128 + 1 * q.val = q.val; omega

/-- An index is in point `t`'s block iff each coordinate is in the block's range on its axis. -/
theorem mem_blk7 (t : Fin cfg7.N) (i : S100000x128.Idx) :
    i ∈ ((cfg7.win 3).blk t).view.set ↔ ∀ a : Fin 2, win7_3.index t a * S2000x128.size a ≤ (i a).val ∧ (i a).val < win7_3.index t a * S2000x128.size a + S2000x128.size a := by
  show i ∈ ((View.whole main_v111).slice (win7_3.rect t)).set ↔ _
  rw [View.set_slice_whole, Rect.mem_set_unit]
  exact Iff.rfl

/-- Every row is in the block of the point `row / 2000`. -/
theorem cover7 (i : S100000x128.Idx) : ∃ t : Fin cfg7.N, (cfg7.win 3).flush t = true ∧ i ∈ ((cfg7.win 3).blk t).view.set := by
  have hi0 : (i 0).val < 100000 := (i 0).isLt
  have hi1 : (i 1).val < 128 := (i 1).isLt
  have hN : cfg7.N = 50 := N_7
  have hlt : (i 0).val / 2000 < cfg7.N := by rw [hN]; omega
  obtain ⟨-, -, -, -, -, -, e6, e7⟩ := idx7 ⟨(i 0).val / 2000, hlt⟩
  refine ⟨⟨(i 0).val / 2000, hlt⟩, flush7_3 _, ?_⟩
  rw [mem_blk7]
  intro a
  match a with
  | ⟨0, _⟩ =>
    show win7_3.index ⟨(i 0).val / 2000, hlt⟩ (0 : Fin 2) * 2000 ≤ (i 0).val ∧ (i 0).val < win7_3.index ⟨(i 0).val / 2000, hlt⟩ (0 : Fin 2) * 2000 + 2000
    rw [e6]; show (i 0).val / 2000 * 2000 ≤ (i 0).val ∧ (i 0).val < (i 0).val / 2000 * 2000 + 2000; omega
  | ⟨1, _⟩ =>
    show win7_3.index ⟨(i 0).val / 2000, hlt⟩ (1 : Fin 2) * 128 ≤ (i 1).val ∧ (i 1).val < win7_3.index ⟨(i 0).val / 2000, hlt⟩ (1 : Fin 2) * 128 + 128
    rw [e7]; omega

/-- The result array after the region. -/
theorem final7 (c : Dev nD) : (dat7 (F := Ideal) V c).arrAt 3 cfg7.N
    = lnA (R := 100000) (V c main_v108) (V c main_v109) (V c main_v110) :=
  (dat7 (F := Ideal) V c).arrAt_eq_of_cover 3 _ (fun t _ => flushed7 V c t) cover7

end Cert.Blocks

end
-- ==== Proof.Region8.lean ====
/-
  The output projection's region: the array it leaves.

  The region runs its body at 50 grid points; point `t` sees rows `2000·t … 2000·t + 1999` of the data array and the
  whole weight and bias arrays (64 output columns), and writes back the same rows of the result. Row `p` of the tile at point `t` is row
  `2000·t + p` of the array, so what point `t` writes back is that block of `linA` of the three arrays as the region
  finds them; the 50 blocks cover all 100000 rows, so the result array ends as `linA` of them.
-/
import proofs.«131491_j37014028156991_1_alg».proof.Proof.Gen.KernelIdeal.Frame
import proofs.«131491_j37014028156991_1_alg».proof.Proof.Tiles

set_option maxRecDepth 16384

noncomputable section

namespace Cert.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Rows Cert.Tiles

variable (V : (c : Dev nD) → (b : Ref sig .tc) → Buf (Elt Ideal) ((c : Thread nD τ).loc b))

/-- The printed index maps over the grid: the data and result windows move one block of rows per point, the weight
    and bias windows stay. -/
theorem idx8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- What point `t` writes back is block `t` of `linA` of the arrays as the region finds them. -/
theorem flushed8 (c : Dev nD) (t : Fin cfg8.N) :
    (dat8 (F := Ideal) V c).flushed 3 t = ((cfg8.win 3).blk t).view.read (Elt Ideal)
      (linA (R := 100000) (C := 64) (V c main_v111) (V c main_v112) (V c main_v113)) := by
  show (cfg8.win 3).cut (grid8.coords t) ((dat8 (F := Ideal) V c).after 3 t) = _
  rw [after8_3]
  unfold out8_3
  rw [View.canon_unit_zero hz]
  simp only [View.ld_unit_zero (S := S2000x128) hz, View.ld_unit_zero (S := S128x64) hz, View.ld_unit_zero (S := S1x64) hz]
  obtain ⟨e0, e1, e2, e3, e4, e5, e6, e7⟩ := idx8 t
  have ht : t.val < 50 := lt_of_lt_of_eq t.isLt N_8
  funext j
  obtain ⟨p, q, rfl⟩ : ∃ (p : Fin 2000) (q : Fin 64), j = ix2 p q := ⟨j 0, j 1, eq_ix2 j⟩
  have hr : t.val * 2000 + p.val < 100000 := by have := p.isLt; omega
  have hemb : ((cfg8.win 3).blk t).view.emb (ix2 p q) = ix2 (⟨t.val * 2000 + p.val, hr⟩ : Fin 100000) q := by
    funext a; apply Fin.ext
    match a with
    | ⟨0, _⟩ => show win8_3.index t (0 : Fin 2) * 2000 + 1 * p.val = t.val * 2000 + p.val; omega
    | ⟨1, _⟩ => show win8_3.index t (1 : Fin 2) * 64 + 1 * q.val = q.val; omega
  show k8_pay1 (F := Ideal) (iblk8 V c 0 t) (iblk8 V c 1 t) (iblk8 V c 2 t) (ix2 p q)
    = linA (R := 100000) (C := 64) (V c main_v111) (V c main_v112) (V c main_v113) (((cfg8.win 3).blk t).view.emb (ix2 p q))
  rw [hemb]
  refine lin64_tile _ _ _ _ _ _ p q _ (fun k => ?_) (fun k => ?_) ?_
  · show V c main_v111 (((cfg8.win 0).blk t).view.emb (ix2 p k)) = V c main_v111 (ix2 (⟨t.val * 2000 + p.val, hr⟩ : Fin 100000) k)
    refine congrArg _ (funext fun a => Fin.ext ?_)
    match a with
    | ⟨0, _⟩ => show win8_0.index t (0 : Fin 2) * 2000 + 1 * p.val = t.val * 2000 + p.val; omega
    | ⟨1, _⟩ => show win8_0.index t (1 : Fin 2) * 128 + 1 * k.val = k.val; omega
  · show V c main_v112 (((cfg8.win 1).blk t).view.emb (ix2 k q)) = V c main_v112 (ix2 k q)
    refine congrArg _ (funext fun a => Fin.ext ?_)
    match a with
    | ⟨0, _⟩ => show win8_1.index t (0 : Fin 2) * 128 + 1 * k.val = k.val; omega
    | ⟨1, _⟩ => show win8_1.index t (1 : Fin 2) * 64 + 1 * q.val = q.val; omega
  · show V c main_v113 (((cfg8.win 2).blk t).view.emb (ix2 0 q)) = V c main_v113 (ix2 0 q)
    refine congrArg _ (funext fun a => Fin.ext ?_)
    match a with
    | ⟨0, _⟩ => show win8_2.index t (0 : Fin 2) * 1 + 1 * 0 = 0; omega
    | ⟨1, _⟩ => show win8_2.index t (1 : Fin 2) * 64 + 1 * q.val = q.val; omega

/-- An index is in point `t`'s block iff each coordinate is in the block's range on its axis. -/
theorem mem_blk8 (t : Fin cfg8.N) (i : S100000x64.Idx) :
    i ∈ ((cfg8.win 3).blk t).view.set ↔ ∀ a : Fin 2, win8_3.index t a * S2000x64.size a ≤ (i a).val ∧ (i a).val < win8_3.index t a * S2000x64.size a + S2000x64.size a := by
  show i ∈ ((View.whole main_v114).slice (win8_3.rect t)).set ↔ _
  rw [View.set_slice_whole, Rect.mem_set_unit]
  exact Iff.rfl

/-- Every row is in the block of the point `row / 2000`. -/
theorem cover8 (i : S100000x64.Idx) : ∃ t : Fin cfg8.N, (cfg8.win 3).flush t = true ∧ i ∈ ((cfg8.win 3).blk t).view.set := by
  have hi0 : (i 0).val < 100000 := (i 0).isLt
  have hi1 : (i 1).val < 64 := (i 1).isLt
  have hN : cfg8.N = 50 := N_8
  have hlt : (i 0).val / 2000 < cfg8.N := by rw [hN]; omega
  obtain ⟨-, -, -, -, -, -, e6, e7⟩ := idx8 ⟨(i 0).val / 2000, hlt⟩
  refine ⟨⟨(i 0).val / 2000, hlt⟩, flush8_3 _, ?_⟩
  rw [mem_blk8]
  intro a
  match a with
  | ⟨0, _⟩ =>
    show win8_3.index ⟨(i 0).val / 2000, hlt⟩ (0 : Fin 2) * 2000 ≤ (i 0).val ∧ (i 0).val < win8_3.index ⟨(i 0).val / 2000, hlt⟩ (0 : Fin 2) * 2000 + 2000
    rw [e6]; show (i 0).val / 2000 * 2000 ≤ (i 0).val ∧ (i 0).val < (i 0).val / 2000 * 2000 + 2000; omega
  | ⟨1, _⟩ =>
    show win8_3.index ⟨(i 0).val / 2000, hlt⟩ (1 : Fin 2) * 64 ≤ (i 1).val ∧ (i 1).val < win8_3.index ⟨(i 0).val / 2000, hlt⟩ (1 : Fin 2) * 64 + 64
    rw [e7]; omega

/-- The result array after the region. -/
theorem final8 (c : Dev nD) : (dat8 (F := Ideal) V c).arrAt 3 cfg8.N
    = linA (R := 100000) (C := 64) (V c main_v111) (V c main_v112) (V c main_v113) :=
  (dat8 (F := Ideal) V c).arrAt_eq_of_cover 3 _ (fun t _ => flushed8 V c t) cover8

end Cert.Blocks

end
-- ==== Proof.Chain.lean ====
/-
  The value of the hidden state at every segment boundary, and of the result at the last one.

  Region by region: a region's result array is the whole-array function of its operand arrays as the region finds them
  (the region modules); each operand is either the previous region's result, carried unchanged to this boundary, or a
  parameter re-laid by the array operations just before the region, or the edge average of the previous result. Put
  together, the result buffer at the last boundary is `Model.out` of the thirteen argument arrays as launched.
-/
import proofs.«131491_j37014028156991_1_alg».proof.Proof.Carry
import proofs.«131491_j37014028156991_1_alg».proof.Proof.Region0
import proofs.«131491_j37014028156991_1_alg».proof.Proof.Region1
import proofs.«131491_j37014028156991_1_alg».proof.Proof.Region2
import proofs.«131491_j37014028156991_1_alg».proof.Proof.Region3
import proofs.«131491_j37014028156991_1_alg».proof.Proof.Region4
import proofs.«131491_j37014028156991_1_alg».proof.Proof.Region5
import proofs.«131491_j37014028156991_1_alg».proof.Proof.Region6
import proofs.«131491_j37014028156991_1_alg».proof.Proof.Region7
import proofs.«131491_j37014028156991_1_alg».proof.Proof.Region8

set_option maxRecDepth 16384

noncomputable section

namespace Cert.Chain

open Idealize.ShloMosaic Idealize.ShloMosaic.TcCoe Idealize.SL.Sem
open Idealize.ShloMosaic.Pipeline (Dat)
open Cert.KernelIdeal Cert.KernelIdeal.Gen Cert.Rows Cert.Model Cert.HostGlue Cert.Carry Cert.Blocks

variable (m : (ℓ : Loc nD τ sig) → Buf (Elt Ideal) ℓ) (ρ : Dev nD → PrngReg) (c : Dev nD)

/-! ## The input projection -/

/-- The hidden state after the input projection's region. -/
theorem h0_W2 : W2 m ρ c (Proc.devRef .tc main_v6) = (hidden0 (m ((c : Thread nD τ).loc main_arg0)) (m ((c : Thread nD τ).loc main_arg2)) (m ((c : Thread nD τ).loc main_arg3))) := by
  refine (W2_arr m ρ c 3).trans ((final0 (V1 m ρ) c).trans ?_)
  have e0 : V1 m ρ c main_arg0 = (m ((c : Thread nD τ).loc main_arg0)) := by
    show W1 m ρ c (Proc.devRef .tc main_arg0) = _
    past_host hostOps0; rfl
  have e1 : V1 m ρ c main_v4 = tr2 (A := 128) (B := 128) (m ((c : Thread nD τ).loc main_arg2)) := h0_w (W0 m ρ c)
  have e2 : V1 m ρ c main_v5 = asRow (C := 128) (m ((c : Thread nD τ).loc main_arg3)) := h0_b (W0 m ρ c)
  rw [e0, e1, e2]; rfl

/-! ## Layer 0 -/

/-- Layer 0's normalised state, after its region. -/
theorem h0_W3 : W3 m ρ c (Proc.devRef .tc main_v6) = (hidden0 (m ((c : Thread nD τ).loc main_arg0)) (m ((c : Thread nD τ).loc main_arg2)) (m ((c : Thread nD τ).loc main_arg3))) := by
  past_host hostOps1; exact h0_W2 m ρ c
theorem u1_W4 : W4 m ρ c (Proc.devRef .tc main_v16) = (act 0 (hidden0 (m ((c : Thread nD τ).loc main_arg0)) (m ((c : Thread nD τ).loc main_arg2)) (m ((c : Thread nD τ).loc main_arg3))) (m ((c : Thread nD τ).loc main_arg4)) (m ((c : Thread nD τ).loc main_arg5))) := by
  refine (W4_arr m ρ c 3).trans ((final1 (V3 m ρ) c).trans ?_)
  have e0 : V3 m ρ c main_v6 = (hidden0 (m ((c : Thread nD τ).loc main_arg0)) (m ((c : Thread nD τ).loc main_arg2)) (m ((c : Thread nD τ).loc main_arg3))) := h0_W3 m ρ c
  have e1 : V3 m ρ c main_v14 = rowOf (L := 3) (C := 128) (m ((c : Thread nD τ).loc main_arg4)) 0 := (h1_g (W2 m ρ c)).trans (by rw [arg4_W2])
  have e2 : V3 m ρ c main_v15 = rowOf (L := 3) (C := 128) (m ((c : Thread nD τ).loc main_arg5)) 0 := (h1_b (W2 m ρ c)).trans (by rw [arg5_W2])
  rw [e0, e1, e2]; rfl
/-- The hidden state is still there after the normalisation region, which only reads it. -/
theorem h0_W4 : W4 m ρ c (Proc.devRef .tc main_v6) = (hidden0 (m ((c : Thread nD τ).loc main_arg0)) (m ((c : Thread nD τ).loc main_arg2)) (m ((c : Thread nD τ).loc main_arg3))) :=
  (W4_arr m ρ c 0).trans (((dat1 (V3 m ρ) c).arrAt_in 0 rfl _).trans ((A_eq1 (V3 m ρ) c 0).trans (h0_W3 m ρ c)))

/-- Layer 0's updated hidden state, after its region. -/
theorem h1_W6 : W6 m ρ c (Proc.devRef .tc main_v42) = (layer 0 (hidden0 (m ((c : Thread nD τ).loc main_arg0)) (m ((c : Thread nD τ).loc main_arg2)) (m ((c : Thread nD τ).loc main_arg3))) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) := by
  refine (W6_arr m ρ c 6).trans ((final2 (V5 m ρ) c).trans ?_)
  have e0 : V5 m ρ c main_v34 = aggT (act 0 (hidden0 (m ((c : Thread nD τ).loc main_arg0)) (m ((c : Thread nD τ).loc main_arg2)) (m ((c : Thread nD τ).loc main_arg3))) (m ((c : Thread nD τ).loc main_arg4)) (m ((c : Thread nD τ).loc main_arg5))) (srcOf (m ((c : Thread nD τ).loc main_arg1))) (dstOf (m ((c : Thread nD τ).loc main_arg1))) :=
    (h2_agg (W4 m ρ c) (ones_W4 m ρ c)).trans (by rw [u1_W4, src_W4, dst_W4])
  have e1 : V5 m ρ c main_v16 = (act 0 (hidden0 (m ((c : Thread nD τ).loc main_arg0)) (m ((c : Thread nD τ).loc main_arg2)) (m ((c : Thread nD τ).loc main_arg3))) (m ((c : Thread nD τ).loc main_arg4)) (m ((c : Thread nD τ).loc main_arg5))) := by
    show W5 m ρ c (Proc.devRef .tc main_v16) = _
    past_host hostOps2; exact u1_W4 m ρ c
  have e2 : V5 m ρ c main_v6 = (hidden0 (m ((c : Thread nD τ).loc main_arg0)) (m ((c : Thread nD τ).loc main_arg2)) (m ((c : Thread nD τ).loc main_arg3))) := by
    show W5 m ρ c (Proc.devRef .tc main_v6) = _
    past_host hostOps2; exact h0_W4 m ρ c
  have e3 : V5 m ρ c main_v36 = trOf (L := 3) (A := 128) (B := 128) (m ((c : Thread nD τ).loc main_arg6)) 0 := h2_wl (W4 m ρ c) _ (wl_W4 m ρ c)
  have e4 : V5 m ρ c main_v41 = rowOf (L := 3) (C := 128) (m ((c : Thread nD τ).loc main_arg7)) 0 := (h2_bl (W4 m ρ c)).trans (by rw [arg7_W4])
  have e5 : V5 m ρ c main_v40 = trOf (L := 3) (A := 128) (B := 128) (m ((c : Thread nD τ).loc main_arg8)) 0 := h2_wr (W4 m ρ c) _ (wr_W4 m ρ c)
  rw [e0, e1, e2, e3, e4, e5]; rfl

/-! ## Layer 1 -/

/-- Layer 1's normalised state, after its region. -/
theorem h1_W7 : W7 m ρ c (Proc.devRef .tc main_v42) = (layer 0 (hidden0 (m ((c : Thread nD τ).loc main_arg0)) (m ((c : Thread nD τ).loc main_arg2)) (m ((c : Thread nD τ).loc main_arg3))) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) := by
  past_host hostOps3; exact h1_W6 m ρ c
theorem u2_W8 : W8 m ρ c (Proc.devRef .tc main_v49) = (act 1 (layer 0 (hidden0 (m ((c : Thread nD τ).loc main_arg0)) (m ((c : Thread nD τ).loc main_arg2)) (m ((c : Thread nD τ).loc main_arg3))) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg4)) (m ((c : Thread nD τ).loc main_arg5))) := by
  refine (W8_arr m ρ c 3).trans ((final3 (V7 m ρ) c).trans ?_)
  have e0 : V7 m ρ c main_v42 = (layer 0 (hidden0 (m ((c : Thread nD τ).loc main_arg0)) (m ((c : Thread nD τ).loc main_arg2)) (m ((c : Thread nD τ).loc main_arg3))) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) := h1_W7 m ρ c
  have e1 : V7 m ρ c main_v47 = rowOf (L := 3) (C := 128) (m ((c : Thread nD τ).loc main_arg4)) 1 := (h3_g (W6 m ρ c)).trans (by rw [arg4_W6])
  have e2 : V7 m ρ c main_v48 = rowOf (L := 3) (C := 128) (m ((c : Thread nD τ).loc main_arg5)) 1 := (h3_b (W6 m ρ c)).trans (by rw [arg5_W6])
  rw [e0, e1, e2]; rfl
/-- The hidden state is still there after the normalisation region, which only reads it. -/
theorem h1_W8 : W8 m ρ c (Proc.devRef .tc main_v42) = (layer 0 (hidden0 (m ((c : Thread nD τ).loc main_arg0)) (m ((c : Thread nD τ).loc main_arg2)) (m ((c : Thread nD τ).loc main_arg3))) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) :=
  (W8_arr m ρ c 0).trans (((dat3 (V7 m ρ) c).arrAt_in 0 rfl _).trans ((A_eq3 (V7 m ρ) c 0).trans (h1_W7 m ρ c)))

/-- Layer 1's updated hidden state, after its region. -/
theorem h2_W10 : W10 m ρ c (Proc.devRef .tc main_v75) = (layer 1 (layer 0 (hidden0 (m ((c : Thread nD τ).loc main_arg0)) (m ((c : Thread nD τ).loc main_arg2)) (m ((c : Thread nD τ).loc main_arg3))) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) := by
  refine (W10_arr m ρ c 6).trans ((final4 (V9 m ρ) c).trans ?_)
  have e0 : V9 m ρ c main_v67 = aggT (act 1 (layer 0 (hidden0 (m ((c : Thread nD τ).loc main_arg0)) (m ((c : Thread nD τ).loc main_arg2)) (m ((c : Thread nD τ).loc main_arg3))) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg4)) (m ((c : Thread nD τ).loc main_arg5))) (srcOf (m ((c : Thread nD τ).loc main_arg1))) (dstOf (m ((c : Thread nD τ).loc main_arg1))) :=
    (h4_agg (W8 m ρ c) (ones_W8 m ρ c)).trans (by rw [u2_W8, src_W8, dst_W8])
  have e1 : V9 m ρ c main_v49 = (act 1 (layer 0 (hidden0 (m ((c : Thread nD τ).loc main_arg0)) (m ((c : Thread nD τ).loc main_arg2)) (m ((c : Thread nD τ).loc main_arg3))) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg4)) (m ((c : Thread nD τ).loc main_arg5))) := by
    show W9 m ρ c (Proc.devRef .tc main_v49) = _
    past_host hostOps4; exact u2_W8 m ρ c
  have e2 : V9 m ρ c main_v42 = (layer 0 (hidden0 (m ((c : Thread nD τ).loc main_arg0)) (m ((c : Thread nD τ).loc main_arg2)) (m ((c : Thread nD τ).loc main_arg3))) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) := by
    show W9 m ρ c (Proc.devRef .tc main_v42) = _
    past_host hostOps4; exact h1_W8 m ρ c
  have e3 : V9 m ρ c main_v69 = trOf (L := 3) (A := 128) (B := 128) (m ((c : Thread nD τ).loc main_arg6)) 1 := h4_wl (W8 m ρ c) _ (wl_W8 m ρ c)
  have e4 : V9 m ρ c main_v74 = rowOf (L := 3) (C := 128) (m ((c : Thread nD τ).loc main_arg7)) 1 := (h4_bl (W8 m ρ c)).trans (by rw [arg7_W8])
  have e5 : V9 m ρ c main_v73 = trOf (L := 3) (A := 128) (B := 128) (m ((c : Thread nD τ).loc main_arg8)) 1 := h4_wr (W8 m ρ c) _ (wr_W8 m ρ c)
  rw [e0, e1, e2, e3, e4, e5]; rfl

/-! ## Layer 2 -/

/-- Layer 2's normalised state, after its region. -/
theorem h2_W11 : W11 m ρ c (Proc.devRef .tc main_v75) = (layer 1 (layer 0 (hidden0 (m ((c : Thread nD τ).loc main_arg0)) (m ((c : Thread nD τ).loc main_arg2)) (m ((c : Thread nD τ).loc main_arg3))) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) := by
  past_host hostOps5; exact h2_W10 m ρ c
theorem u3_W12 : W12 m ρ c (Proc.devRef .tc main_v82) = (act 2 (layer 1 (layer 0 (hidden0 (m ((c : Thread nD τ).loc main_arg0)) (m ((c : Thread nD τ).loc main_arg2)) (m ((c : Thread nD τ).loc main_arg3))) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg4)) (m ((c : Thread nD τ).loc main_arg5))) := by
  refine (W12_arr m ρ c 3).trans ((final5 (V11 m ρ) c).trans ?_)
  have e0 : V11 m ρ c main_v75 = (layer 1 (layer 0 (hidden0 (m ((c : Thread nD τ).loc main_arg0)) (m ((c : Thread nD τ).loc main_arg2)) (m ((c : Thread nD τ).loc main_arg3))) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) := h2_W11 m ρ c
  have e1 : V11 m ρ c main_v80 = rowOf (L := 3) (C := 128) (m ((c : Thread nD τ).loc main_arg4)) 2 := (h5_g (W10 m ρ c)).trans (by rw [arg4_W10])
  have e2 : V11 m ρ c main_v81 = rowOf (L := 3) (C := 128) (m ((c : Thread nD τ).loc main_arg5)) 2 := (h5_b (W10 m ρ c)).trans (by rw [arg5_W10])
  rw [e0, e1, e2]; rfl
/-- The hidden state is still there after the normalisation region, which only reads it. -/
theorem h2_W12 : W12 m ρ c (Proc.devRef .tc main_v75) = (layer 1 (layer 0 (hidden0 (m ((c : Thread nD τ).loc main_arg0)) (m ((c : Thread nD τ).loc main_arg2)) (m ((c : Thread nD τ).loc main_arg3))) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) :=
  (W12_arr m ρ c 0).trans (((dat5 (V11 m ρ) c).arrAt_in 0 rfl _).trans ((A_eq5 (V11 m ρ) c 0).trans (h2_W11 m ρ c)))

/-- Layer 2's updated hidden state, after its region. -/
theorem h3_W14 : W14 m ρ c (Proc.devRef .tc main_v108) = (layer 2 (layer 1 (layer 0 (hidden0 (m ((c : Thread nD τ).loc main_arg0)) (m ((c : Thread nD τ).loc main_arg2)) (m ((c : Thread nD τ).loc main_arg3))) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) := by
  refine (W14_arr m ρ c 6).trans ((final6 (V13 m ρ) c).trans ?_)
  have e0 : V13 m ρ c main_v100 = aggT (act 2 (layer 1 (layer 0 (hidden0 (m ((c : Thread nD τ).loc main_arg0)) (m ((c : Thread nD τ).loc main_arg2)) (m ((c : Thread nD τ).loc main_arg3))) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg4)) (m ((c : Thread nD τ).loc main_arg5))) (srcOf (m ((c : Thread nD τ).loc main_arg1))) (dstOf (m ((c : Thread nD τ).loc main_arg1))) :=
    (h6_agg (W12 m ρ c) (ones_W12 m ρ c)).trans (by rw [u3_W12, src_W12, dst_W12])
  have e1 : V13 m ρ c main_v82 = (act 2 (layer 1 (layer 0 (hidden0 (m ((c : Thread nD τ).loc main_arg0)) (m ((c : Thread nD τ).loc main_arg2)) (m ((c : Thread nD τ).loc main_arg3))) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg4)) (m ((c : Thread nD τ).loc main_arg5))) := by
    show W13 m ρ c (Proc.devRef .tc main_v82) = _
    past_host hostOps6; exact u3_W12 m ρ c
  have e2 : V13 m ρ c main_v75 = (layer 1 (layer 0 (hidden0 (m ((c : Thread nD τ).loc main_arg0)) (m ((c : Thread nD τ).loc main_arg2)) (m ((c : Thread nD τ).loc main_arg3))) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) := by
    show W13 m ρ c (Proc.devRef .tc main_v75) = _
    past_host hostOps6; exact h2_W12 m ρ c
  have e3 : V13 m ρ c main_v102 = trOf (L := 3) (A := 128) (B := 128) (m ((c : Thread nD τ).loc main_arg6)) 2 := h6_wl (W12 m ρ c) _ (wl_W12 m ρ c)
  have e4 : V13 m ρ c main_v107 = rowOf (L := 3) (C := 128) (m ((c : Thread nD τ).loc main_arg7)) 2 := (h6_bl (W12 m ρ c)).trans (by rw [arg7_W12])
  have e5 : V13 m ρ c main_v106 = trOf (L := 3) (A := 128) (B := 128) (m ((c : Thread nD τ).loc main_arg8)) 2 := h6_wr (W12 m ρ c) _ (wr_W12 m ρ c)
  rw [e0, e1, e2, e3, e4, e5]; rfl

/-! ## The last normalisation and the output projection -/

theorem uf_W16 : W16 m ρ c (Proc.devRef .tc main_v111) = (actLast (layer 2 (layer 1 (layer 0 (hidden0 (m ((c : Thread nD τ).loc main_arg0)) (m ((c : Thread nD τ).loc main_arg2)) (m ((c : Thread nD τ).loc main_arg3))) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9)) (m ((c : Thread nD τ).loc main_arg10))) := by
  refine (W16_arr m ρ c 3).trans ((final7 (V15 m ρ) c).trans ?_)
  have e0 : V15 m ρ c main_v108 = (layer 2 (layer 1 (layer 0 (hidden0 (m ((c : Thread nD τ).loc main_arg0)) (m ((c : Thread nD τ).loc main_arg2)) (m ((c : Thread nD τ).loc main_arg3))) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) := by
    show W15 m ρ c (Proc.devRef .tc main_v108) = _
    past_host hostOps7; exact h3_W14 m ρ c
  have e1 : V15 m ρ c main_v109 = asRow (C := 128) (m ((c : Thread nD τ).loc main_arg9)) := (h7_g (W14 m ρ c)).trans (by rw [arg9_W14])
  have e2 : V15 m ρ c main_v110 = asRow (C := 128) (m ((c : Thread nD τ).loc main_arg10)) := (h7_b (W14 m ρ c)).trans (by rw [arg10_W14])
  rw [e0, e1, e2]; rfl

/-- THE RESULT at the last boundary: the model's forward pass of the argument arrays as launched. -/
theorem out_W18 : W18 m ρ c (Proc.devRef .tc main_v114)
    = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W18_arr m ρ c 3).trans ((final8 (V17 m ρ) c).trans ?_)
  have e0 : V17 m ρ c main_v111 = (actLast (layer 2 (layer 1 (layer 0 (hidden0 (m ((c : Thread nD τ).loc main_arg0)) (m ((c : Thread nD τ).loc main_arg2)) (m ((c : Thread nD τ).loc main_arg3))) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9)) (m ((c : Thread nD τ).loc main_arg10))) := by
    show W17 m ρ c (Proc.devRef .tc main_v111) = _
    past_host hostOps8; exact uf_W16 m ρ c
  have e1 : V17 m ρ c main_v112 = tr2 (A := 64) (B := 128) (m ((c : Thread nD τ).loc main_arg11)) := (h8_w (W16 m ρ c)).trans (by rw [arg11_W16])
  have e2 : V17 m ρ c main_v113 = asRow (C := 64) (m ((c : Thread nD τ).loc main_arg12)) := (h8_b (W16 m ρ c)).trans (by rw [arg12_W16])
  rw [e0, e1, e2]; rfl

end Cert.Chain

end
-- ==== Proof.RefOps.lean ====
/-
  The reference program's operations.

  The reference is a straight line of 274 whole-array operations. This module lists them, with the side facts a run needs (the program IS the list run in order; nothing is scoped; every
  operation touches TensorCore buffers only).
  The operations are also grouped into nine consecutive stages — the input projection; for each layer a normalisation
  stage and a convolution stage; the last normalisation; the output projection — and folding the whole list is folding
  the stages one after the other.
-/
import proofs.«131491_j37014028156991_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- Stage 0 of the reference's @main. -/
abbrev st0 : List (HloOp τ sig (Elt F)) :=
  [ unary main_arg1 main_v0 ((extractStridedSlice S1x1000000 ![0, 0] · slices_S2x1000000_S1x1000000_0_0) : (⟨S2x1000000, .i32⟩ : BufTy).Contents (Elt F) → (⟨S1x1000000, .i32⟩ : BufTy).Contents (Elt F)),
    reshape main_v0 main_v1 rfl shapeCasts_S1x1000000_S1000000,
    unary main_arg1 main_v2 ((extractStridedSlice S1x1000000 ![1, 0] · slices_S2x1000000_S1x1000000_1_0) : (⟨S2x1000000, .i32⟩ : BufTy).Contents (Elt F) → (⟨S1x1000000, .i32⟩ : BufTy).Contents (Elt F)),
    reshape main_v2 main_v3 rfl shapeCasts_S1x1000000_S1000000,
    unary main_arg2 main_v4 ((transpose S128x128 [1, 0] · transposes_S128x128_S128x128_1_0) : (⟨S128x128, .f32⟩ : BufTy).Contents (Elt F) → (⟨S128x128, .f32⟩ : BufTy).Contents (Elt F)),
    binary main_arg0 main_v4 main_v5 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v6 (broadcastInDim S1x128 ![1] bcast_S128_S1x128_1 : (⟨S128, .f32⟩ : BufTy).Contents (Elt F) → (⟨S1x128, .f32⟩ : BufTy).Contents (Elt F)),
    unary main_v6 main_v7 (broadcastInDim S100000x128 ![0, 1] bcast_S1x128_S100000x128_0_1 : (⟨S1x128, .f32⟩ : BufTy).Contents (Elt F) → (⟨S100000x128, .f32⟩ : BufTy).Contents (Elt F)),
    binary main_v5 main_v7 main_v8 (addf : (⟨S100000x128, .f32⟩ : BufTy).Contents (Elt F) → (⟨S100000x128, .f32⟩ : BufTy).Contents (Elt F) → (⟨S100000x128, .f32⟩ : BufTy).Contents (Elt F)) ]

/-- Stage 1 of the reference's @main. -/
abbrev st1 : List (HloOp τ sig (Elt F)) :=
  [ unary main_arg4 main_v9 ((extractStridedSlice S1x128 ![0, 0] · slices_S3x128_S1x128_0_0) : (⟨S3x128, .f32⟩ : BufTy).Contents (Elt F) → (⟨S1x128, .f32⟩ : BufTy).Contents (Elt F)),
    reshape main_v9 main_v10 rfl shapeCasts_S1x128_S128,
    unary main_arg5 main_v11 ((extractStridedSlice S1x128 ![0, 0] · slices_S3x128_S1x128_0_0) : (⟨S3x128, .f32⟩ : BufTy).Contents (Elt F) → (⟨S1x128, .f32⟩ : BufTy).Contents (Elt F)),
    reshape main_v11 main_v12 rfl shapeCasts_S1x128_S128,
    nullary main_cst (constant S_ .f32 0x00000000#32),
    binary main_v8 main_cst main_v13 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v13 main_v14 (broadcastInDim S100000x1 ![0] bcast_S100000_S100000x1_0 : (⟨S100000, .f32⟩ : BufTy).Contents (Elt F) → (⟨S100000x1, .f32⟩ : BufTy).Contents (Elt F)),
    nullary main_cst_0 (constant S_ .f32 0x43000000#32),
    unary main_cst_0 main_v15 (broadcastInDim S100000x1 ![] bcast_S_S100000x1 : (⟨S_, .f32⟩ : BufTy).Contents (Elt F) → (⟨S100000x1, .f32⟩ : BufTy).Contents (Elt F)),
    binary main_v14 main_v15 main_v16 (Host.divf : (⟨S100000x1, .f32⟩ : BufTy).Contents (Elt F) → (⟨S100000x1, .f32⟩ : BufTy).Contents (Elt F) → (⟨S100000x1, .f32⟩ : BufTy).Contents (Elt F)),
    unary main_v16 main_v17 (broadcastInDim S100000x128 ![0, 1] bcast_S100000x1_S100000x128_0_1 : (⟨S100000x1, .f32⟩ : BufTy).Contents (Elt F) → (⟨S100000x128, .f32⟩ : BufTy).Contents (Elt F)),
    binary main_v8 main_v17 main_v18 (subf : (⟨S100000x128, .f32⟩ : BufTy).Contents (Elt F) → (⟨S100000x128, .f32⟩ : BufTy).Contents (Elt F) → (⟨S100000x128, .f32⟩ : BufTy).Contents (Elt F)),
    binary main_v18 main_v18 main_v19 (mulf : (⟨S100000x128, .f32⟩ : BufTy).Contents (Elt F) → (⟨S100000x128, .f32⟩ : BufTy).Contents (Elt F) → (⟨S100000x128, .f32⟩ : BufTy).Contents (Elt F)),
    nullary main_cst_1 (constant S_ .f32 0x00000000#32),
    binary main_v19 main_cst_1 main_v20 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v20 main_v21 (broadcastInDim S100000x1 ![0] bcast_S100000_S100000x1_0 : (⟨S100000, .f32⟩ : BufTy).Contents (Elt F) → (⟨S100000x1, .f32⟩ : BufTy).Contents (Elt F)),
    nullary main_cst_2 (constant S_ .f32 0x43000000#32),
    unary main_cst_2 main_v22 (broadcastInDim S100000x1 ![] bcast_S_S100000x1 : (⟨S_, .f32⟩ : BufTy).Contents (Elt F) → (⟨S100000x1, .f32⟩ : BufTy).Contents (Elt F)),
    binary main_v21 main_v22 main_v23 (Host.divf : (⟨S100000x1, .f32⟩ : BufTy).Contents (Elt F) → (⟨S100000x1, .f32⟩ : BufTy).Contents (Elt F) → (⟨S100000x1, .f32⟩ : BufTy).Contents (Elt F)),
    unary main_v16 main_v24 (broadcastInDim S100000x128 ![0, 1] bcast_S100000x1_S100000x128_0_1 : (⟨S100000x1, .f32⟩ : BufTy).Contents (Elt F) → (⟨S100000x128, .f32⟩ : BufTy).Contents (Elt F)),
    binary main_v8 main_v24 main_v25 (subf : (⟨S100000x128, .f32⟩ : BufTy).Contents (Elt F) → (⟨S100000x128, .f32⟩ : BufTy).Contents (Elt F) → (⟨S100000x128, .f32⟩ : BufTy).Contents (Elt F)),
    nullary main_cst_3 (constant S_ .f32 0x3727C5AC#32),
    unary main_cst_3 main_v26 (broadcastInDim S100000x1 ![] bcast_S_S100000x1 : (⟨S_, .f32⟩ : BufTy).Contents (Elt F) → (⟨S100000x1, .f32⟩ : BufTy).Contents (Elt F)),
    binary main_v23 main_v26 main_v27 (addf : (⟨S100000x1, .f32⟩ : BufTy).Contents (Elt F) → (⟨S100000x1, .f32⟩ : BufTy).Contents (Elt F) → (⟨S100000x1, .f32⟩ : BufTy).Contents (Elt F)),
    unary main_v27 main_v28 (Host.rsqrt : (⟨S100000x1, .f32⟩ : BufTy).Contents (Elt F) → (⟨S100000x1, .f32⟩ : BufTy).Contents (Elt F)),
    unary main_v28 main_v29 (broadcastInDim S100000x128 ![0, 1] bcast_S100000x1_S100000x128_0_1 : (⟨S100000x1, .f32⟩ : BufTy).Contents (Elt F) → (⟨S100000x128, .f32⟩ : BufTy).Contents (Elt F)),
    binary main_v25 main_v29 main_v30 (mulf : (⟨S100000x128, .f32⟩ : BufTy).Contents (Elt F) → (⟨S100000x128, .f32⟩ : BufTy).Contents (Elt F) → (⟨S100000x128, .f32⟩ : BufTy).Contents (Elt F)),
    unary main_v10 main_v31 (broadcastInDim S1x128 ![1] bcast_S128_S1x128_1 : (⟨S128, .f32⟩ : BufTy).Contents (Elt F) → (⟨S1x128, .f32⟩ : BufTy).Contents (Elt F)),
    unary main_v31 main_v32 (broadcastInDim S100000x128 ![0, 1] bcast_S1x128_S100000x128_0_1 : (⟨S1x128, .f32⟩ : BufTy).Contents (Elt F) → (⟨S100000x128, .f32⟩ : BufTy).Contents (Elt F)),
    binary main_v30 main_v32 main_v33 (mulf : (⟨S100000x128, .f32⟩ : BufTy).Contents (Elt F) → (⟨S100000x128, .f32⟩ : BufTy).Contents (Elt F) → (⟨S100000x128, .f32⟩ : BufTy).Contents (Elt F)),
    unary main_v12 main_v34 (broadcastInDim S1x128 ![1] bcast_S128_S1x128_1 : (⟨S128, .f32⟩ : BufTy).Contents (Elt F) → (⟨S1x128, .f32⟩ : BufTy).Contents (Elt F)),
    unary main_v34 main_v35 (broadcastInDim S100000x128 ![0, 1] bcast_S1x128_S100000x128_0_1 : (⟨S1x128, .f32⟩ : BufTy).Contents (Elt F) → (⟨S100000x128, .f32⟩ : BufTy).Contents (Elt F)),
    binary main_v33 main_v35 main_v36 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v36) (TRef.of (T := ⟨S100000x128, .f32⟩) main_call0_v0) (TRef.of (T := ⟨S100000x128, .f32⟩) main_v37) maximumf ]

/-- Stage 2 of the reference's @main. -/
abbrev st2 : List (HloOp τ sig (Elt F)) :=
  [ unary main_arg6 main_v38 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v38 main_v39 rfl shapeCasts_S1x128x128_S128x128,
    unary main_arg7 main_v40 ((extractStridedSlice S1x128 ![0, 0] · slices_S3x128_S1x128_0_0) : (⟨S3x128, .f32⟩ : BufTy).Contents (Elt F) → (⟨S1x128, .f32⟩ : BufTy).Contents (Elt F)),
    reshape main_v40 main_v41 rfl shapeCasts_S1x128_S128,
    unary main_arg8 main_v42 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v42 main_v43 rfl shapeCasts_S1x128x128_S128x128,
    nullary main_c (constantI S_ 32 0#32),
    unary main_c main_v44 (broadcastInDim S1000000 ![] bcast_S_S1000000 : (⟨S_, .i32⟩ : BufTy).Contents (Elt F) → (⟨S1000000, .i32⟩ : BufTy).Contents (Elt F)),
    binary main_v1 main_v44 main_v45 (cmpi .slt : (⟨S1000000, .i32⟩ : BufTy).Contents (Elt F) → (⟨S1000000, .i32⟩ : BufTy).Contents (Elt F) → (⟨S1000000, .i1⟩ : BufTy).Contents (Elt F)),
    nullary main_c_4 (constantI S_ 32 100000#32),
    unary main_c_4 main_v46 (broadcastInDim S1000000 ![] bcast_S_S1000000 : (⟨S_, .i32⟩ : BufTy).Contents (Elt F) → (⟨S1000000, .i32⟩ : BufTy).Contents (Elt F)),
    binary main_v1 main_v46 main_v47 (addi : (⟨S1000000, .i32⟩ : BufTy).Contents (Elt F) → (⟨S1000000, .i32⟩ : BufTy).Contents (Elt F) → (⟨S1000000, .i32⟩ : BufTy).Contents (Elt F)),
    ternary main_v45 main_v47 main_v1 main_v48 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v48 main_v49 (broadcastInDim S1000000x1 ![0] bcast_S1000000_S1000000x1_0 : (⟨S1000000, .i32⟩ : BufTy).Contents (Elt F) → (⟨S1000000x1, .i32⟩ : BufTy).Contents (Elt F)),
    binary main_v37 main_v49 main_v50 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    nullary main_cst_5 (constant S_ .f32 0x00000000#32),
    unary main_cst_5 main_v51 (broadcastInDim S100000x128 ![] bcast_S_S100000x128 : (⟨S_, .f32⟩ : BufTy).Contents (Elt F) → (⟨S100000x128, .f32⟩ : BufTy).Contents (Elt F)),
    unary main_v3 main_v52 (broadcastInDim S1000000x1 ![0] bcast_S1000000_S1000000x1_0 : (⟨S1000000, .i32⟩ : BufTy).Contents (Elt F) → (⟨S1000000x1, .i32⟩ : BufTy).Contents (Elt F)),
    ternary main_v51 main_v52 main_v50 main_v53 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    nullary main_cst_6 (constant S_ .f32 0x3F800000#32),
    unary main_cst_6 main_v54 (broadcastInDim S1000000 ![] bcast_S_S1000000 : (⟨S_, .f32⟩ : BufTy).Contents (Elt F) → (⟨S1000000, .f32⟩ : BufTy).Contents (Elt F)),
    nullary main_cst_7 (constant S_ .f32 0x00000000#32),
    unary main_cst_7 main_v55 (broadcastInDim S100000 ![] bcast_S_S100000 : (⟨S_, .f32⟩ : BufTy).Contents (Elt F) → (⟨S100000, .f32⟩ : BufTy).Contents (Elt F)),
    unary main_v3 main_v56 (broadcastInDim S1000000x1 ![0] bcast_S1000000_S1000000x1_0 : (⟨S1000000, .i32⟩ : BufTy).Contents (Elt F) → (⟨S1000000x1, .i32⟩ : BufTy).Contents (Elt F)),
    ternary main_v55 main_v56 main_v54 main_v57 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_8 (constant S_ .f32 0x3F800000#32),
    unary main_cst_8 main_v58 (broadcastInDim S100000 ![] bcast_S_S100000 : (⟨S_, .f32⟩ : BufTy).Contents (Elt F) → (⟨S100000, .f32⟩ : BufTy).Contents (Elt F)),
    binary main_v57 main_v58 main_v59 (maximumf : (⟨S100000, .f32⟩ : BufTy).Contents (Elt F) → (⟨S100000, .f32⟩ : BufTy).Contents (Elt F) → (⟨S100000, .f32⟩ : BufTy).Contents (Elt F)),
    unary main_v59 main_v60 (broadcastInDim S100000x1 ![0] bcast_S100000_S100000x1_0 : (⟨S100000, .f32⟩ : BufTy).Contents (Elt F) → (⟨S100000x1, .f32⟩ : BufTy).Contents (Elt F)),
    unary main_v60 main_v61 (broadcastInDim S100000x128 ![0, 1] bcast_S100000x1_S100000x128_0_1 : (⟨S100000x1, .f32⟩ : BufTy).Contents (Elt F) → (⟨S100000x128, .f32⟩ : BufTy).Contents (Elt F)),
    binary main_v53 main_v61 main_v62 (Host.divf : (⟨S100000x128, .f32⟩ : BufTy).Contents (Elt F) → (⟨S100000x128, .f32⟩ : BufTy).Contents (Elt F) → (⟨S100000x128, .f32⟩ : BufTy).Contents (Elt F)),
    unary main_v39 main_v63 ((transpose S128x128 [1, 0] · transposes_S128x128_S128x128_1_0) : (⟨S128x128, .f32⟩ : BufTy).Contents (Elt F) → (⟨S128x128, .f32⟩ : BufTy).Contents (Elt F)),
    binary main_v62 main_v63 main_v64 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v41 main_v65 (broadcastInDim S1x128 ![1] bcast_S128_S1x128_1 : (⟨S128, .f32⟩ : BufTy).Contents (Elt F) → (⟨S1x128, .f32⟩ : BufTy).Contents (Elt F)),
    unary main_v65 main_v66 (broadcastInDim S100000x128 ![0, 1] bcast_S1x128_S100000x128_0_1 : (⟨S1x128, .f32⟩ : BufTy).Contents (Elt F) → (⟨S100000x128, .f32⟩ : BufTy).Contents (Elt F)),
    binary main_v64 main_v66 main_v67 (addf : (⟨S100000x128, .f32⟩ : BufTy).Contents (Elt F) → (⟨S100000x128, .f32⟩ : BufTy).Contents (Elt F) → (⟨S100000x128, .f32⟩ : BufTy).Contents (Elt F)),
    unary main_v43 main_v68 ((transpose S128x128 [1, 0] · transposes_S128x128_S128x128_1_0) : (⟨S128x128, .f32⟩ : BufTy).Contents (Elt F) → (⟨S128x128, .f32⟩ : BufTy).Contents (Elt F)),
    binary main_v37 main_v68 main_v69 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v67 main_v69 main_v70 (addf : (⟨S100000x128, .f32⟩ : BufTy).Contents (Elt F) → (⟨S100000x128, .f32⟩ : BufTy).Contents (Elt F) → (⟨S100000x128, .f32⟩ : BufTy).Contents (Elt F)),
    binary main_v70 main_v8 main_v71 (addf : (⟨S100000x128, .f32⟩ : BufTy).Contents (Elt F) → (⟨S100000x128, .f32⟩ : BufTy).Contents (Elt F) → (⟨S100000x128, .f32⟩ : BufTy).Contents (Elt F)) ]

/-- Stage 3 of the reference's @main. -/
abbrev st3 : List (HloOp τ sig (Elt F)) :=
  [ unary main_arg4 main_v72 ((extractStridedSlice S1x128 ![1, 0] · slices_S3x128_S1x128_1_0) : (⟨S3x128, .f32⟩ : BufTy).Contents (Elt F) → (⟨S1x128, .f32⟩ : BufTy).Contents (Elt F)),
    reshape main_v72 main_v73 rfl shapeCasts_S1x128_S128,
    unary main_arg5 main_v74 ((extractStridedSlice S1x128 ![1, 0] · slices_S3x128_S1x128_1_0) : (⟨S3x128, .f32⟩ : BufTy).Contents (Elt F) → (⟨S1x128, .f32⟩ : BufTy).Contents (Elt F)),
    reshape main_v74 main_v75 rfl shapeCasts_S1x128_S128,
    nullary main_cst_9 (constant S_ .f32 0x00000000#32),
    binary main_v71 main_cst_9 main_v76 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v76 main_v77 (broadcastInDim S100000x1 ![0] bcast_S100000_S100000x1_0 : (⟨S100000, .f32⟩ : BufTy).Contents (Elt F) → (⟨S100000x1, .f32⟩ : BufTy).Contents (Elt F)),
    nullary main_cst_10 (constant S_ .f32 0x43000000#32),
    unary main_cst_10 main_v78 (broadcastInDim S100000x1 ![] bcast_S_S100000x1 : (⟨S_, .f32⟩ : BufTy).Contents (Elt F) → (⟨S100000x1, .f32⟩ : BufTy).Contents (Elt F)),
    binary main_v77 main_v78 main_v79 (Host.divf : (⟨S100000x1, .f32⟩ : BufTy).Contents (Elt F) → (⟨S100000x1, .f32⟩ : BufTy).Contents (Elt F) → (⟨S100000x1, .f32⟩ : BufTy).Contents (Elt F)),
    unary main_v79 main_v80 (broadcastInDim S100000x128 ![0, 1] bcast_S100000x1_S100000x128_0_1 : (⟨S100000x1, .f32⟩ : BufTy).Contents (Elt F) → (⟨S100000x128, .f32⟩ : BufTy).Contents (Elt F)),
    binary main_v71 main_v80 main_v81 (subf : (⟨S100000x128, .f32⟩ : BufTy).Contents (Elt F) → (⟨S100000x128, .f32⟩ : BufTy).Contents (Elt F) → (⟨S100000x128, .f32⟩ : BufTy).Contents (Elt F)),
    binary main_v81 main_v81 main_v82 (mulf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x00000000#32),
    binary main_v82 main_cst_11 main_v83 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v83 main_v84 (broadcastInDim S100000x1 ![0] bcast_S100000_S100000x1_0 : (⟨S100000, .f32⟩ : BufTy).Contents (Elt F) → (⟨S100000x1, .f32⟩ : BufTy).Contents (Elt F)),
    nullary main_cst_12 (constant S_ .f32 0x43000000#32),
    unary main_cst_12 main_v85 (broadcastInDim S100000x1 ![] bcast_S_S100000x1 : (⟨S_, .f32⟩ : BufTy).Contents (Elt F) → (⟨S100000x1, .f32⟩ : BufTy).Contents (Elt F)),
    binary main_v84 main_v85 main_v86 (Host.divf : (⟨S100000x1, .f32⟩ : BufTy).Contents (Elt F) → (⟨S100000x1, .f32⟩ : BufTy).Contents (Elt F) → (⟨S100000x1, .f32⟩ : BufTy).Contents (Elt F)),
    unary main_v79 main_v87 (broadcastInDim S100000x128 ![0, 1] bcast_S100000x1_S100000x128_0_1 : (⟨S100000x1, .f32⟩ : BufTy).Contents (Elt F) → (⟨S100000x128, .f32⟩ : BufTy).Contents (Elt F)),
    binary main_v71 main_v87 main_v88 (subf : (⟨S100000x128, .f32⟩ : BufTy).Contents (Elt F) → (⟨S100000x128, .f32⟩ : BufTy).Contents (Elt F) → (⟨S100000x128, .f32⟩ : BufTy).Contents (Elt F)),
    nullary main_cst_13 (constant S_ .f32 0x3727C5AC#32),
    unary main_cst_13 main_v89 (broadcastInDim S100000x1 ![] bcast_S_S100000x1 : (⟨S_, .f32⟩ : BufTy).Contents (Elt F) → (⟨S100000x1, .f32⟩ : BufTy).Contents (Elt F)),
    binary main_v86 main_v89 main_v90 (addf : (⟨S100000x1, .f32⟩ : BufTy).Contents (Elt F) → (⟨S100000x1, .f32⟩ : BufTy).Contents (Elt F) → (⟨S100000x1, .f32⟩ : BufTy).Contents (Elt F)),
    unary main_v90 main_v91 (Host.rsqrt : (⟨S100000x1, .f32⟩ : BufTy).Contents (Elt F) → (⟨S100000x1, .f32⟩ : BufTy).Contents (Elt F)),
    unary main_v91 main_v92 (broadcastInDim S100000x128 ![0, 1] bcast_S100000x1_S100000x128_0_1 : (⟨S100000x1, .f32⟩ : BufTy).Contents (Elt F) → (⟨S100000x128, .f32⟩ : BufTy).Contents (Elt F)),
    binary main_v88 main_v92 main_v93 (mulf : (⟨S100000x128, .f32⟩ : BufTy).Contents (Elt F) → (⟨S100000x128, .f32⟩ : BufTy).Contents (Elt F) → (⟨S100000x128, .f32⟩ : BufTy).Contents (Elt F)),
    unary main_v73 main_v94 (broadcastInDim S1x128 ![1] bcast_S128_S1x128_1 : (⟨S128, .f32⟩ : BufTy).Contents (Elt F) → (⟨S1x128, .f32⟩ : BufTy).Contents (Elt F)),
    unary main_v94 main_v95 (broadcastInDim S100000x128 ![0, 1] bcast_S1x128_S100000x128_0_1 : (⟨S1x128, .f32⟩ : BufTy).Contents (Elt F) → (⟨S100000x128, .f32⟩ : BufTy).Contents (Elt F)),
    binary main_v93 main_v95 main_v96 (mulf : (⟨S100000x128, .f32⟩ : BufTy).Contents (Elt F) → (⟨S100000x128, .f32⟩ : BufTy).Contents (Elt F) → (⟨S100000x128, .f32⟩ : BufTy).Contents (Elt F)),
    unary main_v75 main_v97 (broadcastInDim S1x128 ![1] bcast_S128_S1x128_1 : (⟨S128, .f32⟩ : BufTy).Contents (Elt F) → (⟨S1x128, .f32⟩ : BufTy).Contents (Elt F)),
    unary main_v97 main_v98 (broadcastInDim S100000x128 ![0, 1] bcast_S1x128_S100000x128_0_1 : (⟨S1x128, .f32⟩ : BufTy).Contents (Elt F) → (⟨S100000x128, .f32⟩ : BufTy).Contents (Elt F)),
    binary main_v96 main_v98 main_v99 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v99) (TRef.of (T := ⟨S100000x128, .f32⟩) main_call1_v0) (TRef.of (T := ⟨S100000x128, .f32⟩) main_v100) maximumf ]

/-- Stage 4 of the reference's @main. -/
abbrev st4 : List (HloOp τ sig (Elt F)) :=
  [ unary main_arg6 main_v101 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v101 main_v102 rfl shapeCasts_S1x128x128_S128x128,
    unary main_arg7 main_v103 ((extractStridedSlice S1x128 ![1, 0] · slices_S3x128_S1x128_1_0) : (⟨S3x128, .f32⟩ : BufTy).Contents (Elt F) → (⟨S1x128, .f32⟩ : BufTy).Contents (Elt F)),
    reshape main_v103 main_v104 rfl shapeCasts_S1x128_S128,
    unary main_arg8 main_v105 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v105 main_v106 rfl shapeCasts_S1x128x128_S128x128,
    nullary main_c_14 (constantI S_ 32 0#32),
    unary main_c_14 main_v107 (broadcastInDim S1000000 ![] bcast_S_S1000000 : (⟨S_, .i32⟩ : BufTy).Contents (Elt F) → (⟨S1000000, .i32⟩ : BufTy).Contents (Elt F)),
    binary main_v1 main_v107 main_v108 (cmpi .slt : (⟨S1000000, .i32⟩ : BufTy).Contents (Elt F) → (⟨S1000000, .i32⟩ : BufTy).Contents (Elt F) → (⟨S1000000, .i1⟩ : BufTy).Contents (Elt F)),
    nullary main_c_15 (constantI S_ 32 100000#32),
    unary main_c_15 main_v109 (broadcastInDim S1000000 ![] bcast_S_S1000000 : (⟨S_, .i32⟩ : BufTy).Contents (Elt F) → (⟨S1000000, .i32⟩ : BufTy).Contents (Elt F)),
    binary main_v1 main_v109 main_v110 (addi : (⟨S1000000, .i32⟩ : BufTy).Contents (Elt F) → (⟨S1000000, .i32⟩ : BufTy).Contents (Elt F) → (⟨S1000000, .i32⟩ : BufTy).Contents (Elt F)),
    ternary main_v108 main_v110 main_v1 main_v111 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v111 main_v112 (broadcastInDim S1000000x1 ![0] bcast_S1000000_S1000000x1_0 : (⟨S1000000, .i32⟩ : BufTy).Contents (Elt F) → (⟨S1000000x1, .i32⟩ : BufTy).Contents (Elt F)),
    binary main_v100 main_v112 main_v113 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    nullary main_cst_16 (constant S_ .f32 0x00000000#32),
    unary main_cst_16 main_v114 (broadcastInDim S100000x128 ![] bcast_S_S100000x128 : (⟨S_, .f32⟩ : BufTy).Contents (Elt F) → (⟨S100000x128, .f32⟩ : BufTy).Contents (Elt F)),
    unary main_v3 main_v115 (broadcastInDim S1000000x1 ![0] bcast_S1000000_S1000000x1_0 : (⟨S1000000, .i32⟩ : BufTy).Contents (Elt F) → (⟨S1000000x1, .i32⟩ : BufTy).Contents (Elt F)),
    ternary main_v114 main_v115 main_v113 main_v116 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    nullary main_cst_17 (constant S_ .f32 0x3F800000#32),
    unary main_cst_17 main_v117 (broadcastInDim S1000000 ![] bcast_S_S1000000 : (⟨S_, .f32⟩ : BufTy).Contents (Elt F) → (⟨S1000000, .f32⟩ : BufTy).Contents (Elt F)),
    nullary main_cst_18 (constant S_ .f32 0x00000000#32),
    unary main_cst_18 main_v118 (broadcastInDim S100000 ![] bcast_S_S100000 : (⟨S_, .f32⟩ : BufTy).Contents (Elt F) → (⟨S100000, .f32⟩ : BufTy).Contents (Elt F)),
    unary main_v3 main_v119 (broadcastInDim S1000000x1 ![0] bcast_S1000000_S1000000x1_0 : (⟨S1000000, .i32⟩ : BufTy).Contents (Elt F) → (⟨S1000000x1, .i32⟩ : BufTy).Contents (Elt F)),
    ternary main_v118 main_v119 main_v117 main_v120 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_19 (constant S_ .f32 0x3F800000#32),
    unary main_cst_19 main_v121 (broadcastInDim S100000 ![] bcast_S_S100000 : (⟨S_, .f32⟩ : BufTy).Contents (Elt F) → (⟨S100000, .f32⟩ : BufTy).Contents (Elt F)),
    binary main_v120 main_v121 main_v122 (maximumf : (⟨S100000, .f32⟩ : BufTy).Contents (Elt F) → (⟨S100000, .f32⟩ : BufTy).Contents (Elt F) → (⟨S100000, .f32⟩ : BufTy).Contents (Elt F)),
    unary main_v122 main_v123 (broadcastInDim S100000x1 ![0] bcast_S100000_S100000x1_0 : (⟨S100000, .f32⟩ : BufTy).Contents (Elt F) → (⟨S100000x1, .f32⟩ : BufTy).Contents (Elt F)),
    unary main_v123 main_v124 (broadcastInDim S100000x128 ![0, 1] bcast_S100000x1_S100000x128_0_1 : (⟨S100000x1, .f32⟩ : BufTy).Contents (Elt F) → (⟨S100000x128, .f32⟩ : BufTy).Contents (Elt F)),
    binary main_v116 main_v124 main_v125 (Host.divf : (⟨S100000x128, .f32⟩ : BufTy).Contents (Elt F) → (⟨S100000x128, .f32⟩ : BufTy).Contents (Elt F) → (⟨S100000x128, .f32⟩ : BufTy).Contents (Elt F)),
    unary main_v102 main_v126 ((transpose S128x128 [1, 0] · transposes_S128x128_S128x128_1_0) : (⟨S128x128, .f32⟩ : BufTy).Contents (Elt F) → (⟨S128x128, .f32⟩ : BufTy).Contents (Elt F)),
    binary main_v125 main_v126 main_v127 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v104 main_v128 (broadcastInDim S1x128 ![1] bcast_S128_S1x128_1 : (⟨S128, .f32⟩ : BufTy).Contents (Elt F) → (⟨S1x128, .f32⟩ : BufTy).Contents (Elt F)),
    unary main_v128 main_v129 (broadcastInDim S100000x128 ![0, 1] bcast_S1x128_S100000x128_0_1 : (⟨S1x128, .f32⟩ : BufTy).Contents (Elt F) → (⟨S100000x128, .f32⟩ : BufTy).Contents (Elt F)),
    binary main_v127 main_v129 main_v130 (addf : (⟨S100000x128, .f32⟩ : BufTy).Contents (Elt F) → (⟨S100000x128, .f32⟩ : BufTy).Contents (Elt F) → (⟨S100000x128, .f32⟩ : BufTy).Contents (Elt F)),
    unary main_v106 main_v131 ((transpose S128x128 [1, 0] · transposes_S128x128_S128x128_1_0) : (⟨S128x128, .f32⟩ : BufTy).Contents (Elt F) → (⟨S128x128, .f32⟩ : BufTy).Contents (Elt F)),
    binary main_v100 main_v131 main_v132 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v130 main_v132 main_v133 (addf : (⟨S100000x128, .f32⟩ : BufTy).Contents (Elt F) → (⟨S100000x128, .f32⟩ : BufTy).Contents (Elt F) → (⟨S100000x128, .f32⟩ : BufTy).Contents (Elt F)),
    binary main_v133 main_v71 main_v134 (addf : (⟨S100000x128, .f32⟩ : BufTy).Contents (Elt F) → (⟨S100000x128, .f32⟩ : BufTy).Contents (Elt F) → (⟨S100000x128, .f32⟩ : BufTy).Contents (Elt F)) ]

/-- Stage 5 of the reference's @main. -/
abbrev st5 : List (HloOp τ sig (Elt F)) :=
  [ unary main_arg4 main_v135 ((extractStridedSlice S1x128 ![2, 0] · slices_S3x128_S1x128_2_0) : (⟨S3x128, .f32⟩ : BufTy).Contents (Elt F) → (⟨S1x128, .f32⟩ : BufTy).Contents (Elt F)),
    reshape main_v135 main_v136 rfl shapeCasts_S1x128_S128,
    unary main_arg5 main_v137 ((extractStridedSlice S1x128 ![2, 0] · slices_S3x128_S1x128_2_0) : (⟨S3x128, .f32⟩ : BufTy).Contents (Elt F) → (⟨S1x128, .f32⟩ : BufTy).Contents (Elt F)),
    reshape main_v137 main_v138 rfl shapeCasts_S1x128_S128,
    nullary main_cst_20 (constant S_ .f32 0x00000000#32),
    binary main_v134 main_cst_20 main_v139 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v139 main_v140 (broadcastInDim S100000x1 ![0] bcast_S100000_S100000x1_0 : (⟨S100000, .f32⟩ : BufTy).Contents (Elt F) → (⟨S100000x1, .f32⟩ : BufTy).Contents (Elt F)),
    nullary main_cst_21 (constant S_ .f32 0x43000000#32),
    unary main_cst_21 main_v141 (broadcastInDim S100000x1 ![] bcast_S_S100000x1 : (⟨S_, .f32⟩ : BufTy).Contents (Elt F) → (⟨S100000x1, .f32⟩ : BufTy).Contents (Elt F)),
    binary main_v140 main_v141 main_v142 (Host.divf : (⟨S100000x1, .f32⟩ : BufTy).Contents (Elt F) → (⟨S100000x1, .f32⟩ : BufTy).Contents (Elt F) → (⟨S100000x1, .f32⟩ : BufTy).Contents (Elt F)),
    unary main_v142 main_v143 (broadcastInDim S100000x128 ![0, 1] bcast_S100000x1_S100000x128_0_1 : (⟨S100000x1, .f32⟩ : BufTy).Contents (Elt F) → (⟨S100000x128, .f32⟩ : BufTy).Contents (Elt F)),
    binary main_v134 main_v143 main_v144 (subf : (⟨S100000x128, .f32⟩ : BufTy).Contents (Elt F) → (⟨S100000x128, .f32⟩ : BufTy).Contents (Elt F) → (⟨S100000x128, .f32⟩ : BufTy).Contents (Elt F)),
    binary main_v144 main_v144 main_v145 (mulf : (⟨S100000x128, .f32⟩ : BufTy).Contents (Elt F) → (⟨S100000x128, .f32⟩ : BufTy).Contents (Elt F) → (⟨S100000x128, .f32⟩ : BufTy).Contents (Elt F)),
    nullary main_cst_22 (constant S_ .f32 0x00000000#32),
    binary main_v145 main_cst_22 main_v146 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v146 main_v147 (broadcastInDim S100000x1 ![0] bcast_S100000_S100000x1_0 : (⟨S100000, .f32⟩ : BufTy).Contents (Elt F) → (⟨S100000x1, .f32⟩ : BufTy).Contents (Elt F)),
    nullary main_cst_23 (constant S_ .f32 0x43000000#32),
    unary main_cst_23 main_v148 (broadcastInDim S100000x1 ![] bcast_S_S100000x1 : (⟨S_, .f32⟩ : BufTy).Contents (Elt F) → (⟨S100000x1, .f32⟩ : BufTy).Contents (Elt F)),
    binary main_v147 main_v148 main_v149 (Host.divf : (⟨S100000x1, .f32⟩ : BufTy).Contents (Elt F) → (⟨S100000x1, .f32⟩ : BufTy).Contents (Elt F) → (⟨S100000x1, .f32⟩ : BufTy).Contents (Elt F)),
    unary main_v142 main_v150 (broadcastInDim S100000x128 ![0, 1] bcast_S100000x1_S100000x128_0_1 : (⟨S100000x1, .f32⟩ : BufTy).Contents (Elt F) → (⟨S100000x128, .f32⟩ : BufTy).Contents (Elt F)),
    binary main_v134 main_v150 main_v151 (subf : (⟨S100000x128, .f32⟩ : BufTy).Contents (Elt F) → (⟨S100000x128, .f32⟩ : BufTy).Contents (Elt F) → (⟨S100000x128, .f32⟩ : BufTy).Contents (Elt F)),
    nullary main_cst_24 (constant S_ .f32 0x3727C5AC#32),
    unary main_cst_24 main_v152 (broadcastInDim S100000x1 ![] bcast_S_S100000x1 : (⟨S_, .f32⟩ : BufTy).Contents (Elt F) → (⟨S100000x1, .f32⟩ : BufTy).Contents (Elt F)),
    binary main_v149 main_v152 main_v153 (addf : (⟨S100000x1, .f32⟩ : BufTy).Contents (Elt F) → (⟨S100000x1, .f32⟩ : BufTy).Contents (Elt F) → (⟨S100000x1, .f32⟩ : BufTy).Contents (Elt F)),
    unary main_v153 main_v154 (Host.rsqrt : (⟨S100000x1, .f32⟩ : BufTy).Contents (Elt F) → (⟨S100000x1, .f32⟩ : BufTy).Contents (Elt F)),
    unary main_v154 main_v155 (broadcastInDim S100000x128 ![0, 1] bcast_S100000x1_S100000x128_0_1 : (⟨S100000x1, .f32⟩ : BufTy).Contents (Elt F) → (⟨S100000x128, .f32⟩ : BufTy).Contents (Elt F)),
    binary main_v151 main_v155 main_v156 (mulf : (⟨S100000x128, .f32⟩ : BufTy).Contents (Elt F) → (⟨S100000x128, .f32⟩ : BufTy).Contents (Elt F) → (⟨S100000x128, .f32⟩ : BufTy).Contents (Elt F)),
    unary main_v136 main_v157 (broadcastInDim S1x128 ![1] bcast_S128_S1x128_1 : (⟨S128, .f32⟩ : BufTy).Contents (Elt F) → (⟨S1x128, .f32⟩ : BufTy).Contents (Elt F)),
    unary main_v157 main_v158 (broadcastInDim S100000x128 ![0, 1] bcast_S1x128_S100000x128_0_1 : (⟨S1x128, .f32⟩ : BufTy).Contents (Elt F) → (⟨S100000x128, .f32⟩ : BufTy).Contents (Elt F)),
    binary main_v156 main_v158 main_v159 (mulf : (⟨S100000x128, .f32⟩ : BufTy).Contents (Elt F) → (⟨S100000x128, .f32⟩ : BufTy).Contents (Elt F) → (⟨S100000x128, .f32⟩ : BufTy).Contents (Elt F)),
    unary main_v138 main_v160 (broadcastInDim S1x128 ![1] bcast_S128_S1x128_1 : (⟨S128, .f32⟩ : BufTy).Contents (Elt F) → (⟨S1x128, .f32⟩ : BufTy).Contents (Elt F)),
    unary main_v160 main_v161 (broadcastInDim S100000x128 ![0, 1] bcast_S1x128_S100000x128_0_1 : (⟨S1x128, .f32⟩ : BufTy).Contents (Elt F) → (⟨S100000x128, .f32⟩ : BufTy).Contents (Elt F)),
    binary main_v159 main_v161 main_v162 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v162) (TRef.of (T := ⟨S100000x128, .f32⟩) main_call2_v0) (TRef.of (T := ⟨S100000x128, .f32⟩) main_v163) maximumf ]

/-- Stage 6 of the reference's @main. -/
abbrev st6 : List (HloOp τ sig (Elt F)) :=
  [ unary main_arg6 main_v164 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v164 main_v165 rfl shapeCasts_S1x128x128_S128x128,
    unary main_arg7 main_v166 ((extractStridedSlice S1x128 ![2, 0] · slices_S3x128_S1x128_2_0) : (⟨S3x128, .f32⟩ : BufTy).Contents (Elt F) → (⟨S1x128, .f32⟩ : BufTy).Contents (Elt F)),
    reshape main_v166 main_v167 rfl shapeCasts_S1x128_S128,
    unary main_arg8 main_v168 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v168 main_v169 rfl shapeCasts_S1x128x128_S128x128,
    nullary main_c_25 (constantI S_ 32 0#32),
    unary main_c_25 main_v170 (broadcastInDim S1000000 ![] bcast_S_S1000000 : (⟨S_, .i32⟩ : BufTy).Contents (Elt F) → (⟨S1000000, .i32⟩ : BufTy).Contents (Elt F)),
    binary main_v1 main_v170 main_v171 (cmpi .slt : (⟨S1000000, .i32⟩ : BufTy).Contents (Elt F) → (⟨S1000000, .i32⟩ : BufTy).Contents (Elt F) → (⟨S1000000, .i1⟩ : BufTy).Contents (Elt F)),
    nullary main_c_26 (constantI S_ 32 100000#32),
    unary main_c_26 main_v172 (broadcastInDim S1000000 ![] bcast_S_S1000000 : (⟨S_, .i32⟩ : BufTy).Contents (Elt F) → (⟨S1000000, .i32⟩ : BufTy).Contents (Elt F)),
    binary main_v1 main_v172 main_v173 (addi : (⟨S1000000, .i32⟩ : BufTy).Contents (Elt F) → (⟨S1000000, .i32⟩ : BufTy).Contents (Elt F) → (⟨S1000000, .i32⟩ : BufTy).Contents (Elt F)),
    ternary main_v171 main_v173 main_v1 main_v174 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v174 main_v175 (broadcastInDim S1000000x1 ![0] bcast_S1000000_S1000000x1_0 : (⟨S1000000, .i32⟩ : BufTy).Contents (Elt F) → (⟨S1000000x1, .i32⟩ : BufTy).Contents (Elt F)),
    binary main_v163 main_v175 main_v176 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    nullary main_cst_27 (constant S_ .f32 0x00000000#32),
    unary main_cst_27 main_v177 (broadcastInDim S100000x128 ![] bcast_S_S100000x128 : (⟨S_, .f32⟩ : BufTy).Contents (Elt F) → (⟨S100000x128, .f32⟩ : BufTy).Contents (Elt F)),
    unary main_v3 main_v178 (broadcastInDim S1000000x1 ![0] bcast_S1000000_S1000000x1_0 : (⟨S1000000, .i32⟩ : BufTy).Contents (Elt F) → (⟨S1000000x1, .i32⟩ : BufTy).Contents (Elt F)),
    ternary main_v177 main_v178 main_v176 main_v179 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    nullary main_cst_28 (constant S_ .f32 0x3F800000#32),
    unary main_cst_28 main_v180 (broadcastInDim S1000000 ![] bcast_S_S1000000 : (⟨S_, .f32⟩ : BufTy).Contents (Elt F) → (⟨S1000000, .f32⟩ : BufTy).Contents (Elt F)),
    nullary main_cst_29 (constant S_ .f32 0x00000000#32),
    unary main_cst_29 main_v181 (broadcastInDim S100000 ![] bcast_S_S100000 : (⟨S_, .f32⟩ : BufTy).Contents (Elt F) → (⟨S100000, .f32⟩ : BufTy).Contents (Elt F)),
    unary main_v3 main_v182 (broadcastInDim S1000000x1 ![0] bcast_S1000000_S1000000x1_0 : (⟨S1000000, .i32⟩ : BufTy).Contents (Elt F) → (⟨S1000000x1, .i32⟩ : BufTy).Contents (Elt F)),
    ternary main_v181 main_v182 main_v180 main_v183 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_30 (constant S_ .f32 0x3F800000#32),
    unary main_cst_30 main_v184 (broadcastInDim S100000 ![] bcast_S_S100000 : (⟨S_, .f32⟩ : BufTy).Contents (Elt F) → (⟨S100000, .f32⟩ : BufTy).Contents (Elt F)),
    binary main_v183 main_v184 main_v185 (maximumf : (⟨S100000, .f32⟩ : BufTy).Contents (Elt F) → (⟨S100000, .f32⟩ : BufTy).Contents (Elt F) → (⟨S100000, .f32⟩ : BufTy).Contents (Elt F)),
    unary main_v185 main_v186 (broadcastInDim S100000x1 ![0] bcast_S100000_S100000x1_0 : (⟨S100000, .f32⟩ : BufTy).Contents (Elt F) → (⟨S100000x1, .f32⟩ : BufTy).Contents (Elt F)),
    unary main_v186 main_v187 (broadcastInDim S100000x128 ![0, 1] bcast_S100000x1_S100000x128_0_1 : (⟨S100000x1, .f32⟩ : BufTy).Contents (Elt F) → (⟨S100000x128, .f32⟩ : BufTy).Contents (Elt F)),
    binary main_v179 main_v187 main_v188 (Host.divf : (⟨S100000x128, .f32⟩ : BufTy).Contents (Elt F) → (⟨S100000x128, .f32⟩ : BufTy).Contents (Elt F) → (⟨S100000x128, .f32⟩ : BufTy).Contents (Elt F)),
    unary main_v165 main_v189 ((transpose S128x128 [1, 0] · transposes_S128x128_S128x128_1_0) : (⟨S128x128, .f32⟩ : BufTy).Contents (Elt F) → (⟨S128x128, .f32⟩ : BufTy).Contents (Elt F)),
    binary main_v188 main_v189 main_v190 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v167 main_v191 (broadcastInDim S1x128 ![1] bcast_S128_S1x128_1 : (⟨S128, .f32⟩ : BufTy).Contents (Elt F) → (⟨S1x128, .f32⟩ : BufTy).Contents (Elt F)),
    unary main_v191 main_v192 (broadcastInDim S100000x128 ![0, 1] bcast_S1x128_S100000x128_0_1 : (⟨S1x128, .f32⟩ : BufTy).Contents (Elt F) → (⟨S100000x128, .f32⟩ : BufTy).Contents (Elt F)),
    binary main_v190 main_v192 main_v193 (addf : (⟨S100000x128, .f32⟩ : BufTy).Contents (Elt F) → (⟨S100000x128, .f32⟩ : BufTy).Contents (Elt F) → (⟨S100000x128, .f32⟩ : BufTy).Contents (Elt F)),
    unary main_v169 main_v194 ((transpose S128x128 [1, 0] · transposes_S128x128_S128x128_1_0) : (⟨S128x128, .f32⟩ : BufTy).Contents (Elt F) → (⟨S128x128, .f32⟩ : BufTy).Contents (Elt F)),
    binary main_v163 main_v194 main_v195 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v193 main_v195 main_v196 (addf : (⟨S100000x128, .f32⟩ : BufTy).Contents (Elt F) → (⟨S100000x128, .f32⟩ : BufTy).Contents (Elt F) → (⟨S100000x128, .f32⟩ : BufTy).Contents (Elt F)),
    binary main_v196 main_v134 main_v197 (addf : (⟨S100000x128, .f32⟩ : BufTy).Contents (Elt F) → (⟨S100000x128, .f32⟩ : BufTy).Contents (Elt F) → (⟨S100000x128, .f32⟩ : BufTy).Contents (Elt F)) ]

/-- Stage 7 of the reference's @main. -/
abbrev st7 : List (HloOp τ sig (Elt F)) :=
  [ nullary main_cst_31 (constant S_ .f32 0x00000000#32),
    binary main_v197 main_cst_31 main_v198 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v198 main_v199 (broadcastInDim S100000x1 ![0] bcast_S100000_S100000x1_0 : (⟨S100000, .f32⟩ : BufTy).Contents (Elt F) → (⟨S100000x1, .f32⟩ : BufTy).Contents (Elt F)),
    nullary main_cst_32 (constant S_ .f32 0x43000000#32),
    unary main_cst_32 main_v200 (broadcastInDim S100000x1 ![] bcast_S_S100000x1 : (⟨S_, .f32⟩ : BufTy).Contents (Elt F) → (⟨S100000x1, .f32⟩ : BufTy).Contents (Elt F)),
    binary main_v199 main_v200 main_v201 (Host.divf : (⟨S100000x1, .f32⟩ : BufTy).Contents (Elt F) → (⟨S100000x1, .f32⟩ : BufTy).Contents (Elt F) → (⟨S100000x1, .f32⟩ : BufTy).Contents (Elt F)),
    unary main_v201 main_v202 (broadcastInDim S100000x128 ![0, 1] bcast_S100000x1_S100000x128_0_1 : (⟨S100000x1, .f32⟩ : BufTy).Contents (Elt F) → (⟨S100000x128, .f32⟩ : BufTy).Contents (Elt F)),
    binary main_v197 main_v202 main_v203 (subf : (⟨S100000x128, .f32⟩ : BufTy).Contents (Elt F) → (⟨S100000x128, .f32⟩ : BufTy).Contents (Elt F) → (⟨S100000x128, .f32⟩ : BufTy).Contents (Elt F)),
    binary main_v203 main_v203 main_v204 (mulf : (⟨S100000x128, .f32⟩ : BufTy).Contents (Elt F) → (⟨S100000x128, .f32⟩ : BufTy).Contents (Elt F) → (⟨S100000x128, .f32⟩ : BufTy).Contents (Elt F)),
    nullary main_cst_33 (constant S_ .f32 0x00000000#32),
    binary main_v204 main_cst_33 main_v205 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v205 main_v206 (broadcastInDim S100000x1 ![0] bcast_S100000_S100000x1_0 : (⟨S100000, .f32⟩ : BufTy).Contents (Elt F) → (⟨S100000x1, .f32⟩ : BufTy).Contents (Elt F)),
    nullary main_cst_34 (constant S_ .f32 0x43000000#32),
    unary main_cst_34 main_v207 (broadcastInDim S100000x1 ![] bcast_S_S100000x1 : (⟨S_, .f32⟩ : BufTy).Contents (Elt F) → (⟨S100000x1, .f32⟩ : BufTy).Contents (Elt F)),
    binary main_v206 main_v207 main_v208 (Host.divf : (⟨S100000x1, .f32⟩ : BufTy).Contents (Elt F) → (⟨S100000x1, .f32⟩ : BufTy).Contents (Elt F) → (⟨S100000x1, .f32⟩ : BufTy).Contents (Elt F)),
    unary main_v201 main_v209 (broadcastInDim S100000x128 ![0, 1] bcast_S100000x1_S100000x128_0_1 : (⟨S100000x1, .f32⟩ : BufTy).Contents (Elt F) → (⟨S100000x128, .f32⟩ : BufTy).Contents (Elt F)),
    binary main_v197 main_v209 main_v210 (subf : (⟨S100000x128, .f32⟩ : BufTy).Contents (Elt F) → (⟨S100000x128, .f32⟩ : BufTy).Contents (Elt F) → (⟨S100000x128, .f32⟩ : BufTy).Contents (Elt F)),
    nullary main_cst_35 (constant S_ .f32 0x3727C5AC#32),
    unary main_cst_35 main_v211 (broadcastInDim S100000x1 ![] bcast_S_S100000x1 : (⟨S_, .f32⟩ : BufTy).Contents (Elt F) → (⟨S100000x1, .f32⟩ : BufTy).Contents (Elt F)),
    binary main_v208 main_v211 main_v212 (addf : (⟨S100000x1, .f32⟩ : BufTy).Contents (Elt F) → (⟨S100000x1, .f32⟩ : BufTy).Contents (Elt F) → (⟨S100000x1, .f32⟩ : BufTy).Contents (Elt F)),
    unary main_v212 main_v213 (Host.rsqrt : (⟨S100000x1, .f32⟩ : BufTy).Contents (Elt F) → (⟨S100000x1, .f32⟩ : BufTy).Contents (Elt F)),
    unary main_v213 main_v214 (broadcastInDim S100000x128 ![0, 1] bcast_S100000x1_S100000x128_0_1 : (⟨S100000x1, .f32⟩ : BufTy).Contents (Elt F) → (⟨S100000x128, .f32⟩ : BufTy).Contents (Elt F)),
    binary main_v210 main_v214 main_v215 (mulf : (⟨S100000x128, .f32⟩ : BufTy).Contents (Elt F) → (⟨S100000x128, .f32⟩ : BufTy).Contents (Elt F) → (⟨S100000x128, .f32⟩ : BufTy).Contents (Elt F)),
    unary main_arg9 main_v216 (broadcastInDim S1x128 ![1] bcast_S128_S1x128_1 : (⟨S128, .f32⟩ : BufTy).Contents (Elt F) → (⟨S1x128, .f32⟩ : BufTy).Contents (Elt F)),
    unary main_v216 main_v217 (broadcastInDim S100000x128 ![0, 1] bcast_S1x128_S100000x128_0_1 : (⟨S1x128, .f32⟩ : BufTy).Contents (Elt F) → (⟨S100000x128, .f32⟩ : BufTy).Contents (Elt F)),
    binary main_v215 main_v217 main_v218 (mulf : (⟨S100000x128, .f32⟩ : BufTy).Contents (Elt F) → (⟨S100000x128, .f32⟩ : BufTy).Contents (Elt F) → (⟨S100000x128, .f32⟩ : BufTy).Contents (Elt F)),
    unary main_arg10 main_v219 (broadcastInDim S1x128 ![1] bcast_S128_S1x128_1 : (⟨S128, .f32⟩ : BufTy).Contents (Elt F) → (⟨S1x128, .f32⟩ : BufTy).Contents (Elt F)),
    unary main_v219 main_v220 (broadcastInDim S100000x128 ![0, 1] bcast_S1x128_S100000x128_0_1 : (⟨S1x128, .f32⟩ : BufTy).Contents (Elt F) → (⟨S100000x128, .f32⟩ : BufTy).Contents (Elt F)),
    binary main_v218 main_v220 main_v221 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v221) (TRef.of (T := ⟨S100000x128, .f32⟩) main_call3_v0) (TRef.of (T := ⟨S100000x128, .f32⟩) main_v222) maximumf ]

/-- Stage 8 of the reference's @main. -/
abbrev st8 : List (HloOp τ sig (Elt F)) :=
  [ unary main_arg11 main_v223 ((transpose S128x64 [1, 0] · transposes_S64x128_S128x64_1_0) : (⟨S64x128, .f32⟩ : BufTy).Contents (Elt F) → (⟨S128x64, .f32⟩ : BufTy).Contents (Elt F)),
    binary main_v222 main_v223 main_v224 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg12 main_v225 (broadcastInDim S1x64 ![1] bcast_S64_S1x64_1 : (⟨S64, .f32⟩ : BufTy).Contents (Elt F) → (⟨S1x64, .f32⟩ : BufTy).Contents (Elt F)),
    unary main_v225 main_v226 (broadcastInDim S100000x64 ![0, 1] bcast_S1x64_S100000x64_0_1 : (⟨S1x64, .f32⟩ : BufTy).Contents (Elt F) → (⟨S100000x64, .f32⟩ : BufTy).Contents (Elt F)),
    binary main_v224 main_v226 main_v227 (addf : (⟨S100000x64, .f32⟩ : BufTy).Contents (Elt F) → (⟨S100000x64, .f32⟩ : BufTy).Contents (Elt F) → (⟨S100000x64, .f32⟩ : BufTy).Contents (Elt F)) ]

/-! ## The whole list -/

/-- @main's 274 operations, in order (a called function's operations stand in its call's place, spelt `TRef.…`). -/
abbrev ops : List (HloOp τ sig (Elt F)) :=
  [ unary main_arg1 main_v0 ((extractStridedSlice S1x1000000 ![0, 0] · slices_S2x1000000_S1x1000000_0_0) : (⟨S2x1000000, .i32⟩ : BufTy).Contents (Elt F) → (⟨S1x1000000, .i32⟩ : BufTy).Contents (Elt F)),
    reshape main_v0 main_v1 rfl shapeCasts_S1x1000000_S1000000,
    unary main_arg1 main_v2 ((extractStridedSlice S1x1000000 ![1, 0] · slices_S2x1000000_S1x1000000_1_0) : (⟨S2x1000000, .i32⟩ : BufTy).Contents (Elt F) → (⟨S1x1000000, .i32⟩ : BufTy).Contents (Elt F)),
    reshape main_v2 main_v3 rfl shapeCasts_S1x1000000_S1000000,
    unary main_arg2 main_v4 ((transpose S128x128 [1, 0] · transposes_S128x128_S128x128_1_0) : (⟨S128x128, .f32⟩ : BufTy).Contents (Elt F) → (⟨S128x128, .f32⟩ : BufTy).Contents (Elt F)),
    binary main_arg0 main_v4 main_v5 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v6 (broadcastInDim S1x128 ![1] bcast_S128_S1x128_1 : (⟨S128, .f32⟩ : BufTy).Contents (Elt F) → (⟨S1x128, .f32⟩ : BufTy).Contents (Elt F)),
    unary main_v6 main_v7 (broadcastInDim S100000x128 ![0, 1] bcast_S1x128_S100000x128_0_1 : (⟨S1x128, .f32⟩ : BufTy).Contents (Elt F) → (⟨S100000x128, .f32⟩ : BufTy).Contents (Elt F)),
    binary main_v5 main_v7 main_v8 (addf : (⟨S100000x128, .f32⟩ : BufTy).Contents (Elt F) → (⟨S100000x128, .f32⟩ : BufTy).Contents (Elt F) → (⟨S100000x128, .f32⟩ : BufTy).Contents (Elt F)),
    unary main_arg4 main_v9 ((extractStridedSlice S1x128 ![0, 0] · slices_S3x128_S1x128_0_0) : (⟨S3x128, .f32⟩ : BufTy).Contents (Elt F) → (⟨S1x128, .f32⟩ : BufTy).Contents (Elt F)),
    reshape main_v9 main_v10 rfl shapeCasts_S1x128_S128,
    unary main_arg5 main_v11 ((extractStridedSlice S1x128 ![0, 0] · slices_S3x128_S1x128_0_0) : (⟨S3x128, .f32⟩ : BufTy).Contents (Elt F) → (⟨S1x128, .f32⟩ : BufTy).Contents (Elt F)),
    reshape main_v11 main_v12 rfl shapeCasts_S1x128_S128,
    nullary main_cst (constant S_ .f32 0x00000000#32),
    binary main_v8 main_cst main_v13 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v13 main_v14 (broadcastInDim S100000x1 ![0] bcast_S100000_S100000x1_0 : (⟨S100000, .f32⟩ : BufTy).Contents (Elt F) → (⟨S100000x1, .f32⟩ : BufTy).Contents (Elt F)),
    nullary main_cst_0 (constant S_ .f32 0x43000000#32),
    unary main_cst_0 main_v15 (broadcastInDim S100000x1 ![] bcast_S_S100000x1 : (⟨S_, .f32⟩ : BufTy).Contents (Elt F) → (⟨S100000x1, .f32⟩ : BufTy).Contents (Elt F)),
    binary main_v14 main_v15 main_v16 (Host.divf : (⟨S100000x1, .f32⟩ : BufTy).Contents (Elt F) → (⟨S100000x1, .f32⟩ : BufTy).Contents (Elt F) → (⟨S100000x1, .f32⟩ : BufTy).Contents (Elt F)),
    unary main_v16 main_v17 (broadcastInDim S100000x128 ![0, 1] bcast_S100000x1_S100000x128_0_1 : (⟨S100000x1, .f32⟩ : BufTy).Contents (Elt F) → (⟨S100000x128, .f32⟩ : BufTy).Contents (Elt F)),
    binary main_v8 main_v17 main_v18 (subf : (⟨S100000x128, .f32⟩ : BufTy).Contents (Elt F) → (⟨S100000x128, .f32⟩ : BufTy).Contents (Elt F) → (⟨S100000x128, .f32⟩ : BufTy).Contents (Elt F)),
    binary main_v18 main_v18 main_v19 (mulf : (⟨S100000x128, .f32⟩ : BufTy).Contents (Elt F) → (⟨S100000x128, .f32⟩ : BufTy).Contents (Elt F) → (⟨S100000x128, .f32⟩ : BufTy).Contents (Elt F)),
    nullary main_cst_1 (constant S_ .f32 0x00000000#32),
    binary main_v19 main_cst_1 main_v20 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v20 main_v21 (broadcastInDim S100000x1 ![0] bcast_S100000_S100000x1_0 : (⟨S100000, .f32⟩ : BufTy).Contents (Elt F) → (⟨S100000x1, .f32⟩ : BufTy).Contents (Elt F)),
    nullary main_cst_2 (constant S_ .f32 0x43000000#32),
    unary main_cst_2 main_v22 (broadcastInDim S100000x1 ![] bcast_S_S100000x1 : (⟨S_, .f32⟩ : BufTy).Contents (Elt F) → (⟨S100000x1, .f32⟩ : BufTy).Contents (Elt F)),
    binary main_v21 main_v22 main_v23 (Host.divf : (⟨S100000x1, .f32⟩ : BufTy).Contents (Elt F) → (⟨S100000x1, .f32⟩ : BufTy).Contents (Elt F) → (⟨S100000x1, .f32⟩ : BufTy).Contents (Elt F)),
    unary main_v16 main_v24 (broadcastInDim S100000x128 ![0, 1] bcast_S100000x1_S100000x128_0_1 : (⟨S100000x1, .f32⟩ : BufTy).Contents (Elt F) → (⟨S100000x128, .f32⟩ : BufTy).Contents (Elt F)),
    binary main_v8 main_v24 main_v25 (subf : (⟨S100000x128, .f32⟩ : BufTy).Contents (Elt F) → (⟨S100000x128, .f32⟩ : BufTy).Contents (Elt F) → (⟨S100000x128, .f32⟩ : BufTy).Contents (Elt F)),
    nullary main_cst_3 (constant S_ .f32 0x3727C5AC#32),
    unary main_cst_3 main_v26 (broadcastInDim S100000x1 ![] bcast_S_S100000x1 : (⟨S_, .f32⟩ : BufTy).Contents (Elt F) → (⟨S100000x1, .f32⟩ : BufTy).Contents (Elt F)),
    binary main_v23 main_v26 main_v27 (addf : (⟨S100000x1, .f32⟩ : BufTy).Contents (Elt F) → (⟨S100000x1, .f32⟩ : BufTy).Contents (Elt F) → (⟨S100000x1, .f32⟩ : BufTy).Contents (Elt F)),
    unary main_v27 main_v28 (Host.rsqrt : (⟨S100000x1, .f32⟩ : BufTy).Contents (Elt F) → (⟨S100000x1, .f32⟩ : BufTy).Contents (Elt F)),
    unary main_v28 main_v29 (broadcastInDim S100000x128 ![0, 1] bcast_S100000x1_S100000x128_0_1 : (⟨S100000x1, .f32⟩ : BufTy).Contents (Elt F) → (⟨S100000x128, .f32⟩ : BufTy).Contents (Elt F)),
    binary main_v25 main_v29 main_v30 (mulf : (⟨S100000x128, .f32⟩ : BufTy).Contents (Elt F) → (⟨S100000x128, .f32⟩ : BufTy).Contents (Elt F) → (⟨S100000x128, .f32⟩ : BufTy).Contents (Elt F)),
    unary main_v10 main_v31 (broadcastInDim S1x128 ![1] bcast_S128_S1x128_1 : (⟨S128, .f32⟩ : BufTy).Contents (Elt F) → (⟨S1x128, .f32⟩ : BufTy).Contents (Elt F)),
    unary main_v31 main_v32 (broadcastInDim S100000x128 ![0, 1] bcast_S1x128_S100000x128_0_1 : (⟨S1x128, .f32⟩ : BufTy).Contents (Elt F) → (⟨S100000x128, .f32⟩ : BufTy).Contents (Elt F)),
    binary main_v30 main_v32 main_v33 (mulf : (⟨S100000x128, .f32⟩ : BufTy).Contents (Elt F) → (⟨S100000x128, .f32⟩ : BufTy).Contents (Elt F) → (⟨S100000x128, .f32⟩ : BufTy).Contents (Elt F)),
    unary main_v12 main_v34 (broadcastInDim S1x128 ![1] bcast_S128_S1x128_1 : (⟨S128, .f32⟩ : BufTy).Contents (Elt F) → (⟨S1x128, .f32⟩ : BufTy).Contents (Elt F)),
    unary main_v34 main_v35 (broadcastInDim S100000x128 ![0, 1] bcast_S1x128_S100000x128_0_1 : (⟨S1x128, .f32⟩ : BufTy).Contents (Elt F) → (⟨S100000x128, .f32⟩ : BufTy).Contents (Elt F)),
    binary main_v33 main_v35 main_v36 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v36) (TRef.of (T := ⟨S100000x128, .f32⟩) main_call0_v0) (TRef.of (T := ⟨S100000x128, .f32⟩) main_v37) maximumf,
    unary main_arg6 main_v38 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v38 main_v39 rfl shapeCasts_S1x128x128_S128x128,
    unary main_arg7 main_v40 ((extractStridedSlice S1x128 ![0, 0] · slices_S3x128_S1x128_0_0) : (⟨S3x128, .f32⟩ : BufTy).Contents (Elt F) → (⟨S1x128, .f32⟩ : BufTy).Contents (Elt F)),
    reshape main_v40 main_v41 rfl shapeCasts_S1x128_S128,
    unary main_arg8 main_v42 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v42 main_v43 rfl shapeCasts_S1x128x128_S128x128,
    nullary main_c (constantI S_ 32 0#32),
    unary main_c main_v44 (broadcastInDim S1000000 ![] bcast_S_S1000000 : (⟨S_, .i32⟩ : BufTy).Contents (Elt F) → (⟨S1000000, .i32⟩ : BufTy).Contents (Elt F)),
    binary main_v1 main_v44 main_v45 (cmpi .slt : (⟨S1000000, .i32⟩ : BufTy).Contents (Elt F) → (⟨S1000000, .i32⟩ : BufTy).Contents (Elt F) → (⟨S1000000, .i1⟩ : BufTy).Contents (Elt F)),
    nullary main_c_4 (constantI S_ 32 100000#32),
    unary main_c_4 main_v46 (broadcastInDim S1000000 ![] bcast_S_S1000000 : (⟨S_, .i32⟩ : BufTy).Contents (Elt F) → (⟨S1000000, .i32⟩ : BufTy).Contents (Elt F)),
    binary main_v1 main_v46 main_v47 (addi : (⟨S1000000, .i32⟩ : BufTy).Contents (Elt F) → (⟨S1000000, .i32⟩ : BufTy).Contents (Elt F) → (⟨S1000000, .i32⟩ : BufTy).Contents (Elt F)),
    ternary main_v45 main_v47 main_v1 main_v48 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v48 main_v49 (broadcastInDim S1000000x1 ![0] bcast_S1000000_S1000000x1_0 : (⟨S1000000, .i32⟩ : BufTy).Contents (Elt F) → (⟨S1000000x1, .i32⟩ : BufTy).Contents (Elt F)),
    binary main_v37 main_v49 main_v50 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    nullary main_cst_5 (constant S_ .f32 0x00000000#32),
    unary main_cst_5 main_v51 (broadcastInDim S100000x128 ![] bcast_S_S100000x128 : (⟨S_, .f32⟩ : BufTy).Contents (Elt F) → (⟨S100000x128, .f32⟩ : BufTy).Contents (Elt F)),
    unary main_v3 main_v52 (broadcastInDim S1000000x1 ![0] bcast_S1000000_S1000000x1_0 : (⟨S1000000, .i32⟩ : BufTy).Contents (Elt F) → (⟨S1000000x1, .i32⟩ : BufTy).Contents (Elt F)),
    ternary main_v51 main_v52 main_v50 main_v53 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    nullary main_cst_6 (constant S_ .f32 0x3F800000#32),
    unary main_cst_6 main_v54 (broadcastInDim S1000000 ![] bcast_S_S1000000 : (⟨S_, .f32⟩ : BufTy).Contents (Elt F) → (⟨S1000000, .f32⟩ : BufTy).Contents (Elt F)),
    nullary main_cst_7 (constant S_ .f32 0x00000000#32),
    unary main_cst_7 main_v55 (broadcastInDim S100000 ![] bcast_S_S100000 : (⟨S_, .f32⟩ : BufTy).Contents (Elt F) → (⟨S100000, .f32⟩ : BufTy).Contents (Elt F)),
    unary main_v3 main_v56 (broadcastInDim S1000000x1 ![0] bcast_S1000000_S1000000x1_0 : (⟨S1000000, .i32⟩ : BufTy).Contents (Elt F) → (⟨S1000000x1, .i32⟩ : BufTy).Contents (Elt F)),
    ternary main_v55 main_v56 main_v54 main_v57 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_8 (constant S_ .f32 0x3F800000#32),
    unary main_cst_8 main_v58 (broadcastInDim S100000 ![] bcast_S_S100000 : (⟨S_, .f32⟩ : BufTy).Contents (Elt F) → (⟨S100000, .f32⟩ : BufTy).Contents (Elt F)),
    binary main_v57 main_v58 main_v59 (maximumf : (⟨S100000, .f32⟩ : BufTy).Contents (Elt F) → (⟨S100000, .f32⟩ : BufTy).Contents (Elt F) → (⟨S100000, .f32⟩ : BufTy).Contents (Elt F)),
    unary main_v59 main_v60 (broadcastInDim S100000x1 ![0] bcast_S100000_S100000x1_0 : (⟨S100000, .f32⟩ : BufTy).Contents (Elt F) → (⟨S100000x1, .f32⟩ : BufTy).Contents (Elt F)),
    unary main_v60 main_v61 (broadcastInDim S100000x128 ![0, 1] bcast_S100000x1_S100000x128_0_1 : (⟨S100000x1, .f32⟩ : BufTy).Contents (Elt F) → (⟨S100000x128, .f32⟩ : BufTy).Contents (Elt F)),
    binary main_v53 main_v61 main_v62 (Host.divf : (⟨S100000x128, .f32⟩ : BufTy).Contents (Elt F) → (⟨S100000x128, .f32⟩ : BufTy).Contents (Elt F) → (⟨S100000x128, .f32⟩ : BufTy).Contents (Elt F)),
    unary main_v39 main_v63 ((transpose S128x128 [1, 0] · transposes_S128x128_S128x128_1_0) : (⟨S128x128, .f32⟩ : BufTy).Contents (Elt F) → (⟨S128x128, .f32⟩ : BufTy).Contents (Elt F)),
    binary main_v62 main_v63 main_v64 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v41 main_v65 (broadcastInDim S1x128 ![1] bcast_S128_S1x128_1 : (⟨S128, .f32⟩ : BufTy).Contents (Elt F) → (⟨S1x128, .f32⟩ : BufTy).Contents (Elt F)),
    unary main_v65 main_v66 (broadcastInDim S100000x128 ![0, 1] bcast_S1x128_S100000x128_0_1 : (⟨S1x128, .f32⟩ : BufTy).Contents (Elt F) → (⟨S100000x128, .f32⟩ : BufTy).Contents (Elt F)),
    binary main_v64 main_v66 main_v67 (addf : (⟨S100000x128, .f32⟩ : BufTy).Contents (Elt F) → (⟨S100000x128, .f32⟩ : BufTy).Contents (Elt F) → (⟨S100000x128, .f32⟩ : BufTy).Contents (Elt F)),
    unary main_v43 main_v68 ((transpose S128x128 [1, 0] · transposes_S128x128_S128x128_1_0) : (⟨S128x128, .f32⟩ : BufTy).Contents (Elt F) → (⟨S128x128, .f32⟩ : BufTy).Contents (Elt F)),
    binary main_v37 main_v68 main_v69 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v67 main_v69 main_v70 (addf : (⟨S100000x128, .f32⟩ : BufTy).Contents (Elt F) → (⟨S100000x128, .f32⟩ : BufTy).Contents (Elt F) → (⟨S100000x128, .f32⟩ : BufTy).Contents (Elt F)),
    binary main_v70 main_v8 main_v71 (addf : (⟨S100000x128, .f32⟩ : BufTy).Contents (Elt F) → (⟨S100000x128, .f32⟩ : BufTy).Contents (Elt F) → (⟨S100000x128, .f32⟩ : BufTy).Contents (Elt F)),
    unary main_arg4 main_v72 ((extractStridedSlice S1x128 ![1, 0] · slices_S3x128_S1x128_1_0) : (⟨S3x128, .f32⟩ : BufTy).Contents (Elt F) → (⟨S1x128, .f32⟩ : BufTy).Contents (Elt F)),
    reshape main_v72 main_v73 rfl shapeCasts_S1x128_S128,
    unary main_arg5 main_v74 ((extractStridedSlice S1x128 ![1, 0] · slices_S3x128_S1x128_1_0) : (⟨S3x128, .f32⟩ : BufTy).Contents (Elt F) → (⟨S1x128, .f32⟩ : BufTy).Contents (Elt F)),
    reshape main_v74 main_v75 rfl shapeCasts_S1x128_S128,
    nullary main_cst_9 (constant S_ .f32 0x00000000#32),
    binary main_v71 main_cst_9 main_v76 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v76 main_v77 (broadcastInDim S100000x1 ![0] bcast_S100000_S100000x1_0 : (⟨S100000, .f32⟩ : BufTy).Contents (Elt F) → (⟨S100000x1, .f32⟩ : BufTy).Contents (Elt F)),
    nullary main_cst_10 (constant S_ .f32 0x43000000#32),
    unary main_cst_10 main_v78 (broadcastInDim S100000x1 ![] bcast_S_S100000x1 : (⟨S_, .f32⟩ : BufTy).Contents (Elt F) → (⟨S100000x1, .f32⟩ : BufTy).Contents (Elt F)),
    binary main_v77 main_v78 main_v79 (Host.divf : (⟨S100000x1, .f32⟩ : BufTy).Contents (Elt F) → (⟨S100000x1, .f32⟩ : BufTy).Contents (Elt F) → (⟨S100000x1, .f32⟩ : BufTy).Contents (Elt F)),
    unary main_v79 main_v80 (broadcastInDim S100000x128 ![0, 1] bcast_S100000x1_S100000x128_0_1 : (⟨S100000x1, .f32⟩ : BufTy).Contents (Elt F) → (⟨S100000x128, .f32⟩ : BufTy).Contents (Elt F)),
    binary main_v71 main_v80 main_v81 (subf : (⟨S100000x128, .f32⟩ : BufTy).Contents (Elt F) → (⟨S100000x128, .f32⟩ : BufTy).Contents (Elt F) → (⟨S100000x128, .f32⟩ : BufTy).Contents (Elt F)),
    binary main_v81 main_v81 main_v82 (mulf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x00000000#32),
    binary main_v82 main_cst_11 main_v83 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v83 main_v84 (broadcastInDim S100000x1 ![0] bcast_S100000_S100000x1_0 : (⟨S100000, .f32⟩ : BufTy).Contents (Elt F) → (⟨S100000x1, .f32⟩ : BufTy).Contents (Elt F)),
    nullary main_cst_12 (constant S_ .f32 0x43000000#32),
    unary main_cst_12 main_v85 (broadcastInDim S100000x1 ![] bcast_S_S100000x1 : (⟨S_, .f32⟩ : BufTy).Contents (Elt F) → (⟨S100000x1, .f32⟩ : BufTy).Contents (Elt F)),
    binary main_v84 main_v85 main_v86 (Host.divf : (⟨S100000x1, .f32⟩ : BufTy).Contents (Elt F) → (⟨S100000x1, .f32⟩ : BufTy).Contents (Elt F) → (⟨S100000x1, .f32⟩ : BufTy).Contents (Elt F)),
    unary main_v79 main_v87 (broadcastInDim S100000x128 ![0, 1] bcast_S100000x1_S100000x128_0_1 : (⟨S100000x1, .f32⟩ : BufTy).Contents (Elt F) → (⟨S100000x128, .f32⟩ : BufTy).Contents (Elt F)),
    binary main_v71 main_v87 main_v88 (subf : (⟨S100000x128, .f32⟩ : BufTy).Contents (Elt F) → (⟨S100000x128, .f32⟩ : BufTy).Contents (Elt F) → (⟨S100000x128, .f32⟩ : BufTy).Contents (Elt F)),
    nullary main_cst_13 (constant S_ .f32 0x3727C5AC#32),
    unary main_cst_13 main_v89 (broadcastInDim S100000x1 ![] bcast_S_S100000x1 : (⟨S_, .f32⟩ : BufTy).Contents (Elt F) → (⟨S100000x1, .f32⟩ : BufTy).Contents (Elt F)),
    binary main_v86 main_v89 main_v90 (addf : (⟨S100000x1, .f32⟩ : BufTy).Contents (Elt F) → (⟨S100000x1, .f32⟩ : BufTy).Contents (Elt F) → (⟨S100000x1, .f32⟩ : BufTy).Contents (Elt F)),
    unary main_v90 main_v91 (Host.rsqrt : (⟨S100000x1, .f32⟩ : BufTy).Contents (Elt F) → (⟨S100000x1, .f32⟩ : BufTy).Contents (Elt F)),
    unary main_v91 main_v92 (broadcastInDim S100000x128 ![0, 1] bcast_S100000x1_S100000x128_0_1 : (⟨S100000x1, .f32⟩ : BufTy).Contents (Elt F) → (⟨S100000x128, .f32⟩ : BufTy).Contents (Elt F)),
    binary main_v88 main_v92 main_v93 (mulf : (⟨S100000x128, .f32⟩ : BufTy).Contents (Elt F) → (⟨S100000x128, .f32⟩ : BufTy).Contents (Elt F) → (⟨S100000x128, .f32⟩ : BufTy).Contents (Elt F)),
    unary main_v73 main_v94 (broadcastInDim S1x128 ![1] bcast_S128_S1x128_1 : (⟨S128, .f32⟩ : BufTy).Contents (Elt F) → (⟨S1x128, .f32⟩ : BufTy).Contents (Elt F)),
    unary main_v94 main_v95 (broadcastInDim S100000x128 ![0, 1] bcast_S1x128_S100000x128_0_1 : (⟨S1x128, .f32⟩ : BufTy).Contents (Elt F) → (⟨S100000x128, .f32⟩ : BufTy).Contents (Elt F)),
    binary main_v93 main_v95 main_v96 (mulf : (⟨S100000x128, .f32⟩ : BufTy).Contents (Elt F) → (⟨S100000x128, .f32⟩ : BufTy).Contents (Elt F) → (⟨S100000x128, .f32⟩ : BufTy).Contents (Elt F)),
    unary main_v75 main_v97 (broadcastInDim S1x128 ![1] bcast_S128_S1x128_1 : (⟨S128, .f32⟩ : BufTy).Contents (Elt F) → (⟨S1x128, .f32⟩ : BufTy).Contents (Elt F)),
    unary main_v97 main_v98 (broadcastInDim S100000x128 ![0, 1] bcast_S1x128_S100000x128_0_1 : (⟨S1x128, .f32⟩ : BufTy).Contents (Elt F) → (⟨S100000x128, .f32⟩ : BufTy).Contents (Elt F)),
    binary main_v96 main_v98 main_v99 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v99) (TRef.of (T := ⟨S100000x128, .f32⟩) main_call1_v0) (TRef.of (T := ⟨S100000x128, .f32⟩) main_v100) maximumf,
    unary main_arg6 main_v101 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v101 main_v102 rfl shapeCasts_S1x128x128_S128x128,
    unary main_arg7 main_v103 ((extractStridedSlice S1x128 ![1, 0] · slices_S3x128_S1x128_1_0) : (⟨S3x128, .f32⟩ : BufTy).Contents (Elt F) → (⟨S1x128, .f32⟩ : BufTy).Contents (Elt F)),
    reshape main_v103 main_v104 rfl shapeCasts_S1x128_S128,
    unary main_arg8 main_v105 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v105 main_v106 rfl shapeCasts_S1x128x128_S128x128,
    nullary main_c_14 (constantI S_ 32 0#32),
    unary main_c_14 main_v107 (broadcastInDim S1000000 ![] bcast_S_S1000000 : (⟨S_, .i32⟩ : BufTy).Contents (Elt F) → (⟨S1000000, .i32⟩ : BufTy).Contents (Elt F)),
    binary main_v1 main_v107 main_v108 (cmpi .slt : (⟨S1000000, .i32⟩ : BufTy).Contents (Elt F) → (⟨S1000000, .i32⟩ : BufTy).Contents (Elt F) → (⟨S1000000, .i1⟩ : BufTy).Contents (Elt F)),
    nullary main_c_15 (constantI S_ 32 100000#32),
    unary main_c_15 main_v109 (broadcastInDim S1000000 ![] bcast_S_S1000000 : (⟨S_, .i32⟩ : BufTy).Contents (Elt F) → (⟨S1000000, .i32⟩ : BufTy).Contents (Elt F)),
    binary main_v1 main_v109 main_v110 (addi : (⟨S1000000, .i32⟩ : BufTy).Contents (Elt F) → (⟨S1000000, .i32⟩ : BufTy).Contents (Elt F) → (⟨S1000000, .i32⟩ : BufTy).Contents (Elt F)),
    ternary main_v108 main_v110 main_v1 main_v111 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v111 main_v112 (broadcastInDim S1000000x1 ![0] bcast_S1000000_S1000000x1_0 : (⟨S1000000, .i32⟩ : BufTy).Contents (Elt F) → (⟨S1000000x1, .i32⟩ : BufTy).Contents (Elt F)),
    binary main_v100 main_v112 main_v113 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    nullary main_cst_16 (constant S_ .f32 0x00000000#32),
    unary main_cst_16 main_v114 (broadcastInDim S100000x128 ![] bcast_S_S100000x128 : (⟨S_, .f32⟩ : BufTy).Contents (Elt F) → (⟨S100000x128, .f32⟩ : BufTy).Contents (Elt F)),
    unary main_v3 main_v115 (broadcastInDim S1000000x1 ![0] bcast_S1000000_S1000000x1_0 : (⟨S1000000, .i32⟩ : BufTy).Contents (Elt F) → (⟨S1000000x1, .i32⟩ : BufTy).Contents (Elt F)),
    ternary main_v114 main_v115 main_v113 main_v116 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    nullary main_cst_17 (constant S_ .f32 0x3F800000#32),
    unary main_cst_17 main_v117 (broadcastInDim S1000000 ![] bcast_S_S1000000 : (⟨S_, .f32⟩ : BufTy).Contents (Elt F) → (⟨S1000000, .f32⟩ : BufTy).Contents (Elt F)),
    nullary main_cst_18 (constant S_ .f32 0x00000000#32),
    unary main_cst_18 main_v118 (broadcastInDim S100000 ![] bcast_S_S100000 : (⟨S_, .f32⟩ : BufTy).Contents (Elt F) → (⟨S100000, .f32⟩ : BufTy).Contents (Elt F)),
    unary main_v3 main_v119 (broadcastInDim S1000000x1 ![0] bcast_S1000000_S1000000x1_0 : (⟨S1000000, .i32⟩ : BufTy).Contents (Elt F) → (⟨S1000000x1, .i32⟩ : BufTy).Contents (Elt F)),
    ternary main_v118 main_v119 main_v117 main_v120 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_19 (constant S_ .f32 0x3F800000#32),
    unary main_cst_19 main_v121 (broadcastInDim S100000 ![] bcast_S_S100000 : (⟨S_, .f32⟩ : BufTy).Contents (Elt F) → (⟨S100000, .f32⟩ : BufTy).Contents (Elt F)),
    binary main_v120 main_v121 main_v122 (maximumf : (⟨S100000, .f32⟩ : BufTy).Contents (Elt F) → (⟨S100000, .f32⟩ : BufTy).Contents (Elt F) → (⟨S100000, .f32⟩ : BufTy).Contents (Elt F)),
    unary main_v122 main_v123 (broadcastInDim S100000x1 ![0] bcast_S100000_S100000x1_0 : (⟨S100000, .f32⟩ : BufTy).Contents (Elt F) → (⟨S100000x1, .f32⟩ : BufTy).Contents (Elt F)),
    unary main_v123 main_v124 (broadcastInDim S100000x128 ![0, 1] bcast_S100000x1_S100000x128_0_1 : (⟨S100000x1, .f32⟩ : BufTy).Contents (Elt F) → (⟨S100000x128, .f32⟩ : BufTy).Contents (Elt F)),
    binary main_v116 main_v124 main_v125 (Host.divf : (⟨S100000x128, .f32⟩ : BufTy).Contents (Elt F) → (⟨S100000x128, .f32⟩ : BufTy).Contents (Elt F) → (⟨S100000x128, .f32⟩ : BufTy).Contents (Elt F)),
    unary main_v102 main_v126 ((transpose S128x128 [1, 0] · transposes_S128x128_S128x128_1_0) : (⟨S128x128, .f32⟩ : BufTy).Contents (Elt F) → (⟨S128x128, .f32⟩ : BufTy).Contents (Elt F)),
    binary main_v125 main_v126 main_v127 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v104 main_v128 (broadcastInDim S1x128 ![1] bcast_S128_S1x128_1 : (⟨S128, .f32⟩ : BufTy).Contents (Elt F) → (⟨S1x128, .f32⟩ : BufTy).Contents (Elt F)),
    unary main_v128 main_v129 (broadcastInDim S100000x128 ![0, 1] bcast_S1x128_S100000x128_0_1 : (⟨S1x128, .f32⟩ : BufTy).Contents (Elt F) → (⟨S100000x128, .f32⟩ : BufTy).Contents (Elt F)),
    binary main_v127 main_v129 main_v130 (addf : (⟨S100000x128, .f32⟩ : BufTy).Contents (Elt F) → (⟨S100000x128, .f32⟩ : BufTy).Contents (Elt F) → (⟨S100000x128, .f32⟩ : BufTy).Contents (Elt F)),
    unary main_v106 main_v131 ((transpose S128x128 [1, 0] · transposes_S128x128_S128x128_1_0) : (⟨S128x128, .f32⟩ : BufTy).Contents (Elt F) → (⟨S128x128, .f32⟩ : BufTy).Contents (Elt F)),
    binary main_v100 main_v131 main_v132 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v130 main_v132 main_v133 (addf : (⟨S100000x128, .f32⟩ : BufTy).Contents (Elt F) → (⟨S100000x128, .f32⟩ : BufTy).Contents (Elt F) → (⟨S100000x128, .f32⟩ : BufTy).Contents (Elt F)),
    binary main_v133 main_v71 main_v134 (addf : (⟨S100000x128, .f32⟩ : BufTy).Contents (Elt F) → (⟨S100000x128, .f32⟩ : BufTy).Contents (Elt F) → (⟨S100000x128, .f32⟩ : BufTy).Contents (Elt F)),
    unary main_arg4 main_v135 ((extractStridedSlice S1x128 ![2, 0] · slices_S3x128_S1x128_2_0) : (⟨S3x128, .f32⟩ : BufTy).Contents (Elt F) → (⟨S1x128, .f32⟩ : BufTy).Contents (Elt F)),
    reshape main_v135 main_v136 rfl shapeCasts_S1x128_S128,
    unary main_arg5 main_v137 ((extractStridedSlice S1x128 ![2, 0] · slices_S3x128_S1x128_2_0) : (⟨S3x128, .f32⟩ : BufTy).Contents (Elt F) → (⟨S1x128, .f32⟩ : BufTy).Contents (Elt F)),
    reshape main_v137 main_v138 rfl shapeCasts_S1x128_S128,
    nullary main_cst_20 (constant S_ .f32 0x00000000#32),
    binary main_v134 main_cst_20 main_v139 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v139 main_v140 (broadcastInDim S100000x1 ![0] bcast_S100000_S100000x1_0 : (⟨S100000, .f32⟩ : BufTy).Contents (Elt F) → (⟨S100000x1, .f32⟩ : BufTy).Contents (Elt F)),
    nullary main_cst_21 (constant S_ .f32 0x43000000#32),
    unary main_cst_21 main_v141 (broadcastInDim S100000x1 ![] bcast_S_S100000x1 : (⟨S_, .f32⟩ : BufTy).Contents (Elt F) → (⟨S100000x1, .f32⟩ : BufTy).Contents (Elt F)),
    binary main_v140 main_v141 main_v142 (Host.divf : (⟨S100000x1, .f32⟩ : BufTy).Contents (Elt F) → (⟨S100000x1, .f32⟩ : BufTy).Contents (Elt F) → (⟨S100000x1, .f32⟩ : BufTy).Contents (Elt F)),
    unary main_v142 main_v143 (broadcastInDim S100000x128 ![0, 1] bcast_S100000x1_S100000x128_0_1 : (⟨S100000x1, .f32⟩ : BufTy).Contents (Elt F) → (⟨S100000x128, .f32⟩ : BufTy).Contents (Elt F)),
    binary main_v134 main_v143 main_v144 (subf : (⟨S100000x128, .f32⟩ : BufTy).Contents (Elt F) → (⟨S100000x128, .f32⟩ : BufTy).Contents (Elt F) → (⟨S100000x128, .f32⟩ : BufTy).Contents (Elt F)),
    binary main_v144 main_v144 main_v145 (mulf : (⟨S100000x128, .f32⟩ : BufTy).Contents (Elt F) → (⟨S100000x128, .f32⟩ : BufTy).Contents (Elt F) → (⟨S100000x128, .f32⟩ : BufTy).Contents (Elt F)),
    nullary main_cst_22 (constant S_ .f32 0x00000000#32),
    binary main_v145 main_cst_22 main_v146 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v146 main_v147 (broadcastInDim S100000x1 ![0] bcast_S100000_S100000x1_0 : (⟨S100000, .f32⟩ : BufTy).Contents (Elt F) → (⟨S100000x1, .f32⟩ : BufTy).Contents (Elt F)),
    nullary main_cst_23 (constant S_ .f32 0x43000000#32),
    unary main_cst_23 main_v148 (broadcastInDim S100000x1 ![] bcast_S_S100000x1 : (⟨S_, .f32⟩ : BufTy).Contents (Elt F) → (⟨S100000x1, .f32⟩ : BufTy).Contents (Elt F)),
    binary main_v147 main_v148 main_v149 (Host.divf : (⟨S100000x1, .f32⟩ : BufTy).Contents (Elt F) → (⟨S100000x1, .f32⟩ : BufTy).Contents (Elt F) → (⟨S100000x1, .f32⟩ : BufTy).Contents (Elt F)),
    unary main_v142 main_v150 (broadcastInDim S100000x128 ![0, 1] bcast_S100000x1_S100000x128_0_1 : (⟨S100000x1, .f32⟩ : BufTy).Contents (Elt F) → (⟨S100000x128, .f32⟩ : BufTy).Contents (Elt F)),
    binary main_v134 main_v150 main_v151 (subf : (⟨S100000x128, .f32⟩ : BufTy).Contents (Elt F) → (⟨S100000x128, .f32⟩ : BufTy).Contents (Elt F) → (⟨S100000x128, .f32⟩ : BufTy).Contents (Elt F)),
    nullary main_cst_24 (constant S_ .f32 0x3727C5AC#32),
    unary main_cst_24 main_v152 (broadcastInDim S100000x1 ![] bcast_S_S100000x1 : (⟨S_, .f32⟩ : BufTy).Contents (Elt F) → (⟨S100000x1, .f32⟩ : BufTy).Contents (Elt F)),
    binary main_v149 main_v152 main_v153 (addf : (⟨S100000x1, .f32⟩ : BufTy).Contents (Elt F) → (⟨S100000x1, .f32⟩ : BufTy).Contents (Elt F) → (⟨S100000x1, .f32⟩ : BufTy).Contents (Elt F)),
    unary main_v153 main_v154 (Host.rsqrt : (⟨S100000x1, .f32⟩ : BufTy).Contents (Elt F) → (⟨S100000x1, .f32⟩ : BufTy).Contents (Elt F)),
    unary main_v154 main_v155 (broadcastInDim S100000x128 ![0, 1] bcast_S100000x1_S100000x128_0_1 : (⟨S100000x1, .f32⟩ : BufTy).Contents (Elt F) → (⟨S100000x128, .f32⟩ : BufTy).Contents (Elt F)),
    binary main_v151 main_v155 main_v156 (mulf : (⟨S100000x128, .f32⟩ : BufTy).Contents (Elt F) → (⟨S100000x128, .f32⟩ : BufTy).Contents (Elt F) → (⟨S100000x128, .f32⟩ : BufTy).Contents (Elt F)),
    unary main_v136 main_v157 (broadcastInDim S1x128 ![1] bcast_S128_S1x128_1 : (⟨S128, .f32⟩ : BufTy).Contents (Elt F) → (⟨S1x128, .f32⟩ : BufTy).Contents (Elt F)),
    unary main_v157 main_v158 (broadcastInDim S100000x128 ![0, 1] bcast_S1x128_S100000x128_0_1 : (⟨S1x128, .f32⟩ : BufTy).Contents (Elt F) → (⟨S100000x128, .f32⟩ : BufTy).Contents (Elt F)),
    binary main_v156 main_v158 main_v159 (mulf : (⟨S100000x128, .f32⟩ : BufTy).Contents (Elt F) → (⟨S100000x128, .f32⟩ : BufTy).Contents (Elt F) → (⟨S100000x128, .f32⟩ : BufTy).Contents (Elt F)),
    unary main_v138 main_v160 (broadcastInDim S1x128 ![1] bcast_S128_S1x128_1 : (⟨S128, .f32⟩ : BufTy).Contents (Elt F) → (⟨S1x128, .f32⟩ : BufTy).Contents (Elt F)),
    unary main_v160 main_v161 (broadcastInDim S100000x128 ![0, 1] bcast_S1x128_S100000x128_0_1 : (⟨S1x128, .f32⟩ : BufTy).Contents (Elt F) → (⟨S100000x128, .f32⟩ : BufTy).Contents (Elt F)),
    binary main_v159 main_v161 main_v162 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v162) (TRef.of (T := ⟨S100000x128, .f32⟩) main_call2_v0) (TRef.of (T := ⟨S100000x128, .f32⟩) main_v163) maximumf,
    unary main_arg6 main_v164 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v164 main_v165 rfl shapeCasts_S1x128x128_S128x128,
    unary main_arg7 main_v166 ((extractStridedSlice S1x128 ![2, 0] · slices_S3x128_S1x128_2_0) : (⟨S3x128, .f32⟩ : BufTy).Contents (Elt F) → (⟨S1x128, .f32⟩ : BufTy).Contents (Elt F)),
    reshape main_v166 main_v167 rfl shapeCasts_S1x128_S128,
    unary main_arg8 main_v168 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v168 main_v169 rfl shapeCasts_S1x128x128_S128x128,
    nullary main_c_25 (constantI S_ 32 0#32),
    unary main_c_25 main_v170 (broadcastInDim S1000000 ![] bcast_S_S1000000 : (⟨S_, .i32⟩ : BufTy).Contents (Elt F) → (⟨S1000000, .i32⟩ : BufTy).Contents (Elt F)),
    binary main_v1 main_v170 main_v171 (cmpi .slt : (⟨S1000000, .i32⟩ : BufTy).Contents (Elt F) → (⟨S1000000, .i32⟩ : BufTy).Contents (Elt F) → (⟨S1000000, .i1⟩ : BufTy).Contents (Elt F)),
    nullary main_c_26 (constantI S_ 32 100000#32),
    unary main_c_26 main_v172 (broadcastInDim S1000000 ![] bcast_S_S1000000 : (⟨S_, .i32⟩ : BufTy).Contents (Elt F) → (⟨S1000000, .i32⟩ : BufTy).Contents (Elt F)),
    binary main_v1 main_v172 main_v173 (addi : (⟨S1000000, .i32⟩ : BufTy).Contents (Elt F) → (⟨S1000000, .i32⟩ : BufTy).Contents (Elt F) → (⟨S1000000, .i32⟩ : BufTy).Contents (Elt F)),
    ternary main_v171 main_v173 main_v1 main_v174 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v174 main_v175 (broadcastInDim S1000000x1 ![0] bcast_S1000000_S1000000x1_0 : (⟨S1000000, .i32⟩ : BufTy).Contents (Elt F) → (⟨S1000000x1, .i32⟩ : BufTy).Contents (Elt F)),
    binary main_v163 main_v175 main_v176 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    nullary main_cst_27 (constant S_ .f32 0x00000000#32),
    unary main_cst_27 main_v177 (broadcastInDim S100000x128 ![] bcast_S_S100000x128 : (⟨S_, .f32⟩ : BufTy).Contents (Elt F) → (⟨S100000x128, .f32⟩ : BufTy).Contents (Elt F)),
    unary main_v3 main_v178 (broadcastInDim S1000000x1 ![0] bcast_S1000000_S1000000x1_0 : (⟨S1000000, .i32⟩ : BufTy).Contents (Elt F) → (⟨S1000000x1, .i32⟩ : BufTy).Contents (Elt F)),
    ternary main_v177 main_v178 main_v176 main_v179 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    nullary main_cst_28 (constant S_ .f32 0x3F800000#32),
    unary main_cst_28 main_v180 (broadcastInDim S1000000 ![] bcast_S_S1000000 : (⟨S_, .f32⟩ : BufTy).Contents (Elt F) → (⟨S1000000, .f32⟩ : BufTy).Contents (Elt F)),
    nullary main_cst_29 (constant S_ .f32 0x00000000#32),
    unary main_cst_29 main_v181 (broadcastInDim S100000 ![] bcast_S_S100000 : (⟨S_, .f32⟩ : BufTy).Contents (Elt F) → (⟨S100000, .f32⟩ : BufTy).Contents (Elt F)),
    unary main_v3 main_v182 (broadcastInDim S1000000x1 ![0] bcast_S1000000_S1000000x1_0 : (⟨S1000000, .i32⟩ : BufTy).Contents (Elt F) → (⟨S1000000x1, .i32⟩ : BufTy).Contents (Elt F)),
    ternary main_v181 main_v182 main_v180 main_v183 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_30 (constant S_ .f32 0x3F800000#32),
    unary main_cst_30 main_v184 (broadcastInDim S100000 ![] bcast_S_S100000 : (⟨S_, .f32⟩ : BufTy).Contents (Elt F) → (⟨S100000, .f32⟩ : BufTy).Contents (Elt F)),
    binary main_v183 main_v184 main_v185 (maximumf : (⟨S100000, .f32⟩ : BufTy).Contents (Elt F) → (⟨S100000, .f32⟩ : BufTy).Contents (Elt F) → (⟨S100000, .f32⟩ : BufTy).Contents (Elt F)),
    unary main_v185 main_v186 (broadcastInDim S100000x1 ![0] bcast_S100000_S100000x1_0 : (⟨S100000, .f32⟩ : BufTy).Contents (Elt F) → (⟨S100000x1, .f32⟩ : BufTy).Contents (Elt F)),
    unary main_v186 main_v187 (broadcastInDim S100000x128 ![0, 1] bcast_S100000x1_S100000x128_0_1 : (⟨S100000x1, .f32⟩ : BufTy).Contents (Elt F) → (⟨S100000x128, .f32⟩ : BufTy).Contents (Elt F)),
    binary main_v179 main_v187 main_v188 (Host.divf : (⟨S100000x128, .f32⟩ : BufTy).Contents (Elt F) → (⟨S100000x128, .f32⟩ : BufTy).Contents (Elt F) → (⟨S100000x128, .f32⟩ : BufTy).Contents (Elt F)),
    unary main_v165 main_v189 ((transpose S128x128 [1, 0] · transposes_S128x128_S128x128_1_0) : (⟨S128x128, .f32⟩ : BufTy).Contents (Elt F) → (⟨S128x128, .f32⟩ : BufTy).Contents (Elt F)),
    binary main_v188 main_v189 main_v190 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v167 main_v191 (broadcastInDim S1x128 ![1] bcast_S128_S1x128_1 : (⟨S128, .f32⟩ : BufTy).Contents (Elt F) → (⟨S1x128, .f32⟩ : BufTy).Contents (Elt F)),
    unary main_v191 main_v192 (broadcastInDim S100000x128 ![0, 1] bcast_S1x128_S100000x128_0_1 : (⟨S1x128, .f32⟩ : BufTy).Contents (Elt F) → (⟨S100000x128, .f32⟩ : BufTy).Contents (Elt F)),
    binary main_v190 main_v192 main_v193 (addf : (⟨S100000x128, .f32⟩ : BufTy).Contents (Elt F) → (⟨S100000x128, .f32⟩ : BufTy).Contents (Elt F) → (⟨S100000x128, .f32⟩ : BufTy).Contents (Elt F)),
    unary main_v169 main_v194 ((transpose S128x128 [1, 0] · transposes_S128x128_S128x128_1_0) : (⟨S128x128, .f32⟩ : BufTy).Contents (Elt F) → (⟨S128x128, .f32⟩ : BufTy).Contents (Elt F)),
    binary main_v163 main_v194 main_v195 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v193 main_v195 main_v196 (addf : (⟨S100000x128, .f32⟩ : BufTy).Contents (Elt F) → (⟨S100000x128, .f32⟩ : BufTy).Contents (Elt F) → (⟨S100000x128, .f32⟩ : BufTy).Contents (Elt F)),
    binary main_v196 main_v134 main_v197 (addf : (⟨S100000x128, .f32⟩ : BufTy).Contents (Elt F) → (⟨S100000x128, .f32⟩ : BufTy).Contents (Elt F) → (⟨S100000x128, .f32⟩ : BufTy).Contents (Elt F)),
    nullary main_cst_31 (constant S_ .f32 0x00000000#32),
    binary main_v197 main_cst_31 main_v198 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v198 main_v199 (broadcastInDim S100000x1 ![0] bcast_S100000_S100000x1_0 : (⟨S100000, .f32⟩ : BufTy).Contents (Elt F) → (⟨S100000x1, .f32⟩ : BufTy).Contents (Elt F)),
    nullary main_cst_32 (constant S_ .f32 0x43000000#32),
    unary main_cst_32 main_v200 (broadcastInDim S100000x1 ![] bcast_S_S100000x1 : (⟨S_, .f32⟩ : BufTy).Contents (Elt F) → (⟨S100000x1, .f32⟩ : BufTy).Contents (Elt F)),
    binary main_v199 main_v200 main_v201 (Host.divf : (⟨S100000x1, .f32⟩ : BufTy).Contents (Elt F) → (⟨S100000x1, .f32⟩ : BufTy).Contents (Elt F) → (⟨S100000x1, .f32⟩ : BufTy).Contents (Elt F)),
    unary main_v201 main_v202 (broadcastInDim S100000x128 ![0, 1] bcast_S100000x1_S100000x128_0_1 : (⟨S100000x1, .f32⟩ : BufTy).Contents (Elt F) → (⟨S100000x128, .f32⟩ : BufTy).Contents (Elt F)),
    binary main_v197 main_v202 main_v203 (subf : (⟨S100000x128, .f32⟩ : BufTy).Contents (Elt F) → (⟨S100000x128, .f32⟩ : BufTy).Contents (Elt F) → (⟨S100000x128, .f32⟩ : BufTy).Contents (Elt F)),
    binary main_v203 main_v203 main_v204 (mulf : (⟨S100000x128, .f32⟩ : BufTy).Contents (Elt F) → (⟨S100000x128, .f32⟩ : BufTy).Contents (Elt F) → (⟨S100000x128, .f32⟩ : BufTy).Contents (Elt F)),
    nullary main_cst_33 (constant S_ .f32 0x00000000#32),
    binary main_v204 main_cst_33 main_v205 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v205 main_v206 (broadcastInDim S100000x1 ![0] bcast_S100000_S100000x1_0 : (⟨S100000, .f32⟩ : BufTy).Contents (Elt F) → (⟨S100000x1, .f32⟩ : BufTy).Contents (Elt F)),
    nullary main_cst_34 (constant S_ .f32 0x43000000#32),
    unary main_cst_34 main_v207 (broadcastInDim S100000x1 ![] bcast_S_S100000x1 : (⟨S_, .f32⟩ : BufTy).Contents (Elt F) → (⟨S100000x1, .f32⟩ : BufTy).Contents (Elt F)),
    binary main_v206 main_v207 main_v208 (Host.divf : (⟨S100000x1, .f32⟩ : BufTy).Contents (Elt F) → (⟨S100000x1, .f32⟩ : BufTy).Contents (Elt F) → (⟨S100000x1, .f32⟩ : BufTy).Contents (Elt F)),
    unary main_v201 main_v209 (broadcastInDim S100000x128 ![0, 1] bcast_S100000x1_S100000x128_0_1 : (⟨S100000x1, .f32⟩ : BufTy).Contents (Elt F) → (⟨S100000x128, .f32⟩ : BufTy).Contents (Elt F)),
    binary main_v197 main_v209 main_v210 (subf : (⟨S100000x128, .f32⟩ : BufTy).Contents (Elt F) → (⟨S100000x128, .f32⟩ : BufTy).Contents (Elt F) → (⟨S100000x128, .f32⟩ : BufTy).Contents (Elt F)),
    nullary main_cst_35 (constant S_ .f32 0x3727C5AC#32),
    unary main_cst_35 main_v211 (broadcastInDim S100000x1 ![] bcast_S_S100000x1 : (⟨S_, .f32⟩ : BufTy).Contents (Elt F) → (⟨S100000x1, .f32⟩ : BufTy).Contents (Elt F)),
    binary main_v208 main_v211 main_v212 (addf : (⟨S100000x1, .f32⟩ : BufTy).Contents (Elt F) → (⟨S100000x1, .f32⟩ : BufTy).Contents (Elt F) → (⟨S100000x1, .f32⟩ : BufTy).Contents (Elt F)),
    unary main_v212 main_v213 (Host.rsqrt : (⟨S100000x1, .f32⟩ : BufTy).Contents (Elt F) → (⟨S100000x1, .f32⟩ : BufTy).Contents (Elt F)),
    unary main_v213 main_v214 (broadcastInDim S100000x128 ![0, 1] bcast_S100000x1_S100000x128_0_1 : (⟨S100000x1, .f32⟩ : BufTy).Contents (Elt F) → (⟨S100000x128, .f32⟩ : BufTy).Contents (Elt F)),
    binary main_v210 main_v214 main_v215 (mulf : (⟨S100000x128, .f32⟩ : BufTy).Contents (Elt F) → (⟨S100000x128, .f32⟩ : BufTy).Contents (Elt F) → (⟨S100000x128, .f32⟩ : BufTy).Contents (Elt F)),
    unary main_arg9 main_v216 (broadcastInDim S1x128 ![1] bcast_S128_S1x128_1 : (⟨S128, .f32⟩ : BufTy).Contents (Elt F) → (⟨S1x128, .f32⟩ : BufTy).Contents (Elt F)),
    unary main_v216 main_v217 (broadcastInDim S100000x128 ![0, 1] bcast_S1x128_S100000x128_0_1 : (⟨S1x128, .f32⟩ : BufTy).Contents (Elt F) → (⟨S100000x128, .f32⟩ : BufTy).Contents (Elt F)),
    binary main_v215 main_v217 main_v218 (mulf : (⟨S100000x128, .f32⟩ : BufTy).Contents (Elt F) → (⟨S100000x128, .f32⟩ : BufTy).Contents (Elt F) → (⟨S100000x128, .f32⟩ : BufTy).Contents (Elt F)),
    unary main_arg10 main_v219 (broadcastInDim S1x128 ![1] bcast_S128_S1x128_1 : (⟨S128, .f32⟩ : BufTy).Contents (Elt F) → (⟨S1x128, .f32⟩ : BufTy).Contents (Elt F)),
    unary main_v219 main_v220 (broadcastInDim S100000x128 ![0, 1] bcast_S1x128_S100000x128_0_1 : (⟨S1x128, .f32⟩ : BufTy).Contents (Elt F) → (⟨S100000x128, .f32⟩ : BufTy).Contents (Elt F)),
    binary main_v218 main_v220 main_v221 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v221) (TRef.of (T := ⟨S100000x128, .f32⟩) main_call3_v0) (TRef.of (T := ⟨S100000x128, .f32⟩) main_v222) maximumf,
    unary main_arg11 main_v223 ((transpose S128x64 [1, 0] · transposes_S64x128_S128x64_1_0) : (⟨S64x128, .f32⟩ : BufTy).Contents (Elt F) → (⟨S128x64, .f32⟩ : BufTy).Contents (Elt F)),
    binary main_v222 main_v223 main_v224 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg12 main_v225 (broadcastInDim S1x64 ![1] bcast_S64_S1x64_1 : (⟨S64, .f32⟩ : BufTy).Contents (Elt F) → (⟨S1x64, .f32⟩ : BufTy).Contents (Elt F)),
    unary main_v225 main_v226 (broadcastInDim S100000x64 ![0, 1] bcast_S1x64_S100000x64_0_1 : (⟨S1x64, .f32⟩ : BufTy).Contents (Elt F) → (⟨S100000x64, .f32⟩ : BufTy).Contents (Elt F)),
    binary main_v224 main_v226 main_v227 (addf : (⟨S100000x64, .f32⟩ : BufTy).Contents (Elt F) → (⟨S100000x64, .f32⟩ : BufTy).Contents (Elt F) → (⟨S100000x64, .f32⟩ : BufTy).Contents (Elt F)) ]

/-- The whole list is the nine stages in order. -/
theorem ops_eq : (ops : List (HloOp τ sig (Elt F))) = st0 ++ (st1 ++ (st2 ++ (st3 ++ (st4 ++ (st5 ++ (st6 ++ (st7 ++ st8))))))) := rfl

/-- Folding a list of operations followed by another is folding the first, then the second. -/
theorem after_append {Val : EltTy → Type} (a b : List (HloOp τ sig Val)) (V : Valuation τ sig Val) :
    after (a ++ b) V = after b (after a V) := by
  induction a generalizing V with
  | nil => rfl
  | cons op a ih => simp only [List.cons_append, after_cons, ih]

/-- The fold over the whole list, stage by stage. -/
theorem after_ops (V : Valuation τ sig (Elt F)) :
    after ops V = after st8 (after st7 (after st6 (after st5 (after st4 (after st3 (after st2 (after st1 (after st0 V)))))))) := by
  rw [ops_eq]; simp only [after_append]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., unary_bufs_sub .., binary_bufs_sub .., unary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub ..⟩

end Cert.RefRun

end
-- ==== Proof.RefKeep.lean ====
/-
  What a stage of the reference leaves alone.

  A stage changes only the buffers its operations write. No operation writes an argument array, and the edge endpoints
  and each layer's hidden state are written once, by an earlier stage; so each of them holds after a stage what it held
  before it.
-/
import proofs.«131491_j37014028156991_1_alg».proof.Proof.RefOps

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- None of the listed operations writes the buffer: each writes one buffer, a different one. -/
macro "untouched" st:ident : tactic => `(tactic| exact StableHlo.after_of_forall_not_mem _ _ (List.forall_iff_forall_mem.mp (by
      simp only [$st:ident, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## Stage 0 -/

theorem keep0_arg0 (V : Valuation τ sig (Elt F)) : after st0 V (Proc.devRef .tc main_arg0) = V (Proc.devRef .tc main_arg0) := by
  untouched st0
theorem keep0_arg1 (V : Valuation τ sig (Elt F)) : after st0 V (Proc.devRef .tc main_arg1) = V (Proc.devRef .tc main_arg1) := by
  untouched st0
theorem keep0_arg2 (V : Valuation τ sig (Elt F)) : after st0 V (Proc.devRef .tc main_arg2) = V (Proc.devRef .tc main_arg2) := by
  untouched st0
theorem keep0_arg3 (V : Valuation τ sig (Elt F)) : after st0 V (Proc.devRef .tc main_arg3) = V (Proc.devRef .tc main_arg3) := by
  untouched st0
theorem keep0_arg4 (V : Valuation τ sig (Elt F)) : after st0 V (Proc.devRef .tc main_arg4) = V (Proc.devRef .tc main_arg4) := by
  untouched st0
theorem keep0_arg5 (V : Valuation τ sig (Elt F)) : after st0 V (Proc.devRef .tc main_arg5) = V (Proc.devRef .tc main_arg5) := by
  untouched st0
theorem keep0_arg6 (V : Valuation τ sig (Elt F)) : after st0 V (Proc.devRef .tc main_arg6) = V (Proc.devRef .tc main_arg6) := by
  untouched st0
theorem keep0_arg7 (V : Valuation τ sig (Elt F)) : after st0 V (Proc.devRef .tc main_arg7) = V (Proc.devRef .tc main_arg7) := by
  untouched st0
theorem keep0_arg8 (V : Valuation τ sig (Elt F)) : after st0 V (Proc.devRef .tc main_arg8) = V (Proc.devRef .tc main_arg8) := by
  untouched st0
theorem keep0_arg9 (V : Valuation τ sig (Elt F)) : after st0 V (Proc.devRef .tc main_arg9) = V (Proc.devRef .tc main_arg9) := by
  untouched st0
theorem keep0_arg10 (V : Valuation τ sig (Elt F)) : after st0 V (Proc.devRef .tc main_arg10) = V (Proc.devRef .tc main_arg10) := by
  untouched st0
theorem keep0_arg11 (V : Valuation τ sig (Elt F)) : after st0 V (Proc.devRef .tc main_arg11) = V (Proc.devRef .tc main_arg11) := by
  untouched st0
theorem keep0_arg12 (V : Valuation τ sig (Elt F)) : after st0 V (Proc.devRef .tc main_arg12) = V (Proc.devRef .tc main_arg12) := by
  untouched st0

/-! ## Stage 1 -/

theorem keep1_arg0 (V : Valuation τ sig (Elt F)) : after st1 V (Proc.devRef .tc main_arg0) = V (Proc.devRef .tc main_arg0) := by
  untouched st1
theorem keep1_arg1 (V : Valuation τ sig (Elt F)) : after st1 V (Proc.devRef .tc main_arg1) = V (Proc.devRef .tc main_arg1) := by
  untouched st1
theorem keep1_arg2 (V : Valuation τ sig (Elt F)) : after st1 V (Proc.devRef .tc main_arg2) = V (Proc.devRef .tc main_arg2) := by
  untouched st1
theorem keep1_arg3 (V : Valuation τ sig (Elt F)) : after st1 V (Proc.devRef .tc main_arg3) = V (Proc.devRef .tc main_arg3) := by
  untouched st1
theorem keep1_arg4 (V : Valuation τ sig (Elt F)) : after st1 V (Proc.devRef .tc main_arg4) = V (Proc.devRef .tc main_arg4) := by
  untouched st1
theorem keep1_arg5 (V : Valuation τ sig (Elt F)) : after st1 V (Proc.devRef .tc main_arg5) = V (Proc.devRef .tc main_arg5) := by
  untouched st1
theorem keep1_arg6 (V : Valuation τ sig (Elt F)) : after st1 V (Proc.devRef .tc main_arg6) = V (Proc.devRef .tc main_arg6) := by
  untouched st1
theorem keep1_arg7 (V : Valuation τ sig (Elt F)) : after st1 V (Proc.devRef .tc main_arg7) = V (Proc.devRef .tc main_arg7) := by
  untouched st1
theorem keep1_arg8 (V : Valuation τ sig (Elt F)) : after st1 V (Proc.devRef .tc main_arg8) = V (Proc.devRef .tc main_arg8) := by
  untouched st1
theorem keep1_arg9 (V : Valuation τ sig (Elt F)) : after st1 V (Proc.devRef .tc main_arg9) = V (Proc.devRef .tc main_arg9) := by
  untouched st1
theorem keep1_arg10 (V : Valuation τ sig (Elt F)) : after st1 V (Proc.devRef .tc main_arg10) = V (Proc.devRef .tc main_arg10) := by
  untouched st1
theorem keep1_arg11 (V : Valuation τ sig (Elt F)) : after st1 V (Proc.devRef .tc main_arg11) = V (Proc.devRef .tc main_arg11) := by
  untouched st1
theorem keep1_arg12 (V : Valuation τ sig (Elt F)) : after st1 V (Proc.devRef .tc main_arg12) = V (Proc.devRef .tc main_arg12) := by
  untouched st1
theorem keep1_v1 (V : Valuation τ sig (Elt F)) : after st1 V (Proc.devRef .tc main_v1) = V (Proc.devRef .tc main_v1) := by
  untouched st1
theorem keep1_v3 (V : Valuation τ sig (Elt F)) : after st1 V (Proc.devRef .tc main_v3) = V (Proc.devRef .tc main_v3) := by
  untouched st1
theorem keep1_v8 (V : Valuation τ sig (Elt F)) : after st1 V (Proc.devRef .tc main_v8) = V (Proc.devRef .tc main_v8) := by
  untouched st1

/-! ## Stage 2 -/

theorem keep2_arg0 (V : Valuation τ sig (Elt F)) : after st2 V (Proc.devRef .tc main_arg0) = V (Proc.devRef .tc main_arg0) := by
  untouched st2
theorem keep2_arg1 (V : Valuation τ sig (Elt F)) : after st2 V (Proc.devRef .tc main_arg1) = V (Proc.devRef .tc main_arg1) := by
  untouched st2
theorem keep2_arg2 (V : Valuation τ sig (Elt F)) : after st2 V (Proc.devRef .tc main_arg2) = V (Proc.devRef .tc main_arg2) := by
  untouched st2
theorem keep2_arg3 (V : Valuation τ sig (Elt F)) : after st2 V (Proc.devRef .tc main_arg3) = V (Proc.devRef .tc main_arg3) := by
  untouched st2
theorem keep2_arg4 (V : Valuation τ sig (Elt F)) : after st2 V (Proc.devRef .tc main_arg4) = V (Proc.devRef .tc main_arg4) := by
  untouched st2
theorem keep2_arg5 (V : Valuation τ sig (Elt F)) : after st2 V (Proc.devRef .tc main_arg5) = V (Proc.devRef .tc main_arg5) := by
  untouched st2
theorem keep2_arg6 (V : Valuation τ sig (Elt F)) : after st2 V (Proc.devRef .tc main_arg6) = V (Proc.devRef .tc main_arg6) := by
  untouched st2
theorem keep2_arg7 (V : Valuation τ sig (Elt F)) : after st2 V (Proc.devRef .tc main_arg7) = V (Proc.devRef .tc main_arg7) := by
  untouched st2
theorem keep2_arg8 (V : Valuation τ sig (Elt F)) : after st2 V (Proc.devRef .tc main_arg8) = V (Proc.devRef .tc main_arg8) := by
  untouched st2
theorem keep2_arg9 (V : Valuation τ sig (Elt F)) : after st2 V (Proc.devRef .tc main_arg9) = V (Proc.devRef .tc main_arg9) := by
  untouched st2
theorem keep2_arg10 (V : Valuation τ sig (Elt F)) : after st2 V (Proc.devRef .tc main_arg10) = V (Proc.devRef .tc main_arg10) := by
  untouched st2
theorem keep2_arg11 (V : Valuation τ sig (Elt F)) : after st2 V (Proc.devRef .tc main_arg11) = V (Proc.devRef .tc main_arg11) := by
  untouched st2
theorem keep2_arg12 (V : Valuation τ sig (Elt F)) : after st2 V (Proc.devRef .tc main_arg12) = V (Proc.devRef .tc main_arg12) := by
  untouched st2
theorem keep2_v1 (V : Valuation τ sig (Elt F)) : after st2 V (Proc.devRef .tc main_v1) = V (Proc.devRef .tc main_v1) := by
  untouched st2
theorem keep2_v3 (V : Valuation τ sig (Elt F)) : after st2 V (Proc.devRef .tc main_v3) = V (Proc.devRef .tc main_v3) := by
  untouched st2

/-! ## Stage 3 -/

theorem keep3_arg0 (V : Valuation τ sig (Elt F)) : after st3 V (Proc.devRef .tc main_arg0) = V (Proc.devRef .tc main_arg0) := by
  untouched st3
theorem keep3_arg1 (V : Valuation τ sig (Elt F)) : after st3 V (Proc.devRef .tc main_arg1) = V (Proc.devRef .tc main_arg1) := by
  untouched st3
theorem keep3_arg2 (V : Valuation τ sig (Elt F)) : after st3 V (Proc.devRef .tc main_arg2) = V (Proc.devRef .tc main_arg2) := by
  untouched st3
theorem keep3_arg3 (V : Valuation τ sig (Elt F)) : after st3 V (Proc.devRef .tc main_arg3) = V (Proc.devRef .tc main_arg3) := by
  untouched st3
theorem keep3_arg4 (V : Valuation τ sig (Elt F)) : after st3 V (Proc.devRef .tc main_arg4) = V (Proc.devRef .tc main_arg4) := by
  untouched st3
theorem keep3_arg5 (V : Valuation τ sig (Elt F)) : after st3 V (Proc.devRef .tc main_arg5) = V (Proc.devRef .tc main_arg5) := by
  untouched st3
theorem keep3_arg6 (V : Valuation τ sig (Elt F)) : after st3 V (Proc.devRef .tc main_arg6) = V (Proc.devRef .tc main_arg6) := by
  untouched st3
theorem keep3_arg7 (V : Valuation τ sig (Elt F)) : after st3 V (Proc.devRef .tc main_arg7) = V (Proc.devRef .tc main_arg7) := by
  untouched st3
theorem keep3_arg8 (V : Valuation τ sig (Elt F)) : after st3 V (Proc.devRef .tc main_arg8) = V (Proc.devRef .tc main_arg8) := by
  untouched st3
theorem keep3_arg9 (V : Valuation τ sig (Elt F)) : after st3 V (Proc.devRef .tc main_arg9) = V (Proc.devRef .tc main_arg9) := by
  untouched st3
theorem keep3_arg10 (V : Valuation τ sig (Elt F)) : after st3 V (Proc.devRef .tc main_arg10) = V (Proc.devRef .tc main_arg10) := by
  untouched st3
theorem keep3_arg11 (V : Valuation τ sig (Elt F)) : after st3 V (Proc.devRef .tc main_arg11) = V (Proc.devRef .tc main_arg11) := by
  untouched st3
theorem keep3_arg12 (V : Valuation τ sig (Elt F)) : after st3 V (Proc.devRef .tc main_arg12) = V (Proc.devRef .tc main_arg12) := by
  untouched st3
theorem keep3_v1 (V : Valuation τ sig (Elt F)) : after st3 V (Proc.devRef .tc main_v1) = V (Proc.devRef .tc main_v1) := by
  untouched st3
theorem keep3_v3 (V : Valuation τ sig (Elt F)) : after st3 V (Proc.devRef .tc main_v3) = V (Proc.devRef .tc main_v3) := by
  untouched st3
theorem keep3_v71 (V : Valuation τ sig (Elt F)) : after st3 V (Proc.devRef .tc main_v71) = V (Proc.devRef .tc main_v71) := by
  untouched st3

/-! ## Stage 4 -/

theorem keep4_arg0 (V : Valuation τ sig (Elt F)) : after st4 V (Proc.devRef .tc main_arg0) = V (Proc.devRef .tc main_arg0) := by
  untouched st4
theorem keep4_arg1 (V : Valuation τ sig (Elt F)) : after st4 V (Proc.devRef .tc main_arg1) = V (Proc.devRef .tc main_arg1) := by
  untouched st4
theorem keep4_arg2 (V : Valuation τ sig (Elt F)) : after st4 V (Proc.devRef .tc main_arg2) = V (Proc.devRef .tc main_arg2) := by
  untouched st4
theorem keep4_arg3 (V : Valuation τ sig (Elt F)) : after st4 V (Proc.devRef .tc main_arg3) = V (Proc.devRef .tc main_arg3) := by
  untouched st4
theorem keep4_arg4 (V : Valuation τ sig (Elt F)) : after st4 V (Proc.devRef .tc main_arg4) = V (Proc.devRef .tc main_arg4) := by
  untouched st4
theorem keep4_arg5 (V : Valuation τ sig (Elt F)) : after st4 V (Proc.devRef .tc main_arg5) = V (Proc.devRef .tc main_arg5) := by
  untouched st4
theorem keep4_arg6 (V : Valuation τ sig (Elt F)) : after st4 V (Proc.devRef .tc main_arg6) = V (Proc.devRef .tc main_arg6) := by
  untouched st4
theorem keep4_arg7 (V : Valuation τ sig (Elt F)) : after st4 V (Proc.devRef .tc main_arg7) = V (Proc.devRef .tc main_arg7) := by
  untouched st4
theorem keep4_arg8 (V : Valuation τ sig (Elt F)) : after st4 V (Proc.devRef .tc main_arg8) = V (Proc.devRef .tc main_arg8) := by
  untouched st4
theorem keep4_arg9 (V : Valuation τ sig (Elt F)) : after st4 V (Proc.devRef .tc main_arg9) = V (Proc.devRef .tc main_arg9) := by
  untouched st4
theorem keep4_arg10 (V : Valuation τ sig (Elt F)) : after st4 V (Proc.devRef .tc main_arg10) = V (Proc.devRef .tc main_arg10) := by
  untouched st4
theorem keep4_arg11 (V : Valuation τ sig (Elt F)) : after st4 V (Proc.devRef .tc main_arg11) = V (Proc.devRef .tc main_arg11) := by
  untouched st4
theorem keep4_arg12 (V : Valuation τ sig (Elt F)) : after st4 V (Proc.devRef .tc main_arg12) = V (Proc.devRef .tc main_arg12) := by
  untouched st4
theorem keep4_v1 (V : Valuation τ sig (Elt F)) : after st4 V (Proc.devRef .tc main_v1) = V (Proc.devRef .tc main_v1) := by
  untouched st4
theorem keep4_v3 (V : Valuation τ sig (Elt F)) : after st4 V (Proc.devRef .tc main_v3) = V (Proc.devRef .tc main_v3) := by
  untouched st4

/-! ## Stage 5 -/

theorem keep5_arg0 (V : Valuation τ sig (Elt F)) : after st5 V (Proc.devRef .tc main_arg0) = V (Proc.devRef .tc main_arg0) := by
  untouched st5
theorem keep5_arg1 (V : Valuation τ sig (Elt F)) : after st5 V (Proc.devRef .tc main_arg1) = V (Proc.devRef .tc main_arg1) := by
  untouched st5
theorem keep5_arg2 (V : Valuation τ sig (Elt F)) : after st5 V (Proc.devRef .tc main_arg2) = V (Proc.devRef .tc main_arg2) := by
  untouched st5
theorem keep5_arg3 (V : Valuation τ sig (Elt F)) : after st5 V (Proc.devRef .tc main_arg3) = V (Proc.devRef .tc main_arg3) := by
  untouched st5
theorem keep5_arg4 (V : Valuation τ sig (Elt F)) : after st5 V (Proc.devRef .tc main_arg4) = V (Proc.devRef .tc main_arg4) := by
  untouched st5
theorem keep5_arg5 (V : Valuation τ sig (Elt F)) : after st5 V (Proc.devRef .tc main_arg5) = V (Proc.devRef .tc main_arg5) := by
  untouched st5
theorem keep5_arg6 (V : Valuation τ sig (Elt F)) : after st5 V (Proc.devRef .tc main_arg6) = V (Proc.devRef .tc main_arg6) := by
  untouched st5
theorem keep5_arg7 (V : Valuation τ sig (Elt F)) : after st5 V (Proc.devRef .tc main_arg7) = V (Proc.devRef .tc main_arg7) := by
  untouched st5
theorem keep5_arg8 (V : Valuation τ sig (Elt F)) : after st5 V (Proc.devRef .tc main_arg8) = V (Proc.devRef .tc main_arg8) := by
  untouched st5
theorem keep5_arg9 (V : Valuation τ sig (Elt F)) : after st5 V (Proc.devRef .tc main_arg9) = V (Proc.devRef .tc main_arg9) := by
  untouched st5
theorem keep5_arg10 (V : Valuation τ sig (Elt F)) : after st5 V (Proc.devRef .tc main_arg10) = V (Proc.devRef .tc main_arg10) := by
  untouched st5
theorem keep5_arg11 (V : Valuation τ sig (Elt F)) : after st5 V (Proc.devRef .tc main_arg11) = V (Proc.devRef .tc main_arg11) := by
  untouched st5
theorem keep5_arg12 (V : Valuation τ sig (Elt F)) : after st5 V (Proc.devRef .tc main_arg12) = V (Proc.devRef .tc main_arg12) := by
  untouched st5
theorem keep5_v1 (V : Valuation τ sig (Elt F)) : after st5 V (Proc.devRef .tc main_v1) = V (Proc.devRef .tc main_v1) := by
  untouched st5
theorem keep5_v3 (V : Valuation τ sig (Elt F)) : after st5 V (Proc.devRef .tc main_v3) = V (Proc.devRef .tc main_v3) := by
  untouched st5
theorem keep5_v134 (V : Valuation τ sig (Elt F)) : after st5 V (Proc.devRef .tc main_v134) = V (Proc.devRef .tc main_v134) := by
  untouched st5

/-! ## Stage 6 -/

theorem keep6_arg0 (V : Valuation τ sig (Elt F)) : after st6 V (Proc.devRef .tc main_arg0) = V (Proc.devRef .tc main_arg0) := by
  untouched st6
theorem keep6_arg1 (V : Valuation τ sig (Elt F)) : after st6 V (Proc.devRef .tc main_arg1) = V (Proc.devRef .tc main_arg1) := by
  untouched st6
theorem keep6_arg2 (V : Valuation τ sig (Elt F)) : after st6 V (Proc.devRef .tc main_arg2) = V (Proc.devRef .tc main_arg2) := by
  untouched st6
theorem keep6_arg3 (V : Valuation τ sig (Elt F)) : after st6 V (Proc.devRef .tc main_arg3) = V (Proc.devRef .tc main_arg3) := by
  untouched st6
theorem keep6_arg4 (V : Valuation τ sig (Elt F)) : after st6 V (Proc.devRef .tc main_arg4) = V (Proc.devRef .tc main_arg4) := by
  untouched st6
theorem keep6_arg5 (V : Valuation τ sig (Elt F)) : after st6 V (Proc.devRef .tc main_arg5) = V (Proc.devRef .tc main_arg5) := by
  untouched st6
theorem keep6_arg6 (V : Valuation τ sig (Elt F)) : after st6 V (Proc.devRef .tc main_arg6) = V (Proc.devRef .tc main_arg6) := by
  untouched st6
theorem keep6_arg7 (V : Valuation τ sig (Elt F)) : after st6 V (Proc.devRef .tc main_arg7) = V (Proc.devRef .tc main_arg7) := by
  untouched st6
theorem keep6_arg8 (V : Valuation τ sig (Elt F)) : after st6 V (Proc.devRef .tc main_arg8) = V (Proc.devRef .tc main_arg8) := by
  untouched st6
theorem keep6_arg9 (V : Valuation τ sig (Elt F)) : after st6 V (Proc.devRef .tc main_arg9) = V (Proc.devRef .tc main_arg9) := by
  untouched st6
theorem keep6_arg10 (V : Valuation τ sig (Elt F)) : after st6 V (Proc.devRef .tc main_arg10) = V (Proc.devRef .tc main_arg10) := by
  untouched st6
theorem keep6_arg11 (V : Valuation τ sig (Elt F)) : after st6 V (Proc.devRef .tc main_arg11) = V (Proc.devRef .tc main_arg11) := by
  untouched st6
theorem keep6_arg12 (V : Valuation τ sig (Elt F)) : after st6 V (Proc.devRef .tc main_arg12) = V (Proc.devRef .tc main_arg12) := by
  untouched st6

/-! ## Stage 7 -/

theorem keep7_arg0 (V : Valuation τ sig (Elt F)) : after st7 V (Proc.devRef .tc main_arg0) = V (Proc.devRef .tc main_arg0) := by
  untouched st7
theorem keep7_arg1 (V : Valuation τ sig (Elt F)) : after st7 V (Proc.devRef .tc main_arg1) = V (Proc.devRef .tc main_arg1) := by
  untouched st7
theorem keep7_arg2 (V : Valuation τ sig (Elt F)) : after st7 V (Proc.devRef .tc main_arg2) = V (Proc.devRef .tc main_arg2) := by
  untouched st7
theorem keep7_arg3 (V : Valuation τ sig (Elt F)) : after st7 V (Proc.devRef .tc main_arg3) = V (Proc.devRef .tc main_arg3) := by
  untouched st7
theorem keep7_arg4 (V : Valuation τ sig (Elt F)) : after st7 V (Proc.devRef .tc main_arg4) = V (Proc.devRef .tc main_arg4) := by
  untouched st7
theorem keep7_arg5 (V : Valuation τ sig (Elt F)) : after st7 V (Proc.devRef .tc main_arg5) = V (Proc.devRef .tc main_arg5) := by
  untouched st7
theorem keep7_arg6 (V : Valuation τ sig (Elt F)) : after st7 V (Proc.devRef .tc main_arg6) = V (Proc.devRef .tc main_arg6) := by
  untouched st7
theorem keep7_arg7 (V : Valuation τ sig (Elt F)) : after st7 V (Proc.devRef .tc main_arg7) = V (Proc.devRef .tc main_arg7) := by
  untouched st7
theorem keep7_arg8 (V : Valuation τ sig (Elt F)) : after st7 V (Proc.devRef .tc main_arg8) = V (Proc.devRef .tc main_arg8) := by
  untouched st7
theorem keep7_arg9 (V : Valuation τ sig (Elt F)) : after st7 V (Proc.devRef .tc main_arg9) = V (Proc.devRef .tc main_arg9) := by
  untouched st7
theorem keep7_arg10 (V : Valuation τ sig (Elt F)) : after st7 V (Proc.devRef .tc main_arg10) = V (Proc.devRef .tc main_arg10) := by
  untouched st7
theorem keep7_arg11 (V : Valuation τ sig (Elt F)) : after st7 V (Proc.devRef .tc main_arg11) = V (Proc.devRef .tc main_arg11) := by
  untouched st7
theorem keep7_arg12 (V : Valuation τ sig (Elt F)) : after st7 V (Proc.devRef .tc main_arg12) = V (Proc.devRef .tc main_arg12) := by
  untouched st7

/-! ## Stage 8 -/

theorem keep8_arg0 (V : Valuation τ sig (Elt F)) : after st8 V (Proc.devRef .tc main_arg0) = V (Proc.devRef .tc main_arg0) := by
  untouched st8
theorem keep8_arg1 (V : Valuation τ sig (Elt F)) : after st8 V (Proc.devRef .tc main_arg1) = V (Proc.devRef .tc main_arg1) := by
  untouched st8
theorem keep8_arg2 (V : Valuation τ sig (Elt F)) : after st8 V (Proc.devRef .tc main_arg2) = V (Proc.devRef .tc main_arg2) := by
  untouched st8
theorem keep8_arg3 (V : Valuation τ sig (Elt F)) : after st8 V (Proc.devRef .tc main_arg3) = V (Proc.devRef .tc main_arg3) := by
  untouched st8
theorem keep8_arg4 (V : Valuation τ sig (Elt F)) : after st8 V (Proc.devRef .tc main_arg4) = V (Proc.devRef .tc main_arg4) := by
  untouched st8
theorem keep8_arg5 (V : Valuation τ sig (Elt F)) : after st8 V (Proc.devRef .tc main_arg5) = V (Proc.devRef .tc main_arg5) := by
  untouched st8
theorem keep8_arg6 (V : Valuation τ sig (Elt F)) : after st8 V (Proc.devRef .tc main_arg6) = V (Proc.devRef .tc main_arg6) := by
  untouched st8
theorem keep8_arg7 (V : Valuation τ sig (Elt F)) : after st8 V (Proc.devRef .tc main_arg7) = V (Proc.devRef .tc main_arg7) := by
  untouched st8
theorem keep8_arg8 (V : Valuation τ sig (Elt F)) : after st8 V (Proc.devRef .tc main_arg8) = V (Proc.devRef .tc main_arg8) := by
  untouched st8
theorem keep8_arg9 (V : Valuation τ sig (Elt F)) : after st8 V (Proc.devRef .tc main_arg9) = V (Proc.devRef .tc main_arg9) := by
  untouched st8
theorem keep8_arg10 (V : Valuation τ sig (Elt F)) : after st8 V (Proc.devRef .tc main_arg10) = V (Proc.devRef .tc main_arg10) := by
  untouched st8
theorem keep8_arg11 (V : Valuation τ sig (Elt F)) : after st8 V (Proc.devRef .tc main_arg11) = V (Proc.devRef .tc main_arg11) := by
  untouched st8
theorem keep8_arg12 (V : Valuation τ sig (Elt F)) : after st8 V (Proc.devRef .tc main_arg12) = V (Proc.devRef .tc main_arg12) := by
  untouched st8

/-! ## The arguments through the whole list -/

theorem kept_arg0 (V : Valuation τ sig (Elt F)) : after ops V (Proc.devRef .tc main_arg0) = V (Proc.devRef .tc main_arg0) := by
  rw [after_ops, keep8_arg0, keep7_arg0, keep6_arg0, keep5_arg0, keep4_arg0, keep3_arg0, keep2_arg0, keep1_arg0, keep0_arg0]
theorem kept_arg1 (V : Valuation τ sig (Elt F)) : after ops V (Proc.devRef .tc main_arg1) = V (Proc.devRef .tc main_arg1) := by
  rw [after_ops, keep8_arg1, keep7_arg1, keep6_arg1, keep5_arg1, keep4_arg1, keep3_arg1, keep2_arg1, keep1_arg1, keep0_arg1]
theorem kept_arg2 (V : Valuation τ sig (Elt F)) : after ops V (Proc.devRef .tc main_arg2) = V (Proc.devRef .tc main_arg2) := by
  rw [after_ops, keep8_arg2, keep7_arg2, keep6_arg2, keep5_arg2, keep4_arg2, keep3_arg2, keep2_arg2, keep1_arg2, keep0_arg2]
theorem kept_arg3 (V : Valuation τ sig (Elt F)) : after ops V (Proc.devRef .tc main_arg3) = V (Proc.devRef .tc main_arg3) := by
  rw [after_ops, keep8_arg3, keep7_arg3, keep6_arg3, keep5_arg3, keep4_arg3, keep3_arg3, keep2_arg3, keep1_arg3, keep0_arg3]
theorem kept_arg4 (V : Valuation τ sig (Elt F)) : after ops V (Proc.devRef .tc main_arg4) = V (Proc.devRef .tc main_arg4) := by
  rw [after_ops, keep8_arg4, keep7_arg4, keep6_arg4, keep5_arg4, keep4_arg4, keep3_arg4, keep2_arg4, keep1_arg4, keep0_arg4]
theorem kept_arg5 (V : Valuation τ sig (Elt F)) : after ops V (Proc.devRef .tc main_arg5) = V (Proc.devRef .tc main_arg5) := by
  rw [after_ops, keep8_arg5, keep7_arg5, keep6_arg5, keep5_arg5, keep4_arg5, keep3_arg5, keep2_arg5, keep1_arg5, keep0_arg5]
theorem kept_arg6 (V : Valuation τ sig (Elt F)) : after ops V (Proc.devRef .tc main_arg6) = V (Proc.devRef .tc main_arg6) := by
  rw [after_ops, keep8_arg6, keep7_arg6, keep6_arg6, keep5_arg6, keep4_arg6, keep3_arg6, keep2_arg6, keep1_arg6, keep0_arg6]
theorem kept_arg7 (V : Valuation τ sig (Elt F)) : after ops V (Proc.devRef .tc main_arg7) = V (Proc.devRef .tc main_arg7) := by
  rw [after_ops, keep8_arg7, keep7_arg7, keep6_arg7, keep5_arg7, keep4_arg7, keep3_arg7, keep2_arg7, keep1_arg7, keep0_arg7]
theorem kept_arg8 (V : Valuation τ sig (Elt F)) : after ops V (Proc.devRef .tc main_arg8) = V (Proc.devRef .tc main_arg8) := by
  rw [after_ops, keep8_arg8, keep7_arg8, keep6_arg8, keep5_arg8, keep4_arg8, keep3_arg8, keep2_arg8, keep1_arg8, keep0_arg8]
theorem kept_arg9 (V : Valuation τ sig (Elt F)) : after ops V (Proc.devRef .tc main_arg9) = V (Proc.devRef .tc main_arg9) := by
  rw [after_ops, keep8_arg9, keep7_arg9, keep6_arg9, keep5_arg9, keep4_arg9, keep3_arg9, keep2_arg9, keep1_arg9, keep0_arg9]
theorem kept_arg10 (V : Valuation τ sig (Elt F)) : after ops V (Proc.devRef .tc main_arg10) = V (Proc.devRef .tc main_arg10) := by
  rw [after_ops, keep8_arg10, keep7_arg10, keep6_arg10, keep5_arg10, keep4_arg10, keep3_arg10, keep2_arg10, keep1_arg10, keep0_arg10]
theorem kept_arg11 (V : Valuation τ sig (Elt F)) : after ops V (Proc.devRef .tc main_arg11) = V (Proc.devRef .tc main_arg11) := by
  rw [after_ops, keep8_arg11, keep7_arg11, keep6_arg11, keep5_arg11, keep4_arg11, keep3_arg11, keep2_arg11, keep1_arg11, keep0_arg11]
theorem kept_arg12 (V : Valuation τ sig (Elt F)) : after ops V (Proc.devRef .tc main_arg12) = V (Proc.devRef .tc main_arg12) := by
  rw [after_ops, keep8_arg12, keep7_arg12, keep6_arg12, keep5_arg12, keep4_arg12, keep3_arg12, keep2_arg12, keep1_arg12, keep0_arg12]

end Cert.RefRun

end
-- ==== Proof.RefRun.lean ====
/-
  The reference program's run.

  Every weakly fair execution of the reference terminates, without a fault, with each buffer at the fold of its 274
  operations' results over the launch contents; the result buffer holds that fold's value there, and the thirteen
  argument arrays, which no operation writes, are as launched.
-/
import proofs.«131491_j37014028156991_1_alg».proof.Proof.RefKeep

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Every weakly fair execution terminates with the result buffer at the fold's value and the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v227) = after ops (launchContents m c) (Proc.devRef .tc main_v227)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨h c main_v227,
      (h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _),
      (h c main_arg7).trans (kept_arg7 _),
      (h c main_arg8).trans (kept_arg8 _),
      (h c main_arg9).trans (kept_arg9 _),
      (h c main_arg10).trans (kept_arg10 _),
      (h c main_arg11).trans (kept_arg11 _),
      (h c main_arg12).trans (kept_arg12 _)⟩)
    (run_seq scopedRefs_eq scopedSems_eq defs main (fun _ => ops) main_eq (fun _ => ops_sub) m ρ)

end Cert.RefRun

end
-- ==== Proof.RefTerms.lean ====
/-
  The reference's dense stages, as terms of its array operations over arbitrary arrays, are the row functions of `Rows`.

  Each theorem takes the term one stage of the reference composes — a matrix product with a broadcast bias; the
  normalisation (two row sums, two divisions by the width, a reciprocal square root, gain, bias, a maximum with zero);
  the convolution update (two matrix products, a bias and a residual); the re-layouts of the stacked parameters —
  with the stage's inputs as variables, and reads it one entry at a time: a broadcast reads its operand at the
  coordinates it keeps, a row sum started from zero is the plain sum of the row, a matrix product at `(p, q)` is row `p`
  against column `q`, and the pointwise operations are the extended reals' own. What is left at `(p, q)` is, literally,
  the corresponding function of `Rows` on row `p`.
-/
import proofs.«131491_j37014028156991_1_alg».proof.ReferenceIdeal
import proofs.«131491_j37014028156991_1_alg».proof.Proof.Gen.ReferenceIdeal
import proofs.«131491_j37014028156991_1_alg».proof.Proof.Rows
import Idealize.ShloMosaic.Lib.Pipeline.Value
import Idealize.ShloMosaic.Lib.ValueIdx
import Idealize.ShloMosaic.Lib.ValueLayout
import Idealize.ShloMosaic.PureOps.Ideal.Laws

noncomputable section

namespace Cert.RefTerms

open Cert.ReferenceIdeal Cert.ReferenceIdeal.Gen Idealize.ShloMosaic Idealize.ShloMosaic.ValueIdx Cert.Rows

/-- A float array of shape `s` with extended-real entries. -/
abbrev T (s : Shape) := (⟨s, .f32⟩ : BufTy).Contents (Elt Ideal)

/-! ## Single operations read at coordinates -/

/-- A vector laid out as one row and repeated down the rows reads, at `(p, q)`, its entry `q`. -/
theorem rowSplat_apply (b : T S128) (p : Fin 100000) (q : Fin 128) :
    broadcastInDim S100000x128 ![0, 1] bcast_S1x128_S100000x128_0_1 (broadcastInDim S1x128 ![1] bcast_S128_S1x128_1 b) (ix2 p q)
      = b (ix1 q) :=
  (broadcastInDim_apply _ bcast_S1x128_S100000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans
  (broadcastInDim_apply _ bcast_S128_S1x128_1 b (ix2 (0 : Fin 1) q) (ix1 q) (fun a => match a with
    | ⟨0, _⟩ => by show q.val = if (128 : Nat) = 1 then 0 else q.val; rw [if_neg (by decide)]))

/-- The same for the 64 output columns. -/
theorem rowSplat64_apply (b : T S64) (p : Fin 100000) (q : Fin 64) :
    broadcastInDim S100000x64 ![0, 1] bcast_S1x64_S100000x64_0_1 (broadcastInDim S1x64 ![1] bcast_S64_S1x64_1 b) (ix2 p q)
      = b (ix1 q) :=
  (broadcastInDim_apply _ bcast_S1x64_S100000x64_0_1 _ (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])).trans
  (broadcastInDim_apply _ bcast_S64_S1x64_1 b (ix2 (0 : Fin 1) q) (ix1 q) (fun a => match a with
    | ⟨0, _⟩ => by show q.val = if (64 : Nat) = 1 then 0 else q.val; rw [if_neg (by decide)]))

/-- A per-row scalar as a one-column matrix reads row `p`'s scalar. -/
theorem col_apply (v : T S100000) (p : Fin 100000) (z : Fin 1) :
    broadcastInDim S100000x1 ![0] bcast_S100000_S100000x1_0 v (ix2 p z) = v (ix1 p) :=
  broadcastInDim_apply _ bcast_S100000_S100000x1_0 v (ix2 p z) (ix1 p) (fun a => match a with
    | ⟨0, _⟩ => by show p.val = if (100000 : Nat) = 1 then 0 else p.val; rw [if_neg (by decide)])

/-- A one-column matrix repeated along the rows reads, at `(p, q)`, its entry in row `p`. -/
theorem colRep_apply (c : T S100000x1) (p : Fin 100000) (q : Fin 128) :
    broadcastInDim S100000x128 ![0, 1] bcast_S100000x1_S100000x128_0_1 c (ix2 p q) = c (ix2 p (0 : Fin 1)) :=
  broadcastInDim_apply _ bcast_S100000x1_S100000x128_0_1 c (ix2 p q) (ix2 p (0 : Fin 1)) (fun a => match a with
    | ⟨0, _⟩ => by show p.val = if (100000 : Nat) = 1 then 0 else p.val; rw [if_neg (by decide)]
    | ⟨1, _⟩ => by show 0 = if (1 : Nat) = 1 then 0 else q.val; rw [if_pos rfl])

/-- A scalar repeated over a one-column matrix reads the scalar. -/
theorem splatCol_apply (c : T S_) (i : S100000x1.Idx) :
    broadcastInDim S100000x1 ![] bcast_S_S100000x1 c i = c ix0 :=
  broadcastInDim_apply _ bcast_S_S100000x1 c i ix0 (fun a => a.elim0)

/-- A scalar repeated over the whole array reads the scalar. -/
theorem splat_apply (c : T S_) (i : S100000x128.Idx) :
    broadcastInDim S100000x128 ![] bcast_S_S100000x128 c i = c ix0 :=
  broadcastInDim_apply _ bcast_S_S100000x128 c i ix0 (fun a => a.elim0)

/-- The sum of a row, started from the zero word: the initial value adds nothing. -/
theorem rowSum_apply (x : T S100000x128) (p : Fin 100000) :
    Host.reduceAdd (F := Ideal) x (constant (F := Ideal) S_ .f32 0x00000000#32) reducesTo_S100000x128_S100000_d1 h_S_ (ix1 p)
      = ∑ k : Fin 128, x (ix2 p k) := by
  simp only [Host.reduceAdd, Ideal.hostReduceAdd_def]
  rw [Ideal.hostReduceAdd_single reducesTo_S100000x128_S100000_d1 (by decide)]
  rw [constant_apply, Ideal.ofBits_zero_f32, zero_add]
  refine Finset.sum_congr rfl fun k _ => ?_
  exact congrArg x (funext fun a => Fin.ext (by match a with | ⟨0, _⟩ => rfl | ⟨1, _⟩ => rfl))

/-- The matrix product's operand indices at output entry `i` and contraction index `c`: the left operand is read in row
    `i 0` at the contraction coordinate, the right one at the contraction coordinate in column `i 1`. -/
theorem dotL0 (i : S100000x128.Idx) (c : dot_S100000x128_S128x128_S100000x128_1_0_0_1_n_n.contr.Idx) :
    (dot_S100000x128_S128x128_S100000x128_1_0_0_1_n_n.lhsIdx i c 0).val = (i 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl
theorem dotL1 (i : S100000x128.Idx) (c : dot_S100000x128_S128x128_S100000x128_1_0_0_1_n_n.contr.Idx) :
    (dot_S100000x128_S128x128_S100000x128_1_0_0_1_n_n.lhsIdx i c 1).val = (c ⟨0, by decide⟩).val :=
  dot_S100000x128_S128x128_S100000x128_1_0_0_1_n_n.lhsIdx_val_of_single rfl i c
theorem dotR0 (i : S100000x128.Idx) (c : dot_S100000x128_S128x128_S100000x128_1_0_0_1_n_n.contr.Idx) :
    (dot_S100000x128_S128x128_S100000x128_1_0_0_1_n_n.rhsIdx i c 0).val = (c ⟨0, by decide⟩).val :=
  dot_S100000x128_S128x128_S100000x128_1_0_0_1_n_n.rhsIdx_val_of_single rfl i c
theorem dotR1 (i : S100000x128.Idx) (c : dot_S100000x128_S128x128_S100000x128_1_0_0_1_n_n.contr.Idx) :
    (dot_S100000x128_S128x128_S100000x128_1_0_0_1_n_n.rhsIdx i c 1).val = (i 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

/-- The matrix product at `(p, q)`: row `p` of the left operand against column `q` of the right one. -/
theorem dot_apply (x : T S100000x128) (w : T S128x128) (p : Fin 100000) (q : Fin 128) :
    Host.dotGeneral (F := Ideal) (φ₁ := .f32) (φ₂ := .f32) dot_S100000x128_S128x128_S100000x128_1_0_0_1_n_n none x w (ix2 p q) = ∑ k : Fin 128, x (ix2 p k) * w (ix2 k q) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 p q) ((ValueIdx.contrEquiv1 dot_S100000x128_S128x128_S100000x128_1_0_0_1_n_n 128 rfl rfl).symm k) = ix2 p k :=
    funext fun a => Fin.ext (by
      match a with
      | ⟨0, _⟩ => exact dotL0 _ _
      | ⟨1, _⟩ => exact (dotL1 _ _).trans hk)
  have er : dot_S100000x128_S128x128_S100000x128_1_0_0_1_n_n.rhsIdx (ix2 p q) ((ValueIdx.contrEquiv1 dot_S100000x128_S128x128_S100000x128_1_0_0_1_n_n 128 rfl rfl).symm k) = ix2 k q :=
    funext fun a => Fin.ext (by
      match a with
      | ⟨0, _⟩ => exact (dotR0 _ _).trans hk
      | ⟨1, _⟩ => exact dotR1 _ _)
  rw [el, er]

/-- The matrix product's operand indices at output entry `i` and contraction index `c`: the left operand is read in row
    `i 0` at the contraction coordinate, the right one at the contraction coordinate in column `i 1`. -/
theorem dotL064 (i : S100000x64.Idx) (c : dot_S100000x128_S128x64_S100000x64_1_0_0_1_n_n.contr.Idx) :
    (dot_S100000x128_S128x64_S100000x64_1_0_0_1_n_n.lhsIdx i c 0).val = (i 0).val := by
  unfold DotDims.lhsIdx
  rw [dif_neg (show ¬(0 : Fin S100000x128.rank) ∈ dot_S100000x128_S128x64_S100000x64_1_0_0_1_n_n.lhsBatch by decide),
    dif_pos (show (0 : Fin S100000x128.rank) ∈ dot_S100000x128_S128x64_S100000x64_1_0_0_1_n_n.lhsNonContracting by decide)]
  rfl
theorem dotL164 (i : S100000x64.Idx) (c : dot_S100000x128_S128x64_S100000x64_1_0_0_1_n_n.contr.Idx) :
    (dot_S100000x128_S128x64_S100000x64_1_0_0_1_n_n.lhsIdx i c 1).val = (c ⟨0, by decide⟩).val :=
  dot_S100000x128_S128x64_S100000x64_1_0_0_1_n_n.lhsIdx_val_of_single rfl i c
theorem dotR064 (i : S100000x64.Idx) (c : dot_S100000x128_S128x64_S100000x64_1_0_0_1_n_n.contr.Idx) :
    (dot_S100000x128_S128x64_S100000x64_1_0_0_1_n_n.rhsIdx i c 0).val = (c ⟨0, by decide⟩).val :=
  dot_S100000x128_S128x64_S100000x64_1_0_0_1_n_n.rhsIdx_val_of_single rfl i c
theorem dotR164 (i : S100000x64.Idx) (c : dot_S100000x128_S128x64_S100000x64_1_0_0_1_n_n.contr.Idx) :
    (dot_S100000x128_S128x64_S100000x64_1_0_0_1_n_n.rhsIdx i c 1).val = (i 1).val := by
  unfold DotDims.rhsIdx
  rw [dif_neg (show ¬(1 : Fin S128x64.rank) ∈ dot_S100000x128_S128x64_S100000x64_1_0_0_1_n_n.rhsBatch by decide),
    dif_pos (show (1 : Fin S128x64.rank) ∈ dot_S100000x128_S128x64_S100000x64_1_0_0_1_n_n.rhsNonContracting by decide)]
  rfl

/-- The matrix product at `(p, q)`: row `p` of the left operand against column `q` of the right one. -/
theorem dot64_apply (x : T S100000x128) (w : T S128x64) (p : Fin 100000) (q : Fin 64) :
    Host.dotGeneral (F := Ideal) (φ₁ := .f32) (φ₂ := .f32) dot_S100000x128_S128x64_S100000x64_1_0_0_1_n_n none x w (ix2 p q) = ∑ k : Fin 128, x (ix2 p k) * w (ix2 k q) := by
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx (ix2 p q) ((ValueIdx.contrEquiv1 dot_S100000x128_S128x64_S100000x64_1_0_0_1_n_n 128 rfl rfl).symm k) = ix2 p k :=
    funext fun a => Fin.ext (by
      match a with
      | ⟨0, _⟩ => exact dotL064 _ _
      | ⟨1, _⟩ => exact (dotL164 _ _).trans hk)
  have er : dot_S100000x128_S128x64_S100000x64_1_0_0_1_n_n.rhsIdx (ix2 p q) ((ValueIdx.contrEquiv1 dot_S100000x128_S128x64_S100000x64_1_0_0_1_n_n 128 rfl rfl).symm k) = ix2 k q :=
    funext fun a => Fin.ext (by
      match a with
      | ⟨0, _⟩ => exact (dotR064 _ _).trans hk
      | ⟨1, _⟩ => exact dotR164 _ _)
  rw [el, er]

/-! ## Affine stages -/

/-- A matrix product plus a bias vector repeated down the rows is `Rows.linA` (the weight operand is already the
    matrix whose COLUMNS are contracted). -/
theorem ref_lin (x : T S100000x128) (wt : T S128x128) (b : T S128) :
    addf (F := Ideal) (Host.dotGeneral (F := Ideal) (φ₁ := .f32) (φ₂ := .f32) dot_S100000x128_S128x128_S100000x128_1_0_0_1_n_n none x wt)
        (broadcastInDim S100000x128 ![0, 1] bcast_S1x128_S100000x128_0_1 (broadcastInDim S1x128 ![1] bcast_S128_S1x128_1 b))
      = linA (R := 100000) (C := 128) x wt (asRow (C := 128) b) := by
  funext i
  obtain ⟨p, q, rfl⟩ : ∃ (p : Fin 100000) (q : Fin 128), i = ix2 p q := ⟨i 0, i 1, eq_ix2 i⟩
  rw [addf_apply, dot_apply, rowSplat_apply]
  rfl

/-- The same with 64 output columns. -/
theorem ref_lin64 (x : T S100000x128) (wt : T S128x64) (b : T S64) :
    addf (F := Ideal) (Host.dotGeneral (F := Ideal) (φ₁ := .f32) (φ₂ := .f32) dot_S100000x128_S128x64_S100000x64_1_0_0_1_n_n none x wt)
        (broadcastInDim S100000x64 ![0, 1] bcast_S1x64_S100000x64_0_1 (broadcastInDim S1x64 ![1] bcast_S64_S1x64_1 b))
      = linA (R := 100000) (C := 64) x wt (asRow (C := 64) b) := by
  funext i
  obtain ⟨p, q, rfl⟩ : ∃ (p : Fin 100000) (q : Fin 64), i = ix2 p q := ⟨i 0, i 1, eq_ix2 i⟩
  rw [addf_apply, dot64_apply, rowSplat64_apply]
  rfl

/-! ## The convolution update -/

/-- Neighbours' average against one weight matrix, plus the bias row, plus the node's own rows against a second weight
    matrix, plus the residual — in this order — is `Rows.sageA`. -/
theorem ref_sage (agg u h : T S100000x128) (wlt wrt : T S128x128) (bl : T S128) :
    addf (F := Ideal)
        (addf (F := Ideal)
          (addf (F := Ideal) (Host.dotGeneral (F := Ideal) (φ₁ := .f32) (φ₂ := .f32) dot_S100000x128_S128x128_S100000x128_1_0_0_1_n_n none agg wlt)
            (broadcastInDim S100000x128 ![0, 1] bcast_S1x128_S100000x128_0_1 (broadcastInDim S1x128 ![1] bcast_S128_S1x128_1 bl)))
          (Host.dotGeneral (F := Ideal) (φ₁ := .f32) (φ₂ := .f32) dot_S100000x128_S128x128_S100000x128_1_0_0_1_n_n none u wrt))
        h
      = sageA (R := 100000) agg u h wlt (asRow (C := 128) bl) wrt := by
  funext i
  obtain ⟨p, q, rfl⟩ : ∃ (p : Fin 100000) (q : Fin 128), i = ix2 p q := ⟨i 0, i 1, eq_ix2 i⟩
  rw [addf_apply, addf_apply, addf_apply, dot_apply, dot_apply, rowSplat_apply]
  rfl

/-! ## Normalisation and rectifier -/

/-- Pointwise host division and reciprocal square root, read at an index. -/
theorem hostDivf_apply {s : Shape} {φ : FTy} (a b : FVec Ideal s φ) (i : s.Idx) :
    Host.divf (F := Ideal) a b i = Ideal.div (a i) (b i) := rfl
theorem hostRsqrt_apply {s : Shape} {φ : FTy} (a : FVec Ideal s φ) (i : s.Idx) :
    Host.rsqrt (F := Ideal) a i = Ideal.rsqrt (a i) := rfl

/-- The reference's column of row means — each row summed from zero, kept as a one-column matrix and divided by the width
    — holds, in row `p`, `Rows.mean` of row `p`. -/
theorem refMean_apply (h : T S100000x128) (p : Fin 100000) (z : Fin 1) :
    (Host.divf (F := Ideal) (broadcastInDim S100000x1 ![0] bcast_S100000_S100000x1_0 (Host.reduceAdd (F := Ideal) h
      (constant (F := Ideal) S_ .f32 0x00000000#32) reducesTo_S100000x128_S100000_d1 h_S_)) (broadcastInDim
      S100000x1 ![] bcast_S_S100000x1 (constant (F := Ideal) S_ .f32 0x43000000#32))) (ix2 p z)
      = mean (fun k => h (ix2 p k)) := by
  rw [hostDivf_apply, col_apply, rowSum_apply, splatCol_apply, constant_apply]
  rfl

/-- The centred array: each entry minus its row's mean. -/
theorem refCentred_apply (h : T S100000x128) (p : Fin 100000) (q : Fin 128) :
    (subf (F := Ideal) h (broadcastInDim S100000x128 ![0, 1] bcast_S100000x1_S100000x128_0_1 (Host.divf (F := Ideal)
      (broadcastInDim S100000x1 ![0] bcast_S100000_S100000x1_0 (Host.reduceAdd (F := Ideal) h (constant (F := Ideal)
      S_ .f32 0x00000000#32) reducesTo_S100000x128_S100000_d1 h_S_)) (broadcastInDim S100000x1 ![] bcast_S_S100000x1
      (constant (F := Ideal) S_ .f32 0x43000000#32))))) (ix2 p q)
      = h (ix2 p q) - mean (fun k => h (ix2 p k)) := by
  rw [subf_apply, colRep_apply, refMean_apply]

/-- The column of row variances: the centred array squared, each row summed from zero and divided by the width. -/
theorem refVar_apply (h : T S100000x128) (p : Fin 100000) (z : Fin 1) :
    (Host.divf (F := Ideal) (broadcastInDim S100000x1 ![0] bcast_S100000_S100000x1_0 (Host.reduceAdd (F := Ideal)
      (mulf (F := Ideal) (subf (F := Ideal) h (broadcastInDim S100000x128 ![0, 1] bcast_S100000x1_S100000x128_0_1
      (Host.divf (F := Ideal) (broadcastInDim S100000x1 ![0] bcast_S100000_S100000x1_0 (Host.reduceAdd (F := Ideal)
      h (constant (F := Ideal) S_ .f32 0x00000000#32) reducesTo_S100000x128_S100000_d1 h_S_)) (broadcastInDim
      S100000x1 ![] bcast_S_S100000x1 (constant (F := Ideal) S_ .f32 0x43000000#32))))) (subf (F := Ideal) h
      (broadcastInDim S100000x128 ![0, 1] bcast_S100000x1_S100000x128_0_1 (Host.divf (F := Ideal) (broadcastInDim
      S100000x1 ![0] bcast_S100000_S100000x1_0 (Host.reduceAdd (F := Ideal) h (constant (F := Ideal) S_ .f32
      0x00000000#32) reducesTo_S100000x128_S100000_d1 h_S_)) (broadcastInDim S100000x1 ![] bcast_S_S100000x1
      (constant (F := Ideal) S_ .f32 0x43000000#32)))))) (constant (F := Ideal) S_ .f32 0x00000000#32)
      reducesTo_S100000x128_S100000_d1 h_S_)) (broadcastInDim S100000x1 ![] bcast_S_S100000x1 (constant (F := Ideal)
      S_ .f32 0x43000000#32))) (ix2 p z)
      = var (fun k => h (ix2 p k)) := by
  rw [hostDivf_apply, col_apply, rowSum_apply, splatCol_apply, constant_apply]
  refine congrArg (fun s => Ideal.div s (Ideal.ofBits .f32 0x43000000#32)) (Finset.sum_congr rfl fun k _ => ?_)
  rw [mulf_apply, refCentred_apply]

/-- The normalisation as the reference spells it — the row mean, the centred row squared and averaged the same way, the
    small constant added, the reciprocal square root, the centred row scaled by it, gain and bias vectors repeated down
    the rows, and the maximum with a zero array — is `Rows.lnA` with the gain and bias as one-row matrices. -/
theorem ref_ln (h : T S100000x128) (g b : T S128) :
    maximumf (F := Ideal) (addf (F := Ideal) (mulf (F := Ideal) (mulf (F := Ideal) (subf (F := Ideal) h
      (broadcastInDim S100000x128 ![0, 1] bcast_S100000x1_S100000x128_0_1 (Host.divf (F := Ideal) (broadcastInDim
      S100000x1 ![0] bcast_S100000_S100000x1_0 (Host.reduceAdd (F := Ideal) h (constant (F := Ideal) S_ .f32
      0x00000000#32) reducesTo_S100000x128_S100000_d1 h_S_)) (broadcastInDim S100000x1 ![] bcast_S_S100000x1
      (constant (F := Ideal) S_ .f32 0x43000000#32))))) (broadcastInDim S100000x128 ![0, 1]
      bcast_S100000x1_S100000x128_0_1 (Host.rsqrt (F := Ideal) (addf (F := Ideal) (Host.divf (F := Ideal)
      (broadcastInDim S100000x1 ![0] bcast_S100000_S100000x1_0 (Host.reduceAdd (F := Ideal) (mulf (F := Ideal) (subf
      (F := Ideal) h (broadcastInDim S100000x128 ![0, 1] bcast_S100000x1_S100000x128_0_1 (Host.divf (F := Ideal)
      (broadcastInDim S100000x1 ![0] bcast_S100000_S100000x1_0 (Host.reduceAdd (F := Ideal) h (constant (F := Ideal)
      S_ .f32 0x00000000#32) reducesTo_S100000x128_S100000_d1 h_S_)) (broadcastInDim S100000x1 ![] bcast_S_S100000x1
      (constant (F := Ideal) S_ .f32 0x43000000#32))))) (subf (F := Ideal) h (broadcastInDim S100000x128 ![0, 1]
      bcast_S100000x1_S100000x128_0_1 (Host.divf (F := Ideal) (broadcastInDim S100000x1 ![0]
      bcast_S100000_S100000x1_0 (Host.reduceAdd (F := Ideal) h (constant (F := Ideal) S_ .f32 0x00000000#32)
      reducesTo_S100000x128_S100000_d1 h_S_)) (broadcastInDim S100000x1 ![] bcast_S_S100000x1 (constant (F := Ideal)
      S_ .f32 0x43000000#32)))))) (constant (F := Ideal) S_ .f32 0x00000000#32) reducesTo_S100000x128_S100000_d1
      h_S_)) (broadcastInDim S100000x1 ![] bcast_S_S100000x1 (constant (F := Ideal) S_ .f32 0x43000000#32)))
      (broadcastInDim S100000x1 ![] bcast_S_S100000x1 (constant (F := Ideal) S_ .f32 0x3727C5AC#32))))))
      (broadcastInDim S100000x128 ![0, 1] bcast_S1x128_S100000x128_0_1 (broadcastInDim S1x128 ![1]
      bcast_S128_S1x128_1 g))) (broadcastInDim S100000x128 ![0, 1] bcast_S1x128_S100000x128_0_1 (broadcastInDim
      S1x128 ![1] bcast_S128_S1x128_1 b))) (broadcastInDim S100000x128 ![] bcast_S_S100000x128 (constant
      (F := Ideal) S_ .f32 0x00000000#32))
      = lnA (R := 100000) h (asRow (C := 128) g) (asRow (C := 128) b) := by
  funext i
  obtain ⟨p, q, rfl⟩ : ∃ (p : Fin 100000) (q : Fin 128), i = ix2 p q := ⟨i 0, i 1, eq_ix2 i⟩
  rw [maximumf_apply, addf_apply, mulf_apply, mulf_apply, refCentred_apply, colRep_apply, hostRsqrt_apply, addf_apply,
    refVar_apply, splatCol_apply, constant_apply, rowSplat_apply, rowSplat_apply, splat_apply, constant_apply]
  rfl

end Cert.RefTerms

end
-- ==== Proof.RefChain.lean ====
/-
  The reference's result as the model's forward pass.

  Stage by stage the reference computes what the model says: the input projection and the output projection are matrix
  products plus a bias row; a normalisation stage is `lnA` of the hidden state with that layer's gain and bias rows; a
  convolution stage is `sageA` of the edge average, the normalised state, the hidden state and that layer's transposed
  weights. Each stage's result is read from ANY starting contents, and the contents after each stage, starting from the
  launch memory, are followed to the result buffer.
-/
import proofs.«131491_j37014028156991_1_alg».proof.Proof.RefRun
import proofs.«131491_j37014028156991_1_alg».proof.Proof.RefTerms
import proofs.«131491_j37014028156991_1_alg».proof.Proof.HostGlue

set_option maxRecDepth 16384

noncomputable section

namespace Cert.RefChain

open Cert.ReferenceIdeal Cert.ReferenceIdeal.Gen Idealize.ShloMosaic Idealize.ShloMosaic.TcCoe Idealize.SL.Sem
open Idealize.ShloMosaic.StableHlo Idealize.ShloMosaic.ValueIdx
open Cert.Rows Cert.RefTerms Cert.RefRun

/-! ## Two re-layouts -/

/-- Row `l` of a stack of three vectors, cut out and flattened, laid as a one-row matrix, is `rowOf`. -/
theorem vec_eq_rowOf (x : (⟨2, ![3, 128]⟩ : Shape).Idx → EReal) (l : Fin 3)
    (hs : (⟨2, ![3, 128]⟩ : Shape).Slices ![l.val, 0] ⟨2, ![1, 128]⟩) (hc : (⟨2, ![1, 128]⟩ : Shape).ShapeCasts ⟨1, ![128]⟩) :
    asRow (C := 128) (shapeCast ⟨1, ![128]⟩ (extractStridedSlice ⟨2, ![1, 128]⟩ ![l.val, 0] x hs) hc) = rowOf x l := by
  funext i
  obtain ⟨u, q, rfl⟩ : ∃ (u : Fin 1) (q : Fin 128), i = ix2 u q := ⟨i 0, i 1, eq_ix2 i⟩
  show shapeCast ⟨1, ![128]⟩ (extractStridedSlice ⟨2, ![1, 128]⟩ ![l.val, 0] x hs) hc (ix1 q) = x (ix2 l q)
  refine (shapeCast_1a_a_apply _ hc q).trans ?_
  exact slice2_axis0_apply l.val x hs (0 : Fin 1) q l (by simp)

/-- Matrix `l` of a stack of three matrices, cut out, flattened and transposed, is `trOf`. -/
theorem mat_eq_trOf (x : (⟨3, ![3, 128, 128]⟩ : Shape).Idx → EReal) (l : Fin 3)
    (hs : (⟨3, ![3, 128, 128]⟩ : Shape).Slices ![l.val, 0, 0] ⟨3, ![1, 128, 128]⟩)
    (hc : (⟨3, ![1, 128, 128]⟩ : Shape).ShapeCasts ⟨2, ![128, 128]⟩)
    (ht : (⟨2, ![128, 128]⟩ : Shape).Transposes [1, 0] ⟨2, ![128, 128]⟩) :
    transpose ⟨2, ![128, 128]⟩ [1, 0] (shapeCast ⟨2, ![128, 128]⟩ (extractStridedSlice ⟨3, ![1, 128, 128]⟩ ![l.val, 0, 0] x hs) hc) ht
      = trOf x l := by
  funext i
  obtain ⟨k, q, rfl⟩ : ∃ (k : Fin 128) (q : Fin 128), i = ix2 k q := ⟨i 0, i 1, eq_ix2 i⟩
  refine (transpose_ix2_apply _ ht k q).trans ?_
  refine (shapeCast_1ab_ab_apply _ hc q k).trans ?_
  exact extractStridedSlice_apply _ _ hs (ix3 (0 : Fin 1) q k) (ix3 l q k) (fun ax => by
    match ax with
    | ⟨0, _⟩ => show l.val = l.val + 0; omega
    | ⟨1, _⟩ => show q.val = 0 + q.val; omega
    | ⟨2, _⟩ => show k.val = 0 + k.val; omega)

/-! ## The stages, from any starting contents -/

section Stages

variable (W : Valuation τ sig (Elt Ideal))

theorem s0_src : after st0 W (Proc.devRef .tc main_v1) = Cert.Model.srcOf (W (Proc.devRef .tc main_arg1)) := by
  after_results <;> rfl
theorem s0_dst : after st0 W (Proc.devRef .tc main_v3) = Cert.Model.dstOf (W (Proc.devRef .tc main_arg1)) := by
  after_results <;> rfl

/-- Stage 0: the input projection. -/
theorem s0_h : after st0 W (Proc.devRef .tc main_v8) = Cert.Model.hidden0 (W (Proc.devRef .tc main_arg0)) (W (Proc.devRef .tc main_arg2)) (W (Proc.devRef .tc main_arg3)) := by
  have e := ref_lin (W (Proc.devRef .tc main_arg0)) (transpose S128x128 [1, 0] (W (Proc.devRef .tc main_arg2)) transposes_S128x128_S128x128_1_0) (W (Proc.devRef .tc main_arg3))
  have e2 : linA (R := 100000) (C := 128) (W (Proc.devRef .tc main_arg0)) (transpose S128x128 [1, 0] (W (Proc.devRef .tc main_arg2)) transposes_S128x128_S128x128_1_0) (asRow (C := 128) (W (Proc.devRef .tc main_arg3)))
      = Cert.Model.hidden0 (W (Proc.devRef .tc main_arg0)) (W (Proc.devRef .tc main_arg2)) (W (Proc.devRef .tc main_arg3)) := by
    rw [show transpose S128x128 [1, 0] (W (Proc.devRef .tc main_arg2)) transposes_S128x128_S128x128_1_0 = tr2 (A := 128) (B := 128) (W (Proc.devRef .tc main_arg2))
      from Cert.HostGlue.transpose_eq_tr2 (a := 128) (b := 128) _ _]
    rfl
  refine Eq.trans ?_ (e.trans e2)
  after_results <;> rfl

/-- Stage 1: layer 0's normalisation with rectifier. -/
theorem s1 : after st1 W (Proc.devRef .tc main_v37) = Cert.Model.act 0 (W (Proc.devRef .tc main_v8)) (W (Proc.devRef .tc main_arg4)) (W (Proc.devRef .tc main_arg5)) := by
  have e := ref_ln (W (Proc.devRef .tc main_v8)) (shapeCast S128 (extractStridedSlice S1x128 ![0, 0] (W (Proc.devRef .tc main_arg4)) slices_S3x128_S1x128_0_0) shapeCasts_S1x128_S128) (shapeCast S128 (extractStridedSlice S1x128 ![0, 0] (W (Proc.devRef .tc main_arg5)) slices_S3x128_S1x128_0_0) shapeCasts_S1x128_S128)
  have e2 : lnA (R := 100000) (W (Proc.devRef .tc main_v8)) (asRow (C := 128) (shapeCast S128 (extractStridedSlice S1x128 ![0, 0] (W (Proc.devRef .tc main_arg4)) slices_S3x128_S1x128_0_0) shapeCasts_S1x128_S128)) (asRow (C := 128) (shapeCast S128 (extractStridedSlice S1x128 ![0, 0] (W (Proc.devRef .tc main_arg5)) slices_S3x128_S1x128_0_0) shapeCasts_S1x128_S128))
      = Cert.Model.act 0 (W (Proc.devRef .tc main_v8)) (W (Proc.devRef .tc main_arg4)) (W (Proc.devRef .tc main_arg5)) := by
    show _ = lnA (R := 100000) (W (Proc.devRef .tc main_v8)) (rowOf (L := 3) (C := 128) (W (Proc.devRef .tc main_arg4)) 0) (rowOf (L := 3) (C := 128) (W (Proc.devRef .tc main_arg5)) 0)
    rw [show asRow (C := 128) (shapeCast S128 (extractStridedSlice S1x128 ![0, 0] (W (Proc.devRef .tc main_arg4)) slices_S3x128_S1x128_0_0) shapeCasts_S1x128_S128) = rowOf (L := 3) (C := 128) (W (Proc.devRef .tc main_arg4)) 0 from vec_eq_rowOf _ 0 _ _,
      show asRow (C := 128) (shapeCast S128 (extractStridedSlice S1x128 ![0, 0] (W (Proc.devRef .tc main_arg5)) slices_S3x128_S1x128_0_0) shapeCasts_S1x128_S128) = rowOf (L := 3) (C := 128) (W (Proc.devRef .tc main_arg5)) 0 from vec_eq_rowOf _ 0 _ _]
  refine Eq.trans ?_ (e.trans e2)
  after_results_simp <;> rfl

/-- Stage 2: layer 0's edge average and convolution update with residual. -/
theorem s2 : after st2 W (Proc.devRef .tc main_v71)
    = sageA (R := 100000) (Cert.Model.aggT (W (Proc.devRef .tc main_v37)) (W (Proc.devRef .tc main_v1)) (W (Proc.devRef .tc main_v3))) (W (Proc.devRef .tc main_v37)) (W (Proc.devRef .tc main_v8))
        (trOf (L := 3) (A := 128) (B := 128) (W (Proc.devRef .tc main_arg6)) 0) (rowOf (L := 3) (C := 128) (W (Proc.devRef .tc main_arg7)) 0)
        (trOf (L := 3) (A := 128) (B := 128) (W (Proc.devRef .tc main_arg8)) 0) := by
  have e := ref_sage (Cert.Model.aggT (W (Proc.devRef .tc main_v37)) (W (Proc.devRef .tc main_v1)) (W (Proc.devRef .tc main_v3))) (W (Proc.devRef .tc main_v37)) (W (Proc.devRef .tc main_v8)) (transpose S128x128 [1, 0] (shapeCast S128x128 (extractStridedSlice S1x128x128 ![0, 0, 0] (W (Proc.devRef .tc main_arg6)) slices_S3x128x128_S1x128x128_0_0_0) shapeCasts_S1x128x128_S128x128) transposes_S128x128_S128x128_1_0) (transpose S128x128 [1, 0] (shapeCast S128x128 (extractStridedSlice S1x128x128 ![0, 0, 0] (W (Proc.devRef .tc main_arg8)) slices_S3x128x128_S1x128x128_0_0_0) shapeCasts_S1x128x128_S128x128) transposes_S128x128_S128x128_1_0) (shapeCast S128 (extractStridedSlice S1x128 ![0, 0] (W (Proc.devRef .tc main_arg7)) slices_S3x128_S1x128_0_0) shapeCasts_S1x128_S128)
  have e2 : sageA (R := 100000) (Cert.Model.aggT (W (Proc.devRef .tc main_v37)) (W (Proc.devRef .tc main_v1)) (W (Proc.devRef .tc main_v3))) (W (Proc.devRef .tc main_v37)) (W (Proc.devRef .tc main_v8)) (transpose S128x128 [1, 0] (shapeCast S128x128 (extractStridedSlice S1x128x128 ![0, 0, 0] (W (Proc.devRef .tc main_arg6)) slices_S3x128x128_S1x128x128_0_0_0) shapeCasts_S1x128x128_S128x128) transposes_S128x128_S128x128_1_0) (asRow (C := 128) (shapeCast S128 (extractStridedSlice S1x128 ![0, 0] (W (Proc.devRef .tc main_arg7)) slices_S3x128_S1x128_0_0) shapeCasts_S1x128_S128)) (transpose S128x128 [1, 0] (shapeCast S128x128 (extractStridedSlice S1x128x128 ![0, 0, 0] (W (Proc.devRef .tc main_arg8)) slices_S3x128x128_S1x128x128_0_0_0) shapeCasts_S1x128x128_S128x128) transposes_S128x128_S128x128_1_0)
      = sageA (R := 100000) (Cert.Model.aggT (W (Proc.devRef .tc main_v37)) (W (Proc.devRef .tc main_v1)) (W (Proc.devRef .tc main_v3))) (W (Proc.devRef .tc main_v37)) (W (Proc.devRef .tc main_v8))
        (trOf (L := 3) (A := 128) (B := 128) (W (Proc.devRef .tc main_arg6)) 0) (rowOf (L := 3) (C := 128) (W (Proc.devRef .tc main_arg7)) 0)
        (trOf (L := 3) (A := 128) (B := 128) (W (Proc.devRef .tc main_arg8)) 0) := by
    rw [show (transpose S128x128 [1, 0] (shapeCast S128x128 (extractStridedSlice S1x128x128 ![0, 0, 0] (W (Proc.devRef .tc main_arg6)) slices_S3x128x128_S1x128x128_0_0_0) shapeCasts_S1x128x128_S128x128) transposes_S128x128_S128x128_1_0) = trOf (L := 3) (A := 128) (B := 128) (W (Proc.devRef .tc main_arg6)) 0 from mat_eq_trOf _ 0 _ _ _,
      show (transpose S128x128 [1, 0] (shapeCast S128x128 (extractStridedSlice S1x128x128 ![0, 0, 0] (W (Proc.devRef .tc main_arg8)) slices_S3x128x128_S1x128x128_0_0_0) shapeCasts_S1x128x128_S128x128) transposes_S128x128_S128x128_1_0) = trOf (L := 3) (A := 128) (B := 128) (W (Proc.devRef .tc main_arg8)) 0 from mat_eq_trOf _ 0 _ _ _,
      show asRow (C := 128) (shapeCast S128 (extractStridedSlice S1x128 ![0, 0] (W (Proc.devRef .tc main_arg7)) slices_S3x128_S1x128_0_0) shapeCasts_S1x128_S128) = rowOf (L := 3) (C := 128) (W (Proc.devRef .tc main_arg7)) 0 from vec_eq_rowOf _ 0 _ _]
  refine Eq.trans ?_ (e.trans e2)
  after_results_simp <;> rfl

/-- Stage 3: layer 1's normalisation with rectifier. -/
theorem s3 : after st3 W (Proc.devRef .tc main_v100) = Cert.Model.act 1 (W (Proc.devRef .tc main_v71)) (W (Proc.devRef .tc main_arg4)) (W (Proc.devRef .tc main_arg5)) := by
  have e := ref_ln (W (Proc.devRef .tc main_v71)) (shapeCast S128 (extractStridedSlice S1x128 ![1, 0] (W (Proc.devRef .tc main_arg4)) slices_S3x128_S1x128_1_0) shapeCasts_S1x128_S128) (shapeCast S128 (extractStridedSlice S1x128 ![1, 0] (W (Proc.devRef .tc main_arg5)) slices_S3x128_S1x128_1_0) shapeCasts_S1x128_S128)
  have e2 : lnA (R := 100000) (W (Proc.devRef .tc main_v71)) (asRow (C := 128) (shapeCast S128 (extractStridedSlice S1x128 ![1, 0] (W (Proc.devRef .tc main_arg4)) slices_S3x128_S1x128_1_0) shapeCasts_S1x128_S128)) (asRow (C := 128) (shapeCast S128 (extractStridedSlice S1x128 ![1, 0] (W (Proc.devRef .tc main_arg5)) slices_S3x128_S1x128_1_0) shapeCasts_S1x128_S128))
      = Cert.Model.act 1 (W (Proc.devRef .tc main_v71)) (W (Proc.devRef .tc main_arg4)) (W (Proc.devRef .tc main_arg5)) := by
    show _ = lnA (R := 100000) (W (Proc.devRef .tc main_v71)) (rowOf (L := 3) (C := 128) (W (Proc.devRef .tc main_arg4)) 1) (rowOf (L := 3) (C := 128) (W (Proc.devRef .tc main_arg5)) 1)
    rw [show asRow (C := 128) (shapeCast S128 (extractStridedSlice S1x128 ![1, 0] (W (Proc.devRef .tc main_arg4)) slices_S3x128_S1x128_1_0) shapeCasts_S1x128_S128) = rowOf (L := 3) (C := 128) (W (Proc.devRef .tc main_arg4)) 1 from vec_eq_rowOf _ 1 _ _,
      show asRow (C := 128) (shapeCast S128 (extractStridedSlice S1x128 ![1, 0] (W (Proc.devRef .tc main_arg5)) slices_S3x128_S1x128_1_0) shapeCasts_S1x128_S128) = rowOf (L := 3) (C := 128) (W (Proc.devRef .tc main_arg5)) 1 from vec_eq_rowOf _ 1 _ _]
  refine Eq.trans ?_ (e.trans e2)
  after_results_simp <;> rfl

/-- Stage 4: layer 1's edge average and convolution update with residual. -/
theorem s4 : after st4 W (Proc.devRef .tc main_v134)
    = sageA (R := 100000) (Cert.Model.aggT (W (Proc.devRef .tc main_v100)) (W (Proc.devRef .tc main_v1)) (W (Proc.devRef .tc main_v3))) (W (Proc.devRef .tc main_v100)) (W (Proc.devRef .tc main_v71))
        (trOf (L := 3) (A := 128) (B := 128) (W (Proc.devRef .tc main_arg6)) 1) (rowOf (L := 3) (C := 128) (W (Proc.devRef .tc main_arg7)) 1)
        (trOf (L := 3) (A := 128) (B := 128) (W (Proc.devRef .tc main_arg8)) 1) := by
  have e := ref_sage (Cert.Model.aggT (W (Proc.devRef .tc main_v100)) (W (Proc.devRef .tc main_v1)) (W (Proc.devRef .tc main_v3))) (W (Proc.devRef .tc main_v100)) (W (Proc.devRef .tc main_v71)) (transpose S128x128 [1, 0] (shapeCast S128x128 (extractStridedSlice S1x128x128 ![1, 0, 0] (W (Proc.devRef .tc main_arg6)) slices_S3x128x128_S1x128x128_1_0_0) shapeCasts_S1x128x128_S128x128) transposes_S128x128_S128x128_1_0) (transpose S128x128 [1, 0] (shapeCast S128x128 (extractStridedSlice S1x128x128 ![1, 0, 0] (W (Proc.devRef .tc main_arg8)) slices_S3x128x128_S1x128x128_1_0_0) shapeCasts_S1x128x128_S128x128) transposes_S128x128_S128x128_1_0) (shapeCast S128 (extractStridedSlice S1x128 ![1, 0] (W (Proc.devRef .tc main_arg7)) slices_S3x128_S1x128_1_0) shapeCasts_S1x128_S128)
  have e2 : sageA (R := 100000) (Cert.Model.aggT (W (Proc.devRef .tc main_v100)) (W (Proc.devRef .tc main_v1)) (W (Proc.devRef .tc main_v3))) (W (Proc.devRef .tc main_v100)) (W (Proc.devRef .tc main_v71)) (transpose S128x128 [1, 0] (shapeCast S128x128 (extractStridedSlice S1x128x128 ![1, 0, 0] (W (Proc.devRef .tc main_arg6)) slices_S3x128x128_S1x128x128_1_0_0) shapeCasts_S1x128x128_S128x128) transposes_S128x128_S128x128_1_0) (asRow (C := 128) (shapeCast S128 (extractStridedSlice S1x128 ![1, 0] (W (Proc.devRef .tc main_arg7)) slices_S3x128_S1x128_1_0) shapeCasts_S1x128_S128)) (transpose S128x128 [1, 0] (shapeCast S128x128 (extractStridedSlice S1x128x128 ![1, 0, 0] (W (Proc.devRef .tc main_arg8)) slices_S3x128x128_S1x128x128_1_0_0) shapeCasts_S1x128x128_S128x128) transposes_S128x128_S128x128_1_0)
      = sageA (R := 100000) (Cert.Model.aggT (W (Proc.devRef .tc main_v100)) (W (Proc.devRef .tc main_v1)) (W (Proc.devRef .tc main_v3))) (W (Proc.devRef .tc main_v100)) (W (Proc.devRef .tc main_v71))
        (trOf (L := 3) (A := 128) (B := 128) (W (Proc.devRef .tc main_arg6)) 1) (rowOf (L := 3) (C := 128) (W (Proc.devRef .tc main_arg7)) 1)
        (trOf (L := 3) (A := 128) (B := 128) (W (Proc.devRef .tc main_arg8)) 1) := by
    rw [show (transpose S128x128 [1, 0] (shapeCast S128x128 (extractStridedSlice S1x128x128 ![1, 0, 0] (W (Proc.devRef .tc main_arg6)) slices_S3x128x128_S1x128x128_1_0_0) shapeCasts_S1x128x128_S128x128) transposes_S128x128_S128x128_1_0) = trOf (L := 3) (A := 128) (B := 128) (W (Proc.devRef .tc main_arg6)) 1 from mat_eq_trOf _ 1 _ _ _,
      show (transpose S128x128 [1, 0] (shapeCast S128x128 (extractStridedSlice S1x128x128 ![1, 0, 0] (W (Proc.devRef .tc main_arg8)) slices_S3x128x128_S1x128x128_1_0_0) shapeCasts_S1x128x128_S128x128) transposes_S128x128_S128x128_1_0) = trOf (L := 3) (A := 128) (B := 128) (W (Proc.devRef .tc main_arg8)) 1 from mat_eq_trOf _ 1 _ _ _,
      show asRow (C := 128) (shapeCast S128 (extractStridedSlice S1x128 ![1, 0] (W (Proc.devRef .tc main_arg7)) slices_S3x128_S1x128_1_0) shapeCasts_S1x128_S128) = rowOf (L := 3) (C := 128) (W (Proc.devRef .tc main_arg7)) 1 from vec_eq_rowOf _ 1 _ _]
  refine Eq.trans ?_ (e.trans e2)
  after_results_simp <;> rfl

/-- Stage 5: layer 2's normalisation with rectifier. -/
theorem s5 : after st5 W (Proc.devRef .tc main_v163) = Cert.Model.act 2 (W (Proc.devRef .tc main_v134)) (W (Proc.devRef .tc main_arg4)) (W (Proc.devRef .tc main_arg5)) := by
  have e := ref_ln (W (Proc.devRef .tc main_v134)) (shapeCast S128 (extractStridedSlice S1x128 ![2, 0] (W (Proc.devRef .tc main_arg4)) slices_S3x128_S1x128_2_0) shapeCasts_S1x128_S128) (shapeCast S128 (extractStridedSlice S1x128 ![2, 0] (W (Proc.devRef .tc main_arg5)) slices_S3x128_S1x128_2_0) shapeCasts_S1x128_S128)
  have e2 : lnA (R := 100000) (W (Proc.devRef .tc main_v134)) (asRow (C := 128) (shapeCast S128 (extractStridedSlice S1x128 ![2, 0] (W (Proc.devRef .tc main_arg4)) slices_S3x128_S1x128_2_0) shapeCasts_S1x128_S128)) (asRow (C := 128) (shapeCast S128 (extractStridedSlice S1x128 ![2, 0] (W (Proc.devRef .tc main_arg5)) slices_S3x128_S1x128_2_0) shapeCasts_S1x128_S128))
      = Cert.Model.act 2 (W (Proc.devRef .tc main_v134)) (W (Proc.devRef .tc main_arg4)) (W (Proc.devRef .tc main_arg5)) := by
    show _ = lnA (R := 100000) (W (Proc.devRef .tc main_v134)) (rowOf (L := 3) (C := 128) (W (Proc.devRef .tc main_arg4)) 2) (rowOf (L := 3) (C := 128) (W (Proc.devRef .tc main_arg5)) 2)
    rw [show asRow (C := 128) (shapeCast S128 (extractStridedSlice S1x128 ![2, 0] (W (Proc.devRef .tc main_arg4)) slices_S3x128_S1x128_2_0) shapeCasts_S1x128_S128) = rowOf (L := 3) (C := 128) (W (Proc.devRef .tc main_arg4)) 2 from vec_eq_rowOf _ 2 _ _,
      show asRow (C := 128) (shapeCast S128 (extractStridedSlice S1x128 ![2, 0] (W (Proc.devRef .tc main_arg5)) slices_S3x128_S1x128_2_0) shapeCasts_S1x128_S128) = rowOf (L := 3) (C := 128) (W (Proc.devRef .tc main_arg5)) 2 from vec_eq_rowOf _ 2 _ _]
  refine Eq.trans ?_ (e.trans e2)
  after_results_simp <;> rfl

/-- Stage 6: layer 2's edge average and convolution update with residual. -/
theorem s6 : after st6 W (Proc.devRef .tc main_v197)
    = sageA (R := 100000) (Cert.Model.aggT (W (Proc.devRef .tc main_v163)) (W (Proc.devRef .tc main_v1)) (W (Proc.devRef .tc main_v3))) (W (Proc.devRef .tc main_v163)) (W (Proc.devRef .tc main_v134))
        (trOf (L := 3) (A := 128) (B := 128) (W (Proc.devRef .tc main_arg6)) 2) (rowOf (L := 3) (C := 128) (W (Proc.devRef .tc main_arg7)) 2)
        (trOf (L := 3) (A := 128) (B := 128) (W (Proc.devRef .tc main_arg8)) 2) := by
  have e := ref_sage (Cert.Model.aggT (W (Proc.devRef .tc main_v163)) (W (Proc.devRef .tc main_v1)) (W (Proc.devRef .tc main_v3))) (W (Proc.devRef .tc main_v163)) (W (Proc.devRef .tc main_v134)) (transpose S128x128 [1, 0] (shapeCast S128x128 (extractStridedSlice S1x128x128 ![2, 0, 0] (W (Proc.devRef .tc main_arg6)) slices_S3x128x128_S1x128x128_2_0_0) shapeCasts_S1x128x128_S128x128) transposes_S128x128_S128x128_1_0) (transpose S128x128 [1, 0] (shapeCast S128x128 (extractStridedSlice S1x128x128 ![2, 0, 0] (W (Proc.devRef .tc main_arg8)) slices_S3x128x128_S1x128x128_2_0_0) shapeCasts_S1x128x128_S128x128) transposes_S128x128_S128x128_1_0) (shapeCast S128 (extractStridedSlice S1x128 ![2, 0] (W (Proc.devRef .tc main_arg7)) slices_S3x128_S1x128_2_0) shapeCasts_S1x128_S128)
  have e2 : sageA (R := 100000) (Cert.Model.aggT (W (Proc.devRef .tc main_v163)) (W (Proc.devRef .tc main_v1)) (W (Proc.devRef .tc main_v3))) (W (Proc.devRef .tc main_v163)) (W (Proc.devRef .tc main_v134)) (transpose S128x128 [1, 0] (shapeCast S128x128 (extractStridedSlice S1x128x128 ![2, 0, 0] (W (Proc.devRef .tc main_arg6)) slices_S3x128x128_S1x128x128_2_0_0) shapeCasts_S1x128x128_S128x128) transposes_S128x128_S128x128_1_0) (asRow (C := 128) (shapeCast S128 (extractStridedSlice S1x128 ![2, 0] (W (Proc.devRef .tc main_arg7)) slices_S3x128_S1x128_2_0) shapeCasts_S1x128_S128)) (transpose S128x128 [1, 0] (shapeCast S128x128 (extractStridedSlice S1x128x128 ![2, 0, 0] (W (Proc.devRef .tc main_arg8)) slices_S3x128x128_S1x128x128_2_0_0) shapeCasts_S1x128x128_S128x128) transposes_S128x128_S128x128_1_0)
      = sageA (R := 100000) (Cert.Model.aggT (W (Proc.devRef .tc main_v163)) (W (Proc.devRef .tc main_v1)) (W (Proc.devRef .tc main_v3))) (W (Proc.devRef .tc main_v163)) (W (Proc.devRef .tc main_v134))
        (trOf (L := 3) (A := 128) (B := 128) (W (Proc.devRef .tc main_arg6)) 2) (rowOf (L := 3) (C := 128) (W (Proc.devRef .tc main_arg7)) 2)
        (trOf (L := 3) (A := 128) (B := 128) (W (Proc.devRef .tc main_arg8)) 2) := by
    rw [show (transpose S128x128 [1, 0] (shapeCast S128x128 (extractStridedSlice S1x128x128 ![2, 0, 0] (W (Proc.devRef .tc main_arg6)) slices_S3x128x128_S1x128x128_2_0_0) shapeCasts_S1x128x128_S128x128) transposes_S128x128_S128x128_1_0) = trOf (L := 3) (A := 128) (B := 128) (W (Proc.devRef .tc main_arg6)) 2 from mat_eq_trOf _ 2 _ _ _,
      show (transpose S128x128 [1, 0] (shapeCast S128x128 (extractStridedSlice S1x128x128 ![2, 0, 0] (W (Proc.devRef .tc main_arg8)) slices_S3x128x128_S1x128x128_2_0_0) shapeCasts_S1x128x128_S128x128) transposes_S128x128_S128x128_1_0) = trOf (L := 3) (A := 128) (B := 128) (W (Proc.devRef .tc main_arg8)) 2 from mat_eq_trOf _ 2 _ _ _,
      show asRow (C := 128) (shapeCast S128 (extractStridedSlice S1x128 ![2, 0] (W (Proc.devRef .tc main_arg7)) slices_S3x128_S1x128_2_0) shapeCasts_S1x128_S128) = rowOf (L := 3) (C := 128) (W (Proc.devRef .tc main_arg7)) 2 from vec_eq_rowOf _ 2 _ _]
  refine Eq.trans ?_ (e.trans e2)
  after_results_simp <;> rfl

/-- Stage 7: the last normalisation, gain and bias straight from their argument vectors. -/
theorem s7 : after st7 W (Proc.devRef .tc main_v222) = Cert.Model.actLast (W (Proc.devRef .tc main_v197)) (W (Proc.devRef .tc main_arg9)) (W (Proc.devRef .tc main_arg10)) := by
  refine Eq.trans ?_ (ref_ln (W (Proc.devRef .tc main_v197)) (W (Proc.devRef .tc main_arg9)) (W (Proc.devRef .tc main_arg10)))
  after_results_simp <;> rfl

/-- Stage 8: the output projection. -/
theorem s8 : after st8 W (Proc.devRef .tc main_v227)
    = linA (R := 100000) (C := 64) (W (Proc.devRef .tc main_v222)) (tr2 (A := 64) (B := 128) (W (Proc.devRef .tc main_arg11))) (asRow (C := 64) (W (Proc.devRef .tc main_arg12))) := by
  have e := ref_lin64 (W (Proc.devRef .tc main_v222)) (transpose S128x64 [1, 0] (W (Proc.devRef .tc main_arg11)) transposes_S64x128_S128x64_1_0) (W (Proc.devRef .tc main_arg12))
  have e2 : linA (R := 100000) (C := 64) (W (Proc.devRef .tc main_v222)) (transpose S128x64 [1, 0] (W (Proc.devRef .tc main_arg11)) transposes_S64x128_S128x64_1_0) (asRow (C := 64) (W (Proc.devRef .tc main_arg12)))
      = linA (R := 100000) (C := 64) (W (Proc.devRef .tc main_v222)) (tr2 (A := 64) (B := 128) (W (Proc.devRef .tc main_arg11))) (asRow (C := 64) (W (Proc.devRef .tc main_arg12))) := by
    rw [show transpose S128x64 [1, 0] (W (Proc.devRef .tc main_arg11)) transposes_S64x128_S128x64_1_0 = tr2 (A := 64) (B := 128) (W (Proc.devRef .tc main_arg11))
      from Cert.HostGlue.transpose_eq_tr2 (a := 64) (b := 128) _ _]
  refine Eq.trans ?_ (e.trans e2)
  after_results <;> rfl

end Stages

/-! ## The contents after each stage, from the launch memory -/

variable (m : (ℓ : Loc nD τ sig) → Buf (Elt Ideal) ℓ) (c : Dev nD)

abbrev R1 : Valuation τ sig (Elt Ideal) := after st0 (launchContents m c)
abbrev R2 : Valuation τ sig (Elt Ideal) := after st1 (R1 m c)
abbrev R3 : Valuation τ sig (Elt Ideal) := after st2 (R2 m c)
abbrev R4 : Valuation τ sig (Elt Ideal) := after st3 (R3 m c)
abbrev R5 : Valuation τ sig (Elt Ideal) := after st4 (R4 m c)
abbrev R6 : Valuation τ sig (Elt Ideal) := after st5 (R5 m c)
abbrev R7 : Valuation τ sig (Elt Ideal) := after st6 (R6 m c)
abbrev R8 : Valuation τ sig (Elt Ideal) := after st7 (R7 m c)

/-! ### The arguments, the edge endpoints -/

theorem a4_R1 : R1 m c (Proc.devRef .tc main_arg4) = (m ((c.tc : Thread nD τ).loc main_arg4)) := (keep0_arg4 _).trans rfl
theorem a4_R2 : R2 m c (Proc.devRef .tc main_arg4) = (m ((c.tc : Thread nD τ).loc main_arg4)) := (keep1_arg4 _).trans (a4_R1 m c)
theorem a4_R3 : R3 m c (Proc.devRef .tc main_arg4) = (m ((c.tc : Thread nD τ).loc main_arg4)) := (keep2_arg4 _).trans (a4_R2 m c)
theorem a4_R4 : R4 m c (Proc.devRef .tc main_arg4) = (m ((c.tc : Thread nD τ).loc main_arg4)) := (keep3_arg4 _).trans (a4_R3 m c)
theorem a4_R5 : R5 m c (Proc.devRef .tc main_arg4) = (m ((c.tc : Thread nD τ).loc main_arg4)) := (keep4_arg4 _).trans (a4_R4 m c)
theorem a5_R1 : R1 m c (Proc.devRef .tc main_arg5) = (m ((c.tc : Thread nD τ).loc main_arg5)) := (keep0_arg5 _).trans rfl
theorem a5_R2 : R2 m c (Proc.devRef .tc main_arg5) = (m ((c.tc : Thread nD τ).loc main_arg5)) := (keep1_arg5 _).trans (a5_R1 m c)
theorem a5_R3 : R3 m c (Proc.devRef .tc main_arg5) = (m ((c.tc : Thread nD τ).loc main_arg5)) := (keep2_arg5 _).trans (a5_R2 m c)
theorem a5_R4 : R4 m c (Proc.devRef .tc main_arg5) = (m ((c.tc : Thread nD τ).loc main_arg5)) := (keep3_arg5 _).trans (a5_R3 m c)
theorem a5_R5 : R5 m c (Proc.devRef .tc main_arg5) = (m ((c.tc : Thread nD τ).loc main_arg5)) := (keep4_arg5 _).trans (a5_R4 m c)
theorem a6_R1 : R1 m c (Proc.devRef .tc main_arg6) = (m ((c.tc : Thread nD τ).loc main_arg6)) := (keep0_arg6 _).trans rfl
theorem a6_R2 : R2 m c (Proc.devRef .tc main_arg6) = (m ((c.tc : Thread nD τ).loc main_arg6)) := (keep1_arg6 _).trans (a6_R1 m c)
theorem a6_R3 : R3 m c (Proc.devRef .tc main_arg6) = (m ((c.tc : Thread nD τ).loc main_arg6)) := (keep2_arg6 _).trans (a6_R2 m c)
theorem a6_R4 : R4 m c (Proc.devRef .tc main_arg6) = (m ((c.tc : Thread nD τ).loc main_arg6)) := (keep3_arg6 _).trans (a6_R3 m c)
theorem a6_R5 : R5 m c (Proc.devRef .tc main_arg6) = (m ((c.tc : Thread nD τ).loc main_arg6)) := (keep4_arg6 _).trans (a6_R4 m c)
theorem a6_R6 : R6 m c (Proc.devRef .tc main_arg6) = (m ((c.tc : Thread nD τ).loc main_arg6)) := (keep5_arg6 _).trans (a6_R5 m c)
theorem a7_R1 : R1 m c (Proc.devRef .tc main_arg7) = (m ((c.tc : Thread nD τ).loc main_arg7)) := (keep0_arg7 _).trans rfl
theorem a7_R2 : R2 m c (Proc.devRef .tc main_arg7) = (m ((c.tc : Thread nD τ).loc main_arg7)) := (keep1_arg7 _).trans (a7_R1 m c)
theorem a7_R3 : R3 m c (Proc.devRef .tc main_arg7) = (m ((c.tc : Thread nD τ).loc main_arg7)) := (keep2_arg7 _).trans (a7_R2 m c)
theorem a7_R4 : R4 m c (Proc.devRef .tc main_arg7) = (m ((c.tc : Thread nD τ).loc main_arg7)) := (keep3_arg7 _).trans (a7_R3 m c)
theorem a7_R5 : R5 m c (Proc.devRef .tc main_arg7) = (m ((c.tc : Thread nD τ).loc main_arg7)) := (keep4_arg7 _).trans (a7_R4 m c)
theorem a7_R6 : R6 m c (Proc.devRef .tc main_arg7) = (m ((c.tc : Thread nD τ).loc main_arg7)) := (keep5_arg7 _).trans (a7_R5 m c)
theorem a8_R1 : R1 m c (Proc.devRef .tc main_arg8) = (m ((c.tc : Thread nD τ).loc main_arg8)) := (keep0_arg8 _).trans rfl
theorem a8_R2 : R2 m c (Proc.devRef .tc main_arg8) = (m ((c.tc : Thread nD τ).loc main_arg8)) := (keep1_arg8 _).trans (a8_R1 m c)
theorem a8_R3 : R3 m c (Proc.devRef .tc main_arg8) = (m ((c.tc : Thread nD τ).loc main_arg8)) := (keep2_arg8 _).trans (a8_R2 m c)
theorem a8_R4 : R4 m c (Proc.devRef .tc main_arg8) = (m ((c.tc : Thread nD τ).loc main_arg8)) := (keep3_arg8 _).trans (a8_R3 m c)
theorem a8_R5 : R5 m c (Proc.devRef .tc main_arg8) = (m ((c.tc : Thread nD τ).loc main_arg8)) := (keep4_arg8 _).trans (a8_R4 m c)
theorem a8_R6 : R6 m c (Proc.devRef .tc main_arg8) = (m ((c.tc : Thread nD τ).loc main_arg8)) := (keep5_arg8 _).trans (a8_R5 m c)
theorem a9_R1 : R1 m c (Proc.devRef .tc main_arg9) = (m ((c.tc : Thread nD τ).loc main_arg9)) := (keep0_arg9 _).trans rfl
theorem a9_R2 : R2 m c (Proc.devRef .tc main_arg9) = (m ((c.tc : Thread nD τ).loc main_arg9)) := (keep1_arg9 _).trans (a9_R1 m c)
theorem a9_R3 : R3 m c (Proc.devRef .tc main_arg9) = (m ((c.tc : Thread nD τ).loc main_arg9)) := (keep2_arg9 _).trans (a9_R2 m c)
theorem a9_R4 : R4 m c (Proc.devRef .tc main_arg9) = (m ((c.tc : Thread nD τ).loc main_arg9)) := (keep3_arg9 _).trans (a9_R3 m c)
theorem a9_R5 : R5 m c (Proc.devRef .tc main_arg9) = (m ((c.tc : Thread nD τ).loc main_arg9)) := (keep4_arg9 _).trans (a9_R4 m c)
theorem a9_R6 : R6 m c (Proc.devRef .tc main_arg9) = (m ((c.tc : Thread nD τ).loc main_arg9)) := (keep5_arg9 _).trans (a9_R5 m c)
theorem a9_R7 : R7 m c (Proc.devRef .tc main_arg9) = (m ((c.tc : Thread nD τ).loc main_arg9)) := (keep6_arg9 _).trans (a9_R6 m c)
theorem a10_R1 : R1 m c (Proc.devRef .tc main_arg10) = (m ((c.tc : Thread nD τ).loc main_arg10)) := (keep0_arg10 _).trans rfl
theorem a10_R2 : R2 m c (Proc.devRef .tc main_arg10) = (m ((c.tc : Thread nD τ).loc main_arg10)) := (keep1_arg10 _).trans (a10_R1 m c)
theorem a10_R3 : R3 m c (Proc.devRef .tc main_arg10) = (m ((c.tc : Thread nD τ).loc main_arg10)) := (keep2_arg10 _).trans (a10_R2 m c)
theorem a10_R4 : R4 m c (Proc.devRef .tc main_arg10) = (m ((c.tc : Thread nD τ).loc main_arg10)) := (keep3_arg10 _).trans (a10_R3 m c)
theorem a10_R5 : R5 m c (Proc.devRef .tc main_arg10) = (m ((c.tc : Thread nD τ).loc main_arg10)) := (keep4_arg10 _).trans (a10_R4 m c)
theorem a10_R6 : R6 m c (Proc.devRef .tc main_arg10) = (m ((c.tc : Thread nD τ).loc main_arg10)) := (keep5_arg10 _).trans (a10_R5 m c)
theorem a10_R7 : R7 m c (Proc.devRef .tc main_arg10) = (m ((c.tc : Thread nD τ).loc main_arg10)) := (keep6_arg10 _).trans (a10_R6 m c)
theorem a11_R1 : R1 m c (Proc.devRef .tc main_arg11) = (m ((c.tc : Thread nD τ).loc main_arg11)) := (keep0_arg11 _).trans rfl
theorem a11_R2 : R2 m c (Proc.devRef .tc main_arg11) = (m ((c.tc : Thread nD τ).loc main_arg11)) := (keep1_arg11 _).trans (a11_R1 m c)
theorem a11_R3 : R3 m c (Proc.devRef .tc main_arg11) = (m ((c.tc : Thread nD τ).loc main_arg11)) := (keep2_arg11 _).trans (a11_R2 m c)
theorem a11_R4 : R4 m c (Proc.devRef .tc main_arg11) = (m ((c.tc : Thread nD τ).loc main_arg11)) := (keep3_arg11 _).trans (a11_R3 m c)
theorem a11_R5 : R5 m c (Proc.devRef .tc main_arg11) = (m ((c.tc : Thread nD τ).loc main_arg11)) := (keep4_arg11 _).trans (a11_R4 m c)
theorem a11_R6 : R6 m c (Proc.devRef .tc main_arg11) = (m ((c.tc : Thread nD τ).loc main_arg11)) := (keep5_arg11 _).trans (a11_R5 m c)
theorem a11_R7 : R7 m c (Proc.devRef .tc main_arg11) = (m ((c.tc : Thread nD τ).loc main_arg11)) := (keep6_arg11 _).trans (a11_R6 m c)
theorem a11_R8 : R8 m c (Proc.devRef .tc main_arg11) = (m ((c.tc : Thread nD τ).loc main_arg11)) := (keep7_arg11 _).trans (a11_R7 m c)
theorem a12_R1 : R1 m c (Proc.devRef .tc main_arg12) = (m ((c.tc : Thread nD τ).loc main_arg12)) := (keep0_arg12 _).trans rfl
theorem a12_R2 : R2 m c (Proc.devRef .tc main_arg12) = (m ((c.tc : Thread nD τ).loc main_arg12)) := (keep1_arg12 _).trans (a12_R1 m c)
theorem a12_R3 : R3 m c (Proc.devRef .tc main_arg12) = (m ((c.tc : Thread nD τ).loc main_arg12)) := (keep2_arg12 _).trans (a12_R2 m c)
theorem a12_R4 : R4 m c (Proc.devRef .tc main_arg12) = (m ((c.tc : Thread nD τ).loc main_arg12)) := (keep3_arg12 _).trans (a12_R3 m c)
theorem a12_R5 : R5 m c (Proc.devRef .tc main_arg12) = (m ((c.tc : Thread nD τ).loc main_arg12)) := (keep4_arg12 _).trans (a12_R4 m c)
theorem a12_R6 : R6 m c (Proc.devRef .tc main_arg12) = (m ((c.tc : Thread nD τ).loc main_arg12)) := (keep5_arg12 _).trans (a12_R5 m c)
theorem a12_R7 : R7 m c (Proc.devRef .tc main_arg12) = (m ((c.tc : Thread nD τ).loc main_arg12)) := (keep6_arg12 _).trans (a12_R6 m c)
theorem a12_R8 : R8 m c (Proc.devRef .tc main_arg12) = (m ((c.tc : Thread nD τ).loc main_arg12)) := (keep7_arg12 _).trans (a12_R7 m c)

theorem src_R1 : R1 m c (Proc.devRef .tc main_v1) = Cert.Model.srcOf (m ((c.tc : Thread nD τ).loc main_arg1)) := s0_src (launchContents m c)
theorem dst_R1 : R1 m c (Proc.devRef .tc main_v3) = Cert.Model.dstOf (m ((c.tc : Thread nD τ).loc main_arg1)) := s0_dst (launchContents m c)
theorem src_R2 : R2 m c (Proc.devRef .tc main_v1) = Cert.Model.srcOf (m ((c.tc : Thread nD τ).loc main_arg1)) := (keep1_v1 _).trans (src_R1 m c)
theorem dst_R2 : R2 m c (Proc.devRef .tc main_v3) = Cert.Model.dstOf (m ((c.tc : Thread nD τ).loc main_arg1)) := (keep1_v3 _).trans (dst_R1 m c)
theorem src_R3 : R3 m c (Proc.devRef .tc main_v1) = Cert.Model.srcOf (m ((c.tc : Thread nD τ).loc main_arg1)) := (keep2_v1 _).trans (src_R2 m c)
theorem dst_R3 : R3 m c (Proc.devRef .tc main_v3) = Cert.Model.dstOf (m ((c.tc : Thread nD τ).loc main_arg1)) := (keep2_v3 _).trans (dst_R2 m c)
theorem src_R4 : R4 m c (Proc.devRef .tc main_v1) = Cert.Model.srcOf (m ((c.tc : Thread nD τ).loc main_arg1)) := (keep3_v1 _).trans (src_R3 m c)
theorem dst_R4 : R4 m c (Proc.devRef .tc main_v3) = Cert.Model.dstOf (m ((c.tc : Thread nD τ).loc main_arg1)) := (keep3_v3 _).trans (dst_R3 m c)
theorem src_R5 : R5 m c (Proc.devRef .tc main_v1) = Cert.Model.srcOf (m ((c.tc : Thread nD τ).loc main_arg1)) := (keep4_v1 _).trans (src_R4 m c)
theorem dst_R5 : R5 m c (Proc.devRef .tc main_v3) = Cert.Model.dstOf (m ((c.tc : Thread nD τ).loc main_arg1)) := (keep4_v3 _).trans (dst_R4 m c)
theorem src_R6 : R6 m c (Proc.devRef .tc main_v1) = Cert.Model.srcOf (m ((c.tc : Thread nD τ).loc main_arg1)) := (keep5_v1 _).trans (src_R5 m c)
theorem dst_R6 : R6 m c (Proc.devRef .tc main_v3) = Cert.Model.dstOf (m ((c.tc : Thread nD τ).loc main_arg1)) := (keep5_v3 _).trans (dst_R5 m c)

/-! ### The hidden states -/

theorem h0_R1 : R1 m c (Proc.devRef .tc main_v8) = (Cert.Model.hidden0 (m ((c.tc : Thread nD τ).loc main_arg0)) (m ((c.tc : Thread nD τ).loc main_arg2)) (m ((c.tc : Thread nD τ).loc main_arg3))) := s0_h (launchContents m c)

theorem h0_R2 : R2 m c (Proc.devRef .tc main_v8) = (Cert.Model.hidden0 (m ((c.tc : Thread nD τ).loc main_arg0)) (m ((c.tc : Thread nD τ).loc main_arg2)) (m ((c.tc : Thread nD τ).loc main_arg3))) := (keep1_v8 _).trans (h0_R1 m c)
theorem u1_R2 : R2 m c (Proc.devRef .tc main_v37) = (Cert.Model.act 0 (Cert.Model.hidden0 (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5))) :=
  (s1 (R1 m c)).trans (by rw [h0_R1, a4_R1, a5_R1])
theorem h1_R3 : R3 m c (Proc.devRef .tc main_v71) = (Cert.Model.layer 0 (Cert.Model.hidden0 (m ((c.tc : Thread nD τ).loc main_arg0)) (m ((c.tc : Thread nD τ).loc main_arg2)) (m ((c.tc : Thread nD τ).loc main_arg3))) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :=
  (s2 (R2 m c)).trans (by rw [u1_R2, src_R2, dst_R2, h0_R2, a6_R2, a7_R2, a8_R2]; rfl)

theorem h1_R4 : R4 m c (Proc.devRef .tc main_v71) = (Cert.Model.layer 0 (Cert.Model.hidden0 (m ((c.tc : Thread nD τ).loc main_arg0)) (m ((c.tc : Thread nD τ).loc main_arg2)) (m ((c.tc : Thread nD τ).loc main_arg3))) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := (keep3_v71 _).trans (h1_R3 m c)
theorem u2_R4 : R4 m c (Proc.devRef .tc main_v100) = (Cert.Model.act 1 (Cert.Model.layer 0 (Cert.Model.hidden0 (m ((c.tc : Thread nD τ).loc main_arg0)) (m ((c.tc : Thread nD τ).loc main_arg2)) (m ((c.tc : Thread nD τ).loc main_arg3))) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg4)) (m ((c.tc : Thread nD τ).loc main_arg5))) :=
  (s3 (R3 m c)).trans (by rw [h1_R3, a4_R3, a5_R3])
theorem h2_R5 : R5 m c (Proc.devRef .tc main_v134) = (Cert.Model.layer 1 (Cert.Model.layer 0 (Cert.Model.hidden0 (m ((c.tc : Thread nD τ).loc main_arg0)) (m ((c.tc : Thread nD τ).loc main_arg2)) (m ((c.tc : Thread nD τ).loc main_arg3))) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :=
  (s4 (R4 m c)).trans (by rw [u2_R4, src_R4, dst_R4, h1_R4, a6_R4, a7_R4, a8_R4]; rfl)

theorem h2_R6 : R6 m c (Proc.devRef .tc main_v134) = (Cert.Model.layer 1 (Cert.Model.layer 0 (Cert.Model.hidden0 (m ((c.tc : Thread nD τ).loc main_arg0)) (m ((c.tc : Thread nD τ).loc main_arg2)) (m ((c.tc : Thread nD τ).loc main_arg3))) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := (keep5_v134 _).trans (h2_R5 m c)
theorem u3_R6 : R6 m c (Proc.devRef .tc main_v163) = (Cert.Model.act 2 (Cert.Model.layer 1 (Cert.Model.layer 0 (Cert.Model.hidden0 (m ((c.tc : Thread nD τ).loc main_arg0)) (m ((c.tc : Thread nD τ).loc main_arg2)) (m ((c.tc : Thread nD τ).loc main_arg3))) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg4)) (m ((c.tc : Thread nD τ).loc main_arg5))) :=
  (s5 (R5 m c)).trans (by rw [h2_R5, a4_R5, a5_R5])
theorem h3_R7 : R7 m c (Proc.devRef .tc main_v197) = (Cert.Model.layer 2 (Cert.Model.layer 1 (Cert.Model.layer 0 (Cert.Model.hidden0 (m ((c.tc : Thread nD τ).loc main_arg0)) (m ((c.tc : Thread nD τ).loc main_arg2)) (m ((c.tc : Thread nD τ).loc main_arg3))) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :=
  (s6 (R6 m c)).trans (by rw [u3_R6, src_R6, dst_R6, h2_R6, a6_R6, a7_R6, a8_R6]; rfl)

theorem uf_R8 : R8 m c (Proc.devRef .tc main_v222) = (Cert.Model.actLast (Cert.Model.layer 2 (Cert.Model.layer 1 (Cert.Model.layer 0 (Cert.Model.hidden0 (m ((c.tc : Thread nD τ).loc main_arg0)) (m ((c.tc : Thread nD τ).loc main_arg2)) (m ((c.tc : Thread nD τ).loc main_arg3))) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg9)) (m ((c.tc : Thread nD τ).loc main_arg10))) :=
  (s7 (R7 m c)).trans (by rw [h3_R7, a9_R7, a10_R7])

/-- THE REFERENCE'S RESULT: the fold of its operations over the launch memory, at the result buffer, is the model's
    forward pass of the argument arrays as launched. -/
theorem ref_out : after ops (launchContents m c) (Proc.devRef .tc main_v227)
    = Cert.Model.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [after_ops]
  exact (s8 (R8 m c)).trans (by rw [uf_R8, a11_R8, a12_R8]; rfl)

end Cert.RefChain

end
-- ==== Proof.lean ====
/-
  The certificate of a three-layer graph-convolution forward pass: nine tiled kernels (an input projection; per layer a
  row-wise normalisation with rectifier and a convolution update with residual; a last normalisation; an output
  projection) against the same computation written with whole-array operations.

  On the extended reals both programs compute ONE function of the thirteen argument arrays, `Model.out`:
  * every kernel region leaves in its result array the whole-array function of its operand arrays — each grid point
    sees 2000 rows, every row is treated on its own, and the 50 blocks cover the array (modules Pay, Tiles, Region0–8);
  * between regions the program only re-lays parameters and averages rows over incoming edges, the latter by the very
    operations the reference uses (HostGlue); buffers nobody writes keep their contents (Carry); so the result buffer
    at the end of the run holds `Model.out` of the arguments as launched (Chain, KernelRun);
  * the reference, a straight line of whole-array operations, ends with its result buffer at the fold of those
    operations over the launch memory (RefOps, RefKeep, RefRun); read stage by stage that fold is `Model.out` of its
    arguments: a matrix product is the sum over the contracted index, a row sum the sum over the row, and dividing, the
    reciprocal square root and the maximum are the same extended-real functions in both programs (RefTerms, RefChain).
  No algebraic rearrangement is involved — the two programs add and multiply the same numbers in the same grouping —
  so the proof never needs the inputs to be finite. Nothing was rewritten by the idealisation, so `preserves` is trivial.
-/
import proofs.«131491_j37014028156991_1_alg».proof.Defs
import proofs.«131491_j37014028156991_1_alg».proof.Proof.Gen.Kernel
import proofs.«131491_j37014028156991_1_alg».proof.Proof.Gen.Kernel.Skeleton
import proofs.«131491_j37014028156991_1_alg».proof.Proof.Gen.Kernel.Launch
import proofs.«131491_j37014028156991_1_alg».proof.Proof.Gen.Kernel.Points
import proofs.«131491_j37014028156991_1_alg».proof.Proof.Gen.Kernel.Frame
import proofs.«131491_j37014028156991_1_alg».proof.Proof.Gen.KernelIdeal
import proofs.«131491_j37014028156991_1_alg».proof.Proof.Gen.KernelIdeal.Skeleton
import proofs.«131491_j37014028156991_1_alg».proof.Proof.Gen.KernelIdeal.Launch
import proofs.«131491_j37014028156991_1_alg».proof.Proof.Gen.KernelIdeal.Points
import proofs.«131491_j37014028156991_1_alg».proof.Proof.Gen.KernelIdeal.Frame
import proofs.«131491_j37014028156991_1_alg».proof.Proof.Gen.ReferenceIdeal
import proofs.«131491_j37014028156991_1_alg».proof.Proof.Gen.Pre_finite_inputs
import proofs.«131491_j37014028156991_1_alg».proof.Proof.KernelRun
import proofs.«131491_j37014028156991_1_alg».proof.Proof.Chain
import proofs.«131491_j37014028156991_1_alg».proof.Proof.RefRun
import proofs.«131491_j37014028156991_1_alg».proof.Proof.RefChain
import Idealize.ShloMosaic.Adequacy
import Idealize.ShloMosaic.Init

noncomputable section

namespace Cert.Proof

open Idealize.ShloMosaic Idealize.SL.Sem

/-- The kernel program as printed runs and leaves its arguments alone. -/
theorem frame_k : @Cert.frame_Kernel Cert.Kernel.Gen.facts Cert.Pre_finite_inputs.Gen.facts :=
  fun m ρ _ => Cert.Kernel.Gen.frame m ρ

/-- So does its idealisation. -/
theorem frame_ki : @Cert.frame_KernelIdeal Cert.KernelIdeal.Gen.facts Cert.Pre_finite_inputs.Gen.facts :=
  fun m ρ _ => Cert.KernelIdeal.Gen.frame m ρ

/-- And the reference: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.RefRun.run (F := Ideal) m ρ)

/-- Both idealised programs end with `Model.out` of the (agreeing) argument arrays in their result buffers. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Model.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono (fun r h c => ⟨(h c).1.trans (Cert.Chain.out_W18 m ρ c), (h c).2⟩)
      (Cert.KernelRun.run m ρ)
  · refine (θ_run Cert.ReferenceIdeal.defs _ _).mono (fun r h c => ⟨?_, (h c).2⟩)
      (Cert.RefRun.run (F := Ideal) m' ρ')
    obtain ⟨a0, a1, a2, a3, a4, a5, a6, a7, a8, a9, a10, a11, a12⟩ := hagree c
    rw [(h c).1, Cert.RefChain.ref_out m' c, a0, a1, a2, a3, a4, a5, a6, a7, a8, a9, a10, a11, a12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
